-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000000x64 : Shape := ⟨2, ![1000000, 64]⟩
abbrev S500000x128 : Shape := ⟨2, ![500000, 128]⟩
abbrev S16384x64 : Shape := ⟨2, ![16384, 64]⟩
abbrev S512 : Shape := ⟨1, ![512]⟩
abbrev S128x128 : Shape := ⟨2, ![128, 128]⟩
abbrev S128x64 : Shape := ⟨2, ![128, 64]⟩
abbrev S_ : Shape := ⟨0, ![]⟩
abbrev S16 : Shape := ⟨1, ![16]⟩
abbrev S128 : Shape := ⟨1, ![128]⟩
abbrev S1 : Shape := ⟨1, ![1]⟩
abbrev S1x16 : Shape := ⟨2, ![1, 16]⟩

abbrev nBuf : Table → Nat
  | .hbm => 4
  | .local .scVector .vmem => 4
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S500000x128, .f32⟩
  | .hbm, ⟨3, _⟩ => ⟨S16384x64, .f32⟩
  | .local .scVector .vmem, ⟨0, _⟩ => ⟨S512, .i32⟩
  | .local .scVector .vmem, ⟨1, _⟩ => ⟨S512, .i32⟩
  | .local .scVector .vmem, ⟨2, _⟩ => ⟨S128x128, .f32⟩
  | .local .scVector .vmem, ⟨3, _⟩ => ⟨S128x64, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off2 (k0_t1 : Fin k0_t1_loop.trips) : Fin 1 → Nat :=
  let c0_i32_5 : BitVec 32 := 0#32
  let c0_i32 : BitVec 32 := 0#32
  let c1_i32 : BitVec 32 := 1#32
  let arg10 : BitVec 32 := Scf.iv c0_i32 c1_i32 k0_t1
  let c1_i32_4 : BitVec 32 := 1#32
  let v5 : BitVec 32 := Scalar.muli arg10 c1_i32_4
  let v6 : BitVec 32 := Scalar.addi c0_i32_5 v5
  let c16_i32 : BitVec 32 := 16#32
  let v7 : BitVec 32 := Scalar.muli v6 c16_i32
  let v8 : Index := Scalar.indexCast v7
  ![v8.toNat]
@[reducible] def k0_t2_loop : Scf.Loop 32 :=
  let c0_i32_1 : BitVec 32 := 0#32
  let c4_i32 : BitVec 32 := 4#32
  let v4 : BitVec 32 := Scalar.addi c0_i32_1 c4_i32
  let c1_i32_2 : BitVec 32 := 1#32
  ⟨c0_i32_1, v4, c1_i32_2⟩
def k0_off3 (k0_t2 : Fin k0_t2_loop.trips) : Fin 1 → Nat :=
  let c0_i32_5 : BitVec 32 := 0#32
  let c0_i32_1 : BitVec 32 := 0#32
  let c1_i32_2 : BitVec 32 := 1#32
  let arg10 : BitVec 32 := Scf.iv c0_i32_1 c1_i32_2 k0_t2
  let c1_i32_4 : BitVec 32 := 1#32
  let v5 : BitVec 32 := Scalar.muli arg10 c1_i32_4
  let v6 : BitVec 32 := Scalar.addi c0_i32_5 v5
  let c128_i32 : BitVec 32 := 128#32
  let v7 : BitVec 32 := Scalar.muli v6 c128_i32
  ![v7.toNat]
def k0_off4 (k0_t2 : Fin k0_t2_loop.trips) : Fin 1 → Nat :=
  let c0_i32_5 : BitVec 32 := 0#32
  let c0_i32_1 : BitVec 32 := 0#32
  let c1_i32_2 : BitVec 32 := 1#32
  let arg10 : BitVec 32 := Scf.iv c0_i32_1 c1_i32_2 k0_t2
  let c1_i32_4 : BitVec 32 := 1#32
  let v5 : BitVec 32 := Scalar.muli arg10 c1_i32_4
  let v6 : BitVec 32 := Scalar.addi c0_i32_5 v5
  let c128_i32 : BitVec 32 := 128#32
  let v7 : BitVec 32 := Scalar.muli v6 c128_i32
  let c0_i32_10 : BitVec 32 := 0#32
  let v12 : BitVec 32 := Scalar.addi v7 c0_i32_10
  let v13 : Index := Scalar.indexCast v12
  ![v13.toNat]
def k0_off5 (v21 : BitVec 32) (c0_i32_12 : BitVec 32) : Fin 2 → Nat :=
  let c0_i32_13 : BitVec 32 := 0#32
  let v23 : Index := Scalar.indexCast c0_i32_13
  let v22 : BitVec 32 := Scalar.addi v21 c0_i32_12
  let v24 : Index := Scalar.indexCast v22
  ![0, v24.toNat]

def k0_chk1 (v21 : BitVec 32) : Prop :=
  (∀ (r : Fin 4), ∀ a, (k0_off5 v21 (BitVec.ofNat 32 (16 * r.val))) a + S1x16.size a ≤ S128x128.size a)
instance k0_chk1.dec : ∀ (v21 : BitVec 32), Decidable (k0_chk1 v21) := fun v21 => decidable_of_iff' _ (Iff.of_eq (k0_chk1.eq_1 v21))
theorem k0_off5_inb : ∀ (v21 : BitVec 32) (k0_hw1 : k0_chk1 v21), ∀ (r : Fin 4), ∀ a, (k0_off5 v21 (BitVec.ofNat 32 (16 * r.val))) a + S1x16.size a ≤ S128x128.size a := fun v21 k0_hw1 r => k0_hw1 r

def k0_off6 (v59 : BitVec 32) (c0_i32_22 : BitVec 32) : Fin 2 → Nat :=
  let c1_i32_23 : BitVec 32 := 1#32
  let v61 : Index := Scalar.indexCast c1_i32_23
  let v60 : BitVec 32 := Scalar.addi v59 c0_i32_22
  let v62 : Index := Scalar.indexCast v60
  ![1, v62.toNat]

def k0_chk2 (v59 : BitVec 32) : Prop :=
  (∀ (r : Fin 4), ∀ a, (k0_off6 v59 (BitVec.ofNat 32 (16 * r.val))) a + S1x16.size a ≤ S128x128.size a)
instance k0_chk2.dec : ∀ (v59 : BitVec 32), Decidable (k0_chk2 v59) := fun v59 => decidable_of_iff' _ (Iff.of_eq (k0_chk2.eq_1 v59))
theorem k0_off6_inb : ∀ (v59 : BitVec 32) (k0_hw2 : k0_chk2 v59), ∀ (r : Fin 4), ∀ a, (k0_off6 v59 (BitVec.ofNat 32 (16 * r.val))) a + S1x16.size a ≤ S128x128.size a := fun v59 k0_hw2 r => k0_hw2 r

def k0_off7 (v97 : BitVec 32) (c0_i32_38 : BitVec 32) : Fin 2 → Nat :=
  let c2_i32_39 : BitVec 32 := 2#32
  let v99 : Index := Scalar.indexCast c2_i32_39
  let v98 : BitVec 32 := Scalar.addi v97 c0_i32_38
  let v100 : Index := Scalar.indexCast v98
  ![2, v100.toNat]

def k0_chk3 (v97 : BitVec 32) : Prop :=
  (∀ (r : Fin 4), ∀ a, (k0_off7 v97 (BitVec.ofNat 32 (16 * r.val))) a + S1x16.size a ≤ S128x128.size a)
instance k0_chk3.dec : ∀ (v97 : BitVec 32), Decidable (k0_chk3 v97) := fun v97 => decidable_of_iff' _ (Iff.of_eq (k0_chk3.eq_1 v97))
theorem k0_off7_inb : ∀ (v97 : BitVec 32) (k0_hw3 : k0_chk3 v97), ∀ (r : Fin 4), ∀ a, (k0_off7 v97 (BitVec.ofNat 32 (16 * r.val))) a + S1x16.size a ≤ S128x128.size a := fun v97 k0_hw3 r => k0_hw3 r

def k0_off8 (v135 : BitVec 32) (c0_i32_54 : BitVec 32) : Fin 2 → Nat :=
  let c3_i32 : BitVec 32 := 3#32
  let v137 : Index := Scalar.indexCast c3_i32
  let v136 : BitVec 32 := Scalar.addi v135 c0_i32_54
  let v138 : Index := Scalar.indexCast v136
  ![3, v138.toNat]

def k0_chk4 (v135 : BitVec 32) : Prop :=
  (∀ (r : Fin 4), ∀ a, (k0_off8 v135 (BitVec.ofNat 32 (16 * r.val))) a + S1x16.size a ≤ S128x128.size a)
instance k0_chk4.dec : ∀ (v135 : BitVec 32), Decidable (k0_chk4 v135) := fun v135 => decidable_of_iff' _ (Iff.of_eq (k0_chk4.eq_1 v135))
theorem k0_off8_inb : ∀ (v135 : BitVec 32) (k0_hw4 : k0_chk4 v135), ∀ (r : Fin 4), ∀ a, (k0_off8 v135 (BitVec.ofNat 32 (16 * r.val))) a + S1x16.size a ≤ S128x128.size a := fun v135 k0_hw4 r => k0_hw4 r

def k0_off9 (v173 : BitVec 32) (c0_i32_69 : BitVec 32) : Fin 2 → Nat :=
  let c4_i32_70 : BitVec 32 := 4#32
  let v175 : Index := Scalar.indexCast c4_i32_70
  let v174 : BitVec 32 := Scalar.addi v173 c0_i32_69
  let v176 : Index := Scalar.indexCast v174
  ![4, v176.toNat]

def k0_chk5 (v173 : BitVec 32) : Prop :=
  (∀ (r : Fin 4), ∀ a, (k0_off9 v173 (BitVec.ofNat 32 (16 * r.val))) a + S1x16.size a ≤ S128x128.size a)
instance k0_chk5.dec : ∀ (v173 : BitVec 32), Decidable (k0_chk5 v173) := fun v173 => decidable_of_iff' _ (Iff.of_eq (k0_chk5.eq_1 v173))
theorem k0_off9_inb : ∀ (v173 : BitVec 32) (k0_hw5 : k0_chk5 v173), ∀ (r : Fin 4), ∀ a, (k0_off9 v173 (BitVec.ofNat 32 (16 * r.val))) a + S1x16.size a ≤ S128x128.size a := fun v173 k0_hw5 r => k0_hw5 r

def k0_off10 (v211 : BitVec 32) (c0_i32_85 : BitVec 32) : Fin 2 → Nat :=
  let c5_i32 : BitVec 32 := 5#32
  let v213 : Index := Scalar.indexCast c5_i32
  let v212 : BitVec 32 := Scalar.addi v211 c0_i32_85
  let v214 : Index := Scalar.indexCast v212
  ![5, v214.toNat]

def k0_chk6 (v211 : BitVec 32) : Prop :=
  (∀ (r : Fin 4), ∀ a, (k0_off10 v211 (BitVec.ofNat 32 (16 * r.val))) a + S1x16.size a ≤ S128x128.size a)
instance k0_chk6.dec : ∀ (v211 : BitVec 32), Decidable (k0_chk6 v211) := fun v211 => decidable_of_iff' _ (Iff.of_eq (k0_chk6.eq_1 v211))
theorem k0_off10_inb : ∀ (v211 : BitVec 32) (k0_hw6 : k0_chk6 v211), ∀ (r : Fin 4), ∀ a, (k0_off10 v211 (BitVec.ofNat 32 (16 * r.val))) a + S1x16.size a ≤ S128x128.size a := fun v211 k0_hw6 r => k0_hw6 r

def k0_off11 (v249 : BitVec 32) (c0_i32_100 : BitVec 32) : Fin 2 → Nat :=
  let c6_i32 : BitVec 32 := 6#32
  let v251 : Index := Scalar.indexCast c6_i32
  let v250 : BitVec 32 := Scalar.addi v249 c0_i32_100
  let v252 : Index := Scalar.indexCast v250
  ![6, v252.toNat]

def k0_chk7 (v249 : BitVec 32) : Prop :=
  (∀ (r : Fin 4), ∀ a, (k0_off11 v249 (BitVec.ofNat 32 (16 * r.val))) a + S1x16.size a ≤ S128x128.size a)
instance k0_chk7.dec : ∀ (v249 : BitVec 32), Decidable (k0_chk7 v249) := fun v249 => decidable_of_iff' _ (Iff.of_eq (k0_chk7.eq_1 v249))
theorem k0_off11_inb : ∀ (v249 : BitVec 32) (k0_hw7 : k0_chk7 v249), ∀ (r : Fin 4), ∀ a, (k0_off11 v249 (BitVec.ofNat 32 (16 * r.val))) a + S1x16.size a ≤ S128x128.size a := fun v249 k0_hw7 r => k0_hw7 r

def k0_off12 (v287 : BitVec 32) (c0_i32_115 : BitVec 32) : Fin 2 → Nat :=
  let c7_i32 : BitVec 32 := 7#32
  let v289 : Index := Scalar.indexCast c7_i32
  let v288 : BitVec 32 := Scalar.addi v287 c0_i32_115
  let v290 : Index := Scalar.indexCast v288
  ![7, v290.toNat]

def k0_chk8 (v287 : BitVec 32) : Prop :=
  (∀ (r : Fin 4), ∀ a, (k0_off12 v287 (BitVec.ofNat 32 (16 * r.val))) a + S1x16.size a ≤ S128x128.size a)
instance k0_chk8.dec : ∀ (v287 : BitVec 32), Decidable (k0_chk8 v287) := fun v287 => decidable_of_iff' _ (Iff.of_eq (k0_chk8.eq_1 v287))
theorem k0_off12_inb : ∀ (v287 : BitVec 32) (k0_hw8 : k0_chk8 v287), ∀ (r : Fin 4), ∀ a, (k0_off12 v287 (BitVec.ofNat 32 (16 * r.val))) a + S1x16.size a ≤ S128x128.size a := fun v287 k0_hw8 r => k0_hw8 r

def k0_off13 (v325 : BitVec 32) (c0_i32_130 : BitVec 32) : Fin 2 → Nat :=
  let c8_i32 : BitVec 32 := 8#32
  let v327 : Index := Scalar.indexCast c8_i32
  let v326 : BitVec 32 := Scalar.addi v325 c0_i32_130
  let v328 : Index := Scalar.indexCast v326
  ![8, v328.toNat]

def k0_chk9 (v325 : BitVec 32) : Prop :=
  (∀ (r : Fin 4), ∀ a, (k0_off13 v325 (BitVec.ofNat 32 (16 * r.val))) a + S1x16.size a ≤ S128x128.size a)
instance k0_chk9.dec : ∀ (v325 : BitVec 32), Decidable (k0_chk9 v325) := fun v325 => decidable_of_iff' _ (Iff.of_eq (k0_chk9.eq_1 v325))
theorem k0_off13_inb : ∀ (v325 : BitVec 32) (k0_hw9 : k0_chk9 v325), ∀ (r : Fin 4), ∀ a, (k0_off13 v325 (BitVec.ofNat 32 (16 * r.val))) a + S1x16.size a ≤ S128x128.size a := fun v325 k0_hw9 r => k0_hw9 r

def k0_off14 (v363 : BitVec 32) (c0_i32_145 : BitVec 32) : Fin 2 → Nat :=
  let c9_i32 : BitVec 32 := 9#32
  let v365 : Index := Scalar.indexCast c9_i32
  let v364 : BitVec 32 := Scalar.addi v363 c0_i32_145
  let v366 : Index := Scalar.indexCast v364
  ![9, v366.toNat]

def k0_chk10 (v363 : BitVec 32) : Prop :=
  (∀ (r : Fin 4), ∀ a, (k0_off14 v363 (BitVec.ofNat 32 (16 * r.val))) a + S1x16.size a ≤ S128x128.size a)
instance k0_chk10.dec : ∀ (v363 : BitVec 32), Decidable (k0_chk10 v363) := fun v363 => decidable_of_iff' _ (Iff.of_eq (k0_chk10.eq_1 v363))
theorem k0_off14_inb : ∀ (v363 : BitVec 32) (k0_hw10 : k0_chk10 v363), ∀ (r : Fin 4), ∀ a, (k0_off14 v363 (BitVec.ofNat 32 (16 * r.val))) a + S1x16.size a ≤ S128x128.size a := fun v363 k0_hw10 r => k0_hw10 r

def k0_off15 (v401 : BitVec 32) (c0_i32_160 : BitVec 32) : Fin 2 → Nat :=
  let c10_i32 : BitVec 32 := 10#32
  let v403 : Index := Scalar.indexCast c10_i32
  let v402 : BitVec 32 := Scalar.addi v401 c0_i32_160
  let v404 : Index := Scalar.indexCast v402
  ![10, v404.toNat]

def k0_chk11 (v401 : BitVec 32) : Prop :=
  (∀ (r : Fin 4), ∀ a, (k0_off15 v401 (BitVec.ofNat 32 (16 * r.val))) a + S1x16.size a ≤ S128x128.size a)
instance k0_chk11.dec : ∀ (v401 : BitVec 32), Decidable (k0_chk11 v401) := fun v401 => decidable_of_iff' _ (Iff.of_eq (k0_chk11.eq_1 v401))
theorem k0_off15_inb : ∀ (v401 : BitVec 32) (k0_hw11 : k0_chk11 v401), ∀ (r : Fin 4), ∀ a, (k0_off15 v401 (BitVec.ofNat 32 (16 * r.val))) a + S1x16.size a ≤ S128x128.size a := fun v401 k0_hw11 r => k0_hw11 r

def k0_off16 (v439 : BitVec 32) (c0_i32_175 : BitVec 32) : Fin 2 → Nat :=
  let c11_i32 : BitVec 32 := 11#32
  let v441 : Index := Scalar.indexCast c11_i32
  let v440 : BitVec 32 := Scalar.addi v439 c0_i32_175
  let v442 : Index := Scalar.indexCast v440
  ![11, v442.toNat]

def k0_chk12 (v439 : BitVec 32) : Prop :=
  (∀ (r : Fin 4), ∀ a, (k0_off16 v439 (BitVec.ofNat 32 (16 * r.val))) a + S1x16.size a ≤ S128x128.size a)
instance k0_chk12.dec : ∀ (v439 : BitVec 32), Decidable (k0_chk12 v439) := fun v439 => decidable_of_iff' _ (Iff.of_eq (k0_chk12.eq_1 v439))
theorem k0_off16_inb : ∀ (v439 : BitVec 32) (k0_hw12 : k0_chk12 v439), ∀ (r : Fin 4), ∀ a, (k0_off16 v439 (BitVec.ofNat 32 (16 * r.val))) a + S1x16.size a ≤ S128x128.size a := fun v439 k0_hw12 r => k0_hw12 r

def k0_off17 (v477 : BitVec 32) (c0_i32_190 : BitVec 32) : Fin 2 → Nat :=
  let c12_i32 : BitVec 32 := 12#32
  let v479 : Index := Scalar.indexCast c12_i32
  let v478 : BitVec 32 := Scalar.addi v477 c0_i32_190
  let v480 : Index := Scalar.indexCast v478
  ![12, v480.toNat]

def k0_chk13 (v477 : BitVec 32) : Prop :=
  (∀ (r : Fin 4), ∀ a, (k0_off17 v477 (BitVec.ofNat 32 (16 * r.val))) a + S1x16.size a ≤ S128x128.size a)
instance k0_chk13.dec : ∀ (v477 : BitVec 32), Decidable (k0_chk13 v477) := fun v477 => decidable_of_iff' _ (Iff.of_eq (k0_chk13.eq_1 v477))
theorem k0_off17_inb : ∀ (v477 : BitVec 32) (k0_hw13 : k0_chk13 v477), ∀ (r : Fin 4), ∀ a, (k0_off17 v477 (BitVec.ofNat 32 (16 * r.val))) a + S1x16.size a ≤ S128x128.size a := fun v477 k0_hw13 r => k0_hw13 r

def k0_off18 (v515 : BitVec 32) (c0_i32_205 : BitVec 32) : Fin 2 → Nat :=
  let c13_i32 : BitVec 32 := 13#32
  let v517 : Index := Scalar.indexCast c13_i32
  let v516 : BitVec 32 := Scalar.addi v515 c0_i32_205
  let v518 : Index := Scalar.indexCast v516
  ![13, v518.toNat]

def k0_chk14 (v515 : BitVec 32) : Prop :=
  (∀ (r : Fin 4), ∀ a, (k0_off18 v515 (BitVec.ofNat 32 (16 * r.val))) a + S1x16.size a ≤ S128x128.size a)
instance k0_chk14.dec : ∀ (v515 : BitVec 32), Decidable (k0_chk14 v515) := fun v515 => decidable_of_iff' _ (Iff.of_eq (k0_chk14.eq_1 v515))
theorem k0_off18_inb : ∀ (v515 : BitVec 32) (k0_hw14 : k0_chk14 v515), ∀ (r : Fin 4), ∀ a, (k0_off18 v515 (BitVec.ofNat 32 (16 * r.val))) a + S1x16.size a ≤ S128x128.size a := fun v515 k0_hw14 r => k0_hw14 r

def k0_off19 (v553 : BitVec 32) (c0_i32_220 : BitVec 32) : Fin 2 → Nat :=
  let c14_i32 : BitVec 32 := 14#32
  let v555 : Index := Scalar.indexCast c14_i32
  let v554 : BitVec 32 := Scalar.addi v553 c0_i32_220
  let v556 : Index := Scalar.indexCast v554
  ![14, v556.toNat]

def k0_chk15 (v553 : BitVec 32) : Prop :=
  (∀ (r : Fin 4), ∀ a, (k0_off19 v553 (BitVec.ofNat 32 (16 * r.val))) a + S1x16.size a ≤ S128x128.size a)
instance k0_chk15.dec : ∀ (v553 : BitVec 32), Decidable (k0_chk15 v553) := fun v553 => decidable_of_iff' _ (Iff.of_eq (k0_chk15.eq_1 v553))
theorem k0_off19_inb : ∀ (v553 : BitVec 32) (k0_hw15 : k0_chk15 v553), ∀ (r : Fin 4), ∀ a, (k0_off19 v553 (BitVec.ofNat 32 (16 * r.val))) a + S1x16.size a ≤ S128x128.size a := fun v553 k0_hw15 r => k0_hw15 r

def k0_off20 (v591 : BitVec 32) (c0_i32_235 : BitVec 32) : Fin 2 → Nat :=
  let c15_i32 : BitVec 32 := 15#32
  let v593 : Index := Scalar.indexCast c15_i32
  let v592 : BitVec 32 := Scalar.addi v591 c0_i32_235
  let v594 : Index := Scalar.indexCast v592
  ![15, v594.toNat]

def k0_chk16 (v591 : BitVec 32) : Prop :=
  (∀ (r : Fin 4), ∀ a, (k0_off20 v591 (BitVec.ofNat 32 (16 * r.val))) a + S1x16.size a ≤ S128x128.size a)
instance k0_chk16.dec : ∀ (v591 : BitVec 32), Decidable (k0_chk16 v591) := fun v591 => decidable_of_iff' _ (Iff.of_eq (k0_chk16.eq_1 v591))
theorem k0_off20_inb : ∀ (v591 : BitVec 32) (k0_hw16 : k0_chk16 v591), ∀ (r : Fin 4), ∀ a, (k0_off20 v591 (BitVec.ofNat 32 (16 * r.val))) a + S1x16.size a ≤ S128x128.size a := fun v591 k0_hw16 r => k0_hw16 r

def k0_off21 (k0_t2 : Fin k0_t2_loop.trips) : Fin 1 → Nat :=
  let c0_i32_5 : BitVec 32 := 0#32
  let c0_i32_1 : BitVec 32 := 0#32
  let c1_i32_2 : BitVec 32 := 1#32
  let arg10 : BitVec 32 := Scf.iv c0_i32_1 c1_i32_2 k0_t2
  let c1_i32_4 : BitVec 32 := 1#32
  let v5 : BitVec 32 := Scalar.muli arg10 c1_i32_4
  let v6 : BitVec 32 := Scalar.addi c0_i32_5 v5
  let c128_i32 : BitVec 32 := 128#32
  let v7 : BitVec 32 := Scalar.muli v6 c128_i32
  let c16_i32_250 : BitVec 32 := 16#32
  let v628 : BitVec 32 := Scalar.addi v7 c16_i32_250
  let v629 : Index := Scalar.indexCast v628
  ![v629.toNat]
def k0_off22 (v637 : BitVec 32) (c0_i32_253 : BitVec 32) : Fin 2 → Nat :=
  let c16_i32_254 : BitVec 32 := 16#32
  let v639 : Index := Scalar.indexCast c16_i32_254
  let v638 : BitVec 32 := Scalar.addi v637 c0_i32_253
  let v640 : Index := Scalar.indexCast v638
  ![16, v640.toNat]

def k0_chk17 (v637 : BitVec 32) : Prop :=
  (∀ (r : Fin 4), ∀ a, (k0_off22 v637 (BitVec.ofNat 32 (16 * r.val))) a + S1x16.size a ≤ S128x128.size a)
instance k0_chk17.dec : ∀ (v637 : BitVec 32), Decidable (k0_chk17 v637) := fun v637 => decidable_of_iff' _ (Iff.of_eq (k0_chk17.eq_1 v637))
theorem k0_off22_inb : ∀ (v637 : BitVec 32) (k0_hw17 : k0_chk17 v637), ∀ (r : Fin 4), ∀ a, (k0_off22 v637 (BitVec.ofNat 32 (16 * r.val))) a + S1x16.size a ≤ S128x128.size a := fun v637 k0_hw17 r => k0_hw17 r

def k0_off23 (v675 : BitVec 32) (c0_i32_269 : BitVec 32) : Fin 2 → Nat :=
  let c17_i32 : BitVec 32 := 17#32
  let v677 : Index := Scalar.indexCast c17_i32
  let v676 : BitVec 32 := Scalar.addi v675 c0_i32_269
  let v678 : Index := Scalar.indexCast v676
  ![17, v678.toNat]

def k0_chk18 (v675 : BitVec 32) : Prop :=
  (∀ (r : Fin 4), ∀ a, (k0_off23 v675 (BitVec.ofNat 32 (16 * r.val))) a + S1x16.size a ≤ S128x128.size a)
instance k0_chk18.dec : ∀ (v675 : BitVec 32), Decidable (k0_chk18 v675) := fun v675 => decidable_of_iff' _ (Iff.of_eq (k0_chk18.eq_1 v675))
theorem k0_off23_inb : ∀ (v675 : BitVec 32) (k0_hw18 : k0_chk18 v675), ∀ (r : Fin 4), ∀ a, (k0_off23 v675 (BitVec.ofNat 32 (16 * r.val))) a + S1x16.size a ≤ S128x128.size a := fun v675 k0_hw18 r => k0_hw18 r

def k0_off24 (v713 : BitVec 32) (c0_i32_284 : BitVec 32) : Fin 2 → Nat :=
  let c18_i32 : BitVec 32 := 18#32
  let v715 : Index := Scalar.indexCast c18_i32
  let v714 : BitVec 32 := Scalar.addi v713 c0_i32_284
  let v716 : Index := Scalar.indexCast v714
  ![18, v716.toNat]

def k0_chk19 (v713 : BitVec 32) : Prop :=
  (∀ (r : Fin 4), ∀ a, (k0_off24 v713 (BitVec.ofNat 32 (16 * r.val))) a + S1x16.size a ≤ S128x128.size a)
instance k0_chk19.dec : ∀ (v713 : BitVec 32), Decidable (k0_chk19 v713) := fun v713 => decidable_of_iff' _ (Iff.of_eq (k0_chk19.eq_1 v713))
theorem k0_off24_inb : ∀ (v713 : BitVec 32) (k0_hw19 : k0_chk19 v713), ∀ (r : Fin 4), ∀ a, (k0_off24 v713 (BitVec.ofNat 32 (16 * r.val))) a + S1x16.size a ≤ S128x128.size a := fun v713 k0_hw19 r => k0_hw19 r

def k0_off25 (v751 : BitVec 32) (c0_i32_299 : BitVec 32) : Fin 2 → Nat :=
  let c19_i32 : BitVec 32 := 19#32
  let v753 : Index := Scalar.indexCast c19_i32
  let v752 : BitVec 32 := Scalar.addi v751 c0_i32_299
  let v754 : Index := Scalar.indexCast v752
  ![19, v754.toNat]

def k0_chk20 (v751 : BitVec 32) : Prop :=
  (∀ (r : Fin 4), ∀ a, (k0_off25 v751 (BitVec.ofNat 32 (16 * r.val))) a + S1x16.size a ≤ S128x128.size a)
instance k0_chk20.dec : ∀ (v751 : BitVec 32), Decidable (k0_chk20 v751) := fun v751 => decidable_of_iff' _ (Iff.of_eq (k0_chk20.eq_1 v751))
theorem k0_off25_inb : ∀ (v751 : BitVec 32) (k0_hw20 : k0_chk20 v751), ∀ (r : Fin 4), ∀ a, (k0_off25 v751 (BitVec.ofNat 32 (16 * r.val))) a + S1x16.size a ≤ S128x128.size a := fun v751 k0_hw20 r => k0_hw20 r

def k0_off26 (v789 : BitVec 32) (c0_i32_314 : BitVec 32) : Fin 2 → Nat :=
  let c20_i32 : BitVec 32 := 20#32
  let v791 : Index := Scalar.indexCast c20_i32
  let v790 : BitVec 32 := Scalar.addi v789 c0_i32_314
  let v792 : Index := Scalar.indexCast v790
  ![20, v792.toNat]

def k0_chk21 (v789 : BitVec 32) : Prop :=
  (∀ (r : Fin 4), ∀ a, (k0_off26 v789 (BitVec.ofNat 32 (16 * r.val))) a + S1x16.size a ≤ S128x128.size a)
instance k0_chk21.dec : ∀ (v789 : BitVec 32), Decidable (k0_chk21 v789) := fun v789 => decidable_of_iff' _ (Iff.of_eq (k0_chk21.eq_1 v789))
theorem k0_off26_inb : ∀ (v789 : BitVec 32) (k0_hw21 : k0_chk21 v789), ∀ (r : Fin 4), ∀ a, (k0_off26 v789 (BitVec.ofNat 32 (16 * r.val))) a + S1x16.size a ≤ S128x128.size a := fun v789 k0_hw21 r => k0_hw21 r

def k0_off27 (v827 : BitVec 32) (c0_i32_329 : BitVec 32) : Fin 2 → Nat :=
  let c21_i32 : BitVec 32 := 21#32
  let v829 : Index := Scalar.indexCast c21_i32
  let v828 : BitVec 32 := Scalar.addi v827 c0_i32_329
  let v830 : Index := Scalar.indexCast v828
  ![21, v830.toNat]

def k0_chk22 (v827 : BitVec 32) : Prop :=
  (∀ (r : Fin 4), ∀ a, (k0_off27 v827 (BitVec.ofNat 32 (16 * r.val))) a + S1x16.size a ≤ S128x128.size a)
instance k0_chk22.dec : ∀ (v827 : BitVec 32), Decidable (k0_chk22 v827) := fun v827 => decidable_of_iff' _ (Iff.of_eq (k0_chk22.eq_1 v827))
theorem k0_off27_inb : ∀ (v827 : BitVec 32) (k0_hw22 : k0_chk22 v827), ∀ (r : Fin 4), ∀ a, (k0_off27 v827 (BitVec.ofNat 32 (16 * r.val))) a + S1x16.size a ≤ S128x128.size a := fun v827 k0_hw22 r => k0_hw22 r

def k0_off28 (v865 : BitVec 32) (c0_i32_344 : BitVec 32) : Fin 2 → Nat :=
  let c22_i32 : BitVec 32 := 22#32
  let v867 : Index := Scalar.indexCast c22_i32
  let v866 : BitVec 32 := Scalar.addi v865 c0_i32_344
  let v868 : Index := Scalar.indexCast v866
  ![22, v868.toNat]

def k0_chk23 (v865 : BitVec 32) : Prop :=
  (∀ (r : Fin 4), ∀ a, (k0_off28 v865 (BitVec.ofNat 32 (16 * r.val))) a + S1x16.size a ≤ S128x128.size a)
instance k0_chk23.dec : ∀ (v865 : BitVec 32), Decidable (k0_chk23 v865) := fun v865 => decidable_of_iff' _ (Iff.of_eq (k0_chk23.eq_1 v865))
theorem k0_off28_inb : ∀ (v865 : BitVec 32) (k0_hw23 : k0_chk23 v865), ∀ (r : Fin 4), ∀ a, (k0_off28 v865 (BitVec.ofNat 32 (16 * r.val))) a + S1x16.size a ≤ S128x128.size a := fun v865 k0_hw23 r => k0_hw23 r

def k0_off29 (v903 : BitVec 32) (c0_i32_359 : BitVec 32) : Fin 2 → Nat :=
  let c23_i32 : BitVec 32 := 23#32
  let v905 : Index := Scalar.indexCast c23_i32
  let v904 : BitVec 32 := Scalar.addi v903 c0_i32_359
  let v906 : Index := Scalar.indexCast v904
  ![23, v906.toNat]

def k0_chk24 (v903 : BitVec 32) : Prop :=
  (∀ (r : Fin 4), ∀ a, (k0_off29 v903 (BitVec.ofNat 32 (16 * r.val))) a + S1x16.size a ≤ S128x128.size a)
instance k0_chk24.dec : ∀ (v903 : BitVec 32), Decidable (k0_chk24 v903) := fun v903 => decidable_of_iff' _ (Iff.of_eq (k0_chk24.eq_1 v903))
theorem k0_off29_inb : ∀ (v903 : BitVec 32) (k0_hw24 : k0_chk24 v903), ∀ (r : Fin 4), ∀ a, (k0_off29 v903 (BitVec.ofNat 32 (16 * r.val))) a + S1x16.size a ≤ S128x128.size a := fun v903 k0_hw24 r => k0_hw24 r

def k0_off30 (v941 : BitVec 32) (c0_i32_374 : BitVec 32) : Fin 2 → Nat :=
  let c24_i32 : BitVec 32 := 24#32
  let v943 : Index := Scalar.indexCast c24_i32
  let v942 : BitVec 32 := Scalar.addi v941 c0_i32_374
  let v944 : Index := Scalar.indexCast v942
  ![24, v944.toNat]

def k0_chk25 (v941 : BitVec 32) : Prop :=
  (∀ (r : Fin 4), ∀ a, (k0_off30 v941 (BitVec.ofNat 32 (16 * r.val))) a + S1x16.size a ≤ S128x128.size a)
instance k0_chk25.dec : ∀ (v941 : BitVec 32), Decidable (k0_chk25 v941) := fun v941 => decidable_of_iff' _ (Iff.of_eq (k0_chk25.eq_1 v941))
theorem k0_off30_inb : ∀ (v941 : BitVec 32) (k0_hw25 : k0_chk25 v941), ∀ (r : Fin 4), ∀ a, (k0_off30 v941 (BitVec.ofNat 32 (16 * r.val))) a + S1x16.size a ≤ S128x128.size a := fun v941 k0_hw25 r => k0_hw25 r

def k0_off31 (v979 : BitVec 32) (c0_i32_389 : BitVec 32) : Fin 2 → Nat :=
  let c25_i32 : BitVec 32 := 25#32
  let v981 : Index := Scalar.indexCast c25_i32
  let v980 : BitVec 32 := Scalar.addi v979 c0_i32_389
  let v982 : Index := Scalar.indexCast v980
  ![25, v982.toNat]

def k0_chk26 (v979 : BitVec 32) : Prop :=
  (∀ (r : Fin 4), ∀ a, (k0_off31 v979 (BitVec.ofNat 32 (16 * r.val))) a + S1x16.size a ≤ S128x128.size a)
instance k0_chk26.dec : ∀ (v979 : BitVec 32), Decidable (k0_chk26 v979) := fun v979 => decidable_of_iff' _ (Iff.of_eq (k0_chk26.eq_1 v979))
theorem k0_off31_inb : ∀ (v979 : BitVec 32) (k0_hw26 : k0_chk26 v979), ∀ (r : Fin 4), ∀ a, (k0_off31 v979 (BitVec.ofNat 32 (16 * r.val))) a + S1x16.size a ≤ S128x128.size a := fun v979 k0_hw26 r => k0_hw26 r

def k0_off32 (v1017 : BitVec 32) (c0_i32_404 : BitVec 32) : Fin 2 → Nat :=
  let c26_i32 : BitVec 32 := 26#32
  let v1019 : Index := Scalar.indexCast c26_i32
  let v1018 : BitVec 32 := Scalar.addi v1017 c0_i32_404
  let v1020 : Index := Scalar.indexCast v1018
  ![26, v1020.toNat]

def k0_chk27 (v1017 : BitVec 32) : Prop :=
  (∀ (r : Fin 4), ∀ a, (k0_off32 v1017 (BitVec.ofNat 32 (16 * r.val))) a + S1x16.size a ≤ S128x128.size a)
instance k0_chk27.dec : ∀ (v1017 : BitVec 32), Decidable (k0_chk27 v1017) := fun v1017 => decidable_of_iff' _ (Iff.of_eq (k0_chk27.eq_1 v1017))
theorem k0_off32_inb : ∀ (v1017 : BitVec 32) (k0_hw27 : k0_chk27 v1017), ∀ (r : Fin 4), ∀ a, (k0_off32 v1017 (BitVec.ofNat 32 (16 * r.val))) a + S1x16.size a ≤ S128x128.size a := fun v1017 k0_hw27 r => k0_hw27 r

def k0_off33 (v1055 : BitVec 32) (c0_i32_419 : BitVec 32) : Fin 2 → Nat :=
  let c27_i32 : BitVec 32 := 27#32
  let v1057 : Index := Scalar.indexCast c27_i32
  let v1056 : BitVec 32 := Scalar.addi v1055 c0_i32_419
  let v1058 : Index := Scalar.indexCast v1056
  ![27, v1058.toNat]

def k0_chk28 (v1055 : BitVec 32) : Prop :=
  (∀ (r : Fin 4), ∀ a, (k0_off33 v1055 (BitVec.ofNat 32 (16 * r.val))) a + S1x16.size a ≤ S128x128.size a)
instance k0_chk28.dec : ∀ (v1055 : BitVec 32), Decidable (k0_chk28 v1055) := fun v1055 => decidable_of_iff' _ (Iff.of_eq (k0_chk28.eq_1 v1055))
theorem k0_off33_inb : ∀ (v1055 : BitVec 32) (k0_hw28 : k0_chk28 v1055), ∀ (r : Fin 4), ∀ a, (k0_off33 v1055 (BitVec.ofNat 32 (16 * r.val))) a + S1x16.size a ≤ S128x128.size a := fun v1055 k0_hw28 r => k0_hw28 r

def k0_off34 (v1093 : BitVec 32) (c0_i32_434 : BitVec 32) : Fin 2 → Nat :=
  let c28_i32 : BitVec 32 := 28#32
  let v1095 : Index := Scalar.indexCast c28_i32
  let v1094 : BitVec 32 := Scalar.addi v1093 c0_i32_434
  let v1096 : Index := Scalar.indexCast v1094
  ![28, v1096.toNat]

def k0_chk29 (v1093 : BitVec 32) : Prop :=
  (∀ (r : Fin 4), ∀ a, (k0_off34 v1093 (BitVec.ofNat 32 (16 * r.val))) a + S1x16.size a ≤ S128x128.size a)
instance k0_chk29.dec : ∀ (v1093 : BitVec 32), Decidable (k0_chk29 v1093) := fun v1093 => decidable_of_iff' _ (Iff.of_eq (k0_chk29.eq_1 v1093))
theorem k0_off34_inb : ∀ (v1093 : BitVec 32) (k0_hw29 : k0_chk29 v1093), ∀ (r : Fin 4), ∀ a, (k0_off34 v1093 (BitVec.ofNat 32 (16 * r.val))) a + S1x16.size a ≤ S128x128.size a := fun v1093 k0_hw29 r => k0_hw29 r

def k0_off35 (v1131 : BitVec 32) (c0_i32_449 : BitVec 32) : Fin 2 → Nat :=
  let c29_i32 : BitVec 32 := 29#32
  let v1133 : Index := Scalar.indexCast c29_i32
  let v1132 : BitVec 32 := Scalar.addi v1131 c0_i32_449
  let v1134 : Index := Scalar.indexCast v1132
  ![29, v1134.toNat]

def k0_chk30 (v1131 : BitVec 32) : Prop :=
  (∀ (r : Fin 4), ∀ a, (k0_off35 v1131 (BitVec.ofNat 32 (16 * r.val))) a + S1x16.size a ≤ S128x128.size a)
instance k0_chk30.dec : ∀ (v1131 : BitVec 32), Decidable (k0_chk30 v1131) := fun v1131 => decidable_of_iff' _ (Iff.of_eq (k0_chk30.eq_1 v1131))
theorem k0_off35_inb : ∀ (v1131 : BitVec 32) (k0_hw30 : k0_chk30 v1131), ∀ (r : Fin 4), ∀ a, (k0_off35 v1131 (BitVec.ofNat 32 (16 * r.val))) a + S1x16.size a ≤ S128x128.size a := fun v1131 k0_hw30 r => k0_hw30 r

def k0_off36 (v1169 : BitVec 32) (c0_i32_464 : BitVec 32) : Fin 2 → Nat :=
  let c30_i32 : BitVec 32 := 30#32
  let v1171 : Index := Scalar.indexCast c30_i32
  let v1170 : BitVec 32 := Scalar.addi v1169 c0_i32_464
  let v1172 : Index := Scalar.indexCast v1170
  ![30, v1172.toNat]

def k0_chk31 (v1169 : BitVec 32) : Prop :=
  (∀ (r : Fin 4), ∀ a, (k0_off36 v1169 (BitVec.ofNat 32 (16 * r.val))) a + S1x16.size a ≤ S128x128.size a)
instance k0_chk31.dec : ∀ (v1169 : BitVec 32), Decidable (k0_chk31 v1169) := fun v1169 => decidable_of_iff' _ (Iff.of_eq (k0_chk31.eq_1 v1169))
theorem k0_off36_inb : ∀ (v1169 : BitVec 32) (k0_hw31 : k0_chk31 v1169), ∀ (r : Fin 4), ∀ a, (k0_off36 v1169 (BitVec.ofNat 32 (16 * r.val))) a + S1x16.size a ≤ S128x128.size a := fun v1169 k0_hw31 r => k0_hw31 r

def k0_off37 (v1207 : BitVec 32) (c0_i32_479 : BitVec 32) : Fin 2 → Nat :=
  let c31_i32 : BitVec 32 := 31#32
  let v1209 : Index := Scalar.indexCast c31_i32
  let v1208 : BitVec 32 := Scalar.addi v1207 c0_i32_479
  let v1210 : Index := Scalar.indexCast v1208
  ![31, v1210.toNat]

def k0_chk32 (v1207 : BitVec 32) : Prop :=
  (∀ (r : Fin 4), ∀ a, (k0_off37 v1207 (BitVec.ofNat 32 (16 * r.val))) a + S1x16.size a ≤ S128x128.size a)
instance k0_chk32.dec : ∀ (v1207 : BitVec 32), Decidable (k0_chk32 v1207) := fun v1207 => decidable_of_iff' _ (Iff.of_eq (k0_chk32.eq_1 v1207))
theorem k0_off37_inb : ∀ (v1207 : BitVec 32) (k0_hw32 : k0_chk32 v1207), ∀ (r : Fin 4), ∀ a, (k0_off37 v1207 (BitVec.ofNat 32 (16 * r.val))) a + S1x16.size a ≤ S128x128.size a := fun v1207 k0_hw32 r => k0_hw32 r

def k0_off38 (k0_t2 : Fin k0_t2_loop.trips) : Fin 1 → Nat :=
  let c0_i32_5 : BitVec 32 := 0#32
  let c0_i32_1 : BitVec 32 := 0#32
  let c1_i32_2 : BitVec 32 := 1#32
  let arg10 : BitVec 32 := Scf.iv c0_i32_1 c1_i32_2 k0_t2
  let c1_i32_4 : BitVec 32 := 1#32
  let v5 : BitVec 32 := Scalar.muli arg10 c1_i32_4
  let v6 : BitVec 32 := Scalar.addi c0_i32_5 v5
  let c128_i32 : BitVec 32 := 128#32
  let v7 : BitVec 32 := Scalar.muli v6 c128_i32
  let c32_i32_494 : BitVec 32 := 32#32
  let v1244 : BitVec 32 := Scalar.addi v7 c32_i32_494
  let v1245 : Index := Scalar.indexCast v1244
  ![v1245.toNat]
def k0_off39 (v1253 : BitVec 32) (c0_i32_497 : BitVec 32) : Fin 2 → Nat :=
  let c32_i32_498 : BitVec 32 := 32#32
  let v1255 : Index := Scalar.indexCast c32_i32_498
  let v1254 : BitVec 32 := Scalar.addi v1253 c0_i32_497
  let v1256 : Index := Scalar.indexCast v1254
  ![32, v1256.toNat]

def k0_chk33 (v1253 : BitVec 32) : Prop :=
  (∀ (r : Fin 4), ∀ a, (k0_off39 v1253 (BitVec.ofNat 32 (16 * r.val))) a + S1x16.size a ≤ S128x128.size a)
instance k0_chk33.dec : ∀ (v1253 : BitVec 32), Decidable (k0_chk33 v1253) := fun v1253 => decidable_of_iff' _ (Iff.of_eq (k0_chk33.eq_1 v1253))
theorem k0_off39_inb : ∀ (v1253 : BitVec 32) (k0_hw33 : k0_chk33 v1253), ∀ (r : Fin 4), ∀ a, (k0_off39 v1253 (BitVec.ofNat 32 (16 * r.val))) a + S1x16.size a ≤ S128x128.size a := fun v1253 k0_hw33 r => k0_hw33 r

def k0_off40 (v1291 : BitVec 32) (c0_i32_513 : BitVec 32) : Fin 2 → Nat :=
  let c33_i32 : BitVec 32 := 33#32
  let v1293 : Index := Scalar.indexCast c33_i32
  let v1292 : BitVec 32 := Scalar.addi v1291 c0_i32_513
  let v1294 : Index := Scalar.indexCast v1292
  ![33, v1294.toNat]

def k0_chk34 (v1291 : BitVec 32) : Prop :=
  (∀ (r : Fin 4), ∀ a, (k0_off40 v1291 (BitVec.ofNat 32 (16 * r.val))) a + S1x16.size a ≤ S128x128.size a)
instance k0_chk34.dec : ∀ (v1291 : BitVec 32), Decidable (k0_chk34 v1291) := fun v1291 => decidable_of_iff' _ (Iff.of_eq (k0_chk34.eq_1 v1291))
theorem k0_off40_inb : ∀ (v1291 : BitVec 32) (k0_hw34 : k0_chk34 v1291), ∀ (r : Fin 4), ∀ a, (k0_off40 v1291 (BitVec.ofNat 32 (16 * r.val))) a + S1x16.size a ≤ S128x128.size a := fun v1291 k0_hw34 r => k0_hw34 r

def k0_off41 (v1329 : BitVec 32) (c0_i32_528 : BitVec 32) : Fin 2 → Nat :=
  let c34_i32 : BitVec 32 := 34#32
  let v1331 : Index := Scalar.indexCast c34_i32
  let v1330 : BitVec 32 := Scalar.addi v1329 c0_i32_528
  let v1332 : Index := Scalar.indexCast v1330
  ![34, v1332.toNat]

def k0_chk35 (v1329 : BitVec 32) : Prop :=
  (∀ (r : Fin 4), ∀ a, (k0_off41 v1329 (BitVec.ofNat 32 (16 * r.val))) a + S1x16.size a ≤ S128x128.size a)
instance k0_chk35.dec : ∀ (v1329 : BitVec 32), Decidable (k0_chk35 v1329) := fun v1329 => decidable_of_iff' _ (Iff.of_eq (k0_chk35.eq_1 v1329))
theorem k0_off41_inb : ∀ (v1329 : BitVec 32) (k0_hw35 : k0_chk35 v1329), ∀ (r : Fin 4), ∀ a, (k0_off41 v1329 (BitVec.ofNat 32 (16 * r.val))) a + S1x16.size a ≤ S128x128.size a := fun v1329 k0_hw35 r => k0_hw35 r

def k0_off42 (v1367 : BitVec 32) (c0_i32_543 : BitVec 32) : Fin 2 → Nat :=
  let c35_i32 : BitVec 32 := 35#32
  let v1369 : Index := Scalar.indexCast c35_i32
  let v1368 : BitVec 32 := Scalar.addi v1367 c0_i32_543
  let v1370 : Index := Scalar.indexCast v1368
  ![35, v1370.toNat]

def k0_chk36 (v1367 : BitVec 32) : Prop :=
  (∀ (r : Fin 4), ∀ a, (k0_off42 v1367 (BitVec.ofNat 32 (16 * r.val))) a + S1x16.size a ≤ S128x128.size a)
instance k0_chk36.dec : ∀ (v1367 : BitVec 32), Decidable (k0_chk36 v1367) := fun v1367 => decidable_of_iff' _ (Iff.of_eq (k0_chk36.eq_1 v1367))
theorem k0_off42_inb : ∀ (v1367 : BitVec 32) (k0_hw36 : k0_chk36 v1367), ∀ (r : Fin 4), ∀ a, (k0_off42 v1367 (BitVec.ofNat 32 (16 * r.val))) a + S1x16.size a ≤ S128x128.size a := fun v1367 k0_hw36 r => k0_hw36 r

def k0_off43 (v1405 : BitVec 32) (c0_i32_558 : BitVec 32) : Fin 2 → Nat :=
  let c36_i32 : BitVec 32 := 36#32
  let v1407 : Index := Scalar.indexCast c36_i32
  let v1406 : BitVec 32 := Scalar.addi v1405 c0_i32_558
  let v1408 : Index := Scalar.indexCast v1406
  ![36, v1408.toNat]

def k0_chk37 (v1405 : BitVec 32) : Prop :=
  (∀ (r : Fin 4), ∀ a, (k0_off43 v1405 (BitVec.ofNat 32 (16 * r.val))) a + S1x16.size a ≤ S128x128.size a)
instance k0_chk37.dec : ∀ (v1405 : BitVec 32), Decidable (k0_chk37 v1405) := fun v1405 => decidable_of_iff' _ (Iff.of_eq (k0_chk37.eq_1 v1405))
theorem k0_off43_inb : ∀ (v1405 : BitVec 32) (k0_hw37 : k0_chk37 v1405), ∀ (r : Fin 4), ∀ a, (k0_off43 v1405 (BitVec.ofNat 32 (16 * r.val))) a + S1x16.size a ≤ S128x128.size a := fun v1405 k0_hw37 r => k0_hw37 r

def k0_off44 (v1443 : BitVec 32) (c0_i32_573 : BitVec 32) : Fin 2 → Nat :=
  let c37_i32 : BitVec 32 := 37#32
  let v1445 : Index := Scalar.indexCast c37_i32
  let v1444 : BitVec 32 := Scalar.addi v1443 c0_i32_573
  let v1446 : Index := Scalar.indexCast v1444
  ![37, v1446.toNat]

def k0_chk38 (v1443 : BitVec 32) : Prop :=
  (∀ (r : Fin 4), ∀ a, (k0_off44 v1443 (BitVec.ofNat 32 (16 * r.val))) a + S1x16.size a ≤ S128x128.size a)
instance k0_chk38.dec : ∀ (v1443 : BitVec 32), Decidable (k0_chk38 v1443) := fun v1443 => decidable_of_iff' _ (Iff.of_eq (k0_chk38.eq_1 v1443))
theorem k0_off44_inb : ∀ (v1443 : BitVec 32) (k0_hw38 : k0_chk38 v1443), ∀ (r : Fin 4), ∀ a, (k0_off44 v1443 (BitVec.ofNat 32 (16 * r.val))) a + S1x16.size a ≤ S128x128.size a := fun v1443 k0_hw38 r => k0_hw38 r

def k0_off45 (v1481 : BitVec 32) (c0_i32_588 : BitVec 32) : Fin 2 → Nat :=
  let c38_i32 : BitVec 32 := 38#32
  let v1483 : Index := Scalar.indexCast c38_i32
  let v1482 : BitVec 32 := Scalar.addi v1481 c0_i32_588
  let v1484 : Index := Scalar.indexCast v1482
  ![38, v1484.toNat]

def k0_chk39 (v1481 : BitVec 32) : Prop :=
  (∀ (r : Fin 4), ∀ a, (k0_off45 v1481 (BitVec.ofNat 32 (16 * r.val))) a + S1x16.size a ≤ S128x128.size a)
instance k0_chk39.dec : ∀ (v1481 : BitVec 32), Decidable (k0_chk39 v1481) := fun v1481 => decidable_of_iff' _ (Iff.of_eq (k0_chk39.eq_1 v1481))
theorem k0_off45_inb : ∀ (v1481 : BitVec 32) (k0_hw39 : k0_chk39 v1481), ∀ (r : Fin 4), ∀ a, (k0_off45 v1481 (BitVec.ofNat 32 (16 * r.val))) a + S1x16.size a ≤ S128x128.size a := fun v1481 k0_hw39 r => k0_hw39 r

def k0_off46 (v1519 : BitVec 32) (c0_i32_603 : BitVec 32) : Fin 2 → Nat :=
  let c39_i32 : BitVec 32 := 39#32
  let v1521 : Index := Scalar.indexCast c39_i32
  let v1520 : BitVec 32 := Scalar.addi v1519 c0_i32_603
  let v1522 : Index := Scalar.indexCast v1520
  ![39, v1522.toNat]

def k0_chk40 (v1519 : BitVec 32) : Prop :=
  (∀ (r : Fin 4), ∀ a, (k0_off46 v1519 (BitVec.ofNat 32 (16 * r.val))) a + S1x16.size a ≤ S128x128.size a)
instance k0_chk40.dec : ∀ (v1519 : BitVec 32), Decidable (k0_chk40 v1519) := fun v1519 => decidable_of_iff' _ (Iff.of_eq (k0_chk40.eq_1 v1519))
theorem k0_off46_inb : ∀ (v1519 : BitVec 32) (k0_hw40 : k0_chk40 v1519), ∀ (r : Fin 4), ∀ a, (k0_off46 v1519 (BitVec.ofNat 32 (16 * r.val))) a + S1x16.size a ≤ S128x128.size a := fun v1519 k0_hw40 r => k0_hw40 r

def k0_off47 (v1557 : BitVec 32) (c0_i32_618 : BitVec 32) : Fin 2 → Nat :=
  let c40_i32 : BitVec 32 := 40#32
  let v1559 : Index := Scalar.indexCast c40_i32
  let v1558 : BitVec 32 := Scalar.addi v1557 c0_i32_618
  let v1560 : Index := Scalar.indexCast v1558
  ![40, v1560.toNat]

def k0_chk41 (v1557 : BitVec 32) : Prop :=
  (∀ (r : Fin 4), ∀ a, (k0_off47 v1557 (BitVec.ofNat 32 (16 * r.val))) a + S1x16.size a ≤ S128x128.size a)
instance k0_chk41.dec : ∀ (v1557 : BitVec 32), Decidable (k0_chk41 v1557) := fun v1557 => decidable_of_iff' _ (Iff.of_eq (k0_chk41.eq_1 v1557))
theorem k0_off47_inb : ∀ (v1557 : BitVec 32) (k0_hw41 : k0_chk41 v1557), ∀ (r : Fin 4), ∀ a, (k0_off47 v1557 (BitVec.ofNat 32 (16 * r.val))) a + S1x16.size a ≤ S128x128.size a := fun v1557 k0_hw41 r => k0_hw41 r

def k0_off48 (v1595 : BitVec 32) (c0_i32_633 : BitVec 32) : Fin 2 → Nat :=
  let c41_i32 : BitVec 32 := 41#32
  let v1597 : Index := Scalar.indexCast c41_i32
  let v1596 : BitVec 32 := Scalar.addi v1595 c0_i32_633
  let v1598 : Index := Scalar.indexCast v1596
  ![41, v1598.toNat]

def k0_chk42 (v1595 : BitVec 32) : Prop :=
  (∀ (r : Fin 4), ∀ a, (k0_off48 v1595 (BitVec.ofNat 32 (16 * r.val))) a + S1x16.size a ≤ S128x128.size a)
instance k0_chk42.dec : ∀ (v1595 : BitVec 32), Decidable (k0_chk42 v1595) := fun v1595 => decidable_of_iff' _ (Iff.of_eq (k0_chk42.eq_1 v1595))
theorem k0_off48_inb : ∀ (v1595 : BitVec 32) (k0_hw42 : k0_chk42 v1595), ∀ (r : Fin 4), ∀ a, (k0_off48 v1595 (BitVec.ofNat 32 (16 * r.val))) a + S1x16.size a ≤ S128x128.size a := fun v1595 k0_hw42 r => k0_hw42 r

def k0_off49 (v1633 : BitVec 32) (c0_i32_648 : BitVec 32) : Fin 2 → Nat :=
  let c42_i32 : BitVec 32 := 42#32
  let v1635 : Index := Scalar.indexCast c42_i32
  let v1634 : BitVec 32 := Scalar.addi v1633 c0_i32_648
  let v1636 : Index := Scalar.indexCast v1634
  ![42, v1636.toNat]

def k0_chk43 (v1633 : BitVec 32) : Prop :=
  (∀ (r : Fin 4), ∀ a, (k0_off49 v1633 (BitVec.ofNat 32 (16 * r.val))) a + S1x16.size a ≤ S128x128.size a)
instance k0_chk43.dec : ∀ (v1633 : BitVec 32), Decidable (k0_chk43 v1633) := fun v1633 => decidable_of_iff' _ (Iff.of_eq (k0_chk43.eq_1 v1633))
theorem k0_off49_inb : ∀ (v1633 : BitVec 32) (k0_hw43 : k0_chk43 v1633), ∀ (r : Fin 4), ∀ a, (k0_off49 v1633 (BitVec.ofNat 32 (16 * r.val))) a + S1x16.size a ≤ S128x128.size a := fun v1633 k0_hw43 r => k0_hw43 r

def k0_off50 (v1671 : BitVec 32) (c0_i32_663 : BitVec 32) : Fin 2 → Nat :=
  let c43_i32 : BitVec 32 := 43#32
  let v1673 : Index := Scalar.indexCast c43_i32
  let v1672 : BitVec 32 := Scalar.addi v1671 c0_i32_663
  let v1674 : Index := Scalar.indexCast v1672
  ![43, v1674.toNat]

def k0_chk44 (v1671 : BitVec 32) : Prop :=
  (∀ (r : Fin 4), ∀ a, (k0_off50 v1671 (BitVec.ofNat 32 (16 * r.val))) a + S1x16.size a ≤ S128x128.size a)
instance k0_chk44.dec : ∀ (v1671 : BitVec 32), Decidable (k0_chk44 v1671) := fun v1671 => decidable_of_iff' _ (Iff.of_eq (k0_chk44.eq_1 v1671))
theorem k0_off50_inb : ∀ (v1671 : BitVec 32) (k0_hw44 : k0_chk44 v1671), ∀ (r : Fin 4), ∀ a, (k0_off50 v1671 (BitVec.ofNat 32 (16 * r.val))) a + S1x16.size a ≤ S128x128.size a := fun v1671 k0_hw44 r => k0_hw44 r

def k0_off51 (v1709 : BitVec 32) (c0_i32_678 : BitVec 32) : Fin 2 → Nat :=
  let c44_i32 : BitVec 32 := 44#32
  let v1711 : Index := Scalar.indexCast c44_i32
  let v1710 : BitVec 32 := Scalar.addi v1709 c0_i32_678
  let v1712 : Index := Scalar.indexCast v1710
  ![44, v1712.toNat]

def k0_chk45 (v1709 : BitVec 32) : Prop :=
  (∀ (r : Fin 4), ∀ a, (k0_off51 v1709 (BitVec.ofNat 32 (16 * r.val))) a + S1x16.size a ≤ S128x128.size a)
instance k0_chk45.dec : ∀ (v1709 : BitVec 32), Decidable (k0_chk45 v1709) := fun v1709 => decidable_of_iff' _ (Iff.of_eq (k0_chk45.eq_1 v1709))
theorem k0_off51_inb : ∀ (v1709 : BitVec 32) (k0_hw45 : k0_chk45 v1709), ∀ (r : Fin 4), ∀ a, (k0_off51 v1709 (BitVec.ofNat 32 (16 * r.val))) a + S1x16.size a ≤ S128x128.size a := fun v1709 k0_hw45 r => k0_hw45 r

def k0_off52 (v1747 : BitVec 32) (c0_i32_693 : BitVec 32) : Fin 2 → Nat :=
  let c45_i32 : BitVec 32 := 45#32
  let v1749 : Index := Scalar.indexCast c45_i32
  let v1748 : BitVec 32 := Scalar.addi v1747 c0_i32_693
  let v1750 : Index := Scalar.indexCast v1748
  ![45, v1750.toNat]

def k0_chk46 (v1747 : BitVec 32) : Prop :=
  (∀ (r : Fin 4), ∀ a, (k0_off52 v1747 (BitVec.ofNat 32 (16 * r.val))) a + S1x16.size a ≤ S128x128.size a)
instance k0_chk46.dec : ∀ (v1747 : BitVec 32), Decidable (k0_chk46 v1747) := fun v1747 => decidable_of_iff' _ (Iff.of_eq (k0_chk46.eq_1 v1747))
theorem k0_off52_inb : ∀ (v1747 : BitVec 32) (k0_hw46 : k0_chk46 v1747), ∀ (r : Fin 4), ∀ a, (k0_off52 v1747 (BitVec.ofNat 32 (16 * r.val))) a + S1x16.size a ≤ S128x128.size a := fun v1747 k0_hw46 r => k0_hw46 r

def k0_off53 (v1785 : BitVec 32) (c0_i32_708 : BitVec 32) : Fin 2 → Nat :=
  let c46_i32 : BitVec 32 := 46#32
  let v1787 : Index := Scalar.indexCast c46_i32
  let v1786 : BitVec 32 := Scalar.addi v1785 c0_i32_708
  let v1788 : Index := Scalar.indexCast v1786
  ![46, v1788.toNat]

def k0_chk47 (v1785 : BitVec 32) : Prop :=
  (∀ (r : Fin 4), ∀ a, (k0_off53 v1785 (BitVec.ofNat 32 (16 * r.val))) a + S1x16.size a ≤ S128x128.size a)
instance k0_chk47.dec : ∀ (v1785 : BitVec 32), Decidable (k0_chk47 v1785) := fun v1785 => decidable_of_iff' _ (Iff.of_eq (k0_chk47.eq_1 v1785))
theorem k0_off53_inb : ∀ (v1785 : BitVec 32) (k0_hw47 : k0_chk47 v1785), ∀ (r : Fin 4), ∀ a, (k0_off53 v1785 (BitVec.ofNat 32 (16 * r.val))) a + S1x16.size a ≤ S128x128.size a := fun v1785 k0_hw47 r => k0_hw47 r

def k0_off54 (v1823 : BitVec 32) (c0_i32_723 : BitVec 32) : Fin 2 → Nat :=
  let c47_i32 : BitVec 32 := 47#32
  let v1825 : Index := Scalar.indexCast c47_i32
  let v1824 : BitVec 32 := Scalar.addi v1823 c0_i32_723
  let v1826 : Index := Scalar.indexCast v1824
  ![47, v1826.toNat]

def k0_chk48 (v1823 : BitVec 32) : Prop :=
  (∀ (r : Fin 4), ∀ a, (k0_off54 v1823 (BitVec.ofNat 32 (16 * r.val))) a + S1x16.size a ≤ S128x128.size a)
instance k0_chk48.dec : ∀ (v1823 : BitVec 32), Decidable (k0_chk48 v1823) := fun v1823 => decidable_of_iff' _ (Iff.of_eq (k0_chk48.eq_1 v1823))
theorem k0_off54_inb : ∀ (v1823 : BitVec 32) (k0_hw48 : k0_chk48 v1823), ∀ (r : Fin 4), ∀ a, (k0_off54 v1823 (BitVec.ofNat 32 (16 * r.val))) a + S1x16.size a ≤ S128x128.size a := fun v1823 k0_hw48 r => k0_hw48 r

def k0_off55 (k0_t2 : Fin k0_t2_loop.trips) : Fin 1 → Nat :=
  let c0_i32_5 : BitVec 32 := 0#32
  let c0_i32_1 : BitVec 32 := 0#32
  let c1_i32_2 : BitVec 32 := 1#32
  let arg10 : BitVec 32 := Scf.iv c0_i32_1 c1_i32_2 k0_t2
  let c1_i32_4 : BitVec 32 := 1#32
  let v5 : BitVec 32 := Scalar.muli arg10 c1_i32_4
  let v6 : BitVec 32 := Scalar.addi c0_i32_5 v5
  let c128_i32 : BitVec 32 := 128#32
  let v7 : BitVec 32 := Scalar.muli v6 c128_i32
  let c48_i32_738 : BitVec 32 := 48#32
  let v1860 : BitVec 32 := Scalar.addi v7 c48_i32_738
  let v1861 : Index := Scalar.indexCast v1860
  ![v1861.toNat]
def k0_off56 (v1869 : BitVec 32) (c0_i32_741 : BitVec 32) : Fin 2 → Nat :=
  let c48_i32_742 : BitVec 32 := 48#32
  let v1871 : Index := Scalar.indexCast c48_i32_742
  let v1870 : BitVec 32 := Scalar.addi v1869 c0_i32_741
  let v1872 : Index := Scalar.indexCast v1870
  ![48, v1872.toNat]

def k0_chk49 (v1869 : BitVec 32) : Prop :=
  (∀ (r : Fin 4), ∀ a, (k0_off56 v1869 (BitVec.ofNat 32 (16 * r.val))) a + S1x16.size a ≤ S128x128.size a)
instance k0_chk49.dec : ∀ (v1869 : BitVec 32), Decidable (k0_chk49 v1869) := fun v1869 => decidable_of_iff' _ (Iff.of_eq (k0_chk49.eq_1 v1869))
theorem k0_off56_inb : ∀ (v1869 : BitVec 32) (k0_hw49 : k0_chk49 v1869), ∀ (r : Fin 4), ∀ a, (k0_off56 v1869 (BitVec.ofNat 32 (16 * r.val))) a + S1x16.size a ≤ S128x128.size a := fun v1869 k0_hw49 r => k0_hw49 r

def k0_off57 (v1907 : BitVec 32) (c0_i32_757 : BitVec 32) : Fin 2 → Nat :=
  let c49_i32 : BitVec 32 := 49#32
  let v1909 : Index := Scalar.indexCast c49_i32
  let v1908 : BitVec 32 := Scalar.addi v1907 c0_i32_757
  let v1910 : Index := Scalar.indexCast v1908
  ![49, v1910.toNat]

def k0_chk50 (v1907 : BitVec 32) : Prop :=
  (∀ (r : Fin 4), ∀ a, (k0_off57 v1907 (BitVec.ofNat 32 (16 * r.val))) a + S1x16.size a ≤ S128x128.size a)
instance k0_chk50.dec : ∀ (v1907 : BitVec 32), Decidable (k0_chk50 v1907) := fun v1907 => decidable_of_iff' _ (Iff.of_eq (k0_chk50.eq_1 v1907))
theorem k0_off57_inb : ∀ (v1907 : BitVec 32) (k0_hw50 : k0_chk50 v1907), ∀ (r : Fin 4), ∀ a, (k0_off57 v1907 (BitVec.ofNat 32 (16 * r.val))) a + S1x16.size a ≤ S128x128.size a := fun v1907 k0_hw50 r => k0_hw50 r

def k0_off58 (v1945 : BitVec 32) (c0_i32_772 : BitVec 32) : Fin 2 → Nat :=
  let c50_i32 : BitVec 32 := 50#32
  let v1947 : Index := Scalar.indexCast c50_i32
  let v1946 : BitVec 32 := Scalar.addi v1945 c0_i32_772
  let v1948 : Index := Scalar.indexCast v1946
  ![50, v1948.toNat]

def k0_chk51 (v1945 : BitVec 32) : Prop :=
  (∀ (r : Fin 4), ∀ a, (k0_off58 v1945 (BitVec.ofNat 32 (16 * r.val))) a + S1x16.size a ≤ S128x128.size a)
instance k0_chk51.dec : ∀ (v1945 : BitVec 32), Decidable (k0_chk51 v1945) := fun v1945 => decidable_of_iff' _ (Iff.of_eq (k0_chk51.eq_1 v1945))
theorem k0_off58_inb : ∀ (v1945 : BitVec 32) (k0_hw51 : k0_chk51 v1945), ∀ (r : Fin 4), ∀ a, (k0_off58 v1945 (BitVec.ofNat 32 (16 * r.val))) a + S1x16.size a ≤ S128x128.size a := fun v1945 k0_hw51 r => k0_hw51 r

def k0_off59 (v1983 : BitVec 32) (c0_i32_787 : BitVec 32) : Fin 2 → Nat :=
  let c51_i32 : BitVec 32 := 51#32
  let v1985 : Index := Scalar.indexCast c51_i32
  let v1984 : BitVec 32 := Scalar.addi v1983 c0_i32_787
  let v1986 : Index := Scalar.indexCast v1984
  ![51, v1986.toNat]

def k0_chk52 (v1983 : BitVec 32) : Prop :=
  (∀ (r : Fin 4), ∀ a, (k0_off59 v1983 (BitVec.ofNat 32 (16 * r.val))) a + S1x16.size a ≤ S128x128.size a)
instance k0_chk52.dec : ∀ (v1983 : BitVec 32), Decidable (k0_chk52 v1983) := fun v1983 => decidable_of_iff' _ (Iff.of_eq (k0_chk52.eq_1 v1983))
theorem k0_off59_inb : ∀ (v1983 : BitVec 32) (k0_hw52 : k0_chk52 v1983), ∀ (r : Fin 4), ∀ a, (k0_off59 v1983 (BitVec.ofNat 32 (16 * r.val))) a + S1x16.size a ≤ S128x128.size a := fun v1983 k0_hw52 r => k0_hw52 r

def k0_off60 (v2021 : BitVec 32) (c0_i32_802 : BitVec 32) : Fin 2 → Nat :=
  let c52_i32 : BitVec 32 := 52#32
  let v2023 : Index := Scalar.indexCast c52_i32
  let v2022 : BitVec 32 := Scalar.addi v2021 c0_i32_802
  let v2024 : Index := Scalar.indexCast v2022
  ![52, v2024.toNat]

def k0_chk53 (v2021 : BitVec 32) : Prop :=
  (∀ (r : Fin 4), ∀ a, (k0_off60 v2021 (BitVec.ofNat 32 (16 * r.val))) a + S1x16.size a ≤ S128x128.size a)
instance k0_chk53.dec : ∀ (v2021 : BitVec 32), Decidable (k0_chk53 v2021) := fun v2021 => decidable_of_iff' _ (Iff.of_eq (k0_chk53.eq_1 v2021))
theorem k0_off60_inb : ∀ (v2021 : BitVec 32) (k0_hw53 : k0_chk53 v2021), ∀ (r : Fin 4), ∀ a, (k0_off60 v2021 (BitVec.ofNat 32 (16 * r.val))) a + S1x16.size a ≤ S128x128.size a := fun v2021 k0_hw53 r => k0_hw53 r

def k0_off61 (v2059 : BitVec 32) (c0_i32_817 : BitVec 32) : Fin 2 → Nat :=
  let c53_i32 : BitVec 32 := 53#32
  let v2061 : Index := Scalar.indexCast c53_i32
  let v2060 : BitVec 32 := Scalar.addi v2059 c0_i32_817
  let v2062 : Index := Scalar.indexCast v2060
  ![53, v2062.toNat]

def k0_chk54 (v2059 : BitVec 32) : Prop :=
  (∀ (r : Fin 4), ∀ a, (k0_off61 v2059 (BitVec.ofNat 32 (16 * r.val))) a + S1x16.size a ≤ S128x128.size a)
instance k0_chk54.dec : ∀ (v2059 : BitVec 32), Decidable (k0_chk54 v2059) := fun v2059 => decidable_of_iff' _ (Iff.of_eq (k0_chk54.eq_1 v2059))
theorem k0_off61_inb : ∀ (v2059 : BitVec 32) (k0_hw54 : k0_chk54 v2059), ∀ (r : Fin 4), ∀ a, (k0_off61 v2059 (BitVec.ofNat 32 (16 * r.val))) a + S1x16.size a ≤ S128x128.size a := fun v2059 k0_hw54 r => k0_hw54 r

def k0_off62 (v2097 : BitVec 32) (c0_i32_832 : BitVec 32) : Fin 2 → Nat :=
  let c54_i32 : BitVec 32 := 54#32
  let v2099 : Index := Scalar.indexCast c54_i32
  let v2098 : BitVec 32 := Scalar.addi v2097 c0_i32_832
  let v2100 : Index := Scalar.indexCast v2098
  ![54, v2100.toNat]

def k0_chk55 (v2097 : BitVec 32) : Prop :=
  (∀ (r : Fin 4), ∀ a, (k0_off62 v2097 (BitVec.ofNat 32 (16 * r.val))) a + S1x16.size a ≤ S128x128.size a)
instance k0_chk55.dec : ∀ (v2097 : BitVec 32), Decidable (k0_chk55 v2097) := fun v2097 => decidable_of_iff' _ (Iff.of_eq (k0_chk55.eq_1 v2097))
theorem k0_off62_inb : ∀ (v2097 : BitVec 32) (k0_hw55 : k0_chk55 v2097), ∀ (r : Fin 4), ∀ a, (k0_off62 v2097 (BitVec.ofNat 32 (16 * r.val))) a + S1x16.size a ≤ S128x128.size a := fun v2097 k0_hw55 r => k0_hw55 r

def k0_off63 (v2135 : BitVec 32) (c0_i32_847 : BitVec 32) : Fin 2 → Nat :=
  let c55_i32 : BitVec 32 := 55#32
  let v2137 : Index := Scalar.indexCast c55_i32
  let v2136 : BitVec 32 := Scalar.addi v2135 c0_i32_847
  let v2138 : Index := Scalar.indexCast v2136
  ![55, v2138.toNat]

def k0_chk56 (v2135 : BitVec 32) : Prop :=
  (∀ (r : Fin 4), ∀ a, (k0_off63 v2135 (BitVec.ofNat 32 (16 * r.val))) a + S1x16.size a ≤ S128x128.size a)
instance k0_chk56.dec : ∀ (v2135 : BitVec 32), Decidable (k0_chk56 v2135) := fun v2135 => decidable_of_iff' _ (Iff.of_eq (k0_chk56.eq_1 v2135))
theorem k0_off63_inb : ∀ (v2135 : BitVec 32) (k0_hw56 : k0_chk56 v2135), ∀ (r : Fin 4), ∀ a, (k0_off63 v2135 (BitVec.ofNat 32 (16 * r.val))) a + S1x16.size a ≤ S128x128.size a := fun v2135 k0_hw56 r => k0_hw56 r

def k0_off64 (v2173 : BitVec 32) (c0_i32_862 : BitVec 32) : Fin 2 → Nat :=
  let c56_i32 : BitVec 32 := 56#32
  let v2175 : Index := Scalar.indexCast c56_i32
  let v2174 : BitVec 32 := Scalar.addi v2173 c0_i32_862
  let v2176 : Index := Scalar.indexCast v2174
  ![56, v2176.toNat]

def k0_chk57 (v2173 : BitVec 32) : Prop :=
  (∀ (r : Fin 4), ∀ a, (k0_off64 v2173 (BitVec.ofNat 32 (16 * r.val))) a + S1x16.size a ≤ S128x128.size a)
instance k0_chk57.dec : ∀ (v2173 : BitVec 32), Decidable (k0_chk57 v2173) := fun v2173 => decidable_of_iff' _ (Iff.of_eq (k0_chk57.eq_1 v2173))
theorem k0_off64_inb : ∀ (v2173 : BitVec 32) (k0_hw57 : k0_chk57 v2173), ∀ (r : Fin 4), ∀ a, (k0_off64 v2173 (BitVec.ofNat 32 (16 * r.val))) a + S1x16.size a ≤ S128x128.size a := fun v2173 k0_hw57 r => k0_hw57 r

def k0_off65 (v2211 : BitVec 32) (c0_i32_877 : BitVec 32) : Fin 2 → Nat :=
  let c57_i32 : BitVec 32 := 57#32
  let v2213 : Index := Scalar.indexCast c57_i32
  let v2212 : BitVec 32 := Scalar.addi v2211 c0_i32_877
  let v2214 : Index := Scalar.indexCast v2212
  ![57, v2214.toNat]

def k0_chk58 (v2211 : BitVec 32) : Prop :=
  (∀ (r : Fin 4), ∀ a, (k0_off65 v2211 (BitVec.ofNat 32 (16 * r.val))) a + S1x16.size a ≤ S128x128.size a)
instance k0_chk58.dec : ∀ (v2211 : BitVec 32), Decidable (k0_chk58 v2211) := fun v2211 => decidable_of_iff' _ (Iff.of_eq (k0_chk58.eq_1 v2211))
theorem k0_off65_inb : ∀ (v2211 : BitVec 32) (k0_hw58 : k0_chk58 v2211), ∀ (r : Fin 4), ∀ a, (k0_off65 v2211 (BitVec.ofNat 32 (16 * r.val))) a + S1x16.size a ≤ S128x128.size a := fun v2211 k0_hw58 r => k0_hw58 r

def k0_off66 (v2249 : BitVec 32) (c0_i32_892 : BitVec 32) : Fin 2 → Nat :=
  let c58_i32 : BitVec 32 := 58#32
  let v2251 : Index := Scalar.indexCast c58_i32
  let v2250 : BitVec 32 := Scalar.addi v2249 c0_i32_892
  let v2252 : Index := Scalar.indexCast v2250
  ![58, v2252.toNat]

def k0_chk59 (v2249 : BitVec 32) : Prop :=
  (∀ (r : Fin 4), ∀ a, (k0_off66 v2249 (BitVec.ofNat 32 (16 * r.val))) a + S1x16.size a ≤ S128x128.size a)
instance k0_chk59.dec : ∀ (v2249 : BitVec 32), Decidable (k0_chk59 v2249) := fun v2249 => decidable_of_iff' _ (Iff.of_eq (k0_chk59.eq_1 v2249))
theorem k0_off66_inb : ∀ (v2249 : BitVec 32) (k0_hw59 : k0_chk59 v2249), ∀ (r : Fin 4), ∀ a, (k0_off66 v2249 (BitVec.ofNat 32 (16 * r.val))) a + S1x16.size a ≤ S128x128.size a := fun v2249 k0_hw59 r => k0_hw59 r

def k0_off67 (v2287 : BitVec 32) (c0_i32_907 : BitVec 32) : Fin 2 → Nat :=
  let c59_i32 : BitVec 32 := 59#32
  let v2289 : Index := Scalar.indexCast c59_i32
  let v2288 : BitVec 32 := Scalar.addi v2287 c0_i32_907
  let v2290 : Index := Scalar.indexCast v2288
  ![59, v2290.toNat]

def k0_chk60 (v2287 : BitVec 32) : Prop :=
  (∀ (r : Fin 4), ∀ a, (k0_off67 v2287 (BitVec.ofNat 32 (16 * r.val))) a + S1x16.size a ≤ S128x128.size a)
instance k0_chk60.dec : ∀ (v2287 : BitVec 32), Decidable (k0_chk60 v2287) := fun v2287 => decidable_of_iff' _ (Iff.of_eq (k0_chk60.eq_1 v2287))
theorem k0_off67_inb : ∀ (v2287 : BitVec 32) (k0_hw60 : k0_chk60 v2287), ∀ (r : Fin 4), ∀ a, (k0_off67 v2287 (BitVec.ofNat 32 (16 * r.val))) a + S1x16.size a ≤ S128x128.size a := fun v2287 k0_hw60 r => k0_hw60 r

def k0_off68 (v2325 : BitVec 32) (c0_i32_922 : BitVec 32) : Fin 2 → Nat :=
  let c60_i32 : BitVec 32 := 60#32
  let v2327 : Index := Scalar.indexCast c60_i32
  let v2326 : BitVec 32 := Scalar.addi v2325 c0_i32_922
  let v2328 : Index := Scalar.indexCast v2326
  ![60, v2328.toNat]

def k0_chk61 (v2325 : BitVec 32) : Prop :=
  (∀ (r : Fin 4), ∀ a, (k0_off68 v2325 (BitVec.ofNat 32 (16 * r.val))) a + S1x16.size a ≤ S128x128.size a)
instance k0_chk61.dec : ∀ (v2325 : BitVec 32), Decidable (k0_chk61 v2325) := fun v2325 => decidable_of_iff' _ (Iff.of_eq (k0_chk61.eq_1 v2325))
theorem k0_off68_inb : ∀ (v2325 : BitVec 32) (k0_hw61 : k0_chk61 v2325), ∀ (r : Fin 4), ∀ a, (k0_off68 v2325 (BitVec.ofNat 32 (16 * r.val))) a + S1x16.size a ≤ S128x128.size a := fun v2325 k0_hw61 r => k0_hw61 r

def k0_off69 (v2363 : BitVec 32) (c0_i32_937 : BitVec 32) : Fin 2 → Nat :=
  let c61_i32 : BitVec 32 := 61#32
  let v2365 : Index := Scalar.indexCast c61_i32
  let v2364 : BitVec 32 := Scalar.addi v2363 c0_i32_937
  let v2366 : Index := Scalar.indexCast v2364
  ![61, v2366.toNat]

def k0_chk62 (v2363 : BitVec 32) : Prop :=
  (∀ (r : Fin 4), ∀ a, (k0_off69 v2363 (BitVec.ofNat 32 (16 * r.val))) a + S1x16.size a ≤ S128x128.size a)
instance k0_chk62.dec : ∀ (v2363 : BitVec 32), Decidable (k0_chk62 v2363) := fun v2363 => decidable_of_iff' _ (Iff.of_eq (k0_chk62.eq_1 v2363))
theorem k0_off69_inb : ∀ (v2363 : BitVec 32) (k0_hw62 : k0_chk62 v2363), ∀ (r : Fin 4), ∀ a, (k0_off69 v2363 (BitVec.ofNat 32 (16 * r.val))) a + S1x16.size a ≤ S128x128.size a := fun v2363 k0_hw62 r => k0_hw62 r

def k0_off70 (v2401 : BitVec 32) (c0_i32_952 : BitVec 32) : Fin 2 → Nat :=
  let c62_i32 : BitVec 32 := 62#32
  let v2403 : Index := Scalar.indexCast c62_i32
  let v2402 : BitVec 32 := Scalar.addi v2401 c0_i32_952
  let v2404 : Index := Scalar.indexCast v2402
  ![62, v2404.toNat]

def k0_chk63 (v2401 : BitVec 32) : Prop :=
  (∀ (r : Fin 4), ∀ a, (k0_off70 v2401 (BitVec.ofNat 32 (16 * r.val))) a + S1x16.size a ≤ S128x128.size a)
instance k0_chk63.dec : ∀ (v2401 : BitVec 32), Decidable (k0_chk63 v2401) := fun v2401 => decidable_of_iff' _ (Iff.of_eq (k0_chk63.eq_1 v2401))
theorem k0_off70_inb : ∀ (v2401 : BitVec 32) (k0_hw63 : k0_chk63 v2401), ∀ (r : Fin 4), ∀ a, (k0_off70 v2401 (BitVec.ofNat 32 (16 * r.val))) a + S1x16.size a ≤ S128x128.size a := fun v2401 k0_hw63 r => k0_hw63 r

def k0_off71 (v2439 : BitVec 32) (c0_i32_967 : BitVec 32) : Fin 2 → Nat :=
  let c63_i32 : BitVec 32 := 63#32
  let v2441 : Index := Scalar.indexCast c63_i32
  let v2440 : BitVec 32 := Scalar.addi v2439 c0_i32_967
  let v2442 : Index := Scalar.indexCast v2440
  ![63, v2442.toNat]

def k0_chk64 (v2439 : BitVec 32) : Prop :=
  (∀ (r : Fin 4), ∀ a, (k0_off71 v2439 (BitVec.ofNat 32 (16 * r.val))) a + S1x16.size a ≤ S128x128.size a)
instance k0_chk64.dec : ∀ (v2439 : BitVec 32), Decidable (k0_chk64 v2439) := fun v2439 => decidable_of_iff' _ (Iff.of_eq (k0_chk64.eq_1 v2439))
theorem k0_off71_inb : ∀ (v2439 : BitVec 32) (k0_hw64 : k0_chk64 v2439), ∀ (r : Fin 4), ∀ a, (k0_off71 v2439 (BitVec.ofNat 32 (16 * r.val))) a + S1x16.size a ≤ S128x128.size a := fun v2439 k0_hw64 r => k0_hw64 r

def k0_off72 (k0_t2 : Fin k0_t2_loop.trips) : Fin 1 → Nat :=
  let c0_i32_5 : BitVec 32 := 0#32
  let c0_i32_1 : BitVec 32 := 0#32
  let c1_i32_2 : BitVec 32 := 1#32
  let arg10 : BitVec 32 := Scf.iv c0_i32_1 c1_i32_2 k0_t2
  let c1_i32_4 : BitVec 32 := 1#32
  let v5 : BitVec 32 := Scalar.muli arg10 c1_i32_4
  let v6 : BitVec 32 := Scalar.addi c0_i32_5 v5
  let c128_i32 : BitVec 32 := 128#32
  let v7 : BitVec 32 := Scalar.muli v6 c128_i32
  let c64_i32_982 : BitVec 32 := 64#32
  let v2476 : BitVec 32 := Scalar.addi v7 c64_i32_982
  let v2477 : Index := Scalar.indexCast v2476
  ![v2477.toNat]
def k0_off73 (v2485 : BitVec 32) (c0_i32_985 : BitVec 32) : Fin 2 → Nat :=
  let c64_i32_986 : BitVec 32 := 64#32
  let v2487 : Index := Scalar.indexCast c64_i32_986
  let v2486 : BitVec 32 := Scalar.addi v2485 c0_i32_985
  let v2488 : Index := Scalar.indexCast v2486
  ![64, v2488.toNat]

def k0_chk65 (v2485 : BitVec 32) : Prop :=
  (∀ (r : Fin 4), ∀ a, (k0_off73 v2485 (BitVec.ofNat 32 (16 * r.val))) a + S1x16.size a ≤ S128x128.size a)
instance k0_chk65.dec : ∀ (v2485 : BitVec 32), Decidable (k0_chk65 v2485) := fun v2485 => decidable_of_iff' _ (Iff.of_eq (k0_chk65.eq_1 v2485))
theorem k0_off73_inb : ∀ (v2485 : BitVec 32) (k0_hw65 : k0_chk65 v2485), ∀ (r : Fin 4), ∀ a, (k0_off73 v2485 (BitVec.ofNat 32 (16 * r.val))) a + S1x16.size a ≤ S128x128.size a := fun v2485 k0_hw65 r => k0_hw65 r

def k0_off74 (v2523 : BitVec 32) (c0_i32_1001 : BitVec 32) : Fin 2 → Nat :=
  let c65_i32 : BitVec 32 := 65#32
  let v2525 : Index := Scalar.indexCast c65_i32
  let v2524 : BitVec 32 := Scalar.addi v2523 c0_i32_1001
  let v2526 : Index := Scalar.indexCast v2524
  ![65, v2526.toNat]

def k0_chk66 (v2523 : BitVec 32) : Prop :=
  (∀ (r : Fin 4), ∀ a, (k0_off74 v2523 (BitVec.ofNat 32 (16 * r.val))) a + S1x16.size a ≤ S128x128.size a)
instance k0_chk66.dec : ∀ (v2523 : BitVec 32), Decidable (k0_chk66 v2523) := fun v2523 => decidable_of_iff' _ (Iff.of_eq (k0_chk66.eq_1 v2523))
theorem k0_off74_inb : ∀ (v2523 : BitVec 32) (k0_hw66 : k0_chk66 v2523), ∀ (r : Fin 4), ∀ a, (k0_off74 v2523 (BitVec.ofNat 32 (16 * r.val))) a + S1x16.size a ≤ S128x128.size a := fun v2523 k0_hw66 r => k0_hw66 r

def k0_off75 (v2561 : BitVec 32) (c0_i32_1016 : BitVec 32) : Fin 2 → Nat :=
  let c66_i32 : BitVec 32 := 66#32
  let v2563 : Index := Scalar.indexCast c66_i32
  let v2562 : BitVec 32 := Scalar.addi v2561 c0_i32_1016
  let v2564 : Index := Scalar.indexCast v2562
  ![66, v2564.toNat]

def k0_chk67 (v2561 : BitVec 32) : Prop :=
  (∀ (r : Fin 4), ∀ a, (k0_off75 v2561 (BitVec.ofNat 32 (16 * r.val))) a + S1x16.size a ≤ S128x128.size a)
instance k0_chk67.dec : ∀ (v2561 : BitVec 32), Decidable (k0_chk67 v2561) := fun v2561 => decidable_of_iff' _ (Iff.of_eq (k0_chk67.eq_1 v2561))
theorem k0_off75_inb : ∀ (v2561 : BitVec 32) (k0_hw67 : k0_chk67 v2561), ∀ (r : Fin 4), ∀ a, (k0_off75 v2561 (BitVec.ofNat 32 (16 * r.val))) a + S1x16.size a ≤ S128x128.size a := fun v2561 k0_hw67 r => k0_hw67 r

def k0_off76 (v2599 : BitVec 32) (c0_i32_1031 : BitVec 32) : Fin 2 → Nat :=
  let c67_i32 : BitVec 32 := 67#32
  let v2601 : Index := Scalar.indexCast c67_i32
  let v2600 : BitVec 32 := Scalar.addi v2599 c0_i32_1031
  let v2602 : Index := Scalar.indexCast v2600
  ![67, v2602.toNat]

def k0_chk68 (v2599 : BitVec 32) : Prop :=
  (∀ (r : Fin 4), ∀ a, (k0_off76 v2599 (BitVec.ofNat 32 (16 * r.val))) a + S1x16.size a ≤ S128x128.size a)
instance k0_chk68.dec : ∀ (v2599 : BitVec 32), Decidable (k0_chk68 v2599) := fun v2599 => decidable_of_iff' _ (Iff.of_eq (k0_chk68.eq_1 v2599))
theorem k0_off76_inb : ∀ (v2599 : BitVec 32) (k0_hw68 : k0_chk68 v2599), ∀ (r : Fin 4), ∀ a, (k0_off76 v2599 (BitVec.ofNat 32 (16 * r.val))) a + S1x16.size a ≤ S128x128.size a := fun v2599 k0_hw68 r => k0_hw68 r

def k0_off77 (v2637 : BitVec 32) (c0_i32_1046 : BitVec 32) : Fin 2 → Nat :=
  let c68_i32 : BitVec 32 := 68#32
  let v2639 : Index := Scalar.indexCast c68_i32
  let v2638 : BitVec 32 := Scalar.addi v2637 c0_i32_1046
  let v2640 : Index := Scalar.indexCast v2638
  ![68, v2640.toNat]

def k0_chk69 (v2637 : BitVec 32) : Prop :=
  (∀ (r : Fin 4), ∀ a, (k0_off77 v2637 (BitVec.ofNat 32 (16 * r.val))) a + S1x16.size a ≤ S128x128.size a)
instance k0_chk69.dec : ∀ (v2637 : BitVec 32), Decidable (k0_chk69 v2637) := fun v2637 => decidable_of_iff' _ (Iff.of_eq (k0_chk69.eq_1 v2637))
theorem k0_off77_inb : ∀ (v2637 : BitVec 32) (k0_hw69 : k0_chk69 v2637), ∀ (r : Fin 4), ∀ a, (k0_off77 v2637 (BitVec.ofNat 32 (16 * r.val))) a + S1x16.size a ≤ S128x128.size a := fun v2637 k0_hw69 r => k0_hw69 r

def k0_off78 (v2675 : BitVec 32) (c0_i32_1061 : BitVec 32) : Fin 2 → Nat :=
  let c69_i32 : BitVec 32 := 69#32
  let v2677 : Index := Scalar.indexCast c69_i32
  let v2676 : BitVec 32 := Scalar.addi v2675 c0_i32_1061
  let v2678 : Index := Scalar.indexCast v2676
  ![69, v2678.toNat]

def k0_chk70 (v2675 : BitVec 32) : Prop :=
  (∀ (r : Fin 4), ∀ a, (k0_off78 v2675 (BitVec.ofNat 32 (16 * r.val))) a + S1x16.size a ≤ S128x128.size a)
instance k0_chk70.dec : ∀ (v2675 : BitVec 32), Decidable (k0_chk70 v2675) := fun v2675 => decidable_of_iff' _ (Iff.of_eq (k0_chk70.eq_1 v2675))
theorem k0_off78_inb : ∀ (v2675 : BitVec 32) (k0_hw70 : k0_chk70 v2675), ∀ (r : Fin 4), ∀ a, (k0_off78 v2675 (BitVec.ofNat 32 (16 * r.val))) a + S1x16.size a ≤ S128x128.size a := fun v2675 k0_hw70 r => k0_hw70 r

def k0_off79 (v2713 : BitVec 32) (c0_i32_1076 : BitVec 32) : Fin 2 → Nat :=
  let c70_i32 : BitVec 32 := 70#32
  let v2715 : Index := Scalar.indexCast c70_i32
  let v2714 : BitVec 32 := Scalar.addi v2713 c0_i32_1076
  let v2716 : Index := Scalar.indexCast v2714
  ![70, v2716.toNat]

def k0_chk71 (v2713 : BitVec 32) : Prop :=
  (∀ (r : Fin 4), ∀ a, (k0_off79 v2713 (BitVec.ofNat 32 (16 * r.val))) a + S1x16.size a ≤ S128x128.size a)
instance k0_chk71.dec : ∀ (v2713 : BitVec 32), Decidable (k0_chk71 v2713) := fun v2713 => decidable_of_iff' _ (Iff.of_eq (k0_chk71.eq_1 v2713))
theorem k0_off79_inb : ∀ (v2713 : BitVec 32) (k0_hw71 : k0_chk71 v2713), ∀ (r : Fin 4), ∀ a, (k0_off79 v2713 (BitVec.ofNat 32 (16 * r.val))) a + S1x16.size a ≤ S128x128.size a := fun v2713 k0_hw71 r => k0_hw71 r

def k0_off80 (v2751 : BitVec 32) (c0_i32_1091 : BitVec 32) : Fin 2 → Nat :=
  let c71_i32 : BitVec 32 := 71#32
  let v2753 : Index := Scalar.indexCast c71_i32
  let v2752 : BitVec 32 := Scalar.addi v2751 c0_i32_1091
  let v2754 : Index := Scalar.indexCast v2752
  ![71, v2754.toNat]

def k0_chk72 (v2751 : BitVec 32) : Prop :=
  (∀ (r : Fin 4), ∀ a, (k0_off80 v2751 (BitVec.ofNat 32 (16 * r.val))) a + S1x16.size a ≤ S128x128.size a)
instance k0_chk72.dec : ∀ (v2751 : BitVec 32), Decidable (k0_chk72 v2751) := fun v2751 => decidable_of_iff' _ (Iff.of_eq (k0_chk72.eq_1 v2751))
theorem k0_off80_inb : ∀ (v2751 : BitVec 32) (k0_hw72 : k0_chk72 v2751), ∀ (r : Fin 4), ∀ a, (k0_off80 v2751 (BitVec.ofNat 32 (16 * r.val))) a + S1x16.size a ≤ S128x128.size a := fun v2751 k0_hw72 r => k0_hw72 r

def k0_off81 (v2789 : BitVec 32) (c0_i32_1106 : BitVec 32) : Fin 2 → Nat :=
  let c72_i32 : BitVec 32 := 72#32
  let v2791 : Index := Scalar.indexCast c72_i32
  let v2790 : BitVec 32 := Scalar.addi v2789 c0_i32_1106
  let v2792 : Index := Scalar.indexCast v2790
  ![72, v2792.toNat]

def k0_chk73 (v2789 : BitVec 32) : Prop :=
  (∀ (r : Fin 4), ∀ a, (k0_off81 v2789 (BitVec.ofNat 32 (16 * r.val))) a + S1x16.size a ≤ S128x128.size a)
instance k0_chk73.dec : ∀ (v2789 : BitVec 32), Decidable (k0_chk73 v2789) := fun v2789 => decidable_of_iff' _ (Iff.of_eq (k0_chk73.eq_1 v2789))
theorem k0_off81_inb : ∀ (v2789 : BitVec 32) (k0_hw73 : k0_chk73 v2789), ∀ (r : Fin 4), ∀ a, (k0_off81 v2789 (BitVec.ofNat 32 (16 * r.val))) a + S1x16.size a ≤ S128x128.size a := fun v2789 k0_hw73 r => k0_hw73 r

def k0_off82 (v2827 : BitVec 32) (c0_i32_1121 : BitVec 32) : Fin 2 → Nat :=
  let c73_i32 : BitVec 32 := 73#32
  let v2829 : Index := Scalar.indexCast c73_i32
  let v2828 : BitVec 32 := Scalar.addi v2827 c0_i32_1121
  let v2830 : Index := Scalar.indexCast v2828
  ![73, v2830.toNat]

def k0_chk74 (v2827 : BitVec 32) : Prop :=
  (∀ (r : Fin 4), ∀ a, (k0_off82 v2827 (BitVec.ofNat 32 (16 * r.val))) a + S1x16.size a ≤ S128x128.size a)
instance k0_chk74.dec : ∀ (v2827 : BitVec 32), Decidable (k0_chk74 v2827) := fun v2827 => decidable_of_iff' _ (Iff.of_eq (k0_chk74.eq_1 v2827))
theorem k0_off82_inb : ∀ (v2827 : BitVec 32) (k0_hw74 : k0_chk74 v2827), ∀ (r : Fin 4), ∀ a, (k0_off82 v2827 (BitVec.ofNat 32 (16 * r.val))) a + S1x16.size a ≤ S128x128.size a := fun v2827 k0_hw74 r => k0_hw74 r

def k0_off83 (v2865 : BitVec 32) (c0_i32_1136 : BitVec 32) : Fin 2 → Nat :=
  let c74_i32 : BitVec 32 := 74#32
  let v2867 : Index := Scalar.indexCast c74_i32
  let v2866 : BitVec 32 := Scalar.addi v2865 c0_i32_1136
  let v2868 : Index := Scalar.indexCast v2866
  ![74, v2868.toNat]

def k0_chk75 (v2865 : BitVec 32) : Prop :=
  (∀ (r : Fin 4), ∀ a, (k0_off83 v2865 (BitVec.ofNat 32 (16 * r.val))) a + S1x16.size a ≤ S128x128.size a)
instance k0_chk75.dec : ∀ (v2865 : BitVec 32), Decidable (k0_chk75 v2865) := fun v2865 => decidable_of_iff' _ (Iff.of_eq (k0_chk75.eq_1 v2865))
theorem k0_off83_inb : ∀ (v2865 : BitVec 32) (k0_hw75 : k0_chk75 v2865), ∀ (r : Fin 4), ∀ a, (k0_off83 v2865 (BitVec.ofNat 32 (16 * r.val))) a + S1x16.size a ≤ S128x128.size a := fun v2865 k0_hw75 r => k0_hw75 r

def k0_off84 (v2903 : BitVec 32) (c0_i32_1151 : BitVec 32) : Fin 2 → Nat :=
  let c75_i32 : BitVec 32 := 75#32
  let v2905 : Index := Scalar.indexCast c75_i32
  let v2904 : BitVec 32 := Scalar.addi v2903 c0_i32_1151
  let v2906 : Index := Scalar.indexCast v2904
  ![75, v2906.toNat]

def k0_chk76 (v2903 : BitVec 32) : Prop :=
  (∀ (r : Fin 4), ∀ a, (k0_off84 v2903 (BitVec.ofNat 32 (16 * r.val))) a + S1x16.size a ≤ S128x128.size a)
instance k0_chk76.dec : ∀ (v2903 : BitVec 32), Decidable (k0_chk76 v2903) := fun v2903 => decidable_of_iff' _ (Iff.of_eq (k0_chk76.eq_1 v2903))
theorem k0_off84_inb : ∀ (v2903 : BitVec 32) (k0_hw76 : k0_chk76 v2903), ∀ (r : Fin 4), ∀ a, (k0_off84 v2903 (BitVec.ofNat 32 (16 * r.val))) a + S1x16.size a ≤ S128x128.size a := fun v2903 k0_hw76 r => k0_hw76 r

def k0_off85 (v2941 : BitVec 32) (c0_i32_1166 : BitVec 32) : Fin 2 → Nat :=
  let c76_i32 : BitVec 32 := 76#32
  let v2943 : Index := Scalar.indexCast c76_i32
  let v2942 : BitVec 32 := Scalar.addi v2941 c0_i32_1166
  let v2944 : Index := Scalar.indexCast v2942
  ![76, v2944.toNat]

def k0_chk77 (v2941 : BitVec 32) : Prop :=
  (∀ (r : Fin 4), ∀ a, (k0_off85 v2941 (BitVec.ofNat 32 (16 * r.val))) a + S1x16.size a ≤ S128x128.size a)
instance k0_chk77.dec : ∀ (v2941 : BitVec 32), Decidable (k0_chk77 v2941) := fun v2941 => decidable_of_iff' _ (Iff.of_eq (k0_chk77.eq_1 v2941))
theorem k0_off85_inb : ∀ (v2941 : BitVec 32) (k0_hw77 : k0_chk77 v2941), ∀ (r : Fin 4), ∀ a, (k0_off85 v2941 (BitVec.ofNat 32 (16 * r.val))) a + S1x16.size a ≤ S128x128.size a := fun v2941 k0_hw77 r => k0_hw77 r

def k0_off86 (v2979 : BitVec 32) (c0_i32_1181 : BitVec 32) : Fin 2 → Nat :=
  let c77_i32 : BitVec 32 := 77#32
  let v2981 : Index := Scalar.indexCast c77_i32
  let v2980 : BitVec 32 := Scalar.addi v2979 c0_i32_1181
  let v2982 : Index := Scalar.indexCast v2980
  ![77, v2982.toNat]

def k0_chk78 (v2979 : BitVec 32) : Prop :=
  (∀ (r : Fin 4), ∀ a, (k0_off86 v2979 (BitVec.ofNat 32 (16 * r.val))) a + S1x16.size a ≤ S128x128.size a)
instance k0_chk78.dec : ∀ (v2979 : BitVec 32), Decidable (k0_chk78 v2979) := fun v2979 => decidable_of_iff' _ (Iff.of_eq (k0_chk78.eq_1 v2979))
theorem k0_off86_inb : ∀ (v2979 : BitVec 32) (k0_hw78 : k0_chk78 v2979), ∀ (r : Fin 4), ∀ a, (k0_off86 v2979 (BitVec.ofNat 32 (16 * r.val))) a + S1x16.size a ≤ S128x128.size a := fun v2979 k0_hw78 r => k0_hw78 r

def k0_off87 (v3017 : BitVec 32) (c0_i32_1196 : BitVec 32) : Fin 2 → Nat :=
  let c78_i32 : BitVec 32 := 78#32
  let v3019 : Index := Scalar.indexCast c78_i32
  let v3018 : BitVec 32 := Scalar.addi v3017 c0_i32_1196
  let v3020 : Index := Scalar.indexCast v3018
  ![78, v3020.toNat]

def k0_chk79 (v3017 : BitVec 32) : Prop :=
  (∀ (r : Fin 4), ∀ a, (k0_off87 v3017 (BitVec.ofNat 32 (16 * r.val))) a + S1x16.size a ≤ S128x128.size a)
instance k0_chk79.dec : ∀ (v3017 : BitVec 32), Decidable (k0_chk79 v3017) := fun v3017 => decidable_of_iff' _ (Iff.of_eq (k0_chk79.eq_1 v3017))
theorem k0_off87_inb : ∀ (v3017 : BitVec 32) (k0_hw79 : k0_chk79 v3017), ∀ (r : Fin 4), ∀ a, (k0_off87 v3017 (BitVec.ofNat 32 (16 * r.val))) a + S1x16.size a ≤ S128x128.size a := fun v3017 k0_hw79 r => k0_hw79 r

def k0_off88 (v3055 : BitVec 32) (c0_i32_1211 : BitVec 32) : Fin 2 → Nat :=
  let c79_i32 : BitVec 32 := 79#32
  let v3057 : Index := Scalar.indexCast c79_i32
  let v3056 : BitVec 32 := Scalar.addi v3055 c0_i32_1211
  let v3058 : Index := Scalar.indexCast v3056
  ![79, v3058.toNat]

def k0_chk80 (v3055 : BitVec 32) : Prop :=
  (∀ (r : Fin 4), ∀ a, (k0_off88 v3055 (BitVec.ofNat 32 (16 * r.val))) a + S1x16.size a ≤ S128x128.size a)
instance k0_chk80.dec : ∀ (v3055 : BitVec 32), Decidable (k0_chk80 v3055) := fun v3055 => decidable_of_iff' _ (Iff.of_eq (k0_chk80.eq_1 v3055))
theorem k0_off88_inb : ∀ (v3055 : BitVec 32) (k0_hw80 : k0_chk80 v3055), ∀ (r : Fin 4), ∀ a, (k0_off88 v3055 (BitVec.ofNat 32 (16 * r.val))) a + S1x16.size a ≤ S128x128.size a := fun v3055 k0_hw80 r => k0_hw80 r

def k0_off89 (k0_t2 : Fin k0_t2_loop.trips) : Fin 1 → Nat :=
  let c0_i32_5 : BitVec 32 := 0#32
  let c0_i32_1 : BitVec 32 := 0#32
  let c1_i32_2 : BitVec 32 := 1#32
  let arg10 : BitVec 32 := Scf.iv c0_i32_1 c1_i32_2 k0_t2
  let c1_i32_4 : BitVec 32 := 1#32
  let v5 : BitVec 32 := Scalar.muli arg10 c1_i32_4
  let v6 : BitVec 32 := Scalar.addi c0_i32_5 v5
  let c128_i32 : BitVec 32 := 128#32
  let v7 : BitVec 32 := Scalar.muli v6 c128_i32
  let c80_i32 : BitVec 32 := 80#32
  let v3092 : BitVec 32 := Scalar.addi v7 c80_i32
  let v3093 : Index := Scalar.indexCast v3092
  ![v3093.toNat]
def k0_off90 (v3101 : BitVec 32) (c0_i32_1228 : BitVec 32) : Fin 2 → Nat :=
  let c80_i32_1229 : BitVec 32 := 80#32
  let v3103 : Index := Scalar.indexCast c80_i32_1229
  let v3102 : BitVec 32 := Scalar.addi v3101 c0_i32_1228
  let v3104 : Index := Scalar.indexCast v3102
  ![80, v3104.toNat]

def k0_chk81 (v3101 : BitVec 32) : Prop :=
  (∀ (r : Fin 4), ∀ a, (k0_off90 v3101 (BitVec.ofNat 32 (16 * r.val))) a + S1x16.size a ≤ S128x128.size a)
instance k0_chk81.dec : ∀ (v3101 : BitVec 32), Decidable (k0_chk81 v3101) := fun v3101 => decidable_of_iff' _ (Iff.of_eq (k0_chk81.eq_1 v3101))
theorem k0_off90_inb : ∀ (v3101 : BitVec 32) (k0_hw81 : k0_chk81 v3101), ∀ (r : Fin 4), ∀ a, (k0_off90 v3101 (BitVec.ofNat 32 (16 * r.val))) a + S1x16.size a ≤ S128x128.size a := fun v3101 k0_hw81 r => k0_hw81 r

def k0_off91 (v3139 : BitVec 32) (c0_i32_1244 : BitVec 32) : Fin 2 → Nat :=
  let c81_i32 : BitVec 32 := 81#32
  let v3141 : Index := Scalar.indexCast c81_i32
  let v3140 : BitVec 32 := Scalar.addi v3139 c0_i32_1244
  let v3142 : Index := Scalar.indexCast v3140
  ![81, v3142.toNat]

def k0_chk82 (v3139 : BitVec 32) : Prop :=
  (∀ (r : Fin 4), ∀ a, (k0_off91 v3139 (BitVec.ofNat 32 (16 * r.val))) a + S1x16.size a ≤ S128x128.size a)
instance k0_chk82.dec : ∀ (v3139 : BitVec 32), Decidable (k0_chk82 v3139) := fun v3139 => decidable_of_iff' _ (Iff.of_eq (k0_chk82.eq_1 v3139))
theorem k0_off91_inb : ∀ (v3139 : BitVec 32) (k0_hw82 : k0_chk82 v3139), ∀ (r : Fin 4), ∀ a, (k0_off91 v3139 (BitVec.ofNat 32 (16 * r.val))) a + S1x16.size a ≤ S128x128.size a := fun v3139 k0_hw82 r => k0_hw82 r

def k0_off92 (v3177 : BitVec 32) (c0_i32_1259 : BitVec 32) : Fin 2 → Nat :=
  let c82_i32 : BitVec 32 := 82#32
  let v3179 : Index := Scalar.indexCast c82_i32
  let v3178 : BitVec 32 := Scalar.addi v3177 c0_i32_1259
  let v3180 : Index := Scalar.indexCast v3178
  ![82, v3180.toNat]

def k0_chk83 (v3177 : BitVec 32) : Prop :=
  (∀ (r : Fin 4), ∀ a, (k0_off92 v3177 (BitVec.ofNat 32 (16 * r.val))) a + S1x16.size a ≤ S128x128.size a)
instance k0_chk83.dec : ∀ (v3177 : BitVec 32), Decidable (k0_chk83 v3177) := fun v3177 => decidable_of_iff' _ (Iff.of_eq (k0_chk83.eq_1 v3177))
theorem k0_off92_inb : ∀ (v3177 : BitVec 32) (k0_hw83 : k0_chk83 v3177), ∀ (r : Fin 4), ∀ a, (k0_off92 v3177 (BitVec.ofNat 32 (16 * r.val))) a + S1x16.size a ≤ S128x128.size a := fun v3177 k0_hw83 r => k0_hw83 r

def k0_off93 (v3215 : BitVec 32) (c0_i32_1274 : BitVec 32) : Fin 2 → Nat :=
  let c83_i32 : BitVec 32 := 83#32
  let v3217 : Index := Scalar.indexCast c83_i32
  let v3216 : BitVec 32 := Scalar.addi v3215 c0_i32_1274
  let v3218 : Index := Scalar.indexCast v3216
  ![83, v3218.toNat]

def k0_chk84 (v3215 : BitVec 32) : Prop :=
  (∀ (r : Fin 4), ∀ a, (k0_off93 v3215 (BitVec.ofNat 32 (16 * r.val))) a + S1x16.size a ≤ S128x128.size a)
instance k0_chk84.dec : ∀ (v3215 : BitVec 32), Decidable (k0_chk84 v3215) := fun v3215 => decidable_of_iff' _ (Iff.of_eq (k0_chk84.eq_1 v3215))
theorem k0_off93_inb : ∀ (v3215 : BitVec 32) (k0_hw84 : k0_chk84 v3215), ∀ (r : Fin 4), ∀ a, (k0_off93 v3215 (BitVec.ofNat 32 (16 * r.val))) a + S1x16.size a ≤ S128x128.size a := fun v3215 k0_hw84 r => k0_hw84 r

def k0_off94 (v3253 : BitVec 32) (c0_i32_1289 : BitVec 32) : Fin 2 → Nat :=
  let c84_i32 : BitVec 32 := 84#32
  let v3255 : Index := Scalar.indexCast c84_i32
  let v3254 : BitVec 32 := Scalar.addi v3253 c0_i32_1289
  let v3256 : Index := Scalar.indexCast v3254
  ![84, v3256.toNat]

def k0_chk85 (v3253 : BitVec 32) : Prop :=
  (∀ (r : Fin 4), ∀ a, (k0_off94 v3253 (BitVec.ofNat 32 (16 * r.val))) a + S1x16.size a ≤ S128x128.size a)
instance k0_chk85.dec : ∀ (v3253 : BitVec 32), Decidable (k0_chk85 v3253) := fun v3253 => decidable_of_iff' _ (Iff.of_eq (k0_chk85.eq_1 v3253))
theorem k0_off94_inb : ∀ (v3253 : BitVec 32) (k0_hw85 : k0_chk85 v3253), ∀ (r : Fin 4), ∀ a, (k0_off94 v3253 (BitVec.ofNat 32 (16 * r.val))) a + S1x16.size a ≤ S128x128.size a := fun v3253 k0_hw85 r => k0_hw85 r

def k0_off95 (v3291 : BitVec 32) (c0_i32_1304 : BitVec 32) : Fin 2 → Nat :=
  let c85_i32 : BitVec 32 := 85#32
  let v3293 : Index := Scalar.indexCast c85_i32
  let v3292 : BitVec 32 := Scalar.addi v3291 c0_i32_1304
  let v3294 : Index := Scalar.indexCast v3292
  ![85, v3294.toNat]

def k0_chk86 (v3291 : BitVec 32) : Prop :=
  (∀ (r : Fin 4), ∀ a, (k0_off95 v3291 (BitVec.ofNat 32 (16 * r.val))) a + S1x16.size a ≤ S128x128.size a)
instance k0_chk86.dec : ∀ (v3291 : BitVec 32), Decidable (k0_chk86 v3291) := fun v3291 => decidable_of_iff' _ (Iff.of_eq (k0_chk86.eq_1 v3291))
theorem k0_off95_inb : ∀ (v3291 : BitVec 32) (k0_hw86 : k0_chk86 v3291), ∀ (r : Fin 4), ∀ a, (k0_off95 v3291 (BitVec.ofNat 32 (16 * r.val))) a + S1x16.size a ≤ S128x128.size a := fun v3291 k0_hw86 r => k0_hw86 r

def k0_off96 (v3329 : BitVec 32) (c0_i32_1319 : BitVec 32) : Fin 2 → Nat :=
  let c86_i32 : BitVec 32 := 86#32
  let v3331 : Index := Scalar.indexCast c86_i32
  let v3330 : BitVec 32 := Scalar.addi v3329 c0_i32_1319
  let v3332 : Index := Scalar.indexCast v3330
  ![86, v3332.toNat]

def k0_chk87 (v3329 : BitVec 32) : Prop :=
  (∀ (r : Fin 4), ∀ a, (k0_off96 v3329 (BitVec.ofNat 32 (16 * r.val))) a + S1x16.size a ≤ S128x128.size a)
instance k0_chk87.dec : ∀ (v3329 : BitVec 32), Decidable (k0_chk87 v3329) := fun v3329 => decidable_of_iff' _ (Iff.of_eq (k0_chk87.eq_1 v3329))
theorem k0_off96_inb : ∀ (v3329 : BitVec 32) (k0_hw87 : k0_chk87 v3329), ∀ (r : Fin 4), ∀ a, (k0_off96 v3329 (BitVec.ofNat 32 (16 * r.val))) a + S1x16.size a ≤ S128x128.size a := fun v3329 k0_hw87 r => k0_hw87 r

def k0_off97 (v3367 : BitVec 32) (c0_i32_1334 : BitVec 32) : Fin 2 → Nat :=
  let c87_i32 : BitVec 32 := 87#32
  let v3369 : Index := Scalar.indexCast c87_i32
  let v3368 : BitVec 32 := Scalar.addi v3367 c0_i32_1334
  let v3370 : Index := Scalar.indexCast v3368
  ![87, v3370.toNat]

def k0_chk88 (v3367 : BitVec 32) : Prop :=
  (∀ (r : Fin 4), ∀ a, (k0_off97 v3367 (BitVec.ofNat 32 (16 * r.val))) a + S1x16.size a ≤ S128x128.size a)
instance k0_chk88.dec : ∀ (v3367 : BitVec 32), Decidable (k0_chk88 v3367) := fun v3367 => decidable_of_iff' _ (Iff.of_eq (k0_chk88.eq_1 v3367))
theorem k0_off97_inb : ∀ (v3367 : BitVec 32) (k0_hw88 : k0_chk88 v3367), ∀ (r : Fin 4), ∀ a, (k0_off97 v3367 (BitVec.ofNat 32 (16 * r.val))) a + S1x16.size a ≤ S128x128.size a := fun v3367 k0_hw88 r => k0_hw88 r

def k0_off98 (v3405 : BitVec 32) (c0_i32_1349 : BitVec 32) : Fin 2 → Nat :=
  let c88_i32 : BitVec 32 := 88#32
  let v3407 : Index := Scalar.indexCast c88_i32
  let v3406 : BitVec 32 := Scalar.addi v3405 c0_i32_1349
  let v3408 : Index := Scalar.indexCast v3406
  ![88, v3408.toNat]

def k0_chk89 (v3405 : BitVec 32) : Prop :=
  (∀ (r : Fin 4), ∀ a, (k0_off98 v3405 (BitVec.ofNat 32 (16 * r.val))) a + S1x16.size a ≤ S128x128.size a)
instance k0_chk89.dec : ∀ (v3405 : BitVec 32), Decidable (k0_chk89 v3405) := fun v3405 => decidable_of_iff' _ (Iff.of_eq (k0_chk89.eq_1 v3405))
theorem k0_off98_inb : ∀ (v3405 : BitVec 32) (k0_hw89 : k0_chk89 v3405), ∀ (r : Fin 4), ∀ a, (k0_off98 v3405 (BitVec.ofNat 32 (16 * r.val))) a + S1x16.size a ≤ S128x128.size a := fun v3405 k0_hw89 r => k0_hw89 r

def k0_off99 (v3443 : BitVec 32) (c0_i32_1364 : BitVec 32) : Fin 2 → Nat :=
  let c89_i32 : BitVec 32 := 89#32
  let v3445 : Index := Scalar.indexCast c89_i32
  let v3444 : BitVec 32 := Scalar.addi v3443 c0_i32_1364
  let v3446 : Index := Scalar.indexCast v3444
  ![89, v3446.toNat]

def k0_chk90 (v3443 : BitVec 32) : Prop :=
  (∀ (r : Fin 4), ∀ a, (k0_off99 v3443 (BitVec.ofNat 32 (16 * r.val))) a + S1x16.size a ≤ S128x128.size a)
instance k0_chk90.dec : ∀ (v3443 : BitVec 32), Decidable (k0_chk90 v3443) := fun v3443 => decidable_of_iff' _ (Iff.of_eq (k0_chk90.eq_1 v3443))
theorem k0_off99_inb : ∀ (v3443 : BitVec 32) (k0_hw90 : k0_chk90 v3443), ∀ (r : Fin 4), ∀ a, (k0_off99 v3443 (BitVec.ofNat 32 (16 * r.val))) a + S1x16.size a ≤ S128x128.size a := fun v3443 k0_hw90 r => k0_hw90 r

def k0_off100 (v3481 : BitVec 32) (c0_i32_1379 : BitVec 32) : Fin 2 → Nat :=
  let c90_i32 : BitVec 32 := 90#32
  let v3483 : Index := Scalar.indexCast c90_i32
  let v3482 : BitVec 32 := Scalar.addi v3481 c0_i32_1379
  let v3484 : Index := Scalar.indexCast v3482
  ![90, v3484.toNat]

def k0_chk91 (v3481 : BitVec 32) : Prop :=
  (∀ (r : Fin 4), ∀ a, (k0_off100 v3481 (BitVec.ofNat 32 (16 * r.val))) a + S1x16.size a ≤ S128x128.size a)
instance k0_chk91.dec : ∀ (v3481 : BitVec 32), Decidable (k0_chk91 v3481) := fun v3481 => decidable_of_iff' _ (Iff.of_eq (k0_chk91.eq_1 v3481))
theorem k0_off100_inb : ∀ (v3481 : BitVec 32) (k0_hw91 : k0_chk91 v3481), ∀ (r : Fin 4), ∀ a, (k0_off100 v3481 (BitVec.ofNat 32 (16 * r.val))) a + S1x16.size a ≤ S128x128.size a := fun v3481 k0_hw91 r => k0_hw91 r

def k0_off101 (v3519 : BitVec 32) (c0_i32_1394 : BitVec 32) : Fin 2 → Nat :=
  let c91_i32 : BitVec 32 := 91#32
  let v3521 : Index := Scalar.indexCast c91_i32
  let v3520 : BitVec 32 := Scalar.addi v3519 c0_i32_1394
  let v3522 : Index := Scalar.indexCast v3520
  ![91, v3522.toNat]

def k0_chk92 (v3519 : BitVec 32) : Prop :=
  (∀ (r : Fin 4), ∀ a, (k0_off101 v3519 (BitVec.ofNat 32 (16 * r.val))) a + S1x16.size a ≤ S128x128.size a)
instance k0_chk92.dec : ∀ (v3519 : BitVec 32), Decidable (k0_chk92 v3519) := fun v3519 => decidable_of_iff' _ (Iff.of_eq (k0_chk92.eq_1 v3519))
theorem k0_off101_inb : ∀ (v3519 : BitVec 32) (k0_hw92 : k0_chk92 v3519), ∀ (r : Fin 4), ∀ a, (k0_off101 v3519 (BitVec.ofNat 32 (16 * r.val))) a + S1x16.size a ≤ S128x128.size a := fun v3519 k0_hw92 r => k0_hw92 r

def k0_off102 (v3557 : BitVec 32) (c0_i32_1409 : BitVec 32) : Fin 2 → Nat :=
  let c92_i32 : BitVec 32 := 92#32
  let v3559 : Index := Scalar.indexCast c92_i32
  let v3558 : BitVec 32 := Scalar.addi v3557 c0_i32_1409
  let v3560 : Index := Scalar.indexCast v3558
  ![92, v3560.toNat]

def k0_chk93 (v3557 : BitVec 32) : Prop :=
  (∀ (r : Fin 4), ∀ a, (k0_off102 v3557 (BitVec.ofNat 32 (16 * r.val))) a + S1x16.size a ≤ S128x128.size a)
instance k0_chk93.dec : ∀ (v3557 : BitVec 32), Decidable (k0_chk93 v3557) := fun v3557 => decidable_of_iff' _ (Iff.of_eq (k0_chk93.eq_1 v3557))
theorem k0_off102_inb : ∀ (v3557 : BitVec 32) (k0_hw93 : k0_chk93 v3557), ∀ (r : Fin 4), ∀ a, (k0_off102 v3557 (BitVec.ofNat 32 (16 * r.val))) a + S1x16.size a ≤ S128x128.size a := fun v3557 k0_hw93 r => k0_hw93 r

def k0_off103 (v3595 : BitVec 32) (c0_i32_1424 : BitVec 32) : Fin 2 → Nat :=
  let c93_i32 : BitVec 32 := 93#32
  let v3597 : Index := Scalar.indexCast c93_i32
  let v3596 : BitVec 32 := Scalar.addi v3595 c0_i32_1424
  let v3598 : Index := Scalar.indexCast v3596
  ![93, v3598.toNat]

def k0_chk94 (v3595 : BitVec 32) : Prop :=
  (∀ (r : Fin 4), ∀ a, (k0_off103 v3595 (BitVec.ofNat 32 (16 * r.val))) a + S1x16.size a ≤ S128x128.size a)
instance k0_chk94.dec : ∀ (v3595 : BitVec 32), Decidable (k0_chk94 v3595) := fun v3595 => decidable_of_iff' _ (Iff.of_eq (k0_chk94.eq_1 v3595))
theorem k0_off103_inb : ∀ (v3595 : BitVec 32) (k0_hw94 : k0_chk94 v3595), ∀ (r : Fin 4), ∀ a, (k0_off103 v3595 (BitVec.ofNat 32 (16 * r.val))) a + S1x16.size a ≤ S128x128.size a := fun v3595 k0_hw94 r => k0_hw94 r

def k0_off104 (v3633 : BitVec 32) (c0_i32_1439 : BitVec 32) : Fin 2 → Nat :=
  let c94_i32 : BitVec 32 := 94#32
  let v3635 : Index := Scalar.indexCast c94_i32
  let v3634 : BitVec 32 := Scalar.addi v3633 c0_i32_1439
  let v3636 : Index := Scalar.indexCast v3634
  ![94, v3636.toNat]

def k0_chk95 (v3633 : BitVec 32) : Prop :=
  (∀ (r : Fin 4), ∀ a, (k0_off104 v3633 (BitVec.ofNat 32 (16 * r.val))) a + S1x16.size a ≤ S128x128.size a)
instance k0_chk95.dec : ∀ (v3633 : BitVec 32), Decidable (k0_chk95 v3633) := fun v3633 => decidable_of_iff' _ (Iff.of_eq (k0_chk95.eq_1 v3633))
theorem k0_off104_inb : ∀ (v3633 : BitVec 32) (k0_hw95 : k0_chk95 v3633), ∀ (r : Fin 4), ∀ a, (k0_off104 v3633 (BitVec.ofNat 32 (16 * r.val))) a + S1x16.size a ≤ S128x128.size a := fun v3633 k0_hw95 r => k0_hw95 r

def k0_off105 (v3671 : BitVec 32) (c0_i32_1454 : BitVec 32) : Fin 2 → Nat :=
  let c95_i32 : BitVec 32 := 95#32
  let v3673 : Index := Scalar.indexCast c95_i32
  let v3672 : BitVec 32 := Scalar.addi v3671 c0_i32_1454
  let v3674 : Index := Scalar.indexCast v3672
  ![95, v3674.toNat]

def k0_chk96 (v3671 : BitVec 32) : Prop :=
  (∀ (r : Fin 4), ∀ a, (k0_off105 v3671 (BitVec.ofNat 32 (16 * r.val))) a + S1x16.size a ≤ S128x128.size a)
instance k0_chk96.dec : ∀ (v3671 : BitVec 32), Decidable (k0_chk96 v3671) := fun v3671 => decidable_of_iff' _ (Iff.of_eq (k0_chk96.eq_1 v3671))
theorem k0_off105_inb : ∀ (v3671 : BitVec 32) (k0_hw96 : k0_chk96 v3671), ∀ (r : Fin 4), ∀ a, (k0_off105 v3671 (BitVec.ofNat 32 (16 * r.val))) a + S1x16.size a ≤ S128x128.size a := fun v3671 k0_hw96 r => k0_hw96 r

def k0_off106 (k0_t2 : Fin k0_t2_loop.trips) : Fin 1 → Nat :=
  let c0_i32_5 : BitVec 32 := 0#32
  let c0_i32_1 : BitVec 32 := 0#32
  let c1_i32_2 : BitVec 32 := 1#32
  let arg10 : BitVec 32 := Scf.iv c0_i32_1 c1_i32_2 k0_t2
  let c1_i32_4 : BitVec 32 := 1#32
  let v5 : BitVec 32 := Scalar.muli arg10 c1_i32_4
  let v6 : BitVec 32 := Scalar.addi c0_i32_5 v5
  let c128_i32 : BitVec 32 := 128#32
  let v7 : BitVec 32 := Scalar.muli v6 c128_i32
  let c96_i32 : BitVec 32 := 96#32
  let v3708 : BitVec 32 := Scalar.addi v7 c96_i32
  let v3709 : Index := Scalar.indexCast v3708
  ![v3709.toNat]
def k0_off107 (v3717 : BitVec 32) (c0_i32_1471 : BitVec 32) : Fin 2 → Nat :=
  let c96_i32_1472 : BitVec 32 := 96#32
  let v3719 : Index := Scalar.indexCast c96_i32_1472
  let v3718 : BitVec 32 := Scalar.addi v3717 c0_i32_1471
  let v3720 : Index := Scalar.indexCast v3718
  ![96, v3720.toNat]

def k0_chk97 (v3717 : BitVec 32) : Prop :=
  (∀ (r : Fin 4), ∀ a, (k0_off107 v3717 (BitVec.ofNat 32 (16 * r.val))) a + S1x16.size a ≤ S128x128.size a)
instance k0_chk97.dec : ∀ (v3717 : BitVec 32), Decidable (k0_chk97 v3717) := fun v3717 => decidable_of_iff' _ (Iff.of_eq (k0_chk97.eq_1 v3717))
theorem k0_off107_inb : ∀ (v3717 : BitVec 32) (k0_hw97 : k0_chk97 v3717), ∀ (r : Fin 4), ∀ a, (k0_off107 v3717 (BitVec.ofNat 32 (16 * r.val))) a + S1x16.size a ≤ S128x128.size a := fun v3717 k0_hw97 r => k0_hw97 r

def k0_off108 (v3755 : BitVec 32) (c0_i32_1487 : BitVec 32) : Fin 2 → Nat :=
  let c97_i32 : BitVec 32 := 97#32
  let v3757 : Index := Scalar.indexCast c97_i32
  let v3756 : BitVec 32 := Scalar.addi v3755 c0_i32_1487
  let v3758 : Index := Scalar.indexCast v3756
  ![97, v3758.toNat]

def k0_chk98 (v3755 : BitVec 32) : Prop :=
  (∀ (r : Fin 4), ∀ a, (k0_off108 v3755 (BitVec.ofNat 32 (16 * r.val))) a + S1x16.size a ≤ S128x128.size a)
instance k0_chk98.dec : ∀ (v3755 : BitVec 32), Decidable (k0_chk98 v3755) := fun v3755 => decidable_of_iff' _ (Iff.of_eq (k0_chk98.eq_1 v3755))
theorem k0_off108_inb : ∀ (v3755 : BitVec 32) (k0_hw98 : k0_chk98 v3755), ∀ (r : Fin 4), ∀ a, (k0_off108 v3755 (BitVec.ofNat 32 (16 * r.val))) a + S1x16.size a ≤ S128x128.size a := fun v3755 k0_hw98 r => k0_hw98 r

def k0_off109 (v3793 : BitVec 32) (c0_i32_1502 : BitVec 32) : Fin 2 → Nat :=
  let c98_i32 : BitVec 32 := 98#32
  let v3795 : Index := Scalar.indexCast c98_i32
  let v3794 : BitVec 32 := Scalar.addi v3793 c0_i32_1502
  let v3796 : Index := Scalar.indexCast v3794
  ![98, v3796.toNat]

def k0_chk99 (v3793 : BitVec 32) : Prop :=
  (∀ (r : Fin 4), ∀ a, (k0_off109 v3793 (BitVec.ofNat 32 (16 * r.val))) a + S1x16.size a ≤ S128x128.size a)
instance k0_chk99.dec : ∀ (v3793 : BitVec 32), Decidable (k0_chk99 v3793) := fun v3793 => decidable_of_iff' _ (Iff.of_eq (k0_chk99.eq_1 v3793))
theorem k0_off109_inb : ∀ (v3793 : BitVec 32) (k0_hw99 : k0_chk99 v3793), ∀ (r : Fin 4), ∀ a, (k0_off109 v3793 (BitVec.ofNat 32 (16 * r.val))) a + S1x16.size a ≤ S128x128.size a := fun v3793 k0_hw99 r => k0_hw99 r

def k0_off110 (v3831 : BitVec 32) (c0_i32_1517 : BitVec 32) : Fin 2 → Nat :=
  let c99_i32 : BitVec 32 := 99#32
  let v3833 : Index := Scalar.indexCast c99_i32
  let v3832 : BitVec 32 := Scalar.addi v3831 c0_i32_1517
  let v3834 : Index := Scalar.indexCast v3832
  ![99, v3834.toNat]

def k0_chk100 (v3831 : BitVec 32) : Prop :=
  (∀ (r : Fin 4), ∀ a, (k0_off110 v3831 (BitVec.ofNat 32 (16 * r.val))) a + S1x16.size a ≤ S128x128.size a)
instance k0_chk100.dec : ∀ (v3831 : BitVec 32), Decidable (k0_chk100 v3831) := fun v3831 => decidable_of_iff' _ (Iff.of_eq (k0_chk100.eq_1 v3831))
theorem k0_off110_inb : ∀ (v3831 : BitVec 32) (k0_hw100 : k0_chk100 v3831), ∀ (r : Fin 4), ∀ a, (k0_off110 v3831 (BitVec.ofNat 32 (16 * r.val))) a + S1x16.size a ≤ S128x128.size a := fun v3831 k0_hw100 r => k0_hw100 r

def k0_off111 (v3869 : BitVec 32) (c0_i32_1532 : BitVec 32) : Fin 2 → Nat :=
  let c100_i32 : BitVec 32 := 100#32
  let v3871 : Index := Scalar.indexCast c100_i32
  let v3870 : BitVec 32 := Scalar.addi v3869 c0_i32_1532
  let v3872 : Index := Scalar.indexCast v3870
  ![100, v3872.toNat]

def k0_chk101 (v3869 : BitVec 32) : Prop :=
  (∀ (r : Fin 4), ∀ a, (k0_off111 v3869 (BitVec.ofNat 32 (16 * r.val))) a + S1x16.size a ≤ S128x128.size a)
instance k0_chk101.dec : ∀ (v3869 : BitVec 32), Decidable (k0_chk101 v3869) := fun v3869 => decidable_of_iff' _ (Iff.of_eq (k0_chk101.eq_1 v3869))
theorem k0_off111_inb : ∀ (v3869 : BitVec 32) (k0_hw101 : k0_chk101 v3869), ∀ (r : Fin 4), ∀ a, (k0_off111 v3869 (BitVec.ofNat 32 (16 * r.val))) a + S1x16.size a ≤ S128x128.size a := fun v3869 k0_hw101 r => k0_hw101 r

def k0_off112 (v3907 : BitVec 32) (c0_i32_1547 : BitVec 32) : Fin 2 → Nat :=
  let c101_i32 : BitVec 32 := 101#32
  let v3909 : Index := Scalar.indexCast c101_i32
  let v3908 : BitVec 32 := Scalar.addi v3907 c0_i32_1547
  let v3910 : Index := Scalar.indexCast v3908
  ![101, v3910.toNat]

def k0_chk102 (v3907 : BitVec 32) : Prop :=
  (∀ (r : Fin 4), ∀ a, (k0_off112 v3907 (BitVec.ofNat 32 (16 * r.val))) a + S1x16.size a ≤ S128x128.size a)
instance k0_chk102.dec : ∀ (v3907 : BitVec 32), Decidable (k0_chk102 v3907) := fun v3907 => decidable_of_iff' _ (Iff.of_eq (k0_chk102.eq_1 v3907))
theorem k0_off112_inb : ∀ (v3907 : BitVec 32) (k0_hw102 : k0_chk102 v3907), ∀ (r : Fin 4), ∀ a, (k0_off112 v3907 (BitVec.ofNat 32 (16 * r.val))) a + S1x16.size a ≤ S128x128.size a := fun v3907 k0_hw102 r => k0_hw102 r

def k0_off113 (v3945 : BitVec 32) (c0_i32_1562 : BitVec 32) : Fin 2 → Nat :=
  let c102_i32 : BitVec 32 := 102#32
  let v3947 : Index := Scalar.indexCast c102_i32
  let v3946 : BitVec 32 := Scalar.addi v3945 c0_i32_1562
  let v3948 : Index := Scalar.indexCast v3946
  ![102, v3948.toNat]

def k0_chk103 (v3945 : BitVec 32) : Prop :=
  (∀ (r : Fin 4), ∀ a, (k0_off113 v3945 (BitVec.ofNat 32 (16 * r.val))) a + S1x16.size a ≤ S128x128.size a)
instance k0_chk103.dec : ∀ (v3945 : BitVec 32), Decidable (k0_chk103 v3945) := fun v3945 => decidable_of_iff' _ (Iff.of_eq (k0_chk103.eq_1 v3945))
theorem k0_off113_inb : ∀ (v3945 : BitVec 32) (k0_hw103 : k0_chk103 v3945), ∀ (r : Fin 4), ∀ a, (k0_off113 v3945 (BitVec.ofNat 32 (16 * r.val))) a + S1x16.size a ≤ S128x128.size a := fun v3945 k0_hw103 r => k0_hw103 r

def k0_off114 (v3983 : BitVec 32) (c0_i32_1577 : BitVec 32) : Fin 2 → Nat :=
  let c103_i32 : BitVec 32 := 103#32
  let v3985 : Index := Scalar.indexCast c103_i32
  let v3984 : BitVec 32 := Scalar.addi v3983 c0_i32_1577
  let v3986 : Index := Scalar.indexCast v3984
  ![103, v3986.toNat]

def k0_chk104 (v3983 : BitVec 32) : Prop :=
  (∀ (r : Fin 4), ∀ a, (k0_off114 v3983 (BitVec.ofNat 32 (16 * r.val))) a + S1x16.size a ≤ S128x128.size a)
instance k0_chk104.dec : ∀ (v3983 : BitVec 32), Decidable (k0_chk104 v3983) := fun v3983 => decidable_of_iff' _ (Iff.of_eq (k0_chk104.eq_1 v3983))
theorem k0_off114_inb : ∀ (v3983 : BitVec 32) (k0_hw104 : k0_chk104 v3983), ∀ (r : Fin 4), ∀ a, (k0_off114 v3983 (BitVec.ofNat 32 (16 * r.val))) a + S1x16.size a ≤ S128x128.size a := fun v3983 k0_hw104 r => k0_hw104 r

def k0_off115 (v4021 : BitVec 32) (c0_i32_1592 : BitVec 32) : Fin 2 → Nat :=
  let c104_i32 : BitVec 32 := 104#32
  let v4023 : Index := Scalar.indexCast c104_i32
  let v4022 : BitVec 32 := Scalar.addi v4021 c0_i32_1592
  let v4024 : Index := Scalar.indexCast v4022
  ![104, v4024.toNat]

def k0_chk105 (v4021 : BitVec 32) : Prop :=
  (∀ (r : Fin 4), ∀ a, (k0_off115 v4021 (BitVec.ofNat 32 (16 * r.val))) a + S1x16.size a ≤ S128x128.size a)
instance k0_chk105.dec : ∀ (v4021 : BitVec 32), Decidable (k0_chk105 v4021) := fun v4021 => decidable_of_iff' _ (Iff.of_eq (k0_chk105.eq_1 v4021))
theorem k0_off115_inb : ∀ (v4021 : BitVec 32) (k0_hw105 : k0_chk105 v4021), ∀ (r : Fin 4), ∀ a, (k0_off115 v4021 (BitVec.ofNat 32 (16 * r.val))) a + S1x16.size a ≤ S128x128.size a := fun v4021 k0_hw105 r => k0_hw105 r

def k0_off116 (v4059 : BitVec 32) (c0_i32_1607 : BitVec 32) : Fin 2 → Nat :=
  let c105_i32 : BitVec 32 := 105#32
  let v4061 : Index := Scalar.indexCast c105_i32
  let v4060 : BitVec 32 := Scalar.addi v4059 c0_i32_1607
  let v4062 : Index := Scalar.indexCast v4060
  ![105, v4062.toNat]

def k0_chk106 (v4059 : BitVec 32) : Prop :=
  (∀ (r : Fin 4), ∀ a, (k0_off116 v4059 (BitVec.ofNat 32 (16 * r.val))) a + S1x16.size a ≤ S128x128.size a)
instance k0_chk106.dec : ∀ (v4059 : BitVec 32), Decidable (k0_chk106 v4059) := fun v4059 => decidable_of_iff' _ (Iff.of_eq (k0_chk106.eq_1 v4059))
theorem k0_off116_inb : ∀ (v4059 : BitVec 32) (k0_hw106 : k0_chk106 v4059), ∀ (r : Fin 4), ∀ a, (k0_off116 v4059 (BitVec.ofNat 32 (16 * r.val))) a + S1x16.size a ≤ S128x128.size a := fun v4059 k0_hw106 r => k0_hw106 r

def k0_off117 (v4097 : BitVec 32) (c0_i32_1622 : BitVec 32) : Fin 2 → Nat :=
  let c106_i32 : BitVec 32 := 106#32
  let v4099 : Index := Scalar.indexCast c106_i32
  let v4098 : BitVec 32 := Scalar.addi v4097 c0_i32_1622
  let v4100 : Index := Scalar.indexCast v4098
  ![106, v4100.toNat]

def k0_chk107 (v4097 : BitVec 32) : Prop :=
  (∀ (r : Fin 4), ∀ a, (k0_off117 v4097 (BitVec.ofNat 32 (16 * r.val))) a + S1x16.size a ≤ S128x128.size a)
instance k0_chk107.dec : ∀ (v4097 : BitVec 32), Decidable (k0_chk107 v4097) := fun v4097 => decidable_of_iff' _ (Iff.of_eq (k0_chk107.eq_1 v4097))
theorem k0_off117_inb : ∀ (v4097 : BitVec 32) (k0_hw107 : k0_chk107 v4097), ∀ (r : Fin 4), ∀ a, (k0_off117 v4097 (BitVec.ofNat 32 (16 * r.val))) a + S1x16.size a ≤ S128x128.size a := fun v4097 k0_hw107 r => k0_hw107 r

def k0_off118 (v4135 : BitVec 32) (c0_i32_1637 : BitVec 32) : Fin 2 → Nat :=
  let c107_i32 : BitVec 32 := 107#32
  let v4137 : Index := Scalar.indexCast c107_i32
  let v4136 : BitVec 32 := Scalar.addi v4135 c0_i32_1637
  let v4138 : Index := Scalar.indexCast v4136
  ![107, v4138.toNat]

def k0_chk108 (v4135 : BitVec 32) : Prop :=
  (∀ (r : Fin 4), ∀ a, (k0_off118 v4135 (BitVec.ofNat 32 (16 * r.val))) a + S1x16.size a ≤ S128x128.size a)
instance k0_chk108.dec : ∀ (v4135 : BitVec 32), Decidable (k0_chk108 v4135) := fun v4135 => decidable_of_iff' _ (Iff.of_eq (k0_chk108.eq_1 v4135))
theorem k0_off118_inb : ∀ (v4135 : BitVec 32) (k0_hw108 : k0_chk108 v4135), ∀ (r : Fin 4), ∀ a, (k0_off118 v4135 (BitVec.ofNat 32 (16 * r.val))) a + S1x16.size a ≤ S128x128.size a := fun v4135 k0_hw108 r => k0_hw108 r

def k0_off119 (v4173 : BitVec 32) (c0_i32_1652 : BitVec 32) : Fin 2 → Nat :=
  let c108_i32 : BitVec 32 := 108#32
  let v4175 : Index := Scalar.indexCast c108_i32
  let v4174 : BitVec 32 := Scalar.addi v4173 c0_i32_1652
  let v4176 : Index := Scalar.indexCast v4174
  ![108, v4176.toNat]

def k0_chk109 (v4173 : BitVec 32) : Prop :=
  (∀ (r : Fin 4), ∀ a, (k0_off119 v4173 (BitVec.ofNat 32 (16 * r.val))) a + S1x16.size a ≤ S128x128.size a)
instance k0_chk109.dec : ∀ (v4173 : BitVec 32), Decidable (k0_chk109 v4173) := fun v4173 => decidable_of_iff' _ (Iff.of_eq (k0_chk109.eq_1 v4173))
theorem k0_off119_inb : ∀ (v4173 : BitVec 32) (k0_hw109 : k0_chk109 v4173), ∀ (r : Fin 4), ∀ a, (k0_off119 v4173 (BitVec.ofNat 32 (16 * r.val))) a + S1x16.size a ≤ S128x128.size a := fun v4173 k0_hw109 r => k0_hw109 r

def k0_off120 (v4211 : BitVec 32) (c0_i32_1667 : BitVec 32) : Fin 2 → Nat :=
  let c109_i32 : BitVec 32 := 109#32
  let v4213 : Index := Scalar.indexCast c109_i32
  let v4212 : BitVec 32 := Scalar.addi v4211 c0_i32_1667
  let v4214 : Index := Scalar.indexCast v4212
  ![109, v4214.toNat]

def k0_chk110 (v4211 : BitVec 32) : Prop :=
  (∀ (r : Fin 4), ∀ a, (k0_off120 v4211 (BitVec.ofNat 32 (16 * r.val))) a + S1x16.size a ≤ S128x128.size a)
instance k0_chk110.dec : ∀ (v4211 : BitVec 32), Decidable (k0_chk110 v4211) := fun v4211 => decidable_of_iff' _ (Iff.of_eq (k0_chk110.eq_1 v4211))
theorem k0_off120_inb : ∀ (v4211 : BitVec 32) (k0_hw110 : k0_chk110 v4211), ∀ (r : Fin 4), ∀ a, (k0_off120 v4211 (BitVec.ofNat 32 (16 * r.val))) a + S1x16.size a ≤ S128x128.size a := fun v4211 k0_hw110 r => k0_hw110 r

def k0_off121 (v4249 : BitVec 32) (c0_i32_1682 : BitVec 32) : Fin 2 → Nat :=
  let c110_i32 : BitVec 32 := 110#32
  let v4251 : Index := Scalar.indexCast c110_i32
  let v4250 : BitVec 32 := Scalar.addi v4249 c0_i32_1682
  let v4252 : Index := Scalar.indexCast v4250
  ![110, v4252.toNat]

def k0_chk111 (v4249 : BitVec 32) : Prop :=
  (∀ (r : Fin 4), ∀ a, (k0_off121 v4249 (BitVec.ofNat 32 (16 * r.val))) a + S1x16.size a ≤ S128x128.size a)
instance k0_chk111.dec : ∀ (v4249 : BitVec 32), Decidable (k0_chk111 v4249) := fun v4249 => decidable_of_iff' _ (Iff.of_eq (k0_chk111.eq_1 v4249))
theorem k0_off121_inb : ∀ (v4249 : BitVec 32) (k0_hw111 : k0_chk111 v4249), ∀ (r : Fin 4), ∀ a, (k0_off121 v4249 (BitVec.ofNat 32 (16 * r.val))) a + S1x16.size a ≤ S128x128.size a := fun v4249 k0_hw111 r => k0_hw111 r

def k0_off122 (v4287 : BitVec 32) (c0_i32_1697 : BitVec 32) : Fin 2 → Nat :=
  let c111_i32 : BitVec 32 := 111#32
  let v4289 : Index := Scalar.indexCast c111_i32
  let v4288 : BitVec 32 := Scalar.addi v4287 c0_i32_1697
  let v4290 : Index := Scalar.indexCast v4288
  ![111, v4290.toNat]

def k0_chk112 (v4287 : BitVec 32) : Prop :=
  (∀ (r : Fin 4), ∀ a, (k0_off122 v4287 (BitVec.ofNat 32 (16 * r.val))) a + S1x16.size a ≤ S128x128.size a)
instance k0_chk112.dec : ∀ (v4287 : BitVec 32), Decidable (k0_chk112 v4287) := fun v4287 => decidable_of_iff' _ (Iff.of_eq (k0_chk112.eq_1 v4287))
theorem k0_off122_inb : ∀ (v4287 : BitVec 32) (k0_hw112 : k0_chk112 v4287), ∀ (r : Fin 4), ∀ a, (k0_off122 v4287 (BitVec.ofNat 32 (16 * r.val))) a + S1x16.size a ≤ S128x128.size a := fun v4287 k0_hw112 r => k0_hw112 r

def k0_off123 (k0_t2 : Fin k0_t2_loop.trips) : Fin 1 → Nat :=
  let c0_i32_5 : BitVec 32 := 0#32
  let c0_i32_1 : BitVec 32 := 0#32
  let c1_i32_2 : BitVec 32 := 1#32
  let arg10 : BitVec 32 := Scf.iv c0_i32_1 c1_i32_2 k0_t2
  let c1_i32_4 : BitVec 32 := 1#32
  let v5 : BitVec 32 := Scalar.muli arg10 c1_i32_4
  let v6 : BitVec 32 := Scalar.addi c0_i32_5 v5
  let c128_i32 : BitVec 32 := 128#32
  let v7 : BitVec 32 := Scalar.muli v6 c128_i32
  let c112_i32 : BitVec 32 := 112#32
  let v4324 : BitVec 32 := Scalar.addi v7 c112_i32
  let v4325 : Index := Scalar.indexCast v4324
  ![v4325.toNat]
def k0_off124 (v4333 : BitVec 32) (c0_i32_1714 : BitVec 32) : Fin 2 → Nat :=
  let c112_i32_1715 : BitVec 32 := 112#32
  let v4335 : Index := Scalar.indexCast c112_i32_1715
  let v4334 : BitVec 32 := Scalar.addi v4333 c0_i32_1714
  let v4336 : Index := Scalar.indexCast v4334
  ![112, v4336.toNat]

def k0_chk113 (v4333 : BitVec 32) : Prop :=
  (∀ (r : Fin 4), ∀ a, (k0_off124 v4333 (BitVec.ofNat 32 (16 * r.val))) a + S1x16.size a ≤ S128x128.size a)
instance k0_chk113.dec : ∀ (v4333 : BitVec 32), Decidable (k0_chk113 v4333) := fun v4333 => decidable_of_iff' _ (Iff.of_eq (k0_chk113.eq_1 v4333))
theorem k0_off124_inb : ∀ (v4333 : BitVec 32) (k0_hw113 : k0_chk113 v4333), ∀ (r : Fin 4), ∀ a, (k0_off124 v4333 (BitVec.ofNat 32 (16 * r.val))) a + S1x16.size a ≤ S128x128.size a := fun v4333 k0_hw113 r => k0_hw113 r

def k0_off125 (v4371 : BitVec 32) (c0_i32_1730 : BitVec 32) : Fin 2 → Nat :=
  let c113_i32 : BitVec 32 := 113#32
  let v4373 : Index := Scalar.indexCast c113_i32
  let v4372 : BitVec 32 := Scalar.addi v4371 c0_i32_1730
  let v4374 : Index := Scalar.indexCast v4372
  ![113, v4374.toNat]

def k0_chk114 (v4371 : BitVec 32) : Prop :=
  (∀ (r : Fin 4), ∀ a, (k0_off125 v4371 (BitVec.ofNat 32 (16 * r.val))) a + S1x16.size a ≤ S128x128.size a)
instance k0_chk114.dec : ∀ (v4371 : BitVec 32), Decidable (k0_chk114 v4371) := fun v4371 => decidable_of_iff' _ (Iff.of_eq (k0_chk114.eq_1 v4371))
theorem k0_off125_inb : ∀ (v4371 : BitVec 32) (k0_hw114 : k0_chk114 v4371), ∀ (r : Fin 4), ∀ a, (k0_off125 v4371 (BitVec.ofNat 32 (16 * r.val))) a + S1x16.size a ≤ S128x128.size a := fun v4371 k0_hw114 r => k0_hw114 r

def k0_off126 (v4409 : BitVec 32) (c0_i32_1745 : BitVec 32) : Fin 2 → Nat :=
  let c114_i32 : BitVec 32 := 114#32
  let v4411 : Index := Scalar.indexCast c114_i32
  let v4410 : BitVec 32 := Scalar.addi v4409 c0_i32_1745
  let v4412 : Index := Scalar.indexCast v4410
  ![114, v4412.toNat]

def k0_chk115 (v4409 : BitVec 32) : Prop :=
  (∀ (r : Fin 4), ∀ a, (k0_off126 v4409 (BitVec.ofNat 32 (16 * r.val))) a + S1x16.size a ≤ S128x128.size a)
instance k0_chk115.dec : ∀ (v4409 : BitVec 32), Decidable (k0_chk115 v4409) := fun v4409 => decidable_of_iff' _ (Iff.of_eq (k0_chk115.eq_1 v4409))
theorem k0_off126_inb : ∀ (v4409 : BitVec 32) (k0_hw115 : k0_chk115 v4409), ∀ (r : Fin 4), ∀ a, (k0_off126 v4409 (BitVec.ofNat 32 (16 * r.val))) a + S1x16.size a ≤ S128x128.size a := fun v4409 k0_hw115 r => k0_hw115 r

def k0_off127 (v4447 : BitVec 32) (c0_i32_1760 : BitVec 32) : Fin 2 → Nat :=
  let c115_i32 : BitVec 32 := 115#32
  let v4449 : Index := Scalar.indexCast c115_i32
  let v4448 : BitVec 32 := Scalar.addi v4447 c0_i32_1760
  let v4450 : Index := Scalar.indexCast v4448
  ![115, v4450.toNat]

def k0_chk116 (v4447 : BitVec 32) : Prop :=
  (∀ (r : Fin 4), ∀ a, (k0_off127 v4447 (BitVec.ofNat 32 (16 * r.val))) a + S1x16.size a ≤ S128x128.size a)
instance k0_chk116.dec : ∀ (v4447 : BitVec 32), Decidable (k0_chk116 v4447) := fun v4447 => decidable_of_iff' _ (Iff.of_eq (k0_chk116.eq_1 v4447))
theorem k0_off127_inb : ∀ (v4447 : BitVec 32) (k0_hw116 : k0_chk116 v4447), ∀ (r : Fin 4), ∀ a, (k0_off127 v4447 (BitVec.ofNat 32 (16 * r.val))) a + S1x16.size a ≤ S128x128.size a := fun v4447 k0_hw116 r => k0_hw116 r

def k0_off128 (v4485 : BitVec 32) (c0_i32_1775 : BitVec 32) : Fin 2 → Nat :=
  let c116_i32 : BitVec 32 := 116#32
  let v4487 : Index := Scalar.indexCast c116_i32
  let v4486 : BitVec 32 := Scalar.addi v4485 c0_i32_1775
  let v4488 : Index := Scalar.indexCast v4486
  ![116, v4488.toNat]

def k0_chk117 (v4485 : BitVec 32) : Prop :=
  (∀ (r : Fin 4), ∀ a, (k0_off128 v4485 (BitVec.ofNat 32 (16 * r.val))) a + S1x16.size a ≤ S128x128.size a)
instance k0_chk117.dec : ∀ (v4485 : BitVec 32), Decidable (k0_chk117 v4485) := fun v4485 => decidable_of_iff' _ (Iff.of_eq (k0_chk117.eq_1 v4485))
theorem k0_off128_inb : ∀ (v4485 : BitVec 32) (k0_hw117 : k0_chk117 v4485), ∀ (r : Fin 4), ∀ a, (k0_off128 v4485 (BitVec.ofNat 32 (16 * r.val))) a + S1x16.size a ≤ S128x128.size a := fun v4485 k0_hw117 r => k0_hw117 r

def k0_off129 (v4523 : BitVec 32) (c0_i32_1790 : BitVec 32) : Fin 2 → Nat :=
  let c117_i32 : BitVec 32 := 117#32
  let v4525 : Index := Scalar.indexCast c117_i32
  let v4524 : BitVec 32 := Scalar.addi v4523 c0_i32_1790
  let v4526 : Index := Scalar.indexCast v4524
  ![117, v4526.toNat]

def k0_chk118 (v4523 : BitVec 32) : Prop :=
  (∀ (r : Fin 4), ∀ a, (k0_off129 v4523 (BitVec.ofNat 32 (16 * r.val))) a + S1x16.size a ≤ S128x128.size a)
instance k0_chk118.dec : ∀ (v4523 : BitVec 32), Decidable (k0_chk118 v4523) := fun v4523 => decidable_of_iff' _ (Iff.of_eq (k0_chk118.eq_1 v4523))
theorem k0_off129_inb : ∀ (v4523 : BitVec 32) (k0_hw118 : k0_chk118 v4523), ∀ (r : Fin 4), ∀ a, (k0_off129 v4523 (BitVec.ofNat 32 (16 * r.val))) a + S1x16.size a ≤ S128x128.size a := fun v4523 k0_hw118 r => k0_hw118 r

def k0_off130 (v4561 : BitVec 32) (c0_i32_1805 : BitVec 32) : Fin 2 → Nat :=
  let c118_i32 : BitVec 32 := 118#32
  let v4563 : Index := Scalar.indexCast c118_i32
  let v4562 : BitVec 32 := Scalar.addi v4561 c0_i32_1805
  let v4564 : Index := Scalar.indexCast v4562
  ![118, v4564.toNat]

def k0_chk119 (v4561 : BitVec 32) : Prop :=
  (∀ (r : Fin 4), ∀ a, (k0_off130 v4561 (BitVec.ofNat 32 (16 * r.val))) a + S1x16.size a ≤ S128x128.size a)
instance k0_chk119.dec : ∀ (v4561 : BitVec 32), Decidable (k0_chk119 v4561) := fun v4561 => decidable_of_iff' _ (Iff.of_eq (k0_chk119.eq_1 v4561))
theorem k0_off130_inb : ∀ (v4561 : BitVec 32) (k0_hw119 : k0_chk119 v4561), ∀ (r : Fin 4), ∀ a, (k0_off130 v4561 (BitVec.ofNat 32 (16 * r.val))) a + S1x16.size a ≤ S128x128.size a := fun v4561 k0_hw119 r => k0_hw119 r

def k0_off131 (v4599 : BitVec 32) (c0_i32_1820 : BitVec 32) : Fin 2 → Nat :=
  let c119_i32 : BitVec 32 := 119#32
  let v4601 : Index := Scalar.indexCast c119_i32
  let v4600 : BitVec 32 := Scalar.addi v4599 c0_i32_1820
  let v4602 : Index := Scalar.indexCast v4600
  ![119, v4602.toNat]

def k0_chk120 (v4599 : BitVec 32) : Prop :=
  (∀ (r : Fin 4), ∀ a, (k0_off131 v4599 (BitVec.ofNat 32 (16 * r.val))) a + S1x16.size a ≤ S128x128.size a)
instance k0_chk120.dec : ∀ (v4599 : BitVec 32), Decidable (k0_chk120 v4599) := fun v4599 => decidable_of_iff' _ (Iff.of_eq (k0_chk120.eq_1 v4599))
theorem k0_off131_inb : ∀ (v4599 : BitVec 32) (k0_hw120 : k0_chk120 v4599), ∀ (r : Fin 4), ∀ a, (k0_off131 v4599 (BitVec.ofNat 32 (16 * r.val))) a + S1x16.size a ≤ S128x128.size a := fun v4599 k0_hw120 r => k0_hw120 r

def k0_off132 (v4637 : BitVec 32) (c0_i32_1835 : BitVec 32) : Fin 2 → Nat :=
  let c120_i32 : BitVec 32 := 120#32
  let v4639 : Index := Scalar.indexCast c120_i32
  let v4638 : BitVec 32 := Scalar.addi v4637 c0_i32_1835
  let v4640 : Index := Scalar.indexCast v4638
  ![120, v4640.toNat]

def k0_chk121 (v4637 : BitVec 32) : Prop :=
  (∀ (r : Fin 4), ∀ a, (k0_off132 v4637 (BitVec.ofNat 32 (16 * r.val))) a + S1x16.size a ≤ S128x128.size a)
instance k0_chk121.dec : ∀ (v4637 : BitVec 32), Decidable (k0_chk121 v4637) := fun v4637 => decidable_of_iff' _ (Iff.of_eq (k0_chk121.eq_1 v4637))
theorem k0_off132_inb : ∀ (v4637 : BitVec 32) (k0_hw121 : k0_chk121 v4637), ∀ (r : Fin 4), ∀ a, (k0_off132 v4637 (BitVec.ofNat 32 (16 * r.val))) a + S1x16.size a ≤ S128x128.size a := fun v4637 k0_hw121 r => k0_hw121 r

def k0_off133 (v4675 : BitVec 32) (c0_i32_1850 : BitVec 32) : Fin 2 → Nat :=
  let c121_i32 : BitVec 32 := 121#32
  let v4677 : Index := Scalar.indexCast c121_i32
  let v4676 : BitVec 32 := Scalar.addi v4675 c0_i32_1850
  let v4678 : Index := Scalar.indexCast v4676
  ![121, v4678.toNat]

def k0_chk122 (v4675 : BitVec 32) : Prop :=
  (∀ (r : Fin 4), ∀ a, (k0_off133 v4675 (BitVec.ofNat 32 (16 * r.val))) a + S1x16.size a ≤ S128x128.size a)
instance k0_chk122.dec : ∀ (v4675 : BitVec 32), Decidable (k0_chk122 v4675) := fun v4675 => decidable_of_iff' _ (Iff.of_eq (k0_chk122.eq_1 v4675))
theorem k0_off133_inb : ∀ (v4675 : BitVec 32) (k0_hw122 : k0_chk122 v4675), ∀ (r : Fin 4), ∀ a, (k0_off133 v4675 (BitVec.ofNat 32 (16 * r.val))) a + S1x16.size a ≤ S128x128.size a := fun v4675 k0_hw122 r => k0_hw122 r

def k0_off134 (v4713 : BitVec 32) (c0_i32_1865 : BitVec 32) : Fin 2 → Nat :=
  let c122_i32 : BitVec 32 := 122#32
  let v4715 : Index := Scalar.indexCast c122_i32
  let v4714 : BitVec 32 := Scalar.addi v4713 c0_i32_1865
  let v4716 : Index := Scalar.indexCast v4714
  ![122, v4716.toNat]

def k0_chk123 (v4713 : BitVec 32) : Prop :=
  (∀ (r : Fin 4), ∀ a, (k0_off134 v4713 (BitVec.ofNat 32 (16 * r.val))) a + S1x16.size a ≤ S128x128.size a)
instance k0_chk123.dec : ∀ (v4713 : BitVec 32), Decidable (k0_chk123 v4713) := fun v4713 => decidable_of_iff' _ (Iff.of_eq (k0_chk123.eq_1 v4713))
theorem k0_off134_inb : ∀ (v4713 : BitVec 32) (k0_hw123 : k0_chk123 v4713), ∀ (r : Fin 4), ∀ a, (k0_off134 v4713 (BitVec.ofNat 32 (16 * r.val))) a + S1x16.size a ≤ S128x128.size a := fun v4713 k0_hw123 r => k0_hw123 r

def k0_off135 (v4751 : BitVec 32) (c0_i32_1880 : BitVec 32) : Fin 2 → Nat :=
  let c123_i32 : BitVec 32 := 123#32
  let v4753 : Index := Scalar.indexCast c123_i32
  let v4752 : BitVec 32 := Scalar.addi v4751 c0_i32_1880
  let v4754 : Index := Scalar.indexCast v4752
  ![123, v4754.toNat]

def k0_chk124 (v4751 : BitVec 32) : Prop :=
  (∀ (r : Fin 4), ∀ a, (k0_off135 v4751 (BitVec.ofNat 32 (16 * r.val))) a + S1x16.size a ≤ S128x128.size a)
instance k0_chk124.dec : ∀ (v4751 : BitVec 32), Decidable (k0_chk124 v4751) := fun v4751 => decidable_of_iff' _ (Iff.of_eq (k0_chk124.eq_1 v4751))
theorem k0_off135_inb : ∀ (v4751 : BitVec 32) (k0_hw124 : k0_chk124 v4751), ∀ (r : Fin 4), ∀ a, (k0_off135 v4751 (BitVec.ofNat 32 (16 * r.val))) a + S1x16.size a ≤ S128x128.size a := fun v4751 k0_hw124 r => k0_hw124 r

def k0_off136 (v4789 : BitVec 32) (c0_i32_1895 : BitVec 32) : Fin 2 → Nat :=
  let c124_i32 : BitVec 32 := 124#32
  let v4791 : Index := Scalar.indexCast c124_i32
  let v4790 : BitVec 32 := Scalar.addi v4789 c0_i32_1895
  let v4792 : Index := Scalar.indexCast v4790
  ![124, v4792.toNat]

def k0_chk125 (v4789 : BitVec 32) : Prop :=
  (∀ (r : Fin 4), ∀ a, (k0_off136 v4789 (BitVec.ofNat 32 (16 * r.val))) a + S1x16.size a ≤ S128x128.size a)
instance k0_chk125.dec : ∀ (v4789 : BitVec 32), Decidable (k0_chk125 v4789) := fun v4789 => decidable_of_iff' _ (Iff.of_eq (k0_chk125.eq_1 v4789))
theorem k0_off136_inb : ∀ (v4789 : BitVec 32) (k0_hw125 : k0_chk125 v4789), ∀ (r : Fin 4), ∀ a, (k0_off136 v4789 (BitVec.ofNat 32 (16 * r.val))) a + S1x16.size a ≤ S128x128.size a := fun v4789 k0_hw125 r => k0_hw125 r

def k0_off137 (v4827 : BitVec 32) (c0_i32_1910 : BitVec 32) : Fin 2 → Nat :=
  let c125_i32 : BitVec 32 := 125#32
  let v4829 : Index := Scalar.indexCast c125_i32
  let v4828 : BitVec 32 := Scalar.addi v4827 c0_i32_1910
  let v4830 : Index := Scalar.indexCast v4828
  ![125, v4830.toNat]

def k0_chk126 (v4827 : BitVec 32) : Prop :=
  (∀ (r : Fin 4), ∀ a, (k0_off137 v4827 (BitVec.ofNat 32 (16 * r.val))) a + S1x16.size a ≤ S128x128.size a)
instance k0_chk126.dec : ∀ (v4827 : BitVec 32), Decidable (k0_chk126 v4827) := fun v4827 => decidable_of_iff' _ (Iff.of_eq (k0_chk126.eq_1 v4827))
theorem k0_off137_inb : ∀ (v4827 : BitVec 32) (k0_hw126 : k0_chk126 v4827), ∀ (r : Fin 4), ∀ a, (k0_off137 v4827 (BitVec.ofNat 32 (16 * r.val))) a + S1x16.size a ≤ S128x128.size a := fun v4827 k0_hw126 r => k0_hw126 r

def k0_off138 (v4865 : BitVec 32) (c0_i32_1925 : BitVec 32) : Fin 2 → Nat :=
  let c126_i32 : BitVec 32 := 126#32
  let v4867 : Index := Scalar.indexCast c126_i32
  let v4866 : BitVec 32 := Scalar.addi v4865 c0_i32_1925
  let v4868 : Index := Scalar.indexCast v4866
  ![126, v4868.toNat]

def k0_chk127 (v4865 : BitVec 32) : Prop :=
  (∀ (r : Fin 4), ∀ a, (k0_off138 v4865 (BitVec.ofNat 32 (16 * r.val))) a + S1x16.size a ≤ S128x128.size a)
instance k0_chk127.dec : ∀ (v4865 : BitVec 32), Decidable (k0_chk127 v4865) := fun v4865 => decidable_of_iff' _ (Iff.of_eq (k0_chk127.eq_1 v4865))
theorem k0_off138_inb : ∀ (v4865 : BitVec 32) (k0_hw127 : k0_chk127 v4865), ∀ (r : Fin 4), ∀ a, (k0_off138 v4865 (BitVec.ofNat 32 (16 * r.val))) a + S1x16.size a ≤ S128x128.size a := fun v4865 k0_hw127 r => k0_hw127 r

def k0_off139 (v4903 : BitVec 32) (c0_i32_1940 : BitVec 32) : Fin 2 → Nat :=
  let c127_i32 : BitVec 32 := 127#32
  let v4905 : Index := Scalar.indexCast c127_i32
  let v4904 : BitVec 32 := Scalar.addi v4903 c0_i32_1940
  let v4906 : Index := Scalar.indexCast v4904
  ![127, v4906.toNat]

def k0_chk128 (v4903 : BitVec 32) : Prop :=
  (∀ (r : Fin 4), ∀ a, (k0_off139 v4903 (BitVec.ofNat 32 (16 * r.val))) a + S1x16.size a ≤ S128x128.size a)
instance k0_chk128.dec : ∀ (v4903 : BitVec 32), Decidable (k0_chk128 v4903) := fun v4903 => decidable_of_iff' _ (Iff.of_eq (k0_chk128.eq_1 v4903))
theorem k0_off139_inb : ∀ (v4903 : BitVec 32) (k0_hw128 : k0_chk128 v4903), ∀ (r : Fin 4), ∀ a, (k0_off139 v4903 (BitVec.ofNat 32 (16 * r.val))) a + S1x16.size a ≤ S128x128.size a := fun v4903 k0_hw128 r => k0_hw128 r

def k0_off140 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_5 : BitVec 32 := 0#32
  let c0_i32_1 : BitVec 32 := 0#32
  let c1_i32_2 : BitVec 32 := 1#32
  let arg10 : BitVec 32 := Scf.iv c0_i32_1 c1_i32_2 k0_t2
  let c1_i32_4 : BitVec 32 := 1#32
  let v5 : BitVec 32 := Scalar.muli arg10 c1_i32_4
  let v6 : BitVec 32 := Scalar.addi c0_i32_5 v5
  let c128_i32 : BitVec 32 := 128#32
  let v7 : BitVec 32 := Scalar.muli v6 c128_i32
  let v4940 : BitVec 32 := Scalar.addi v2 v7
  let c0_i32_1955_r1 : BitVec 32 := 0#32
  ![v4940.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x64_S500000x128 : S1000000x64.ShapeCasts S500000x128
  h_S16 : 0 < S16.numel
  shapeCasts_S16_S16 : S16.ShapeCasts S16
  inb_S500000x128_S500000x128_0_0 : ∀ a, (![0, 0] : Fin 2 → Nat) a + S500000x128.size a ≤ S500000x128.size a
  gathers_S500000x128_S128x128 : S500000x128.Gathers 0 S128x128
  slices_S16_o0_S1 : S16.Slices ![0] S1
  inpos_S1_p0 : ∀ a, (![0] : Fin 1 → Nat) a < S1.size a
  h_S1x16 : 0 < S1x16.numel
  shapeCasts_S1x16_S16 : S1x16.ShapeCasts S16
  inb_S128x64_S1x16_0_0 : ∀ a, (![0, 0] : Fin 2 → Nat) a + S1x16.size a ≤ S128x64.size a
  shapeCasts_S16_S1x16 : S16.ShapeCasts S1x16
  inb_S128x64_S1x16_0_16 : ∀ a, (![0, 16] : Fin 2 → Nat) a + S1x16.size a ≤ S128x64.size a
  inb_S128x64_S1x16_0_32 : ∀ a, (![0, 32] : Fin 2 → Nat) a + S1x16.size a ≤ S128x64.size a
  inb_S128x64_S1x16_0_48 : ∀ a, (![0, 48] : Fin 2 → Nat) a + S1x16.size a ≤ S128x64.size a
  slices_S16_o1_S1 : S16.Slices ![1] S1
  inb_S128x64_S1x16_1_0 : ∀ a, (![1, 0] : Fin 2 → Nat) a + S1x16.size a ≤ S128x64.size a
  inb_S128x64_S1x16_1_16 : ∀ a, (![1, 16] : Fin 2 → Nat) a + S1x16.size a ≤ S128x64.size a
  inb_S128x64_S1x16_1_32 : ∀ a, (![1, 32] : Fin 2 → Nat) a + S1x16.size a ≤ S128x64.size a
  inb_S128x64_S1x16_1_48 : ∀ a, (![1, 48] : Fin 2 → Nat) a + S1x16.size a ≤ S128x64.size a
  slices_S16_o2_S1 : S16.Slices ![2] S1
  inb_S128x64_S1x16_2_0 : ∀ a, (![2, 0] : Fin 2 → Nat) a + S1x16.size a ≤ S128x64.size a
  inb_S128x64_S1x16_2_16 : ∀ a, (![2, 16] : Fin 2 → Nat) a + S1x16.size a ≤ S128x64.size a
  inb_S128x64_S1x16_2_32 : ∀ a, (![2, 32] : Fin 2 → Nat) a + S1x16.size a ≤ S128x64.size a
  inb_S128x64_S1x16_2_48 : ∀ a, (![2, 48] : Fin 2 → Nat) a + S1x16.size a ≤ S128x64.size a
  slices_S16_o3_S1 : S16.Slices ![3] S1
  inb_S128x64_S1x16_3_0 : ∀ a, (![3, 0] : Fin 2 → Nat) a + S1x16.size a ≤ S128x64.size a
  inb_S128x64_S1x16_3_16 : ∀ a, (![3, 16] : Fin 2 → Nat) a + S1x16.size a ≤ S128x64.size a
  inb_S128x64_S1x16_3_32 : ∀ a, (![3, 32] : Fin 2 → Nat) a + S1x16.size a ≤ S128x64.size a
  inb_S128x64_S1x16_3_48 : ∀ a, (![3, 48] : Fin 2 → Nat) a + S1x16.size a ≤ S128x64.size a
  slices_S16_o4_S1 : S16.Slices ![4] S1
  inb_S128x64_S1x16_4_0 : ∀ a, (![4, 0] : Fin 2 → Nat) a + S1x16.size a ≤ S128x64.size a
  inb_S128x64_S1x16_4_16 : ∀ a, (![4, 16] : Fin 2 → Nat) a + S1x16.size a ≤ S128x64.size a
  inb_S128x64_S1x16_4_32 : ∀ a, (![4, 32] : Fin 2 → Nat) a + S1x16.size a ≤ S128x64.size a
  inb_S128x64_S1x16_4_48 : ∀ a, (![4, 48] : Fin 2 → Nat) a + S1x16.size a ≤ S128x64.size a
  slices_S16_o5_S1 : S16.Slices ![5] S1
  inb_S128x64_S1x16_5_0 : ∀ a, (![5, 0] : Fin 2 → Nat) a + S1x16.size a ≤ S128x64.size a
  inb_S128x64_S1x16_5_16 : ∀ a, (![5, 16] : Fin 2 → Nat) a + S1x16.size a ≤ S128x64.size a
  inb_S128x64_S1x16_5_32 : ∀ a, (![5, 32] : Fin 2 → Nat) a + S1x16.size a ≤ S128x64.size a
  inb_S128x64_S1x16_5_48 : ∀ a, (![5, 48] : Fin 2 → Nat) a + S1x16.size a ≤ S128x64.size a
  slices_S16_o6_S1 : S16.Slices ![6] S1
  inb_S128x64_S1x16_6_0 : ∀ a, (![6, 0] : Fin 2 → Nat) a + S1x16.size a ≤ S128x64.size a
  inb_S128x64_S1x16_6_16 : ∀ a, (![6, 16] : Fin 2 → Nat) a + S1x16.size a ≤ S128x64.size a
  inb_S128x64_S1x16_6_32 : ∀ a, (![6, 32] : Fin 2 → Nat) a + S1x16.size a ≤ S128x64.size a
  inb_S128x64_S1x16_6_48 : ∀ a, (![6, 48] : Fin 2 → Nat) a + S1x16.size a ≤ S128x64.size a
  slices_S16_o7_S1 : S16.Slices ![7] S1
  inb_S128x64_S1x16_7_0 : ∀ a, (![7, 0] : Fin 2 → Nat) a + S1x16.size a ≤ S128x64.size a
  inb_S128x64_S1x16_7_16 : ∀ a, (![7, 16] : Fin 2 → Nat) a + S1x16.size a ≤ S128x64.size a
  inb_S128x64_S1x16_7_32 : ∀ a, (![7, 32] : Fin 2 → Nat) a + S1x16.size a ≤ S128x64.size a
  inb_S128x64_S1x16_7_48 : ∀ a, (![7, 48] : Fin 2 → Nat) a + S1x16.size a ≤ S128x64.size a
  slices_S16_o8_S1 : S16.Slices ![8] S1
  inb_S128x64_S1x16_8_0 : ∀ a, (![8, 0] : Fin 2 → Nat) a + S1x16.size a ≤ S128x64.size a
  inb_S128x64_S1x16_8_16 : ∀ a, (![8, 16] : Fin 2 → Nat) a + S1x16.size a ≤ S128x64.size a
  inb_S128x64_S1x16_8_32 : ∀ a, (![8, 32] : Fin 2 → Nat) a + S1x16.size a ≤ S128x64.size a
  inb_S128x64_S1x16_8_48 : ∀ a, (![8, 48] : Fin 2 → Nat) a + S1x16.size a ≤ S128x64.size a
  slices_S16_o9_S1 : S16.Slices ![9] S1
  inb_S128x64_S1x16_9_0 : ∀ a, (![9, 0] : Fin 2 → Nat) a + S1x16.size a ≤ S128x64.size a
  inb_S128x64_S1x16_9_16 : ∀ a, (![9, 16] : Fin 2 → Nat) a + S1x16.size a ≤ S128x64.size a
  inb_S128x64_S1x16_9_32 : ∀ a, (![9, 32] : Fin 2 → Nat) a + S1x16.size a ≤ S128x64.size a
  inb_S128x64_S1x16_9_48 : ∀ a, (![9, 48] : Fin 2 → Nat) a + S1x16.size a ≤ S128x64.size a
  slices_S16_o10_S1 : S16.Slices ![10] S1
  inb_S128x64_S1x16_10_0 : ∀ a, (![10, 0] : Fin 2 → Nat) a + S1x16.size a ≤ S128x64.size a
  inb_S128x64_S1x16_10_16 : ∀ a, (![10, 16] : Fin 2 → Nat) a + S1x16.size a ≤ S128x64.size a
  inb_S128x64_S1x16_10_32 : ∀ a, (![10, 32] : Fin 2 → Nat) a + S1x16.size a ≤ S128x64.size a
  inb_S128x64_S1x16_10_48 : ∀ a, (![10, 48] : Fin 2 → Nat) a + S1x16.size a ≤ S128x64.size a
  slices_S16_o11_S1 : S16.Slices ![11] S1
  inb_S128x64_S1x16_11_0 : ∀ a, (![11, 0] : Fin 2 → Nat) a + S1x16.size a ≤ S128x64.size a
  inb_S128x64_S1x16_11_16 : ∀ a, (![11, 16] : Fin 2 → Nat) a + S1x16.size a ≤ S128x64.size a
  inb_S128x64_S1x16_11_32 : ∀ a, (![11, 32] : Fin 2 → Nat) a + S1x16.size a ≤ S128x64.size a
  inb_S128x64_S1x16_11_48 : ∀ a, (![11, 48] : Fin 2 → Nat) a + S1x16.size a ≤ S128x64.size a
  slices_S16_o12_S1 : S16.Slices ![12] S1
  inb_S128x64_S1x16_12_0 : ∀ a, (![12, 0] : Fin 2 → Nat) a + S1x16.size a ≤ S128x64.size a
  inb_S128x64_S1x16_12_16 : ∀ a, (![12, 16] : Fin 2 → Nat) a + S1x16.size a ≤ S128x64.size a
  inb_S128x64_S1x16_12_32 : ∀ a, (![12, 32] : Fin 2 → Nat) a + S1x16.size a ≤ S128x64.size a
  inb_S128x64_S1x16_12_48 : ∀ a, (![12, 48] : Fin 2 → Nat) a + S1x16.size a ≤ S128x64.size a
  slices_S16_o13_S1 : S16.Slices ![13] S1
  inb_S128x64_S1x16_13_0 : ∀ a, (![13, 0] : Fin 2 → Nat) a + S1x16.size a ≤ S128x64.size a
  inb_S128x64_S1x16_13_16 : ∀ a, (![13, 16] : Fin 2 → Nat) a + S1x16.size a ≤ S128x64.size a
  inb_S128x64_S1x16_13_32 : ∀ a, (![13, 32] : Fin 2 → Nat) a + S1x16.size a ≤ S128x64.size a
  inb_S128x64_S1x16_13_48 : ∀ a, (![13, 48] : Fin 2 → Nat) a + S1x16.size a ≤ S128x64.size a
  slices_S16_o14_S1 : S16.Slices ![14] S1
  inb_S128x64_S1x16_14_0 : ∀ a, (![14, 0] : Fin 2 → Nat) a + S1x16.size a ≤ S128x64.size a
  inb_S128x64_S1x16_14_16 : ∀ a, (![14, 16] : Fin 2 → Nat) a + S1x16.size a ≤ S128x64.size a
  inb_S128x64_S1x16_14_32 : ∀ a, (![14, 32] : Fin 2 → Nat) a + S1x16.size a ≤ S128x64.size a
  inb_S128x64_S1x16_14_48 : ∀ a, (![14, 48] : Fin 2 → Nat) a + S1x16.size a ≤ S128x64.size a
  slices_S16_o15_S1 : S16.Slices ![15] S1
  inb_S128x64_S1x16_15_0 : ∀ a, (![15, 0] : Fin 2 → Nat) a + S1x16.size a ≤ S128x64.size a
  inb_S128x64_S1x16_15_16 : ∀ a, (![15, 16] : Fin 2 → Nat) a + S1x16.size a ≤ S128x64.size a
  inb_S128x64_S1x16_15_32 : ∀ a, (![15, 32] : Fin 2 → Nat) a + S1x16.size a ≤ S128x64.size a
  inb_S128x64_S1x16_15_48 : ∀ a, (![15, 48] : Fin 2 → Nat) a + S1x16.size a ≤ S128x64.size a
  inb_S128x64_S1x16_16_0 : ∀ a, (![16, 0] : Fin 2 → Nat) a + S1x16.size a ≤ S128x64.size a
  inb_S128x64_S1x16_16_16 : ∀ a, (![16, 16] : Fin 2 → Nat) a + S1x16.size a ≤ S128x64.size a
  inb_S128x64_S1x16_16_32 : ∀ a, (![16, 32] : Fin 2 → Nat) a + S1x16.size a ≤ S128x64.size a
  inb_S128x64_S1x16_16_48 : ∀ a, (![16, 48] : Fin 2 → Nat) a + S1x16.size a ≤ S128x64.size a
  inb_S128x64_S1x16_17_0 : ∀ a, (![17, 0] : Fin 2 → Nat) a + S1x16.size a ≤ S128x64.size a
  inb_S128x64_S1x16_17_16 : ∀ a, (![17, 16] : Fin 2 → Nat) a + S1x16.size a ≤ S128x64.size a
  inb_S128x64_S1x16_17_32 : ∀ a, (![17, 32] : Fin 2 → Nat) a + S1x16.size a ≤ S128x64.size a
  inb_S128x64_S1x16_17_48 : ∀ a, (![17, 48] : Fin 2 → Nat) a + S1x16.size a ≤ S128x64.size a
  inb_S128x64_S1x16_18_0 : ∀ a, (![18, 0] : Fin 2 → Nat) a + S1x16.size a ≤ S128x64.size a
  inb_S128x64_S1x16_18_16 : ∀ a, (![18, 16] : Fin 2 → Nat) a + S1x16.size a ≤ S128x64.size a
  inb_S128x64_S1x16_18_32 : ∀ a, (![18, 32] : Fin 2 → Nat) a + S1x16.size a ≤ S128x64.size a
  inb_S128x64_S1x16_18_48 : ∀ a, (![18, 48] : Fin 2 → Nat) a + S1x16.size a ≤ S128x64.size a
  inb_S128x64_S1x16_19_0 : ∀ a, (![19, 0] : Fin 2 → Nat) a + S1x16.size a ≤ S128x64.size a
  inb_S128x64_S1x16_19_16 : ∀ a, (![19, 16] : Fin 2 → Nat) a + S1x16.size a ≤ S128x64.size a
  inb_S128x64_S1x16_19_32 : ∀ a, (![19, 32] : Fin 2 → Nat) a + S1x16.size a ≤ S128x64.size a
  inb_S128x64_S1x16_19_48 : ∀ a, (![19, 48] : Fin 2 → Nat) a + S1x16.size a ≤ S128x64.size a
  inb_S128x64_S1x16_20_0 : ∀ a, (![20, 0] : Fin 2 → Nat) a + S1x16.size a ≤ S128x64.size a
  inb_S128x64_S1x16_20_16 : ∀ a, (![20, 16] : Fin 2 → Nat) a + S1x16.size a ≤ S128x64.size a
  inb_S128x64_S1x16_20_32 : ∀ a, (![20, 32] : Fin 2 → Nat) a + S1x16.size a ≤ S128x64.size a
  inb_S128x64_S1x16_20_48 : ∀ a, (![20, 48] : Fin 2 → Nat) a + S1x16.size a ≤ S128x64.size a
  inb_S128x64_S1x16_21_0 : ∀ a, (![21, 0] : Fin 2 → Nat) a + S1x16.size a ≤ S128x64.size a
  inb_S128x64_S1x16_21_16 : ∀ a, (![21, 16] : Fin 2 → Nat) a + S1x16.size a ≤ S128x64.size a
  inb_S128x64_S1x16_21_32 : ∀ a, (![21, 32] : Fin 2 → Nat) a + S1x16.size a ≤ S128x64.size a
  inb_S128x64_S1x16_21_48 : ∀ a, (![21, 48] : Fin 2 → Nat) a + S1x16.size a ≤ S128x64.size a
  inb_S128x64_S1x16_22_0 : ∀ a, (![22, 0] : Fin 2 → Nat) a + S1x16.size a ≤ S128x64.size a
  inb_S128x64_S1x16_22_16 : ∀ a, (![22, 16] : Fin 2 → Nat) a + S1x16.size a ≤ S128x64.size a
  inb_S128x64_S1x16_22_32 : ∀ a, (![22, 32] : Fin 2 → Nat) a + S1x16.size a ≤ S128x64.size a
  inb_S128x64_S1x16_22_48 : ∀ a, (![22, 48] : Fin 2 → Nat) a + S1x16.size a ≤ S128x64.size a
  inb_S128x64_S1x16_23_0 : ∀ a, (![23, 0] : Fin 2 → Nat) a + S1x16.size a ≤ S128x64.size a
  inb_S128x64_S1x16_23_16 : ∀ a, (![23, 16] : Fin 2 → Nat) a + S1x16.size a ≤ S128x64.size a
  inb_S128x64_S1x16_23_32 : ∀ a, (![23, 32] : Fin 2 → Nat) a + S1x16.size a ≤ S128x64.size a
  inb_S128x64_S1x16_23_48 : ∀ a, (![23, 48] : Fin 2 → Nat) a + S1x16.size a ≤ S128x64.size a
  inb_S128x64_S1x16_24_0 : ∀ a, (![24, 0] : Fin 2 → Nat) a + S1x16.size a ≤ S128x64.size a
  inb_S128x64_S1x16_24_16 : ∀ a, (![24, 16] : Fin 2 → Nat) a + S1x16.size a ≤ S128x64.size a
  inb_S128x64_S1x16_24_32 : ∀ a, (![24, 32] : Fin 2 → Nat) a + S1x16.size a ≤ S128x64.size a
  inb_S128x64_S1x16_24_48 : ∀ a, (![24, 48] : Fin 2 → Nat) a + S1x16.size a ≤ S128x64.size a
  inb_S128x64_S1x16_25_0 : ∀ a, (![25, 0] : Fin 2 → Nat) a + S1x16.size a ≤ S128x64.size a
  inb_S128x64_S1x16_25_16 : ∀ a, (![25, 16] : Fin 2 → Nat) a + S1x16.size a ≤ S128x64.size a
  inb_S128x64_S1x16_25_32 : ∀ a, (![25, 32] : Fin 2 → Nat) a + S1x16.size a ≤ S128x64.size a
  inb_S128x64_S1x16_25_48 : ∀ a, (![25, 48] : Fin 2 → Nat) a + S1x16.size a ≤ S128x64.size a
  inb_S128x64_S1x16_26_0 : ∀ a, (![26, 0] : Fin 2 → Nat) a + S1x16.size a ≤ S128x64.size a
  inb_S128x64_S1x16_26_16 : ∀ a, (![26, 16] : Fin 2 → Nat) a + S1x16.size a ≤ S128x64.size a
  inb_S128x64_S1x16_26_32 : ∀ a, (![26, 32] : Fin 2 → Nat) a + S1x16.size a ≤ S128x64.size a
  inb_S128x64_S1x16_26_48 : ∀ a, (![26, 48] : Fin 2 → Nat) a + S1x16.size a ≤ S128x64.size a
  inb_S128x64_S1x16_27_0 : ∀ a, (![27, 0] : Fin 2 → Nat) a + S1x16.size a ≤ S128x64.size a
  inb_S128x64_S1x16_27_16 : ∀ a, (![27, 16] : Fin 2 → Nat) a + S1x16.size a ≤ S128x64.size a
  inb_S128x64_S1x16_27_32 : ∀ a, (![27, 32] : Fin 2 → Nat) a + S1x16.size a ≤ S128x64.size a
  inb_S128x64_S1x16_27_48 : ∀ a, (![27, 48] : Fin 2 → Nat) a + S1x16.size a ≤ S128x64.size a
  inb_S128x64_S1x16_28_0 : ∀ a, (![28, 0] : Fin 2 → Nat) a + S1x16.size a ≤ S128x64.size a
  inb_S128x64_S1x16_28_16 : ∀ a, (![28, 16] : Fin 2 → Nat) a + S1x16.size a ≤ S128x64.size a
  inb_S128x64_S1x16_28_32 : ∀ a, (![28, 32] : Fin 2 → Nat) a + S1x16.size a ≤ S128x64.size a
  inb_S128x64_S1x16_28_48 : ∀ a, (![28, 48] : Fin 2 → Nat) a + S1x16.size a ≤ S128x64.size a
  inb_S128x64_S1x16_29_0 : ∀ a, (![29, 0] : Fin 2 → Nat) a + S1x16.size a ≤ S128x64.size a
  inb_S128x64_S1x16_29_16 : ∀ a, (![29, 16] : Fin 2 → Nat) a + S1x16.size a ≤ S128x64.size a
  inb_S128x64_S1x16_29_32 : ∀ a, (![29, 32] : Fin 2 → Nat) a + S1x16.size a ≤ S128x64.size a
  inb_S128x64_S1x16_29_48 : ∀ a, (![29, 48] : Fin 2 → Nat) a + S1x16.size a ≤ S128x64.size a
  inb_S128x64_S1x16_30_0 : ∀ a, (![30, 0] : Fin 2 → Nat) a + S1x16.size a ≤ S128x64.size a
  inb_S128x64_S1x16_30_16 : ∀ a, (![30, 16] : Fin 2 → Nat) a + S1x16.size a ≤ S128x64.size a
  inb_S128x64_S1x16_30_32 : ∀ a, (![30, 32] : Fin 2 → Nat) a + S1x16.size a ≤ S128x64.size a
  inb_S128x64_S1x16_30_48 : ∀ a, (![30, 48] : Fin 2 → Nat) a + S1x16.size a ≤ S128x64.size a
  inb_S128x64_S1x16_31_0 : ∀ a, (![31, 0] : Fin 2 → Nat) a + S1x16.size a ≤ S128x64.size a
  inb_S128x64_S1x16_31_16 : ∀ a, (![31, 16] : Fin 2 → Nat) a + S1x16.size a ≤ S128x64.size a
  inb_S128x64_S1x16_31_32 : ∀ a, (![31, 32] : Fin 2 → Nat) a + S1x16.size a ≤ S128x64.size a
  inb_S128x64_S1x16_31_48 : ∀ a, (![31, 48] : Fin 2 → Nat) a + S1x16.size a ≤ S128x64.size a
  inb_S128x64_S1x16_32_0 : ∀ a, (![32, 0] : Fin 2 → Nat) a + S1x16.size a ≤ S128x64.size a
  inb_S128x64_S1x16_32_16 : ∀ a, (![32, 16] : Fin 2 → Nat) a + S1x16.size a ≤ S128x64.size a
  inb_S128x64_S1x16_32_32 : ∀ a, (![32, 32] : Fin 2 → Nat) a + S1x16.size a ≤ S128x64.size a
  inb_S128x64_S1x16_32_48 : ∀ a, (![32, 48] : Fin 2 → Nat) a + S1x16.size a ≤ S128x64.size a
  inb_S128x64_S1x16_33_0 : ∀ a, (![33, 0] : Fin 2 → Nat) a + S1x16.size a ≤ S128x64.size a
  inb_S128x64_S1x16_33_16 : ∀ a, (![33, 16] : Fin 2 → Nat) a + S1x16.size a ≤ S128x64.size a
  inb_S128x64_S1x16_33_32 : ∀ a, (![33, 32] : Fin 2 → Nat) a + S1x16.size a ≤ S128x64.size a
  inb_S128x64_S1x16_33_48 : ∀ a, (![33, 48] : Fin 2 → Nat) a + S1x16.size a ≤ S128x64.size a
  inb_S128x64_S1x16_34_0 : ∀ a, (![34, 0] : Fin 2 → Nat) a + S1x16.size a ≤ S128x64.size a
  inb_S128x64_S1x16_34_16 : ∀ a, (![34, 16] : Fin 2 → Nat) a + S1x16.size a ≤ S128x64.size a
  inb_S128x64_S1x16_34_32 : ∀ a, (![34, 32] : Fin 2 → Nat) a + S1x16.size a ≤ S128x64.size a
  inb_S128x64_S1x16_34_48 : ∀ a, (![34, 48] : Fin 2 → Nat) a + S1x16.size a ≤ S128x64.size a
  inb_S128x64_S1x16_35_0 : ∀ a, (![35, 0] : Fin 2 → Nat) a + S1x16.size a ≤ S128x64.size a
  inb_S128x64_S1x16_35_16 : ∀ a, (![35, 16] : Fin 2 → Nat) a + S1x16.size a ≤ S128x64.size a
  inb_S128x64_S1x16_35_32 : ∀ a, (![35, 32] : Fin 2 → Nat) a + S1x16.size a ≤ S128x64.size a
  inb_S128x64_S1x16_35_48 : ∀ a, (![35, 48] : Fin 2 → Nat) a + S1x16.size a ≤ S128x64.size a
  inb_S128x64_S1x16_36_0 : ∀ a, (![36, 0] : Fin 2 → Nat) a + S1x16.size a ≤ S128x64.size a
  inb_S128x64_S1x16_36_16 : ∀ a, (![36, 16] : Fin 2 → Nat) a + S1x16.size a ≤ S128x64.size a
  inb_S128x64_S1x16_36_32 : ∀ a, (![36, 32] : Fin 2 → Nat) a + S1x16.size a ≤ S128x64.size a
  inb_S128x64_S1x16_36_48 : ∀ a, (![36, 48] : Fin 2 → Nat) a + S1x16.size a ≤ S128x64.size a
  inb_S128x64_S1x16_37_0 : ∀ a, (![37, 0] : Fin 2 → Nat) a + S1x16.size a ≤ S128x64.size a
  inb_S128x64_S1x16_37_16 : ∀ a, (![37, 16] : Fin 2 → Nat) a + S1x16.size a ≤ S128x64.size a
  inb_S128x64_S1x16_37_32 : ∀ a, (![37, 32] : Fin 2 → Nat) a + S1x16.size a ≤ S128x64.size a
  inb_S128x64_S1x16_37_48 : ∀ a, (![37, 48] : Fin 2 → Nat) a + S1x16.size a ≤ S128x64.size a
  inb_S128x64_S1x16_38_0 : ∀ a, (![38, 0] : Fin 2 → Nat) a + S1x16.size a ≤ S128x64.size a
  inb_S128x64_S1x16_38_16 : ∀ a, (![38, 16] : Fin 2 → Nat) a + S1x16.size a ≤ S128x64.size a
  inb_S128x64_S1x16_38_32 : ∀ a, (![38, 32] : Fin 2 → Nat) a + S1x16.size a ≤ S128x64.size a
  inb_S128x64_S1x16_38_48 : ∀ a, (![38, 48] : Fin 2 → Nat) a + S1x16.size a ≤ S128x64.size a
  inb_S128x64_S1x16_39_0 : ∀ a, (![39, 0] : Fin 2 → Nat) a + S1x16.size a ≤ S128x64.size a
  inb_S128x64_S1x16_39_16 : ∀ a, (![39, 16] : Fin 2 → Nat) a + S1x16.size a ≤ S128x64.size a
  inb_S128x64_S1x16_39_32 : ∀ a, (![39, 32] : Fin 2 → Nat) a + S1x16.size a ≤ S128x64.size a
  inb_S128x64_S1x16_39_48 : ∀ a, (![39, 48] : Fin 2 → Nat) a + S1x16.size a ≤ S128x64.size a
  inb_S128x64_S1x16_40_0 : ∀ a, (![40, 0] : Fin 2 → Nat) a + S1x16.size a ≤ S128x64.size a
  inb_S128x64_S1x16_40_16 : ∀ a, (![40, 16] : Fin 2 → Nat) a + S1x16.size a ≤ S128x64.size a
  inb_S128x64_S1x16_40_32 : ∀ a, (![40, 32] : Fin 2 → Nat) a + S1x16.size a ≤ S128x64.size a
  inb_S128x64_S1x16_40_48 : ∀ a, (![40, 48] : Fin 2 → Nat) a + S1x16.size a ≤ S128x64.size a
  inb_S128x64_S1x16_41_0 : ∀ a, (![41, 0] : Fin 2 → Nat) a + S1x16.size a ≤ S128x64.size a
  inb_S128x64_S1x16_41_16 : ∀ a, (![41, 16] : Fin 2 → Nat) a + S1x16.size a ≤ S128x64.size a
  inb_S128x64_S1x16_41_32 : ∀ a, (![41, 32] : Fin 2 → Nat) a + S1x16.size a ≤ S128x64.size a
  inb_S128x64_S1x16_41_48 : ∀ a, (![41, 48] : Fin 2 → Nat) a + S1x16.size a ≤ S128x64.size a
  inb_S128x64_S1x16_42_0 : ∀ a, (![42, 0] : Fin 2 → Nat) a + S1x16.size a ≤ S128x64.size a
  inb_S128x64_S1x16_42_16 : ∀ a, (![42, 16] : Fin 2 → Nat) a + S1x16.size a ≤ S128x64.size a
  inb_S128x64_S1x16_42_32 : ∀ a, (![42, 32] : Fin 2 → Nat) a + S1x16.size a ≤ S128x64.size a
  inb_S128x64_S1x16_42_48 : ∀ a, (![42, 48] : Fin 2 → Nat) a + S1x16.size a ≤ S128x64.size a
  inb_S128x64_S1x16_43_0 : ∀ a, (![43, 0] : Fin 2 → Nat) a + S1x16.size a ≤ S128x64.size a
  inb_S128x64_S1x16_43_16 : ∀ a, (![43, 16] : Fin 2 → Nat) a + S1x16.size a ≤ S128x64.size a
  inb_S128x64_S1x16_43_32 : ∀ a, (![43, 32] : Fin 2 → Nat) a + S1x16.size a ≤ S128x64.size a
  inb_S128x64_S1x16_43_48 : ∀ a, (![43, 48] : Fin 2 → Nat) a + S1x16.size a ≤ S128x64.size a
  inb_S128x64_S1x16_44_0 : ∀ a, (![44, 0] : Fin 2 → Nat) a + S1x16.size a ≤ S128x64.size a
  inb_S128x64_S1x16_44_16 : ∀ a, (![44, 16] : Fin 2 → Nat) a + S1x16.size a ≤ S128x64.size a
  inb_S128x64_S1x16_44_32 : ∀ a, (![44, 32] : Fin 2 → Nat) a + S1x16.size a ≤ S128x64.size a
  inb_S128x64_S1x16_44_48 : ∀ a, (![44, 48] : Fin 2 → Nat) a + S1x16.size a ≤ S128x64.size a
  inb_S128x64_S1x16_45_0 : ∀ a, (![45, 0] : Fin 2 → Nat) a + S1x16.size a ≤ S128x64.size a
  inb_S128x64_S1x16_45_16 : ∀ a, (![45, 16] : Fin 2 → Nat) a + S1x16.size a ≤ S128x64.size a
  inb_S128x64_S1x16_45_32 : ∀ a, (![45, 32] : Fin 2 → Nat) a + S1x16.size a ≤ S128x64.size a
  inb_S128x64_S1x16_45_48 : ∀ a, (![45, 48] : Fin 2 → Nat) a + S1x16.size a ≤ S128x64.size a
  inb_S128x64_S1x16_46_0 : ∀ a, (![46, 0] : Fin 2 → Nat) a + S1x16.size a ≤ S128x64.size a
  inb_S128x64_S1x16_46_16 : ∀ a, (![46, 16] : Fin 2 → Nat) a + S1x16.size a ≤ S128x64.size a
  inb_S128x64_S1x16_46_32 : ∀ a, (![46, 32] : Fin 2 → Nat) a + S1x16.size a ≤ S128x64.size a
  inb_S128x64_S1x16_46_48 : ∀ a, (![46, 48] : Fin 2 → Nat) a + S1x16.size a ≤ S128x64.size a
  inb_S128x64_S1x16_47_0 : ∀ a, (![47, 0] : Fin 2 → Nat) a + S1x16.size a ≤ S128x64.size a
  inb_S128x64_S1x16_47_16 : ∀ a, (![47, 16] : Fin 2 → Nat) a + S1x16.size a ≤ S128x64.size a
  inb_S128x64_S1x16_47_32 : ∀ a, (![47, 32] : Fin 2 → Nat) a + S1x16.size a ≤ S128x64.size a
  inb_S128x64_S1x16_47_48 : ∀ a, (![47, 48] : Fin 2 → Nat) a + S1x16.size a ≤ S128x64.size a
  inb_S128x64_S1x16_48_0 : ∀ a, (![48, 0] : Fin 2 → Nat) a + S1x16.size a ≤ S128x64.size a
  inb_S128x64_S1x16_48_16 : ∀ a, (![48, 16] : Fin 2 → Nat) a + S1x16.size a ≤ S128x64.size a
  inb_S128x64_S1x16_48_32 : ∀ a, (![48, 32] : Fin 2 → Nat) a + S1x16.size a ≤ S128x64.size a
  inb_S128x64_S1x16_48_48 : ∀ a, (![48, 48] : Fin 2 → Nat) a + S1x16.size a ≤ S128x64.size a
  inb_S128x64_S1x16_49_0 : ∀ a, (![49, 0] : Fin 2 → Nat) a + S1x16.size a ≤ S128x64.size a
  inb_S128x64_S1x16_49_16 : ∀ a, (![49, 16] : Fin 2 → Nat) a + S1x16.size a ≤ S128x64.size a
  inb_S128x64_S1x16_49_32 : ∀ a, (![49, 32] : Fin 2 → Nat) a + S1x16.size a ≤ S128x64.size a
  inb_S128x64_S1x16_49_48 : ∀ a, (![49, 48] : Fin 2 → Nat) a + S1x16.size a ≤ S128x64.size a
  inb_S128x64_S1x16_50_0 : ∀ a, (![50, 0] : Fin 2 → Nat) a + S1x16.size a ≤ S128x64.size a
  inb_S128x64_S1x16_50_16 : ∀ a, (![50, 16] : Fin 2 → Nat) a + S1x16.size a ≤ S128x64.size a
  inb_S128x64_S1x16_50_32 : ∀ a, (![50, 32] : Fin 2 → Nat) a + S1x16.size a ≤ S128x64.size a
  inb_S128x64_S1x16_50_48 : ∀ a, (![50, 48] : Fin 2 → Nat) a + S1x16.size a ≤ S128x64.size a
  inb_S128x64_S1x16_51_0 : ∀ a, (![51, 0] : Fin 2 → Nat) a + S1x16.size a ≤ S128x64.size a
  inb_S128x64_S1x16_51_16 : ∀ a, (![51, 16] : Fin 2 → Nat) a + S1x16.size a ≤ S128x64.size a
  inb_S128x64_S1x16_51_32 : ∀ a, (![51, 32] : Fin 2 → Nat) a + S1x16.size a ≤ S128x64.size a
  inb_S128x64_S1x16_51_48 : ∀ a, (![51, 48] : Fin 2 → Nat) a + S1x16.size a ≤ S128x64.size a
  inb_S128x64_S1x16_52_0 : ∀ a, (![52, 0] : Fin 2 → Nat) a + S1x16.size a ≤ S128x64.size a
  inb_S128x64_S1x16_52_16 : ∀ a, (![52, 16] : Fin 2 → Nat) a + S1x16.size a ≤ S128x64.size a
  inb_S128x64_S1x16_52_32 : ∀ a, (![52, 32] : Fin 2 → Nat) a + S1x16.size a ≤ S128x64.size a
  inb_S128x64_S1x16_52_48 : ∀ a, (![52, 48] : Fin 2 → Nat) a + S1x16.size a ≤ S128x64.size a
  inb_S128x64_S1x16_53_0 : ∀ a, (![53, 0] : Fin 2 → Nat) a + S1x16.size a ≤ S128x64.size a
  inb_S128x64_S1x16_53_16 : ∀ a, (![53, 16] : Fin 2 → Nat) a + S1x16.size a ≤ S128x64.size a
  inb_S128x64_S1x16_53_32 : ∀ a, (![53, 32] : Fin 2 → Nat) a + S1x16.size a ≤ S128x64.size a
  inb_S128x64_S1x16_53_48 : ∀ a, (![53, 48] : Fin 2 → Nat) a + S1x16.size a ≤ S128x64.size a
  inb_S128x64_S1x16_54_0 : ∀ a, (![54, 0] : Fin 2 → Nat) a + S1x16.size a ≤ S128x64.size a
  inb_S128x64_S1x16_54_16 : ∀ a, (![54, 16] : Fin 2 → Nat) a + S1x16.size a ≤ S128x64.size a
  inb_S128x64_S1x16_54_32 : ∀ a, (![54, 32] : Fin 2 → Nat) a + S1x16.size a ≤ S128x64.size a
  inb_S128x64_S1x16_54_48 : ∀ a, (![54, 48] : Fin 2 → Nat) a + S1x16.size a ≤ S128x64.size a
  inb_S128x64_S1x16_55_0 : ∀ a, (![55, 0] : Fin 2 → Nat) a + S1x16.size a ≤ S128x64.size a
  inb_S128x64_S1x16_55_16 : ∀ a, (![55, 16] : Fin 2 → Nat) a + S1x16.size a ≤ S128x64.size a
  inb_S128x64_S1x16_55_32 : ∀ a, (![55, 32] : Fin 2 → Nat) a + S1x16.size a ≤ S128x64.size a
  inb_S128x64_S1x16_55_48 : ∀ a, (![55, 48] : Fin 2 → Nat) a + S1x16.size a ≤ S128x64.size a
  inb_S128x64_S1x16_56_0 : ∀ a, (![56, 0] : Fin 2 → Nat) a + S1x16.size a ≤ S128x64.size a
  inb_S128x64_S1x16_56_16 : ∀ a, (![56, 16] : Fin 2 → Nat) a + S1x16.size a ≤ S128x64.size a
  inb_S128x64_S1x16_56_32 : ∀ a, (![56, 32] : Fin 2 → Nat) a + S1x16.size a ≤ S128x64.size a
  inb_S128x64_S1x16_56_48 : ∀ a, (![56, 48] : Fin 2 → Nat) a + S1x16.size a ≤ S128x64.size a
  inb_S128x64_S1x16_57_0 : ∀ a, (![57, 0] : Fin 2 → Nat) a + S1x16.size a ≤ S128x64.size a
  inb_S128x64_S1x16_57_16 : ∀ a, (![57, 16] : Fin 2 → Nat) a + S1x16.size a ≤ S128x64.size a
  inb_S128x64_S1x16_57_32 : ∀ a, (![57, 32] : Fin 2 → Nat) a + S1x16.size a ≤ S128x64.size a
  inb_S128x64_S1x16_57_48 : ∀ a, (![57, 48] : Fin 2 → Nat) a + S1x16.size a ≤ S128x64.size a
  inb_S128x64_S1x16_58_0 : ∀ a, (![58, 0] : Fin 2 → Nat) a + S1x16.size a ≤ S128x64.size a
  inb_S128x64_S1x16_58_16 : ∀ a, (![58, 16] : Fin 2 → Nat) a + S1x16.size a ≤ S128x64.size a
  inb_S128x64_S1x16_58_32 : ∀ a, (![58, 32] : Fin 2 → Nat) a + S1x16.size a ≤ S128x64.size a
  inb_S128x64_S1x16_58_48 : ∀ a, (![58, 48] : Fin 2 → Nat) a + S1x16.size a ≤ S128x64.size a
  inb_S128x64_S1x16_59_0 : ∀ a, (![59, 0] : Fin 2 → Nat) a + S1x16.size a ≤ S128x64.size a
  inb_S128x64_S1x16_59_16 : ∀ a, (![59, 16] : Fin 2 → Nat) a + S1x16.size a ≤ S128x64.size a
  inb_S128x64_S1x16_59_32 : ∀ a, (![59, 32] : Fin 2 → Nat) a + S1x16.size a ≤ S128x64.size a
  inb_S128x64_S1x16_59_48 : ∀ a, (![59, 48] : Fin 2 → Nat) a + S1x16.size a ≤ S128x64.size a
  inb_S128x64_S1x16_60_0 : ∀ a, (![60, 0] : Fin 2 → Nat) a + S1x16.size a ≤ S128x64.size a
  inb_S128x64_S1x16_60_16 : ∀ a, (![60, 16] : Fin 2 → Nat) a + S1x16.size a ≤ S128x64.size a
  inb_S128x64_S1x16_60_32 : ∀ a, (![60, 32] : Fin 2 → Nat) a + S1x16.size a ≤ S128x64.size a
  inb_S128x64_S1x16_60_48 : ∀ a, (![60, 48] : Fin 2 → Nat) a + S1x16.size a ≤ S128x64.size a
  inb_S128x64_S1x16_61_0 : ∀ a, (![61, 0] : Fin 2 → Nat) a + S1x16.size a ≤ S128x64.size a
  inb_S128x64_S1x16_61_16 : ∀ a, (![61, 16] : Fin 2 → Nat) a + S1x16.size a ≤ S128x64.size a
  inb_S128x64_S1x16_61_32 : ∀ a, (![61, 32] : Fin 2 → Nat) a + S1x16.size a ≤ S128x64.size a
  inb_S128x64_S1x16_61_48 : ∀ a, (![61, 48] : Fin 2 → Nat) a + S1x16.size a ≤ S128x64.size a
  inb_S128x64_S1x16_62_0 : ∀ a, (![62, 0] : Fin 2 → Nat) a + S1x16.size a ≤ S128x64.size a
  inb_S128x64_S1x16_62_16 : ∀ a, (![62, 16] : Fin 2 → Nat) a + S1x16.size a ≤ S128x64.size a
  inb_S128x64_S1x16_62_32 : ∀ a, (![62, 32] : Fin 2 → Nat) a + S1x16.size a ≤ S128x64.size a
  inb_S128x64_S1x16_62_48 : ∀ a, (![62, 48] : Fin 2 → Nat) a + S1x16.size a ≤ S128x64.size a
  inb_S128x64_S1x16_63_0 : ∀ a, (![63, 0] : Fin 2 → Nat) a + S1x16.size a ≤ S128x64.size a
  inb_S128x64_S1x16_63_16 : ∀ a, (![63, 16] : Fin 2 → Nat) a + S1x16.size a ≤ S128x64.size a
  inb_S128x64_S1x16_63_32 : ∀ a, (![63, 32] : Fin 2 → Nat) a + S1x16.size a ≤ S128x64.size a
  inb_S128x64_S1x16_63_48 : ∀ a, (![63, 48] : Fin 2 → Nat) a + S1x16.size a ≤ S128x64.size a
  inb_S128x64_S1x16_64_0 : ∀ a, (![64, 0] : Fin 2 → Nat) a + S1x16.size a ≤ S128x64.size a
  inb_S128x64_S1x16_64_16 : ∀ a, (![64, 16] : Fin 2 → Nat) a + S1x16.size a ≤ S128x64.size a
  inb_S128x64_S1x16_64_32 : ∀ a, (![64, 32] : Fin 2 → Nat) a + S1x16.size a ≤ S128x64.size a
  inb_S128x64_S1x16_64_48 : ∀ a, (![64, 48] : Fin 2 → Nat) a + S1x16.size a ≤ S128x64.size a
  inb_S128x64_S1x16_65_0 : ∀ a, (![65, 0] : Fin 2 → Nat) a + S1x16.size a ≤ S128x64.size a
  inb_S128x64_S1x16_65_16 : ∀ a, (![65, 16] : Fin 2 → Nat) a + S1x16.size a ≤ S128x64.size a
  inb_S128x64_S1x16_65_32 : ∀ a, (![65, 32] : Fin 2 → Nat) a + S1x16.size a ≤ S128x64.size a
  inb_S128x64_S1x16_65_48 : ∀ a, (![65, 48] : Fin 2 → Nat) a + S1x16.size a ≤ S128x64.size a
  inb_S128x64_S1x16_66_0 : ∀ a, (![66, 0] : Fin 2 → Nat) a + S1x16.size a ≤ S128x64.size a
  inb_S128x64_S1x16_66_16 : ∀ a, (![66, 16] : Fin 2 → Nat) a + S1x16.size a ≤ S128x64.size a
  inb_S128x64_S1x16_66_32 : ∀ a, (![66, 32] : Fin 2 → Nat) a + S1x16.size a ≤ S128x64.size a
  inb_S128x64_S1x16_66_48 : ∀ a, (![66, 48] : Fin 2 → Nat) a + S1x16.size a ≤ S128x64.size a
  inb_S128x64_S1x16_67_0 : ∀ a, (![67, 0] : Fin 2 → Nat) a + S1x16.size a ≤ S128x64.size a
  inb_S128x64_S1x16_67_16 : ∀ a, (![67, 16] : Fin 2 → Nat) a + S1x16.size a ≤ S128x64.size a
  inb_S128x64_S1x16_67_32 : ∀ a, (![67, 32] : Fin 2 → Nat) a + S1x16.size a ≤ S128x64.size a
  inb_S128x64_S1x16_67_48 : ∀ a, (![67, 48] : Fin 2 → Nat) a + S1x16.size a ≤ S128x64.size a
  inb_S128x64_S1x16_68_0 : ∀ a, (![68, 0] : Fin 2 → Nat) a + S1x16.size a ≤ S128x64.size a
  inb_S128x64_S1x16_68_16 : ∀ a, (![68, 16] : Fin 2 → Nat) a + S1x16.size a ≤ S128x64.size a
  inb_S128x64_S1x16_68_32 : ∀ a, (![68, 32] : Fin 2 → Nat) a + S1x16.size a ≤ S128x64.size a
  inb_S128x64_S1x16_68_48 : ∀ a, (![68, 48] : Fin 2 → Nat) a + S1x16.size a ≤ S128x64.size a
  inb_S128x64_S1x16_69_0 : ∀ a, (![69, 0] : Fin 2 → Nat) a + S1x16.size a ≤ S128x64.size a
  inb_S128x64_S1x16_69_16 : ∀ a, (![69, 16] : Fin 2 → Nat) a + S1x16.size a ≤ S128x64.size a
  inb_S128x64_S1x16_69_32 : ∀ a, (![69, 32] : Fin 2 → Nat) a + S1x16.size a ≤ S128x64.size a
  inb_S128x64_S1x16_69_48 : ∀ a, (![69, 48] : Fin 2 → Nat) a + S1x16.size a ≤ S128x64.size a
  inb_S128x64_S1x16_70_0 : ∀ a, (![70, 0] : Fin 2 → Nat) a + S1x16.size a ≤ S128x64.size a
  inb_S128x64_S1x16_70_16 : ∀ a, (![70, 16] : Fin 2 → Nat) a + S1x16.size a ≤ S128x64.size a
  inb_S128x64_S1x16_70_32 : ∀ a, (![70, 32] : Fin 2 → Nat) a + S1x16.size a ≤ S128x64.size a
  inb_S128x64_S1x16_70_48 : ∀ a, (![70, 48] : Fin 2 → Nat) a + S1x16.size a ≤ S128x64.size a
  inb_S128x64_S1x16_71_0 : ∀ a, (![71, 0] : Fin 2 → Nat) a + S1x16.size a ≤ S128x64.size a
  inb_S128x64_S1x16_71_16 : ∀ a, (![71, 16] : Fin 2 → Nat) a + S1x16.size a ≤ S128x64.size a
  inb_S128x64_S1x16_71_32 : ∀ a, (![71, 32] : Fin 2 → Nat) a + S1x16.size a ≤ S128x64.size a
  inb_S128x64_S1x16_71_48 : ∀ a, (![71, 48] : Fin 2 → Nat) a + S1x16.size a ≤ S128x64.size a
  inb_S128x64_S1x16_72_0 : ∀ a, (![72, 0] : Fin 2 → Nat) a + S1x16.size a ≤ S128x64.size a
  inb_S128x64_S1x16_72_16 : ∀ a, (![72, 16] : Fin 2 → Nat) a + S1x16.size a ≤ S128x64.size a
  inb_S128x64_S1x16_72_32 : ∀ a, (![72, 32] : Fin 2 → Nat) a + S1x16.size a ≤ S128x64.size a
  inb_S128x64_S1x16_72_48 : ∀ a, (![72, 48] : Fin 2 → Nat) a + S1x16.size a ≤ S128x64.size a
  inb_S128x64_S1x16_73_0 : ∀ a, (![73, 0] : Fin 2 → Nat) a + S1x16.size a ≤ S128x64.size a
  inb_S128x64_S1x16_73_16 : ∀ a, (![73, 16] : Fin 2 → Nat) a + S1x16.size a ≤ S128x64.size a
  inb_S128x64_S1x16_73_32 : ∀ a, (![73, 32] : Fin 2 → Nat) a + S1x16.size a ≤ S128x64.size a
  inb_S128x64_S1x16_73_48 : ∀ a, (![73, 48] : Fin 2 → Nat) a + S1x16.size a ≤ S128x64.size a
  inb_S128x64_S1x16_74_0 : ∀ a, (![74, 0] : Fin 2 → Nat) a + S1x16.size a ≤ S128x64.size a
  inb_S128x64_S1x16_74_16 : ∀ a, (![74, 16] : Fin 2 → Nat) a + S1x16.size a ≤ S128x64.size a
  inb_S128x64_S1x16_74_32 : ∀ a, (![74, 32] : Fin 2 → Nat) a + S1x16.size a ≤ S128x64.size a
  inb_S128x64_S1x16_74_48 : ∀ a, (![74, 48] : Fin 2 → Nat) a + S1x16.size a ≤ S128x64.size a
  inb_S128x64_S1x16_75_0 : ∀ a, (![75, 0] : Fin 2 → Nat) a + S1x16.size a ≤ S128x64.size a
  inb_S128x64_S1x16_75_16 : ∀ a, (![75, 16] : Fin 2 → Nat) a + S1x16.size a ≤ S128x64.size a
  inb_S128x64_S1x16_75_32 : ∀ a, (![75, 32] : Fin 2 → Nat) a + S1x16.size a ≤ S128x64.size a
  inb_S128x64_S1x16_75_48 : ∀ a, (![75, 48] : Fin 2 → Nat) a + S1x16.size a ≤ S128x64.size a
  inb_S128x64_S1x16_76_0 : ∀ a, (![76, 0] : Fin 2 → Nat) a + S1x16.size a ≤ S128x64.size a
  inb_S128x64_S1x16_76_16 : ∀ a, (![76, 16] : Fin 2 → Nat) a + S1x16.size a ≤ S128x64.size a
  inb_S128x64_S1x16_76_32 : ∀ a, (![76, 32] : Fin 2 → Nat) a + S1x16.size a ≤ S128x64.size a
  inb_S128x64_S1x16_76_48 : ∀ a, (![76, 48] : Fin 2 → Nat) a + S1x16.size a ≤ S128x64.size a
  inb_S128x64_S1x16_77_0 : ∀ a, (![77, 0] : Fin 2 → Nat) a + S1x16.size a ≤ S128x64.size a
  inb_S128x64_S1x16_77_16 : ∀ a, (![77, 16] : Fin 2 → Nat) a + S1x16.size a ≤ S128x64.size a
  inb_S128x64_S1x16_77_32 : ∀ a, (![77, 32] : Fin 2 → Nat) a + S1x16.size a ≤ S128x64.size a
  inb_S128x64_S1x16_77_48 : ∀ a, (![77, 48] : Fin 2 → Nat) a + S1x16.size a ≤ S128x64.size a
  inb_S128x64_S1x16_78_0 : ∀ a, (![78, 0] : Fin 2 → Nat) a + S1x16.size a ≤ S128x64.size a
  inb_S128x64_S1x16_78_16 : ∀ a, (![78, 16] : Fin 2 → Nat) a + S1x16.size a ≤ S128x64.size a
  inb_S128x64_S1x16_78_32 : ∀ a, (![78, 32] : Fin 2 → Nat) a + S1x16.size a ≤ S128x64.size a
  inb_S128x64_S1x16_78_48 : ∀ a, (![78, 48] : Fin 2 → Nat) a + S1x16.size a ≤ S128x64.size a
  inb_S128x64_S1x16_79_0 : ∀ a, (![79, 0] : Fin 2 → Nat) a + S1x16.size a ≤ S128x64.size a
  inb_S128x64_S1x16_79_16 : ∀ a, (![79, 16] : Fin 2 → Nat) a + S1x16.size a ≤ S128x64.size a
  inb_S128x64_S1x16_79_32 : ∀ a, (![79, 32] : Fin 2 → Nat) a + S1x16.size a ≤ S128x64.size a
  inb_S128x64_S1x16_79_48 : ∀ a, (![79, 48] : Fin 2 → Nat) a + S1x16.size a ≤ S128x64.size a
  inb_S128x64_S1x16_80_0 : ∀ a, (![80, 0] : Fin 2 → Nat) a + S1x16.size a ≤ S128x64.size a
  inb_S128x64_S1x16_80_16 : ∀ a, (![80, 16] : Fin 2 → Nat) a + S1x16.size a ≤ S128x64.size a
  inb_S128x64_S1x16_80_32 : ∀ a, (![80, 32] : Fin 2 → Nat) a + S1x16.size a ≤ S128x64.size a
  inb_S128x64_S1x16_80_48 : ∀ a, (![80, 48] : Fin 2 → Nat) a + S1x16.size a ≤ S128x64.size a
  inb_S128x64_S1x16_81_0 : ∀ a, (![81, 0] : Fin 2 → Nat) a + S1x16.size a ≤ S128x64.size a
  inb_S128x64_S1x16_81_16 : ∀ a, (![81, 16] : Fin 2 → Nat) a + S1x16.size a ≤ S128x64.size a
  inb_S128x64_S1x16_81_32 : ∀ a, (![81, 32] : Fin 2 → Nat) a + S1x16.size a ≤ S128x64.size a
  inb_S128x64_S1x16_81_48 : ∀ a, (![81, 48] : Fin 2 → Nat) a + S1x16.size a ≤ S128x64.size a
  inb_S128x64_S1x16_82_0 : ∀ a, (![82, 0] : Fin 2 → Nat) a + S1x16.size a ≤ S128x64.size a
  inb_S128x64_S1x16_82_16 : ∀ a, (![82, 16] : Fin 2 → Nat) a + S1x16.size a ≤ S128x64.size a
  inb_S128x64_S1x16_82_32 : ∀ a, (![82, 32] : Fin 2 → Nat) a + S1x16.size a ≤ S128x64.size a
  inb_S128x64_S1x16_82_48 : ∀ a, (![82, 48] : Fin 2 → Nat) a + S1x16.size a ≤ S128x64.size a
  inb_S128x64_S1x16_83_0 : ∀ a, (![83, 0] : Fin 2 → Nat) a + S1x16.size a ≤ S128x64.size a
  inb_S128x64_S1x16_83_16 : ∀ a, (![83, 16] : Fin 2 → Nat) a + S1x16.size a ≤ S128x64.size a
  inb_S128x64_S1x16_83_32 : ∀ a, (![83, 32] : Fin 2 → Nat) a + S1x16.size a ≤ S128x64.size a
  inb_S128x64_S1x16_83_48 : ∀ a, (![83, 48] : Fin 2 → Nat) a + S1x16.size a ≤ S128x64.size a
  inb_S128x64_S1x16_84_0 : ∀ a, (![84, 0] : Fin 2 → Nat) a + S1x16.size a ≤ S128x64.size a
  inb_S128x64_S1x16_84_16 : ∀ a, (![84, 16] : Fin 2 → Nat) a + S1x16.size a ≤ S128x64.size a
  inb_S128x64_S1x16_84_32 : ∀ a, (![84, 32] : Fin 2 → Nat) a + S1x16.size a ≤ S128x64.size a
  inb_S128x64_S1x16_84_48 : ∀ a, (![84, 48] : Fin 2 → Nat) a + S1x16.size a ≤ S128x64.size a
  inb_S128x64_S1x16_85_0 : ∀ a, (![85, 0] : Fin 2 → Nat) a + S1x16.size a ≤ S128x64.size a
  inb_S128x64_S1x16_85_16 : ∀ a, (![85, 16] : Fin 2 → Nat) a + S1x16.size a ≤ S128x64.size a
  inb_S128x64_S1x16_85_32 : ∀ a, (![85, 32] : Fin 2 → Nat) a + S1x16.size a ≤ S128x64.size a
  inb_S128x64_S1x16_85_48 : ∀ a, (![85, 48] : Fin 2 → Nat) a + S1x16.size a ≤ S128x64.size a
  inb_S128x64_S1x16_86_0 : ∀ a, (![86, 0] : Fin 2 → Nat) a + S1x16.size a ≤ S128x64.size a
  inb_S128x64_S1x16_86_16 : ∀ a, (![86, 16] : Fin 2 → Nat) a + S1x16.size a ≤ S128x64.size a
  inb_S128x64_S1x16_86_32 : ∀ a, (![86, 32] : Fin 2 → Nat) a + S1x16.size a ≤ S128x64.size a
  inb_S128x64_S1x16_86_48 : ∀ a, (![86, 48] : Fin 2 → Nat) a + S1x16.size a ≤ S128x64.size a
  inb_S128x64_S1x16_87_0 : ∀ a, (![87, 0] : Fin 2 → Nat) a + S1x16.size a ≤ S128x64.size a
  inb_S128x64_S1x16_87_16 : ∀ a, (![87, 16] : Fin 2 → Nat) a + S1x16.size a ≤ S128x64.size a
  inb_S128x64_S1x16_87_32 : ∀ a, (![87, 32] : Fin 2 → Nat) a + S1x16.size a ≤ S128x64.size a
  inb_S128x64_S1x16_87_48 : ∀ a, (![87, 48] : Fin 2 → Nat) a + S1x16.size a ≤ S128x64.size a
  inb_S128x64_S1x16_88_0 : ∀ a, (![88, 0] : Fin 2 → Nat) a + S1x16.size a ≤ S128x64.size a
  inb_S128x64_S1x16_88_16 : ∀ a, (![88, 16] : Fin 2 → Nat) a + S1x16.size a ≤ S128x64.size a
  inb_S128x64_S1x16_88_32 : ∀ a, (![88, 32] : Fin 2 → Nat) a + S1x16.size a ≤ S128x64.size a
  inb_S128x64_S1x16_88_48 : ∀ a, (![88, 48] : Fin 2 → Nat) a + S1x16.size a ≤ S128x64.size a
  inb_S128x64_S1x16_89_0 : ∀ a, (![89, 0] : Fin 2 → Nat) a + S1x16.size a ≤ S128x64.size a
  inb_S128x64_S1x16_89_16 : ∀ a, (![89, 16] : Fin 2 → Nat) a + S1x16.size a ≤ S128x64.size a
  inb_S128x64_S1x16_89_32 : ∀ a, (![89, 32] : Fin 2 → Nat) a + S1x16.size a ≤ S128x64.size a
  inb_S128x64_S1x16_89_48 : ∀ a, (![89, 48] : Fin 2 → Nat) a + S1x16.size a ≤ S128x64.size a
  inb_S128x64_S1x16_90_0 : ∀ a, (![90, 0] : Fin 2 → Nat) a + S1x16.size a ≤ S128x64.size a
  inb_S128x64_S1x16_90_16 : ∀ a, (![90, 16] : Fin 2 → Nat) a + S1x16.size a ≤ S128x64.size a
  inb_S128x64_S1x16_90_32 : ∀ a, (![90, 32] : Fin 2 → Nat) a + S1x16.size a ≤ S128x64.size a
  inb_S128x64_S1x16_90_48 : ∀ a, (![90, 48] : Fin 2 → Nat) a + S1x16.size a ≤ S128x64.size a
  inb_S128x64_S1x16_91_0 : ∀ a, (![91, 0] : Fin 2 → Nat) a + S1x16.size a ≤ S128x64.size a
  inb_S128x64_S1x16_91_16 : ∀ a, (![91, 16] : Fin 2 → Nat) a + S1x16.size a ≤ S128x64.size a
  inb_S128x64_S1x16_91_32 : ∀ a, (![91, 32] : Fin 2 → Nat) a + S1x16.size a ≤ S128x64.size a
  inb_S128x64_S1x16_91_48 : ∀ a, (![91, 48] : Fin 2 → Nat) a + S1x16.size a ≤ S128x64.size a
  inb_S128x64_S1x16_92_0 : ∀ a, (![92, 0] : Fin 2 → Nat) a + S1x16.size a ≤ S128x64.size a
  inb_S128x64_S1x16_92_16 : ∀ a, (![92, 16] : Fin 2 → Nat) a + S1x16.size a ≤ S128x64.size a
  inb_S128x64_S1x16_92_32 : ∀ a, (![92, 32] : Fin 2 → Nat) a + S1x16.size a ≤ S128x64.size a
  inb_S128x64_S1x16_92_48 : ∀ a, (![92, 48] : Fin 2 → Nat) a + S1x16.size a ≤ S128x64.size a
  inb_S128x64_S1x16_93_0 : ∀ a, (![93, 0] : Fin 2 → Nat) a + S1x16.size a ≤ S128x64.size a
  inb_S128x64_S1x16_93_16 : ∀ a, (![93, 16] : Fin 2 → Nat) a + S1x16.size a ≤ S128x64.size a
  inb_S128x64_S1x16_93_32 : ∀ a, (![93, 32] : Fin 2 → Nat) a + S1x16.size a ≤ S128x64.size a
  inb_S128x64_S1x16_93_48 : ∀ a, (![93, 48] : Fin 2 → Nat) a + S1x16.size a ≤ S128x64.size a
  inb_S128x64_S1x16_94_0 : ∀ a, (![94, 0] : Fin 2 → Nat) a + S1x16.size a ≤ S128x64.size a
  inb_S128x64_S1x16_94_16 : ∀ a, (![94, 16] : Fin 2 → Nat) a + S1x16.size a ≤ S128x64.size a
  inb_S128x64_S1x16_94_32 : ∀ a, (![94, 32] : Fin 2 → Nat) a + S1x16.size a ≤ S128x64.size a
  inb_S128x64_S1x16_94_48 : ∀ a, (![94, 48] : Fin 2 → Nat) a + S1x16.size a ≤ S128x64.size a
  inb_S128x64_S1x16_95_0 : ∀ a, (![95, 0] : Fin 2 → Nat) a + S1x16.size a ≤ S128x64.size a
  inb_S128x64_S1x16_95_16 : ∀ a, (![95, 16] : Fin 2 → Nat) a + S1x16.size a ≤ S128x64.size a
  inb_S128x64_S1x16_95_32 : ∀ a, (![95, 32] : Fin 2 → Nat) a + S1x16.size a ≤ S128x64.size a
  inb_S128x64_S1x16_95_48 : ∀ a, (![95, 48] : Fin 2 → Nat) a + S1x16.size a ≤ S128x64.size a
  inb_S128x64_S1x16_96_0 : ∀ a, (![96, 0] : Fin 2 → Nat) a + S1x16.size a ≤ S128x64.size a
  inb_S128x64_S1x16_96_16 : ∀ a, (![96, 16] : Fin 2 → Nat) a + S1x16.size a ≤ S128x64.size a
  inb_S128x64_S1x16_96_32 : ∀ a, (![96, 32] : Fin 2 → Nat) a + S1x16.size a ≤ S128x64.size a
  inb_S128x64_S1x16_96_48 : ∀ a, (![96, 48] : Fin 2 → Nat) a + S1x16.size a ≤ S128x64.size a
  inb_S128x64_S1x16_97_0 : ∀ a, (![97, 0] : Fin 2 → Nat) a + S1x16.size a ≤ S128x64.size a
  inb_S128x64_S1x16_97_16 : ∀ a, (![97, 16] : Fin 2 → Nat) a + S1x16.size a ≤ S128x64.size a
  inb_S128x64_S1x16_97_32 : ∀ a, (![97, 32] : Fin 2 → Nat) a + S1x16.size a ≤ S128x64.size a
  inb_S128x64_S1x16_97_48 : ∀ a, (![97, 48] : Fin 2 → Nat) a + S1x16.size a ≤ S128x64.size a
  inb_S128x64_S1x16_98_0 : ∀ a, (![98, 0] : Fin 2 → Nat) a + S1x16.size a ≤ S128x64.size a
  inb_S128x64_S1x16_98_16 : ∀ a, (![98, 16] : Fin 2 → Nat) a + S1x16.size a ≤ S128x64.size a
  inb_S128x64_S1x16_98_32 : ∀ a, (![98, 32] : Fin 2 → Nat) a + S1x16.size a ≤ S128x64.size a
  inb_S128x64_S1x16_98_48 : ∀ a, (![98, 48] : Fin 2 → Nat) a + S1x16.size a ≤ S128x64.size a
  inb_S128x64_S1x16_99_0 : ∀ a, (![99, 0] : Fin 2 → Nat) a + S1x16.size a ≤ S128x64.size a
  inb_S128x64_S1x16_99_16 : ∀ a, (![99, 16] : Fin 2 → Nat) a + S1x16.size a ≤ S128x64.size a
  inb_S128x64_S1x16_99_32 : ∀ a, (![99, 32] : Fin 2 → Nat) a + S1x16.size a ≤ S128x64.size a
  inb_S128x64_S1x16_99_48 : ∀ a, (![99, 48] : Fin 2 → Nat) a + S1x16.size a ≤ S128x64.size a
  inb_S128x64_S1x16_100_0 : ∀ a, (![100, 0] : Fin 2 → Nat) a + S1x16.size a ≤ S128x64.size a
  inb_S128x64_S1x16_100_16 : ∀ a, (![100, 16] : Fin 2 → Nat) a + S1x16.size a ≤ S128x64.size a
  inb_S128x64_S1x16_100_32 : ∀ a, (![100, 32] : Fin 2 → Nat) a + S1x16.size a ≤ S128x64.size a
  inb_S128x64_S1x16_100_48 : ∀ a, (![100, 48] : Fin 2 → Nat) a + S1x16.size a ≤ S128x64.size a
  inb_S128x64_S1x16_101_0 : ∀ a, (![101, 0] : Fin 2 → Nat) a + S1x16.size a ≤ S128x64.size a
  inb_S128x64_S1x16_101_16 : ∀ a, (![101, 16] : Fin 2 → Nat) a + S1x16.size a ≤ S128x64.size a
  inb_S128x64_S1x16_101_32 : ∀ a, (![101, 32] : Fin 2 → Nat) a + S1x16.size a ≤ S128x64.size a
  inb_S128x64_S1x16_101_48 : ∀ a, (![101, 48] : Fin 2 → Nat) a + S1x16.size a ≤ S128x64.size a
  inb_S128x64_S1x16_102_0 : ∀ a, (![102, 0] : Fin 2 → Nat) a + S1x16.size a ≤ S128x64.size a
  inb_S128x64_S1x16_102_16 : ∀ a, (![102, 16] : Fin 2 → Nat) a + S1x16.size a ≤ S128x64.size a
  inb_S128x64_S1x16_102_32 : ∀ a, (![102, 32] : Fin 2 → Nat) a + S1x16.size a ≤ S128x64.size a
  inb_S128x64_S1x16_102_48 : ∀ a, (![102, 48] : Fin 2 → Nat) a + S1x16.size a ≤ S128x64.size a
  inb_S128x64_S1x16_103_0 : ∀ a, (![103, 0] : Fin 2 → Nat) a + S1x16.size a ≤ S128x64.size a
  inb_S128x64_S1x16_103_16 : ∀ a, (![103, 16] : Fin 2 → Nat) a + S1x16.size a ≤ S128x64.size a
  inb_S128x64_S1x16_103_32 : ∀ a, (![103, 32] : Fin 2 → Nat) a + S1x16.size a ≤ S128x64.size a
  inb_S128x64_S1x16_103_48 : ∀ a, (![103, 48] : Fin 2 → Nat) a + S1x16.size a ≤ S128x64.size a
  inb_S128x64_S1x16_104_0 : ∀ a, (![104, 0] : Fin 2 → Nat) a + S1x16.size a ≤ S128x64.size a
  inb_S128x64_S1x16_104_16 : ∀ a, (![104, 16] : Fin 2 → Nat) a + S1x16.size a ≤ S128x64.size a
  inb_S128x64_S1x16_104_32 : ∀ a, (![104, 32] : Fin 2 → Nat) a + S1x16.size a ≤ S128x64.size a
  inb_S128x64_S1x16_104_48 : ∀ a, (![104, 48] : Fin 2 → Nat) a + S1x16.size a ≤ S128x64.size a
  inb_S128x64_S1x16_105_0 : ∀ a, (![105, 0] : Fin 2 → Nat) a + S1x16.size a ≤ S128x64.size a
  inb_S128x64_S1x16_105_16 : ∀ a, (![105, 16] : Fin 2 → Nat) a + S1x16.size a ≤ S128x64.size a
  inb_S128x64_S1x16_105_32 : ∀ a, (![105, 32] : Fin 2 → Nat) a + S1x16.size a ≤ S128x64.size a
  inb_S128x64_S1x16_105_48 : ∀ a, (![105, 48] : Fin 2 → Nat) a + S1x16.size a ≤ S128x64.size a
  inb_S128x64_S1x16_106_0 : ∀ a, (![106, 0] : Fin 2 → Nat) a + S1x16.size a ≤ S128x64.size a
  inb_S128x64_S1x16_106_16 : ∀ a, (![106, 16] : Fin 2 → Nat) a + S1x16.size a ≤ S128x64.size a
  inb_S128x64_S1x16_106_32 : ∀ a, (![106, 32] : Fin 2 → Nat) a + S1x16.size a ≤ S128x64.size a
  inb_S128x64_S1x16_106_48 : ∀ a, (![106, 48] : Fin 2 → Nat) a + S1x16.size a ≤ S128x64.size a
  inb_S128x64_S1x16_107_0 : ∀ a, (![107, 0] : Fin 2 → Nat) a + S1x16.size a ≤ S128x64.size a
  inb_S128x64_S1x16_107_16 : ∀ a, (![107, 16] : Fin 2 → Nat) a + S1x16.size a ≤ S128x64.size a
  inb_S128x64_S1x16_107_32 : ∀ a, (![107, 32] : Fin 2 → Nat) a + S1x16.size a ≤ S128x64.size a
  inb_S128x64_S1x16_107_48 : ∀ a, (![107, 48] : Fin 2 → Nat) a + S1x16.size a ≤ S128x64.size a
  inb_S128x64_S1x16_108_0 : ∀ a, (![108, 0] : Fin 2 → Nat) a + S1x16.size a ≤ S128x64.size a
  inb_S128x64_S1x16_108_16 : ∀ a, (![108, 16] : Fin 2 → Nat) a + S1x16.size a ≤ S128x64.size a
  inb_S128x64_S1x16_108_32 : ∀ a, (![108, 32] : Fin 2 → Nat) a + S1x16.size a ≤ S128x64.size a
  inb_S128x64_S1x16_108_48 : ∀ a, (![108, 48] : Fin 2 → Nat) a + S1x16.size a ≤ S128x64.size a
  inb_S128x64_S1x16_109_0 : ∀ a, (![109, 0] : Fin 2 → Nat) a + S1x16.size a ≤ S128x64.size a
  inb_S128x64_S1x16_109_16 : ∀ a, (![109, 16] : Fin 2 → Nat) a + S1x16.size a ≤ S128x64.size a
  inb_S128x64_S1x16_109_32 : ∀ a, (![109, 32] : Fin 2 → Nat) a + S1x16.size a ≤ S128x64.size a
  inb_S128x64_S1x16_109_48 : ∀ a, (![109, 48] : Fin 2 → Nat) a + S1x16.size a ≤ S128x64.size a
  inb_S128x64_S1x16_110_0 : ∀ a, (![110, 0] : Fin 2 → Nat) a + S1x16.size a ≤ S128x64.size a
  inb_S128x64_S1x16_110_16 : ∀ a, (![110, 16] : Fin 2 → Nat) a + S1x16.size a ≤ S128x64.size a
  inb_S128x64_S1x16_110_32 : ∀ a, (![110, 32] : Fin 2 → Nat) a + S1x16.size a ≤ S128x64.size a
  inb_S128x64_S1x16_110_48 : ∀ a, (![110, 48] : Fin 2 → Nat) a + S1x16.size a ≤ S128x64.size a
  inb_S128x64_S1x16_111_0 : ∀ a, (![111, 0] : Fin 2 → Nat) a + S1x16.size a ≤ S128x64.size a
  inb_S128x64_S1x16_111_16 : ∀ a, (![111, 16] : Fin 2 → Nat) a + S1x16.size a ≤ S128x64.size a
  inb_S128x64_S1x16_111_32 : ∀ a, (![111, 32] : Fin 2 → Nat) a + S1x16.size a ≤ S128x64.size a
  inb_S128x64_S1x16_111_48 : ∀ a, (![111, 48] : Fin 2 → Nat) a + S1x16.size a ≤ S128x64.size a
  inb_S128x64_S1x16_112_0 : ∀ a, (![112, 0] : Fin 2 → Nat) a + S1x16.size a ≤ S128x64.size a
  inb_S128x64_S1x16_112_16 : ∀ a, (![112, 16] : Fin 2 → Nat) a + S1x16.size a ≤ S128x64.size a
  inb_S128x64_S1x16_112_32 : ∀ a, (![112, 32] : Fin 2 → Nat) a + S1x16.size a ≤ S128x64.size a
  inb_S128x64_S1x16_112_48 : ∀ a, (![112, 48] : Fin 2 → Nat) a + S1x16.size a ≤ S128x64.size a
  inb_S128x64_S1x16_113_0 : ∀ a, (![113, 0] : Fin 2 → Nat) a + S1x16.size a ≤ S128x64.size a
  inb_S128x64_S1x16_113_16 : ∀ a, (![113, 16] : Fin 2 → Nat) a + S1x16.size a ≤ S128x64.size a
  inb_S128x64_S1x16_113_32 : ∀ a, (![113, 32] : Fin 2 → Nat) a + S1x16.size a ≤ S128x64.size a
  inb_S128x64_S1x16_113_48 : ∀ a, (![113, 48] : Fin 2 → Nat) a + S1x16.size a ≤ S128x64.size a
  inb_S128x64_S1x16_114_0 : ∀ a, (![114, 0] : Fin 2 → Nat) a + S1x16.size a ≤ S128x64.size a
  inb_S128x64_S1x16_114_16 : ∀ a, (![114, 16] : Fin 2 → Nat) a + S1x16.size a ≤ S128x64.size a
  inb_S128x64_S1x16_114_32 : ∀ a, (![114, 32] : Fin 2 → Nat) a + S1x16.size a ≤ S128x64.size a
  inb_S128x64_S1x16_114_48 : ∀ a, (![114, 48] : Fin 2 → Nat) a + S1x16.size a ≤ S128x64.size a
  inb_S128x64_S1x16_115_0 : ∀ a, (![115, 0] : Fin 2 → Nat) a + S1x16.size a ≤ S128x64.size a
  inb_S128x64_S1x16_115_16 : ∀ a, (![115, 16] : Fin 2 → Nat) a + S1x16.size a ≤ S128x64.size a
  inb_S128x64_S1x16_115_32 : ∀ a, (![115, 32] : Fin 2 → Nat) a + S1x16.size a ≤ S128x64.size a
  inb_S128x64_S1x16_115_48 : ∀ a, (![115, 48] : Fin 2 → Nat) a + S1x16.size a ≤ S128x64.size a
  inb_S128x64_S1x16_116_0 : ∀ a, (![116, 0] : Fin 2 → Nat) a + S1x16.size a ≤ S128x64.size a
  inb_S128x64_S1x16_116_16 : ∀ a, (![116, 16] : Fin 2 → Nat) a + S1x16.size a ≤ S128x64.size a
  inb_S128x64_S1x16_116_32 : ∀ a, (![116, 32] : Fin 2 → Nat) a + S1x16.size a ≤ S128x64.size a
  inb_S128x64_S1x16_116_48 : ∀ a, (![116, 48] : Fin 2 → Nat) a + S1x16.size a ≤ S128x64.size a
  inb_S128x64_S1x16_117_0 : ∀ a, (![117, 0] : Fin 2 → Nat) a + S1x16.size a ≤ S128x64.size a
  inb_S128x64_S1x16_117_16 : ∀ a, (![117, 16] : Fin 2 → Nat) a + S1x16.size a ≤ S128x64.size a
  inb_S128x64_S1x16_117_32 : ∀ a, (![117, 32] : Fin 2 → Nat) a + S1x16.size a ≤ S128x64.size a
  inb_S128x64_S1x16_117_48 : ∀ a, (![117, 48] : Fin 2 → Nat) a + S1x16.size a ≤ S128x64.size a
  inb_S128x64_S1x16_118_0 : ∀ a, (![118, 0] : Fin 2 → Nat) a + S1x16.size a ≤ S128x64.size a
  inb_S128x64_S1x16_118_16 : ∀ a, (![118, 16] : Fin 2 → Nat) a + S1x16.size a ≤ S128x64.size a
  inb_S128x64_S1x16_118_32 : ∀ a, (![118, 32] : Fin 2 → Nat) a + S1x16.size a ≤ S128x64.size a
  inb_S128x64_S1x16_118_48 : ∀ a, (![118, 48] : Fin 2 → Nat) a + S1x16.size a ≤ S128x64.size a
  inb_S128x64_S1x16_119_0 : ∀ a, (![119, 0] : Fin 2 → Nat) a + S1x16.size a ≤ S128x64.size a
  inb_S128x64_S1x16_119_16 : ∀ a, (![119, 16] : Fin 2 → Nat) a + S1x16.size a ≤ S128x64.size a
  inb_S128x64_S1x16_119_32 : ∀ a, (![119, 32] : Fin 2 → Nat) a + S1x16.size a ≤ S128x64.size a
  inb_S128x64_S1x16_119_48 : ∀ a, (![119, 48] : Fin 2 → Nat) a + S1x16.size a ≤ S128x64.size a
  inb_S128x64_S1x16_120_0 : ∀ a, (![120, 0] : Fin 2 → Nat) a + S1x16.size a ≤ S128x64.size a
  inb_S128x64_S1x16_120_16 : ∀ a, (![120, 16] : Fin 2 → Nat) a + S1x16.size a ≤ S128x64.size a
  inb_S128x64_S1x16_120_32 : ∀ a, (![120, 32] : Fin 2 → Nat) a + S1x16.size a ≤ S128x64.size a
  inb_S128x64_S1x16_120_48 : ∀ a, (![120, 48] : Fin 2 → Nat) a + S1x16.size a ≤ S128x64.size a
  inb_S128x64_S1x16_121_0 : ∀ a, (![121, 0] : Fin 2 → Nat) a + S1x16.size a ≤ S128x64.size a
  inb_S128x64_S1x16_121_16 : ∀ a, (![121, 16] : Fin 2 → Nat) a + S1x16.size a ≤ S128x64.size a
  inb_S128x64_S1x16_121_32 : ∀ a, (![121, 32] : Fin 2 → Nat) a + S1x16.size a ≤ S128x64.size a
  inb_S128x64_S1x16_121_48 : ∀ a, (![121, 48] : Fin 2 → Nat) a + S1x16.size a ≤ S128x64.size a
  inb_S128x64_S1x16_122_0 : ∀ a, (![122, 0] : Fin 2 → Nat) a + S1x16.size a ≤ S128x64.size a
  inb_S128x64_S1x16_122_16 : ∀ a, (![122, 16] : Fin 2 → Nat) a + S1x16.size a ≤ S128x64.size a
  inb_S128x64_S1x16_122_32 : ∀ a, (![122, 32] : Fin 2 → Nat) a + S1x16.size a ≤ S128x64.size a
  inb_S128x64_S1x16_122_48 : ∀ a, (![122, 48] : Fin 2 → Nat) a + S1x16.size a ≤ S128x64.size a
  inb_S128x64_S1x16_123_0 : ∀ a, (![123, 0] : Fin 2 → Nat) a + S1x16.size a ≤ S128x64.size a
  inb_S128x64_S1x16_123_16 : ∀ a, (![123, 16] : Fin 2 → Nat) a + S1x16.size a ≤ S128x64.size a
  inb_S128x64_S1x16_123_32 : ∀ a, (![123, 32] : Fin 2 → Nat) a + S1x16.size a ≤ S128x64.size a
  inb_S128x64_S1x16_123_48 : ∀ a, (![123, 48] : Fin 2 → Nat) a + S1x16.size a ≤ S128x64.size a
  inb_S128x64_S1x16_124_0 : ∀ a, (![124, 0] : Fin 2 → Nat) a + S1x16.size a ≤ S128x64.size a
  inb_S128x64_S1x16_124_16 : ∀ a, (![124, 16] : Fin 2 → Nat) a + S1x16.size a ≤ S128x64.size a
  inb_S128x64_S1x16_124_32 : ∀ a, (![124, 32] : Fin 2 → Nat) a + S1x16.size a ≤ S128x64.size a
  inb_S128x64_S1x16_124_48 : ∀ a, (![124, 48] : Fin 2 → Nat) a + S1x16.size a ≤ S128x64.size a
  inb_S128x64_S1x16_125_0 : ∀ a, (![125, 0] : Fin 2 → Nat) a + S1x16.size a ≤ S128x64.size a
  inb_S128x64_S1x16_125_16 : ∀ a, (![125, 16] : Fin 2 → Nat) a + S1x16.size a ≤ S128x64.size a
  inb_S128x64_S1x16_125_32 : ∀ a, (![125, 32] : Fin 2 → Nat) a + S1x16.size a ≤ S128x64.size a
  inb_S128x64_S1x16_125_48 : ∀ a, (![125, 48] : Fin 2 → Nat) a + S1x16.size a ≤ S128x64.size a
  inb_S128x64_S1x16_126_0 : ∀ a, (![126, 0] : Fin 2 → Nat) a + S1x16.size a ≤ S128x64.size a
  inb_S128x64_S1x16_126_16 : ∀ a, (![126, 16] : Fin 2 → Nat) a + S1x16.size a ≤ S128x64.size a
  inb_S128x64_S1x16_126_32 : ∀ a, (![126, 32] : Fin 2 → Nat) a + S1x16.size a ≤ S128x64.size a
  inb_S128x64_S1x16_126_48 : ∀ a, (![126, 48] : Fin 2 → Nat) a + S1x16.size a ≤ S128x64.size a
  inb_S128x64_S1x16_127_0 : ∀ a, (![127, 0] : Fin 2 → Nat) a + S1x16.size a ≤ S128x64.size a
  inb_S128x64_S1x16_127_16 : ∀ a, (![127, 16] : Fin 2 → Nat) a + S1x16.size a ≤ S128x64.size a
  inb_S128x64_S1x16_127_32 : ∀ a, (![127, 32] : Fin 2 → Nat) a + S1x16.size a ≤ S128x64.size a
  inb_S128x64_S1x16_127_48 : ∀ a, (![127, 48] : Fin 2 → Nat) a + S1x16.size a ≤ S128x64.size a
  hcc0_scratch4 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S16.size a ≤ S512.size a
  k0_t2_ok : k0_t2_loop.OK
  k0_off3_inb : ∀ k0_t2 : Fin k0_t2_loop.trips, ∀ a, (k0_off3 k0_t2) a + S128.size a ≤ S512.size a
  k0_off4_inb : ∀ k0_t2 : Fin k0_t2_loop.trips, ∀ a, (k0_off4 k0_t2) a + S16.size a ≤ S512.size a
  k0_off21_inb : ∀ k0_t2 : Fin k0_t2_loop.trips, ∀ a, (k0_off21 k0_t2) a + S16.size a ≤ S512.size a
  k0_off38_inb : ∀ k0_t2 : Fin k0_t2_loop.trips, ∀ a, (k0_off38 k0_t2) a + S16.size a ≤ S512.size a
  k0_off55_inb : ∀ k0_t2 : Fin k0_t2_loop.trips, ∀ a, (k0_off55 k0_t2) a + S16.size a ≤ S512.size a
  k0_off72_inb : ∀ k0_t2 : Fin k0_t2_loop.trips, ∀ a, (k0_off72 k0_t2) a + S16.size a ≤ S512.size a
  k0_off89_inb : ∀ k0_t2 : Fin k0_t2_loop.trips, ∀ a, (k0_off89 k0_t2) a + S16.size a ≤ S512.size a
  k0_off106_inb : ∀ k0_t2 : Fin k0_t2_loop.trips, ∀ a, (k0_off106 k0_t2) a + S16.size a ≤ S512.size a
  k0_off123_inb : ∀ k0_t2 : Fin k0_t2_loop.trips, ∀ a, (k0_off123 k0_t2) a + S16.size a ≤ S512.size a
  k0_off140_inb : ∀ (i : grid0.Coords) (k0_t2 : Fin k0_t2_loop.trips), ∀ a, (k0_off140 i k0_t2) a + S128x64.size a ≤ S16384x64.size a

variable [Facts₀]

abbrev cc0_scratch4 : DmaSems sig S_ := SemArray.consecutive 0 S_ hcc0_scratch4
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x64, .f32⟩
  | .hbm, ⟨21, _⟩ => ⟨S16384x64, .i1⟩
  | .hbm, ⟨22, _⟩ => ⟨S_, .f32⟩
  | .hbm, ⟨23, _⟩ => ⟨S16384x64, .f32⟩
  | .hbm, ⟨24, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  gather_S1000000x64_S16384x1_S16384x64_1_0_n_n_0_1_164_wf : GatherDims.WF S1000000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf

class Facts : Prop extends Facts₀ where

variable [Facts]
-- ==== Proof.Spec.lean ====
/-
  The function both programs compute: row `labels[b]` of the table, for each of the 16384 labels. A label is read as
  an unsigned word; the row number is taken modulo the table's height so that the function is total, and where every
  label is at most 999999 (`InRange`) the reduction changes nothing.
-/
import Idealize.ShloMosaic.Lib.ValueIdx

namespace Cert.Spec

open Idealize.ShloMosaic Idealize.ShloMosaic.ValueIdx

/-- Every label, read unsigned, names a row of the table. -/
def InRange (lb : IVec ⟨1, ![16384]⟩ 32) : Prop := ∀ j : Fin 16384, (lb (ix1 j)).toNat ≤ 999999

/-- The row a label names. -/
def rowOf (v : BitVec 32) : Fin 1000000 := ⟨v.toNat % 1000000, Nat.mod_lt _ (by decide)⟩

theorem rowOf_val_of_le {v : BitVec 32} (h : v.toNat ≤ 999999) : (rowOf v).val = v.toNat :=
  Nat.mod_eq_of_lt (by omega)

/-- The gathered rows: entry `(b, e)` is the table at row `labels[b]`, column `e`. -/
def rows {α : Type} (lb : IVec ⟨1, ![16384]⟩ 32) (tb : (⟨2, ![1000000, 64]⟩ : Shape).Idx → α) :
    (⟨2, ![16384, 64]⟩ : Shape).Idx → α :=
  fun i => tb (ix2 (rowOf (lb (ix1 (i 0 : Fin 16384)))) (i 1 : Fin 64))

theorem rows_apply {α : Type} (lb : IVec ⟨1, ![16384]⟩ 32) (tb : (⟨2, ![1000000, 64]⟩ : Shape).Idx → α) (b : Fin 16384) (e : Fin 64) :
    rows lb tb (ix2 b e) = tb (ix2 (rowOf (lb (ix1 b))) e) := rfl

end Cert.Spec
-- ==== Proof.Ref.InRange.lean ====
/-
  The labels' range, read out of the input-domain predicate.

  The predicate is the conjunction of two "all" reductions: every table entry is finite, and every label `l`
  satisfies `0 ≤ l` and `l ≤ 999999` as a signed word. Only the second conjunct is opened here. A reduction by
  `and` from 1 that ends at 1 met only 1s, so both signed comparisons hold at every label; a signed word that is
  nonnegative and at most 999999 reads the same unsigned, so its unsigned value is at most 999999. Nothing is said of
  the float values: the statement holds for every float instance.
-/
import proofs.«204378_g75239237091912_cont_sun_m_716_31_alg».proof.Pre_input_domain
import proofs.«204378_g75239237091912_cont_sun_m_716_31_alg».proof.Proof.Spec
import Idealize.ShloMosaic.Lib.ReduceAll

namespace Cert.Proof.Ref

open Idealize.ShloMosaic Idealize.ShloMosaic.ValueIdx

/-- The rank-zero shape has one index. -/
instance subsingleton_scalarIdx : Subsingleton Cert.Pre_input_domain.S_.Idx := ⟨fun a b => funext fun d => d.elim0⟩

/-- A signed 32-bit word between 0 and 999999 has unsigned value at most 999999. -/
theorem toNat_le_of_signed_range {v : BitVec 32} (h0 : (0#32 : BitVec 32).toInt ≤ v.toInt)
    (h1 : v.toInt ≤ (999999#32 : BitVec 32).toInt) : v.toNat ≤ 999999 := by
  rw [show (0#32 : BitVec 32).toInt = 0 from by decide] at h0
  rw [show (999999#32 : BitVec 32).toInt = 999999 from by decide] at h1
  rw [BitVec.toInt_eq_toNat_cond] at h0 h1
  split at h0 <;> omega

/-- Where the input-domain predicate holds, every label read unsigned names a row of the table. -/
theorem inRange_of_pre {F : FTy → Type} [FloatOps F] [Cert.Pre_input_domain.Facts]
    (lb : IVec Cert.Pre_input_domain.S16384 32) (tb : FVec F Cert.Pre_input_domain.S1000000x64 .f32)
    (h : Cert.Pre_input_domain.fn (F := F) lb tb = fun _ => 1#1) : Cert.Spec.InRange lb := by
  intro j
  have h0 := congrFun h ValueIdx.ix0
  dsimp only [Cert.Pre_input_domain.fn] at h0
  obtain ⟨-, h9⟩ := IntOp.andi_eq_one.1 h0
  have h8 := Host.reduce_andi_all _ _ _ _ _ h9 (ix1 j)
  obtain ⟨h5, h7⟩ := IntOp.andi_eq_one.1 h8
  exact toNat_le_of_signed_range (IntOp.cmpi_sge.1 h5) (IntOp.cmpi_sle.1 h7)

end Cert.Proof.Ref
-- ==== Proof.Ref.Run.lean ====
/-
  The reference program's run, read back.

  The reference gathers rows of the table: its entry function calls one inner function, which wraps a negative label by the
  table's height (a select, itself an inner function of one operation), turns the labels into a column of start indices,
  gathers whole rows at those indices, and replaces by a NaN constant every row whose start index falls outside
  `[0, 999999]`. With the two inner functions inlined at their calls, the entry function is a straight line of twenty-three host
  operations, each writing a buffer of its own. Every weakly fair execution of such a line terminates, each buffer
  ending at the fold of the operations' pure functions over the launch contents; the arguments, which no operation
  writes, end unchanged, and the result buffer ends at the composed term `out` of the two arguments below.
-/
import proofs.«204378_g75239237091912_cont_sun_m_716_31_alg».proof.ReferenceIdeal
import Idealize.ShloMosaic.Lib.StableHlo.Run

noncomputable section

namespace Cert.Proof.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-! ## The composed term -/

/-- The labels with a negative one wrapped by the table's height. -/
def wrapped (lb : IVec S16384 32) : IVec S16384 32 :=
  select (cmpi .slt lb (broadcastInDim S16384 ![] bcast_S_S16384 (constantI S_ 32 0#32)))
    (addi lb (broadcastInDim S16384 ![] bcast_S_S16384 (constantI S_ 32 1000000#32))) lb

/-- The wrapped labels as a column of start indices. -/
def col (lb : IVec S16384 32) : IVec S16384x1 32 :=
  broadcastInDim S16384x1 ![0] bcast_S16384_S16384x1_0 (wrapped lb)

/-- Per label, whether its start index lies in `[0, 999999]`: both signed comparisons, reduced by `and` over the
    column's one entry. -/
def mask (lb : IVec S16384 32) : IVec S16384 1 :=
  Host.reduce IntOp.andi
    (andi (cmpi .sge (col lb) (broadcastInDim S16384x1 ![] bcast_S_S16384x1 (constantI S_ 32 0#32)))
      (cmpi .sle (col lb)
        (broadcastInDim S16384x1 ![0, 1] bcast_S1x1_S16384x1_0_1
          (broadcastInDim S1x1 ![1] bcast_S1_S1x1_1 (constantI S1 32 999999#32)))))
    (constantI S_ 1 1#1) reducesTo_S16384x1_S16384_d1 h_S_

/-- What the reference leaves in its result: the gathered rows, a row whose start index is out of range replaced by
    the NaN constant. -/
def out (lb : IVec S16384 32) (tb : FVec F S1000000x64 .f32) : FVec F S16384x64 .f32 :=
  select (broadcastInDim S16384x64 ![0] bcast_S16384_S16384x64_0 (mask lb))
    (Host.gather gather_S1000000x64_S16384x1_S16384x64_1_0_n_n_0_1_164 tb (col lb))
    (broadcastInDim S16384x64 ![] bcast_S_S16384x64 (constant S_ .f32 0x7FC00000#32))

/-! ## The straight line -/

/-- The entry function's operations in order, the two inner functions inlined at their calls. -/
abbrev ops : List (HloOp τ sig (Elt F)) :=
  [ TRef.nullary main_call0.c (constantI S_ 32 0#32),
    TRef.unary main_call0.c main_call0.v0 (broadcastInDim S16384 ![] bcast_S_S16384),
    TRef.binary (.of main_arg0 : TRef sig ⟨S16384, .i32⟩) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0 : TRef sig ⟨S16384, .i32⟩) main_call0.v2 main_call0.v3 addi,
    TRef.ternary main_call0.v1 main_call0.v3 (.of main_arg0 : TRef sig ⟨S16384, .i32⟩) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1 : TRef sig ⟨S1000000x64, .f32⟩) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select ]

set_option maxRecDepth 1024 in
/-- The entry function is that straight line: with the inner functions inlined at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

end Cert.Proof.Ref

end
-- ==== Proof.Ref.RunOut.lean ====
/-
  The reference's run, read at its result.

  The straight line of the reference's twenty-three operations runs on every device; the fold of their pure functions,
  read at the result buffer, is the composed term `out` of the two arguments — each operation's result read at its own
  buffer, every other buffer passed over — and read at an argument buffer, which no operation writes, it is the
  argument's launch contents.
-/
import proofs.«204378_g75239237091912_cont_sun_m_716_31_alg».proof.Proof.Ref.Run

noncomputable section

namespace Cert.Proof.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

attribute [local irreducible] Host.reduce Host.gather in
set_option maxRecDepth 8192 in
set_option maxHeartbeats 4000000 in
/-- The fold at the result buffer is `out` of the two arguments. -/
theorem out_eq (V : Valuation τ sig (Elt F)) :
    after ops V (main_v0 : DevRef τ sig) = out (V (main_arg0 : DevRef τ sig)) (V (main_arg1 : DevRef τ sig)) := by
  after_results_simp
  rfl

set_option maxRecDepth 8192 in
set_option maxHeartbeats 4000000 in
/-- No operation writes the labels. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes the table. -/
theorem arg1_eq (V : Valuation τ sig (Elt F)) :
    after ops V (main_arg1 : DevRef τ sig) = V (main_arg1 : DevRef τ sig) := by
  after_results_simp

/-- On every device, for any float values, from any memory with zero counters: every weakly fair execution of the
    reference terminates with its result at `out` of the arguments' launch contents and the arguments unchanged. -/
theorem run_out (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.Ref.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.Ref.LibGatherRows.lean ====
/-
  A row gather, read at an index.

  `x[idx]` for an operand `x : [N, F]` and a column of start indices `idx : [E, 1]` copies whole rows: row `e` of
  the `[E, F]` result is the operand's row named by start index `e`, the index word read signed and clamped into
  `[0, N − 1]`; the column `f` passes through untouched. The host operation reads the operand at the operand index
  the dimension numbers compute from the result index; for the whole-row dimension numbers that operand index is
  `(clampRow idx e, f)`, so the operation at `(e, f)` is `x (clampRow idx e, f)`, for every element type.
-/
import Idealize.ShloMosaic.PureOps.Ideal
import Idealize.ShloMosaic.Lib.ValueIdx
import proofs.«204378_g75239237091912_cont_sun_m_716_31_alg».proof.Proof.Ref.LibRowOps

noncomputable section

namespace Cert.Lib.RowOps

open Idealize.ShloMosaic Idealize.ShloMosaic.ValueIdx

/-- A host gather whose dimension numbers are the whole-row ones, read at `(e, f)`: the operand at row
    `clampRow idx e` (start index `e` read signed, clamped into `[0, N − 1]`) and the same column `f`. The
    dimension numbers are taken as any record `d` equal to `rowGather N E F wf`: a program's own record of these
    dimension numbers is one. -/
theorem hostGather_rows {N E F w : Nat} {α : Type} (hN : 0 < N)
    (d : GatherDims ⟨2, ![N, F]⟩ ⟨2, ![E, 1]⟩ ⟨2, ![E, F]⟩)
    (wf : GatherDims.WF ⟨2, ![N, F]⟩ ⟨2, ![E, 1]⟩ ⟨2, ![E, F]⟩ [1] [0] [] [0] [] 1 ![1, F])
    (hd : d = rowGather N E F wf)
    (x : (⟨2, ![N, F]⟩ : Shape).Idx → α) (idx : IVec ⟨2, ![E, 1]⟩ w) (e : Fin E) (f : Fin F) :
    Host.gather d x idx (ix2 e f) = x (ix2 (clampRow hN idx e) f) := by
  subst hd
  -- the host operation is the operand read at the operand index of the result index
  show x ((rowGather N E F wf).operandIdx (ix2 e f) idx) = x (ix2 (clampRow hN idx e) f)
  rw [rowGather_operandIdx hN wf idx e f]

end Cert.Lib.RowOps

end
-- ==== Proof.Ref.Value.lean ====
/-
  The reference's result is the gathered rows.

  Where every label, read unsigned, is at most 999999: a label is nonnegative as a signed word, so the wrap's select
  keeps it; the column of start indices holds the labels themselves; both range comparisons hold at every start index,
  so the reduction by `and` from 1 over the column's one entry is 1 and the final select keeps the gathered row; a
  whole-row gather reads, at `(b, e)`, the table at the row its start index `b` names once clamped into
  `[0, 999999]`, and the clamp changes nothing on a label in range, nor does the reduction modulo the table's height.
  So the reference's result at `(b, e)` is the table at row `labels[b]`, column `e`, for any float values.
-/
import proofs.«204378_g75239237091912_cont_sun_m_716_31_alg».proof.Proof.Ref.Run
import proofs.«204378_g75239237091912_cont_sun_m_716_31_alg».proof.Proof.Ref.LibGatherRows
import proofs.«204378_g75239237091912_cont_sun_m_716_31_alg».proof.Proof.Spec
import Idealize.ShloMosaic.Lib.Pipeline.Value
import Idealize.ShloMosaic.Lib.Affine
import Idealize.ShloMosaic.PureOps.Reduce

noncomputable section

namespace Cert.Proof.Ref

open Cert.ReferenceIdeal Cert.ReferenceIdeal.Facts₀ Idealize.ShloMosaic Idealize.ShloMosaic.ValueIdx Cert.Lib.RowOps

variable {F : FTy → Type} [FloatOps F] [Cert.ReferenceIdeal.Facts]

/-- A word of unsigned value at most 999999 reads the same signed. -/
theorem toInt_of_le {v : BitVec 32} (h : v.toNat ≤ 999999) : v.toInt = (v.toNat : Int) :=
  BitVec.toInt_eq_toNat_of_lt (by omega)

/-- A left fold by `and` from 1 over 1s is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = (1#1 : BitVec 1) from by decide]
    exact foldl_andi_ones f l fun n hn => h n (List.mem_cons_of_mem _ hn)

/-- The wrap keeps a label in range. -/
theorem wrapped_apply (lb : IVec S16384 32) (j : Fin 16384) (h : (lb (ix1 j)).toNat ≤ 999999) :
    wrapped lb (ix1 j) = lb (ix1 j) := by
  show Scalar.select (IntOp.cmpi .slt (lb (ix1 j)) 0#32) _ _ = _
  have hc : IntOp.cmpi .slt (lb (ix1 j)) 0#32 = 0#1 := by
    refine eq_zero_of_ne_one fun h1 => ?_
    have := IntOp.cmpi_slt.1 h1
    rw [toInt_of_le h, show (0#32 : BitVec 32).toInt = 0 from by decide] at this
    omega
  rw [hc]
  exact select_zero _ _

/-- The column of start indices at row `b` is the wrapped label `b`. -/
theorem col_apply (lb : IVec S16384 32) (i : S16384x1.Idx) : col lb i = wrapped lb (ix1 (i 0)) :=
  broadcastInDim_apply _ bcast_S16384_S16384x1_0 (wrapped lb) i (ix1 (i 0)) fun a => by
    match a with
    | ⟨0, _⟩ => rfl

/-- Where the labels are in range the mask is 1 at every label. -/
theorem mask_apply (lb : IVec S16384 32) (h : Cert.Spec.InRange lb) (b : Fin 16384) : mask lb (ix1 b) = 1#1 := by
  unfold mask
  rw [Host.reduce_eq_foldl]
  refine foldl_andi_ones _ _ fun i _ => ?_
  show IntOp.andi (IntOp.cmpi .sge (col lb i) 0#32) (IntOp.cmpi .sle (col lb i) 999999#32) = 1#1
  have hi := h (i 0)
  rw [col_apply, wrapped_apply lb (i 0) hi, IntOp.andi_eq_one, IntOp.cmpi_sge, IntOp.cmpi_sle, toInt_of_le hi,
    show (0#32 : BitVec 32).toInt = 0 from by decide, show (999999#32 : BitVec 32).toInt = 999999 from by decide]
  omega

/-- The clamped start index of a label in range is the row the label names. -/
theorem clampRow_col (lb : IVec S16384 32) (b : Fin 16384) (h : (lb (ix1 b)).toNat ≤ 999999) :
    clampRow (N := 1000000) (by decide) (col lb) b = Cert.Spec.rowOf (lb (ix1 b)) := by
  refine Fin.ext ?_
  show min (col lb (ix2 b 0)).toInt.toNat (1000000 - 1) = (Cert.Spec.rowOf (lb (ix1 b))).val
  rw [col_apply, show ((ix2 b (0 : Fin 1) : S16384x1.Idx) 0) = b from rfl, wrapped_apply lb b h,
    Cert.Spec.rowOf_val_of_le h, toInt_of_le h]
  omega

/-- Where the labels are in range, the reference's result at `(b, e)` is the table at row `labels[b]`, column `e`. -/
theorem out_apply (lb : IVec S16384 32) (tb : FVec F S1000000x64 .f32) (h : Cert.Spec.InRange lb) (b : Fin 16384)
    (e : Fin 64) : out lb tb (ix2 b e) = tb (ix2 (Cert.Spec.rowOf (lb (ix1 b))) e) := by
  have hm : broadcastInDim S16384x64 ![0] bcast_S16384_S16384x64_0 (mask lb) (ix2 b e) = mask lb (ix1 b) :=
    broadcastInDim_apply _ bcast_S16384_S16384x64_0 (mask lb) (ix2 b e) (ix1 b) fun a => by
      match a with
      | ⟨0, _⟩ => rfl
  unfold out
  rw [select_apply, hm, mask_apply lb h b, select_one,
    hostGather_rows (N := 1000000) (E := 16384) (F := 64) (by decide) gather_S1000000x64_S16384x1_S16384x64_1_0_n_n_0_1_164
      gather_S1000000x64_S16384x1_S16384x64_1_0_n_n_0_1_164_wf rfl tb (col lb) b e,
    clampRow_col lb b (h b)]

/-- Where the labels are in range, the reference's result is the gathered rows. -/
theorem out_eq_rows (lb : IVec S16384 32) (tb : FVec F S1000000x64 .f32) (h : Cert.Spec.InRange lb) :
    out lb tb = Cert.Spec.rows lb tb := by
  funext i
  rw [eq_ix2 i]
  exact (out_apply lb tb h (i 0) (i 1)).trans (Cert.Spec.rows_apply lb tb (i 0) (i 1)).symm

end Cert.Proof.Ref

end
-- ==== Proof.Ref.RefSide.lean ====
/-
  The reference side of the equivalence, assembled.

  Three statements about the reference program. The input-domain predicate puts every label, read unsigned, in
  `[0, 999999]` (for any float values). Under that predicate, at the ideal values, every weakly fair execution of the
  reference terminates with its result buffer holding row `labels[b]` of the table at each `(b, e)` — the run leaves the
  composed term of its twenty-three operations there, and on labels in range that term is the gathered rows — and with
  both arguments unchanged. Dropping the result gives the reference's frame.
-/
import proofs.«204378_g75239237091912_cont_sun_m_716_31_alg».proof.Defs
import proofs.«204378_g75239237091912_cont_sun_m_716_31_alg».proof.Proof.Spec
import proofs.«204378_g75239237091912_cont_sun_m_716_31_alg».proof.Proof.Ref.InRange
import proofs.«204378_g75239237091912_cont_sun_m_716_31_alg».proof.Proof.Ref.Run
import proofs.«204378_g75239237091912_cont_sun_m_716_31_alg».proof.Proof.Ref.RunOut
import proofs.«204378_g75239237091912_cont_sun_m_716_31_alg».proof.Proof.Ref.Value

noncomputable section

namespace Cert.Proof.Ref

open Idealize.ShloMosaic Idealize.SL.Sem

/-- Under the input-domain predicate, at the ideal values: the reference runs, its result is the gathered rows, and its
    arguments end unchanged. -/
theorem run [Cert.ReferenceIdeal.Facts] [Cert.Pre_input_domain.Facts]
    (m : (ℓ : Loc Cert.ReferenceIdeal.nD Cert.ReferenceIdeal.τ Cert.ReferenceIdeal.sig) → Buf (Elt Ideal) ℓ)
    (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
            = Cert.Spec.rows (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run _ _ _).mono
    (fun _ h c => ⟨(h c).1.trans (out_eq_rows (F := Ideal) _ _ (inRange_of_pre (F := Ideal) _ _ (hpre c))), (h c).2⟩)
    (run_out (F := Ideal) m ρ)

/-- The reference's frame: it runs and its arguments end unchanged. -/
theorem frame_ri [Cert.ReferenceIdeal.Facts] [Cert.Pre_input_domain.Facts] : Cert.frame_ReferenceIdeal :=
  fun m ρ h => (θ_run _ _ _).mono (fun _ hh c => (hh c).2) (run m ρ h)

end Cert.Proof.Ref

end
-- ==== Proof.KI.Setup.lean ====
/-
  The shared vocabulary of the gather kernel's run: the program as the launch theorem sees it, the ghost state
  (the handshakes' rounds beside the local transfers' counters), the four arrays of a device, the numbering of the
  32 workers (worker `2·s + c` is vector subcore `s` of SparseCore `c`), the row blocks of the label vector and
  of the result that worker `w` owns (rows `512·w … 512·w + 511`), and what the launch's handshakes carry: each
  worker takes its block of labels, a read share of the whole widened table and its block of the result, and brings
  them back with the result's block holding the final contents `G`.
-/
import proofs.«204378_g75239237091912_cont_sun_m_716_31_alg».proof.KernelIdeal
import proofs.«204378_g75239237091912_cont_sun_m_716_31_alg».proof.Proof.Gen.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of a device -/

/-- The labels, the table, the table widened to 500000 rows of 128, the result. -/
abbrev lLoc (d : Dev nD) : Loc nD τ sig := (SparseCore.T d).loc main_arg0
abbrev tLoc (d : Dev nD) : Loc nD τ sig := (SparseCore.T d).loc main_arg1
abbrev wLoc (d : Dev nD) : Loc nD τ sig := (SparseCore.T d).loc main_v0
abbrev oLoc (d : Dev nD) : Loc nD τ sig := (SparseCore.T d).loc main_v1

/-! ## The workers and their row blocks -/

/-- Worker `2·s + c`: vector subcore `s` of SparseCore `c`. -/
def wid (c : Fin 2) (s : Fin 16) : Fin 32 := ⟨s.val * 2 + c.val, by omega⟩

theorem ldiv : 32 ∣ S16384.size 0 := ⟨512, rfl⟩
theorem odiv : 32 ∣ S16384x64.size 0 := ⟨512, rfl⟩
/-- Rows `512·w … 512·w + 511` of the labels and of the result. -/
abbrev lblk (w : Fin 32) : Rect S16384 := Rect.part (s := S16384) (a₀ := 0) ldiv w
abbrev oblk (w : Fin 32) : Rect S16384x64 := Rect.part (s := S16384x64) (a₀ := 0) odiv w
abbrev lSet (w : Fin 32) : Finset S16384.Idx :=
  ((Memref.whole main_arg0_scv : Memref sig .scVector .hbm S16384 .i32).view.slice (lblk w)).set
abbrev oSet (w : Fin 32) : Finset S16384x64.Idx :=
  ((Memref.whole main_v1_scv : Memref sig .scVector .hbm S16384x64 .f32).view.slice (oblk w)).set
/-- Worker `w`'s read share of the widened table: the `w`-th of 32 read tokens of the full share. -/
abbrev wq (w : Fin 32) : PosShare TreeShare := Transfers.shareTok fullShare 32 w

variable (m : (ℓ : Loc nD τ sig) → Buf (Elt F) ℓ)

abbrev lBlkPts (d : Dev nD) (w : Fin 32) : sProp 𝕄 := lLoc d ↦[lSet w]{fullShare} m (lLoc d)
abbrev wShPts (d : Dev nD) (w : Fin 32) (Wd : Buf (Elt F) (wLoc d)) : sProp 𝕄 := wLoc d ↦{wq w} Wd
abbrev oBlkPts (d : Dev nD) (w : Fin 32) (f : Buf (Elt F) (oLoc d)) : sProp 𝕄 := oLoc d ↦[oSet w]{fullShare} f

/-- The table widened by the host's reshape before the call: rows `2r` and `2r + 1` of the table side by side as
    row `r` of 128 columns (row-major order is kept). -/
def wide (d : Dev nD) : Buf (Elt F) (wLoc d) :=
  shapeCast S500000x128 (m (tLoc d)) Cert.KernelIdeal.Gen.shapeCasts_S1000000x64_S500000x128

/-- What worker `w` of device `d` holds while it works, with the result's block at `f`. -/
abbrev workerRes (Wd : (d : Dev nD) → Buf (Elt F) (wLoc d)) (d : Dev nD) (w : Fin 32) (f : Buf (Elt F) (oLoc d)) : sProp 𝕄 :=
  iprop(lBlkPts m d w ∗ wShPts d w (Wd d) ∗ oBlkPts d w f)

/-- The one call: SparseCore `c` takes its sixteen workers' resources and brings them back, every worker its own;
    the result's blocks start at the launch contents and come back at `G`. -/
def P (Wd : (d : Dev nD) → Buf (Elt F) (wLoc d)) (G : (d : Dev nD) → Buf (Elt F) (oLoc d)) :
    (K (F := F)).Pay (nD := nD) (Val := Elt F) (Name := ℕ) (U := UU) where
  st := fun q d c => match q with
    | 0 => bigSep Finset.univ fun s : Fin 16 => workerRes m Wd d (wid (Fin.cast nCore_zero c) s) (m (oLoc d))
  dn := fun q d c => match q with
    | 0 => bigSep Finset.univ fun s : Fin 16 => workerRes m Wd d (wid (Fin.cast nCore_zero c) s) (G d)
  go := fun q d c s => match q with
    | 0 => workerRes m Wd d (wid (Fin.cast nCore_zero c) (Fin.cast nSub_zero s)) (m (oLoc d))
  td := fun q d c s => match q with
    | 0 => workerRes m Wd d (wid (Fin.cast nCore_zero c) (Fin.cast nSub_zero s)) (G d)
  x := fun _ _ => iprop(emp)

instance P_storable (Wd : (d : Dev nD) → Buf (Elt F) (wLoc d)) (G : (d : Dev nD) → Buf (Elt F) (oLoc d)) :
    (P (F := F) m Wd G).IsStorable where
  st q d c := match q with | 0 => by unfold P; infer_instance
  dn q d c := match q with | 0 => by unfold P; infer_instance
  go q d c s := match q with | 0 => by unfold P; infer_instance
  td q d c s := match q with | 0 => by unfold P; infer_instance

end Cert.Proof.KI

end
-- ==== Proof.KI.Words.lean ====
/-
  Facts about single 32-bit words that the kernel's address arithmetic rests on. A label `v` is split into its
  row pair `v >>> 1` and its parity `v &&& 1`; the column offset of the wanted half of a widened row is
  `(v &&& 1) · 64`, which is 0 or 64, so that a 16-wide load at that offset plus 0, 16, 32 or 48 stays inside
  the 128 columns. For `v ≤ 999999` the row pair is below 500000, and `2 · (v >>> 1) + (v &&& 1) = v`.
-/
import Idealize.ShloMosaic.PureOps

namespace Cert.Proof.Words

open Idealize.ShloMosaic

/-- The parity bit of a word is the word 0 or the word 1. -/
theorem and_one_cases (v : BitVec 32) : v &&& 1#32 = 0#32 ∨ v &&& 1#32 = 1#32 := by
  have h : (v &&& 1#32).toNat = v.toNat % 2 := by
    rw [BitVec.toNat_and]; exact Nat.and_one_is_mod _
  rcases Nat.mod_two_eq_zero_or_one v.toNat with h0 | h1
  · left; apply BitVec.eq_of_toNat_eq; rw [h, h0]; rfl
  · right; apply BitVec.eq_of_toNat_eq; rw [h, h1]; rfl

/-- The half offset as a number: 64 times the parity. -/
theorem halfOff_toNat (v : BitVec 32) : (IntOp.muli (IntOp.andi v 1#32) 64#32).toNat = 64 * (v.toNat % 2) := by
  unfold IntOp.muli IntOp.andi
  have h : (v &&& 1#32).toNat = v.toNat % 2 := by
    rw [BitVec.toNat_and]; exact Nat.and_one_is_mod _
  rcases and_one_cases v with e | e
  · rw [e] at h ⊢; have : v.toNat % 2 = 0 := by simpa using h.symm
    rw [this]; rfl
  · rw [e] at h ⊢; have : v.toNat % 2 = 1 := by simpa using h.symm
    rw [this]; rfl

/-- The half offset is at most 64. -/
theorem halfOff_le (v : BitVec 32) : (IntOp.muli (IntOp.andi v 1#32) 64#32).toNat ≤ 64 := by
  rw [halfOff_toNat]; have := Nat.mod_lt v.toNat (show 0 < 2 by decide); omega

/-- The vector unit's logical shift right by one is halving. -/
theorem shr_one_toNat (v : BitVec 32) : (IntOp.shrui .vector v 1#32).toNat = v.toNat / 2 := by
  unfold IntOp.shrui
  rw [if_pos (by decide)]
  show (v >>> (1#32).toNat).toNat = _
  rw [BitVec.toNat_ushiftRight]
  show v.toNat >>> 1 = _
  rw [Nat.shiftRight_eq_div_pow]

/-- A 16-wide load in row `j` of a 128 × 128 buffer, at a column offset of at most 64 plus 0, 16, 32 or 48, lies inside. -/
theorem load_inside (j : Nat) (hj : j < 128) (v : BitVec 32) (hv : v.toNat ≤ 64) (r : Fin 4) (a : Fin 2) :
    (![j, (Scalar.indexCast (Scalar.addi v (BitVec.ofNat 32 (16 * r.val)))).toNat] : Fin 2 → Nat) a
      + (⟨2, ![1, 16]⟩ : Shape).size a ≤ (⟨2, ![128, 128]⟩ : Shape).size a := by
  have hr := r.isLt
  have e : (Scalar.indexCast (Scalar.addi v (BitVec.ofNat 32 (16 * r.val)))).toNat = v.toNat + 16 * r.val := by
    unfold Scalar.indexCast Scalar.addi IntOp.addi
    rw [BitVec.toNat_add, BitVec.toNat_ofNat]
    have : 16 * r.val % 2 ^ 32 = 16 * r.val := Nat.mod_eq_of_lt (by omega)
    rw [this]; exact Nat.mod_eq_of_lt (by omega)
  match a with
  | ⟨0, _⟩ => show j + 1 ≤ 128; omega
  | ⟨1, _⟩ => show (Scalar.indexCast (Scalar.addi v (BitVec.ofNat 32 (16 * r.val)))).toNat + 16 ≤ 128; rw [e]; omega

end Cert.Proof.Words
-- ==== Proof.KI.TileDefs.lean ====
/-
  One worker's task, at a symbolic place: vector subcore `L 1` of SparseCore `L 0`. It fetches its 512 labels,
  halves each into the row pair it names (first loop, 32 groups of 16), and in four passes of 128 labels gathers
  those widened rows, copies from each the half the label's parity selects (columns `64·(v &&& 1) …`) into a
  128 × 64 staging block, and writes the block to rows `512·w + 128·t …` of the result. Entry `(b, e)` of the
  worker's rows therefore ends at the widened table's entry `(v >>> 1, 64·(v &&& 1) + e)` for `v = labels[b]`.
-/
import proofs.«204378_g75239237091912_cont_sun_m_716_31_alg».proof.Proof.KI.Setup
import proofs.«204378_g75239237091912_cont_sun_m_716_31_alg».proof.Proof.KI.Words
import proofs.«204378_g75239237091912_cont_sun_m_716_31_alg».proof.Proof.Spec
import proofs.«204378_g75239237091912_cont_sun_m_716_31_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (Wd : (d : Dev nD) → Buf (Elt F) (wLoc d))

/-- The result the call leaves: entry `(b, e)` is the table at row `labels[b]`, column `e`. -/
def Gout (d : Dev nD) : Buf (Elt F) (oLoc d) :=
  Cert.Spec.rows (α := Elt F .f32) (m (lLoc d)) (m (tLoc d))

-- the kernel's memrefs, spelt as the body table passes them
local notation "lV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S500000x128 EltTy.f32)
local notation "oV" => (Memref.whole Cert.KernelIdeal.main_v1_scv : Memref Cert.KernelIdeal.sig Kind.scVector Space.hbm Cert.KernelIdeal.S16384x64 EltTy.f32)
local notation "iS" => (Memref.whole Cert.KernelIdeal.cc0_scratch0 : Memref Cert.KernelIdeal.sig Kind.scVector Space.vmem Cert.KernelIdeal.S512 EltTy.i32)
local notation "tS" => (Memref.whole Cert.KernelIdeal.cc0_scratch1 : Memref Cert.KernelIdeal.sig Kind.scVector Space.vmem Cert.KernelIdeal.S512 EltTy.i32)
local notation "bS" => (Memref.whole Cert.KernelIdeal.cc0_scratch2 : Memref Cert.KernelIdeal.sig Kind.scVector Space.vmem Cert.KernelIdeal.S128x128 EltTy.f32)
local notation "rS" => (Memref.whole Cert.KernelIdeal.cc0_scratch3 : Memref Cert.KernelIdeal.sig Kind.scVector Space.vmem Cert.KernelIdeal.S128x64 EltTy.f32)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker's number `2·s + c`. -/
abbrev widL (L : grid0.Coords) : Fin 32 :=
  ⟨(L 1).val * 2 + (L 0).val, by have h0 : (L 0).val < 2 := (L 0).isLt; have h1 : (L 1).val < 16 := (L 1).isLt; omega⟩

/-- The worker's 512 labels, as the body slices them. -/
abbrev lrowK (L : grid0.Coords) : Rect S16384 := Rect.unit (s := S16384) (k0_off1 L) S512.size (k0_off1_inb L)
abbrev lRowK (L : grid0.Coords) : Memref sig .scVector .hbm S512 .i32 := (lV).slice (lrowK L) (fun _ => rfl)

theorem lrowK_eq : lrowK L = lblk (widL L) := by
  unfold lrowK lblk Rect.part Rect.block
  congr 1 <;> funext a
  · rw [k0_off1_eq]
    match a with
    | 0 => simp [Shape.partIx, Shape.partSize, widL]; omega
  · match a with
    | 0 => simp [Shape.partSize]

theorem set_lRowK : (lRowK L).view.set = lSet (widL L) := by
  show ((lV).view.slice (lrowK L)).set = ((lV).view.slice (lblk (widL L))).set
  rw [lrowK_eq]

omit m Wd in
theorem pts_lRowK (f : Buf (Elt F) (lLoc d)) :
    ((lRowK L).view.loc (V d (cV L) (jV L)) ↦[(lRowK L).view.set]{fullShare} f : sProp 𝕄) = lLoc d ↦[lSet (widL L)]{fullShare} f := by
  rw [set_lRowK]
omit m Wd in
theorem pts_wV (q : PosShare TreeShare) (f : Buf (Elt F) (wLoc d)) :
    ((wV).view.loc (V d (cV L) (jV L)) ↦{q} f : sProp 𝕄) = wLoc d ↦{q} f := rfl

/-- The three cells the task completes its copies on: the gather's, the label fetch's, the write-out's. -/
abbrev cGcell (d : Dev nD) (c : Fin τ.nSC) (i : Fin τ.nSub) : GSem nD τ sig := (V d c i, .dma cc0_scratch4.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit m Wd in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch4.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit m Wd in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit m Wd in
theorem pts_iS (f : Buf (Elt F) ((V d (cV L) (jV L)).loc cc0_scratch0)) :
    ((iS).view.loc (V d (cV L) (jV L)) ↦{fullShare} f : sProp 𝕄) = (V d (cV L) (jV L)).loc cc0_scratch0 ↦{fullShare} f := rfl
omit m Wd in
theorem pts_tS (f : Buf (Elt F) ((V d (cV L) (jV L)).loc cc0_scratch1)) :
    ((tS).view.loc (V d (cV L) (jV L)) ↦{fullShare} f : sProp 𝕄) = (V d (cV L) (jV L)).loc cc0_scratch1 ↦{fullShare} f := rfl
omit m Wd in
theorem pts_bS (f : Buf (Elt F) ((V d (cV L) (jV L)).loc cc0_scratch2)) :
    ((bS).view.loc (V d (cV L) (jV L)) ↦{fullShare} f : sProp 𝕄) = (V d (cV L) (jV L)).loc cc0_scratch2 ↦{fullShare} f := rfl
omit m Wd in
theorem pts_rS (f : Buf (Elt F) ((V d (cV L) (jV L)).loc cc0_scratch3)) :
    ((rS).view.loc (V d (cV L) (jV L)) ↦{fullShare} f : sProp 𝕄) = (V d (cV L) (jV L)).loc cc0_scratch3 ↦{fullShare} f := rfl

/-- Before group `k` of the first loop: the index scratch holds the worker's labels `IDX`; the row-pair scratch
    holds `v >>> 1` of the label at every position of the groups already done. -/
def inv1 (IDX : Buf (Elt F) ((V d (cV L) (jV L)).loc cc0_scratch0)) (k : Nat) (_ : PUnit) : sProp 𝕄 :=
  iprop(((iS).view.loc (V d (cV L) (jV L)) ↦{fullShare} IDX)
    ∗ ∃ ft : Buf (Elt F) ((V d (cV L) (jV L)).loc cc0_scratch1), ((tS).view.loc (V d (cV L) (jV L)) ↦{fullShare} ft)
        ∗ ⌜∀ x : S512.Idx, (x 0).val < 16 * k → ft x = IntOp.shrui .vector (IDX x) 1#32⌝)

/-- Rows `512·w + 128·t …` of the result, as pass `t` slices them. -/
abbrev orowK (L : grid0.Coords) (t : Fin k0_t2_loop.trips) : Rect S16384x64 :=
  Rect.unit (s := S16384x64) (k0_off140 L t) S128x64.size (k0_off140_inb L t)
abbrev oRowK (L : grid0.Coords) (t : Fin k0_t2_loop.trips) : Memref sig .scVector .hbm S128x64 .f32 := (oV).slice (orowK L t) (fun _ => rfl)

/-- Before pass `k` of the second loop (frame only). -/
def inv2 (O : CellTallies nD τ sig (HIx 1)) (W : Waits sig (HIx 1))
    (IDX : Buf (Elt F) ((V d (cV L) (jV L)).loc cc0_scratch0)) (TID : Buf (Elt F) ((V d (cV L) (jV L)).loc cc0_scratch1))
    (k : Nat) (_ : PUnit) : sProp 𝕄 :=
  iprop(Transfers.MayWaits (V d (cV L) (jV L)) (default : HIx 1) O
    ∗ ((wV).view.loc (V d (cV L) (jV L)) ↦{wq (widL L)} Wd d)
    ∗ ((iS).view.loc (V d (cV L) (jV L)) ↦{fullShare} IDX)
    ∗ ((tS).view.loc (V d (cV L) (jV L)) ↦{fullShare} TID)
    ∗ (∃ fb : Buf (Elt F) ((V d (cV L) (jV L)).loc cc0_scratch2), (bS).view.loc (V d (cV L) (jV L)) ↦{fullShare} fb)
    ∗ (∃ fr : Buf (Elt F) ((V d (cV L) (jV L)).loc cc0_scratch3), (rS).view.loc (V d (cV L) (jV L)) ↦{fullShare} fr)
    ∗ (∃ fo : Buf (Elt F) (oLoc d), oLoc d ↦[oSet (widL L)]{fullShare} fo)
    ∗ semVal (cGcell d (cV L) (jV L)) 0 ∗ semVal (cBcell d (cV L) (jV L)) 0
    ∗ ∃ W', ⌜∀ p ∈ W', p ∈ W ∨ p.2 = none⌝ ∗ owes (V d (cV L) (jV L)) O W')

end Tile

end Cert.Proof.KI

end
-- ==== Proof.KI.Launch.lean ====
/-
  The launch of the gather kernel. The TensorCore's program first widens the table (a reshape, which keeps
  row-major order), then makes the one call: it hands each of the two SparseCores its sixteen workers' resources —
  worker 2·s + c its block of 512 labels, one of 32 read shares of the whole widened table, and its block of 512
  rows of the result — and takes them back with the result's blocks at their final contents. The 32 row blocks of
  the labels (and of the result) are pairwise disjoint and cover the array, so the array held whole is the
  separating conjunction of its blocks; the widened table at the full share is 32 read tokens and a remainder the
  TensorCore keeps aside; and the 32 workers are the pairs (SparseCore, vector subcore) along the bijection
  (c, s) ↦ 2·s + c. From the body obligation of one worker, the launch theorem then gives the run of the whole
  program: every fair execution ends, with the result at G and the labels and the table as they were.
-/
import proofs.«204378_g75239237091912_cont_sun_m_716_31_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Reindexing: the call's grid is 2 × 16, and the 32 workers are its pairs -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- (c, s) ↦ 2·s + c is a bijection from the pairs (SparseCore, vector subcore) onto the 32 workers:
    c is the worker's parity, s its half. -/
def widEquiv : Fin 2 × Fin 16 ≃ Fin 32 where
  toFun p := wid p.1 p.2
  invFun w := (⟨w.val % 2, Nat.mod_lt _ (by decide)⟩, ⟨w.val / 2, by have := w.isLt; omega⟩)
  left_inv := fun ⟨c, s⟩ => by
    have hc := c.isLt
    have hs := s.isLt
    refine Prod.ext (Fin.ext ?_) (Fin.ext ?_)
    · show (s.val * 2 + c.val) % 2 = c.val
      omega
    · show (s.val * 2 + c.val) / 2 = s.val
      omega
  right_inv := fun w => Fin.ext (by
    show w.val / 2 * 2 + w.val % 2 = w.val
    omega)

/-- A separating conjunction over the workers, taken SparseCore by SparseCore and subcore by subcore. -/
theorem bigSep_workers (Ψ : Fin 32 → sProp 𝕄) :
    (bigSep Finset.univ fun c : Fin 2 => bigSep Finset.univ fun s : Fin 16 => Ψ (wid c s)) = bigSep Finset.univ Ψ :=
  ((bigSep_univ_equiv widEquiv Ψ).trans (bigSep_univ_prod fun p : Fin 2 × Fin 16 => Ψ (widEquiv p))).symm

/-! ## The row blocks: pairwise disjoint, covering the array -/

theorem lSet_eq (w : Fin 32) : lSet w = (lblk w).set := by
  show ((View.whole (main_arg0_scv : Ref sig .scVector)).slice (lblk w)).set = _
  rw [View.set_slice]; exact Finset.map_refl
theorem oSet_eq (w : Fin 32) : oSet w = (oblk w).set := by
  show ((View.whole (main_v1_scv : Ref sig .scVector)).slice (oblk w)).set = _
  rw [View.set_slice]; exact Finset.map_refl

theorem lSet_disjoint : ∀ i ∈ (Finset.univ : Finset (Fin 32)), ∀ j ∈ (Finset.univ : Finset (Fin 32)), i ≠ j → Disjoint (lSet i) (lSet j) :=
  fun i _ j _ h => by rw [lSet_eq, lSet_eq]; exact Rect.part_disjoint ldiv h
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
theorem lSet_cover : (Finset.univ : Finset (Fin 32)).biUnion lSet = Finset.univ :=
  (Finset.biUnion_congr rfl fun i _ => lSet_eq i).trans (Rect.biUnion_part ldiv)
theorem oSet_cover : (Finset.univ : Finset (Fin 32)).biUnion oSet = Finset.univ :=
  (Finset.biUnion_congr rfl fun i _ => oSet_eq i).trans (Rect.biUnion_part odiv)

/-- The labels held whole are their 32 blocks; so is the result. -/
theorem lPts_blocks (d : Dev nD) (f : Buf (Elt F) (lLoc d)) :
    (lLoc d ↦{fullShare} f : sProp 𝕄) = bigSep Finset.univ fun w : Fin 32 => lLoc d ↦[lSet w]{fullShare} f := by
  rw [← pointsTo_biUnion Finset.univ (ℓ := lLoc d) lSet lSet_disjoint, lSet_cover]; try rfl
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]; try rfl

variable (m : (ℓ : Loc nD τ sig) → Buf (Elt F) ℓ) (ρ : Dev nD → PrngReg)

/-! ## What the handshakes carry, as equations -/

section Payloads

variable (Wd : (d : Dev nD) → Buf (Elt F) (wLoc d)) (G : (d : Dev nD) → Buf (Elt F) (oLoc d))

theorem P_st (d : Dev nD) (c : Fin ((K (F := F)).nCore 0)) :
    (P m Wd G).st 0 d c = bigSep Finset.univ fun s : Fin 16 => workerRes m Wd d (wid (Fin.cast nCore_zero c) s) (m (oLoc d)) := rfl
theorem P_dn (d : Dev nD) (c : Fin ((K (F := F)).nCore 0)) :
    (P m Wd G).dn 0 d c = bigSep Finset.univ fun s : Fin 16 => workerRes m Wd d (wid (Fin.cast nCore_zero c) s) (G d) := rfl
theorem P_go (d : Dev nD) (c : Fin ((K (F := F)).nCore 0)) (i : Fin ((K (F := F)).nSub 0)) :
    (P m Wd G).go 0 d c i = workerRes m Wd d (wid (Fin.cast nCore_zero c) (Fin.cast nSub_zero i)) (m (oLoc d)) := rfl
theorem P_td (d : Dev nD) (c : Fin ((K (F := F)).nCore 0)) (i : Fin ((K (F := F)).nSub 0)) :
    (P m Wd G).td 0 d c i = workerRes m Wd d (wid (Fin.cast nCore_zero c) (Fin.cast nSub_zero i)) (G d) := rfl
theorem P_x (q : Fin 1) (thr : Thread nD τ) : (P m Wd G).x q thr = iprop(emp) := rfl

/-- A SparseCore's sixteen tasks' resources are the SparseCore's, subcore by subcore, going and coming back. -/
theorem go_eq (d : Dev nD) (c : Fin ((K (F := F)).nCore 0)) :
    (bigSep Finset.univ fun i : Fin ((K (F := F)).nSub 0) => (P m Wd G).go 0 d c i) = (P m Wd G).st 0 d c :=
  (bigSep_congr fun i _ => P_go m Wd G d c i).trans
    ((bigSep_tasks (F := F) fun s => workerRes m Wd d (wid (Fin.cast nCore_zero c) s) (m (oLoc d))).trans (P_st m Wd G d c).symm)
theorem td_eq (d : Dev nD) (c : Fin ((K (F := F)).nCore 0)) :
    (bigSep Finset.univ fun i : Fin ((K (F := F)).nSub 0) => (P m Wd G).td 0 d c i) = (P m Wd G).dn 0 d c :=
  (bigSep_congr fun i _ => P_td m Wd G d c i).trans
    ((bigSep_tasks (F := F) fun s => workerRes m Wd d (wid (Fin.cast nCore_zero c) s) (G d)).trans (P_dn m Wd G d c).symm)

/-- How a SparseCore's operands split among its vector subcores and its results gather from theirs: they are the
    same separating conjunction, indexed by the grid's subcores. -/
theorem vecSplit : (K (F := F)).VecSplit' (P m Wd G) 0 := by
  intro d c
  rw [go_eq, td_eq]
  iintro H; imodintro
  isplitl [H]; · iexact H
  iintro H; iexact H

/-- The 32 workers' resources, with the result's blocks at f, taken SparseCore by SparseCore: the labels whole, the
    32 read tokens of the widened table, the result whole at f. -/
theorem workers_eq (d : Dev nD) (f : Buf (Elt F) (oLoc d)) :
    (bigSep Finset.univ fun c : Fin ((K (F := F)).nCore 0) => bigSep Finset.univ fun s : Fin 16 => workerRes m Wd d (wid (Fin.cast nCore_zero c) s) f)
      = iprop((lLoc d ↦{fullShare} m (lLoc d)) ∗ (bigSep Finset.univ fun w : Fin 32 => wLoc d ↦{wq w} Wd d) ∗ (oLoc d ↦{fullShare} f)) := by
  rw [bigSep_cores (F := F) (fun c => bigSep Finset.univ fun s : Fin 16 => workerRes m Wd d (wid c s) f),
    bigSep_workers (F := F) (fun w => workerRes m Wd d w f)]
  show (bigSep Finset.univ fun w : Fin 32 => iprop((lLoc d ↦[lSet w]{fullShare} m (lLoc d)) ∗ (wLoc d ↦{wq w} Wd d) ∗ (oLoc d ↦[oSet w]{fullShare} f))) = _
  rw [bigSep_sep', bigSep_sep', lPts_blocks, oPts_blocks]

theorem st0_eq (d : Dev nD) : (bigSep Finset.univ fun c : Fin ((K (F := F)).nCore 0) => (P m Wd G).st 0 d c)
    = iprop((lLoc d ↦{fullShare} m (lLoc d)) ∗ (bigSep Finset.univ fun w : Fin 32 => wLoc d ↦{wq w} Wd d) ∗ (oLoc d ↦{fullShare} m (oLoc d))) :=
  (bigSep_congr fun c _ => P_st m Wd G d c).trans (workers_eq m Wd d (m (oLoc d)))
theorem dn0_eq (d : Dev nD) : (bigSep Finset.univ fun c : Fin ((K (F := F)).nCore 0) => (P m Wd G).dn 0 d c)
    = iprop((lLoc d ↦{fullShare} m (lLoc d)) ∗ (bigSep Finset.univ fun w : Fin 32 => wLoc d ↦{wq w} Wd d) ∗ (oLoc d ↦{fullShare} G d)) :=
  (bigSep_congr fun c _ => P_dn m Wd G d c).trans (workers_eq m Wd d (G d))

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m Wd G).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m Wd G).x q thr) = (iprop(emp) : sProp 𝕄) from
    (bigSep_congr fun thr _ => (bigSep_congr fun q _ => P_x m Wd G q thr).trans (bigSep_emp' _)).trans (bigSep_emp' _)]
  iempintro

end Payloads

/-! ## @main on the TensorCore -/

abbrev t' : DevRef τ sig := Proc.devRef .tc (main_arg1 : Ref sig .tc)
abbrev w' : DevRef τ sig := Proc.devRef .tc (main_v0 : Ref sig .tc)
/-- The host's reshape of the table into the widened table. -/
abbrev opR : HloOp τ sig (Elt F) := StableHlo.reshape main_arg1 main_v0 rfl Cert.KernelIdeal.Gen.shapeCasts_S1000000x64_S500000x128

/-- The reshape's arrays: the table and the widened table. -/
abbrev S2 : Finset (DevRef τ sig) := {t', w'}

theorem held_S2 (d : Dev nD) (W : Valuation τ sig (Elt F)) :
    (held (T d) S2 W : sProp 𝕄) = iprop((tLoc d ↦{fullShare} W t') ∗ (wLoc d ↦{fullShare} W w')) := by
  unfold held S2
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((lLoc d ↦{fullShare} W main_arg0) ∗ (tLoc d ↦{fullShare} W main_arg1) ∗ (wLoc d ↦{fullShare} W main_v0)
      ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem hOp : (opR (F := F)).bufs ⊆ S2 := show ({t', w'} : Finset (DevRef τ sig)) ⊆ S2 from Finset.Subset.refl _

/-- After the reshape the table is as it was and the widened table holds the table's elements in row-major order. -/
theorem held_after (d : Dev nD) :
    (held (T d) S2 ((opR (F := F)).result (V0 m d)) : sProp 𝕄) = iprop((tLoc d ↦{fullShare} m (tLoc d)) ∗ (wLoc d ↦{fullShare} wide m d)) := by
  rw [held_S2, (opR (F := F)).result_of_not_mem (V0 m d) (b := t') (show t' ∉ ({w'} : Finset (DevRef τ sig)) by decide),
    show (opR (F := F)).result (V0 m d) w' = wide m d from
      (StableHlo.reshape_result main_arg1 main_v0 rfl Cert.KernelIdeal.Gen.shapeCasts_S1000000x64_S500000x128 ⟨by decide, rfl⟩ ⟨by decide, rfl⟩ (V0 m d)).trans rfl]
  rfl

variable (G : (d : Dev nD) → Buf (Elt F) (oLoc d))

/-- What @main leaves the claim: the labels and the table at their launch contents, the result at G. -/
abbrev FIN (d : Dev nD) : sProp 𝕄 :=
  iprop((lLoc d ↦{fullShare} m (lLoc d)) ∗ (tLoc d ↦{fullShare} m (tLoc d)) ∗ (oLoc d ↦{fullShare} G d))

variable [FloatOps F]

/-- @main on device d's TensorCore: the reshape (the table read, the widened table written), then the one call: the
    labels and the result go out block by block, the widened table as 32 read tokens (the remainder kept), and come
    back, the result at G; the blocks join to the arrays whole. -/
theorem hmain (κ : GSem nD τ sig → ℕ) (d : Dev nD) :
    iprop((K (F := F)).ctx EH (P m (wide m) G) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m G d) := by
  unfold SparseCore.Cfg.tcRes
  rw [unscopedBufs_eq]
  simp only [main, wp_bind, wp_pure]
  iintro ⟨#Hctx, Hst, ⟨Hb, ⟨Hl, Ht, Hw, Ho⟩, -, -⟩, -⟩
  -- the reshape, over the table and the widened table
  iapply (wp_hlo_within 𝒱 (SparseCore.T d) none Set.univ (op := opR) (S := S2) hOp (V := V0 m d)) $$ [Hb Ht Hw]
  · isplitl [Hb]; · iexact Hb
    rw [held_S2]
    isplitl [Ht]; · iexact Ht
    iexact Hw
  iintro ⟨Hb, Hheld⟩
  ihave Hh := (Entails.of_eq (held_after (F := F) m d)) $$ Hheld
  icases Hh with ⟨Ht, Hw⟩
  rw [wp_ret]; imodintro
  -- the widened table: 32 read tokens and the remainder
  ihave Hw' := (Transfers.pointsTo_toks_split fullShare 32) $$ Hw
  icases Hw' with ⟨Hrem, Htoks⟩
  -- the call
  iapply ((K (F := F)).wp_run (D (F := F)) 𝒱 (EH := EH) (P := P m (wide m) G) κ d 0) $$ [Hst Hl Htoks Ho Ht]
  isplitr; · iexact Hctx
  isplitl [Hst]; · iexact Hst
  isplitl [Hl Htoks Ho]
  · rw [st0_eq]
    isplitl [Hl]; · iexact Hl
    isplitl [Htoks]; · iexact Htoks
    iexact Ho
  iintro ⟨Hst, Hdn⟩
  ihave Hdn' := (Entails.of_eq (dn0_eq m (wide m) G d)) $$ Hdn
  icases Hdn' with ⟨Hl, -, Ho⟩
  imodintro
  isplitl [Hst]; · iexact Hst
  isplitl [Hl]; · iexact Hl
  isplitl [Ht]; · iexact Ht
  iexact Ho

def fq (d : Dev nD) (s' : Phys nD τ sig (Elt F)) : Prop :=
  s'.mem.mem (oLoc d) = G d ∧ s'.mem.mem (lLoc d) = m (lLoc d) ∧ s'.mem.mem (tLoc d) = m (tLoc d)

/-- Holding the three arrays whole, the final memory agrees with them everywhere. -/
theorem hfin (d : Dev nD) (s' : Phys nD τ sig (Elt F)) : iprop(FIN m G d ∗ SI s') ⊢ (⌜fq m G d s'⌝ : sProp 𝕄) := by
  iintro ⟨⟨Hl, Ht, Ho⟩, HSI⟩
  ihave H := (persistent_entails_right (SI_pointsTo_agree (st := s') (ℓ := lLoc d) (I := Finset.univ) (q := fullShare) (f := m (lLoc d)))) $$ [HSI Hl]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := G d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From one worker's body obligation, the run of the whole program: every fair execution of the device's threads
    ends, the result holding G, the labels and the table unchanged. -/
theorem run_main [∀ e, Nonempty (Elt F e)]
    (hT : (K (F := F)).TileObl (D (F := F)) 𝒱 (P m (wide m) G) v₀ 0) :
    θ_run (Cert.KernelIdeal.defs (F := F)) (Cert.KernelIdeal.threads (F := F)) ⟨m, fun _ => 0, ρ⟩
      (fun r => ∀ c : Dev nD, r.2.mem (oLoc c) = G c ∧ r.2.mem (lLoc c) = m (lLoc c) ∧ r.2.mem (tLoc c) = m (tLoc c)) :=
  SparseCore.Cfg.θ_run_sc (K := K (F := F)) (D := D (F := F)) (𝒱 := 𝒱) (EH := EH) (P := P m (wide m) G) facts v₀
    (fun q hq => match q with | 0 => nomatch hq)
    (fun q _ => match q with | 0 => hT)
    (fun q _ => match q with | 0 => SparseCore.Cfg.VecSplit.of_plain (vecSplit m (wide m) G))
    m ρ main (fun _ => iprop(emp)) (FIN m G) (u₀ (F := F)) (sep_elim_left.trans (hu₀ m (wide m) G)) (hmain m ρ G) (fq m G) (hfin m G)
    (fun r => ∀ c : Dev nD, r.2.mem (oLoc c) = G c ∧ r.2.mem (lLoc c) = m (lLoc c) ∧ r.2.mem (tLoc c) = m (tLoc c)) (fun _ h => h)

end Cert.Proof.KI

end
-- ==== Proof.KI.Obl.lean ====
/-
  One worker's obligation, and the run that follows from it.

  The launch asks, for every device, SparseCore `c` and vector subcore `i` of the call's grid, that the kernel's body
  run from the worker's resources — its block of labels, its read share of the widened table, its block of the result
  at the launch contents — end with the block of the result at its final contents, the subcore's own buffers and
  semaphores as it found them, and nothing owed beyond what it was handed. The body table spells the body at the grid
  point `(c, i)`; worker `2·i + c` is the worker of that point, so the obligation is the body's triple `TileBody` at
  the point, carried through the lift of the kernel's program into the call's and weakened in what its waits may
  record. From it the launch gives the whole program's run: the result at the gathered rows, the labels and the table
  unchanged.
-/
import proofs.«204378_g75239237091912_cont_sun_m_716_31_alg».proof.Proof.KI.TileDefs
import proofs.«204378_g75239237091912_cont_sun_m_716_31_alg».proof.Proof.KI.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the kernel's memrefs, spelt as the body table passes them
local notation "lV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S500000x128 EltTy.f32)
local notation "oV" => (Memref.whole Cert.KernelIdeal.main_v1_scv : Memref Cert.KernelIdeal.sig Kind.scVector Space.hbm Cert.KernelIdeal.S16384x64 EltTy.f32)
local notation "iS" => (Memref.whole Cert.KernelIdeal.cc0_scratch0 : Memref Cert.KernelIdeal.sig Kind.scVector Space.vmem Cert.KernelIdeal.S512 EltTy.i32)
local notation "tS" => (Memref.whole Cert.KernelIdeal.cc0_scratch1 : Memref Cert.KernelIdeal.sig Kind.scVector Space.vmem Cert.KernelIdeal.S512 EltTy.i32)
local notation "bS" => (Memref.whole Cert.KernelIdeal.cc0_scratch2 : Memref Cert.KernelIdeal.sig Kind.scVector Space.vmem Cert.KernelIdeal.S128x128 EltTy.f32)
local notation "rS" => (Memref.whole Cert.KernelIdeal.cc0_scratch3 : Memref Cert.KernelIdeal.sig Kind.scVector Space.vmem Cert.KernelIdeal.S128x64 EltTy.f32)

variable (m : (ℓ : Loc nD τ sig) → Buf (Elt F) ℓ)

/-- The body's triple at every grid point: from the worker's resources with the result's block at the launch
    contents, the kernel's body ends with the block at the gathered rows, the subcore's own buffers and semaphores
    back, and its debts as they were. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ workerRes m (wide m) d (widL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L lV (Memref.isWhole_whole _) wV (Memref.isWhole_whole _) oV (Memref.isWhole_whole _)
            iS (Memref.isWhole_whole _) tS (Memref.isWhole_whole _) bS (Memref.isWhole_whole _) rS (Memref.isWhole_whole _)
            cc0_scratch4 cc0_scoped0 cc0_scoped1)
          fun _ => iprop(workerRes m (wide m) d (widL L) (Gout m d) ∗ scopedBufs (V d (cV L) (jV L)) ∗ scopedSems0 (V d (cV L) (jV L))
            ∗ ∃ W', ⌜∀ p ∈ W', p ∈ W ∨ p.2 = none⌝ ∗ owes (V d (cV L) (jV L)) O W')

/-! ## The launch theorem's obligation -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          lV (Memref.isWhole_whole _) wV (Memref.isWhole_whole _) oV (Memref.isWhole_whole _)
          iS (Memref.isWhole_whole _) tS (Memref.isWhole_whole _) bS (Memref.isWhole_whole _) rS (Memref.isWhole_whole _)
          cc0_scratch4 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- The worker of grid point `(c, s)` is worker `2·s + c`. -/
theorem widL_coordsV (c : Fin (grid0.bound 0)) (s : Fin (grid0.bound 1)) (c' : Fin 2) (s' : Fin 16)
    (hc : c'.val = c.val) (hs : s'.val = s.val) : widL (coordsV c s) = wid c' s' :=
  Fin.ext (by show s.val * 2 + c.val = s'.val * 2 + c'.val; rw [hc, hs])

theorem tileObl (hb : TileBody m) : (K (F := F)).TileObl (D (F := F)) 𝒱 (P m (wide m) (Gout m)) v₀ 0 := by
  intro d c i O W hO _ _
  -- this kernel owes nothing for a protocol of its own
  simp only [show (P m (wide m) (Gout m)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : widL (coordsV ⟨_, hc.1⟩ ⟨_, hc.2⟩) = wid (Fin.cast nCore_zero c) (Fin.cast nSub_zero i) :=
    widL_coordsV _ _ _ _ rfl rfl
  rw [P_go, P_td, P_x, ← hw]
  exact (hb d (coordsV ⟨_, hc.1⟩ ⟨_, hc.2⟩) O W hO).trans (wp_mono frame _ _ fun _ => obl_post)

/-- From the body's triple, the run of the whole program: every fair execution of the device's threads ends, the
    result holding the gathered rows, the labels and the table unchanged. -/
theorem run (hb : TileBody m) [∀ e, Nonempty (Elt F e)] (ρ : Dev nD → PrngReg) :
    θ_run (Cert.KernelIdeal.defs (F := F)) (Cert.KernelIdeal.threads (F := F)) ⟨m, fun _ => 0, ρ⟩
      (fun r => ∀ c : Dev nD, r.2.mem (oLoc c) = Gout m c ∧ r.2.mem (lLoc c) = m (lLoc c) ∧ r.2.mem (tLoc c) = m (tLoc c)) :=
  run_main m ρ (Gout m) (tileObl m hb)

end Cert.Proof.KI

end
-- ==== Proof.KI.TileFacts.lean ====
/-
  Three pure facts about one worker's task, at a symbolic place (vector subcore L 1 of SparseCore L 0, worker
  w = 2·(L 1) + (L 0)).

  The rows a pass writes lie in the worker's block. Pass k writes rows 512·w + 128·k … 512·w + 128·k + 127 of the
  result, and k < 4, so these are among rows 512·w … 512·w + 511.

  What the label fetch leaves. The fetch copies the worker's 512 labels over the whole index scratch, so place x
  of the scratch then holds label 512·w + x; where every label is at most 999999, so is every entry of the
  scratch.

  The gather's offsets are in range. The row-pair scratch holds each label halved, and 999999 / 2 < 500000, the
  number of rows of the widened table: every offset the gather of a pass reads names a row.
-/
import proofs.«204378_g75239237091912_cont_sun_m_716_31_alg».proof.Proof.KI.TileDefs
import proofs.«204378_g75239237091912_cont_sun_m_716_31_alg».proof.Proof.KI.Words
import proofs.«204378_g75239237091912_cont_sun_m_716_31_alg».proof.Proof.Spec
import Idealize.ShloMosaic.Lib.ValueIdx

noncomputable section

namespace Cert.Proof.KI

open Cert.KernelIdeal Cert.KernelIdeal.Gen

open Idealize.ShloMosaic
open Idealize.ShloMosaic.SparseCore (S V T)

variable {F : FTy → Type}

-- the kernel's memrefs, spelt as the body table passes them
local notation "lV" => (Memref.whole Cert.KernelIdeal.main_arg0_scv : Memref Cert.KernelIdeal.sig Kind.scVector Space.hbm Cert.KernelIdeal.S16384 EltTy.i32)
local notation "oV" => (Memref.whole Cert.KernelIdeal.main_v1_scv : Memref Cert.KernelIdeal.sig Kind.scVector Space.hbm Cert.KernelIdeal.S16384x64 EltTy.f32)
local notation "iS" => (Memref.whole Cert.KernelIdeal.cc0_scratch0 : Memref Cert.KernelIdeal.sig Kind.scVector Space.vmem Cert.KernelIdeal.S512 EltTy.i32)
local notation "tS" => (Memref.whole Cert.KernelIdeal.cc0_scratch1 : Memref Cert.KernelIdeal.sig Kind.scVector Space.vmem Cert.KernelIdeal.S512 EltTy.i32)

variable (m : (ℓ : Loc nD τ sig) → Buf (Elt F) ℓ) (d : Dev nD) (L : grid0.Coords)

/-! ## The rows a pass writes lie in the worker's block -/

theorem trips2_lt (k : Fin k0_t2_loop.trips) : k.val < 4 := lt_of_lt_of_le k.isLt k0_t2_abs.2.1

theorem sub_oRowK (k : Fin k0_t2_loop.trips) : (oRowK L k).view.set ⊆ oSet (widL L) := by
  have hk : k.val < 4 := trips2_lt k
  have h0 : (L 0).val < 2 := (L 0).isLt
  have h1 : (L 1).val < 16 := (L 1).isLt
  show ((View.whole (main_v1_scv : Ref sig .scVector)).slice (orowK L k)).set
    ⊆ ((View.whole (main_v1_scv : Ref sig .scVector)).slice (oblk (widL L))).set
  rw [View.set_slice_whole, View.set_slice_whole]
  intro x hx
  have hx' := (Rect.mem_set_unit (s := S16384x64) (off := k0_off140 L k) (size := S128x64.size) (inb := k0_off140_inb L k)).mp hx
  rw [k0_off140_eq] at hx'
  unfold oblk Rect.part Rect.block
  rw [Rect.mem_set_unit]
  intro a
  match a with
  | ⟨0, _⟩ =>
    have hx0 := hx' ⟨0, by decide⟩
    simp [Shape.partIx, Shape.partSize, widL] at hx0 ⊢
    omega
  | ⟨1, _⟩ =>
    have hx1 := hx' ⟨1, by decide⟩
    simp [Shape.partIx, Shape.partSize] at hx1 ⊢
    omega

/-! ## What the label fetch leaves in the index scratch -/

/-- Label 512·w + x is one of the 16384. -/
theorem lbl_lt (x : S512.Idx) : 512 * (widL L).val + (x 0).val < 16384 := by
  have h1 : (widL L).val < 32 := (widL L).isLt
  have h2 : (x 0).val < 512 := (x 0).isLt
  omega

theorem fetched_apply (fi : Buf (Elt F) ((V d (cV L) (jV L)).loc cc0_scratch0)) (pay : S512.Idx → Elt F .i32)
    (hpay : pay = (lRowK L).view.read (Elt F) (m (lLoc d))) (x : S512.Idx) :
    View.write (Elt F) (iS).view fi pay Finset.univ x
      = m (lLoc d) (ValueIdx.ix1 (⟨512 * (widL L).val + (x 0).val, lbl_lt L x⟩ : Fin 16384)) := by
  subst hpay
  have hw : View.write (Elt F) (iS).view fi ((lRowK L).view.read (Elt F) (m (lLoc d))) Finset.univ
      = (lRowK L).view.read (Elt F) (m (lLoc d)) := View.write_whole_univ cc0_scratch0 fi _
  refine (congrFun hw x).trans ?_
  show m (lLoc d) ((lrowK L).emb x) = _
  refine congrArg (m (lLoc d)) (funext fun a => ?_)
  match a with
  | ⟨0, _⟩ =>
    refine Fin.ext ?_
    show k0_off1 L 0 + 1 * (x 0).val = 512 * ((L 1).val * 2 + (L 0).val) + (x 0).val
    rw [k0_off1_eq]
    show 1024 * (L 1).val + 512 * (L 0).val + 1 * (x 0).val = _
    omega

theorem fetched_le (hpre : Cert.Spec.InRange (m (lLoc d))) (fi : Buf (Elt F) ((V d (cV L) (jV L)).loc cc0_scratch0))
    (pay : S512.Idx → Elt F .i32) (hpay : pay = (lRowK L).view.read (Elt F) (m (lLoc d))) (x : S512.Idx) :
    (View.write (Elt F) (iS).view fi pay Finset.univ x).toNat ≤ 999999 := by
  rw [fetched_apply m d L fi pay hpay x]
  exact hpre _

/-! ## The gather's offsets are in range -/

theorem gather_inb (IDX : Buf (Elt F) ((V d (cV L) (jV L)).loc cc0_scratch0)) (TID : Buf (Elt F) ((V d (cV L) (jV L)).loc cc0_scratch1))
    (hI : ∀ x : S512.Idx, (IDX x).toNat ≤ 999999) (hT : ∀ x : S512.Idx, TID x = IntOp.shrui .vector (IDX x) 1#32)
    (k : Fin k0_t2_loop.trips) :
    ∀ x, (((tS).slice (Rect.unit (s := S512) (k0_off3 k) S128.size (k0_off3_inb k)) (fun _ => rfl)).view.read (Elt F) TID x).toNat < S500000x128.size gathers_S500000x128_S128x128.axis := by
  intro x
  show (TID ((Rect.unit (s := S512) (k0_off3 k) S128.size (k0_off3_inb k)).emb x)).toNat < 500000
  rw [hT, Cert.Proof.Words.shr_one_toNat]
  have := hI ((Rect.unit (s := S512) (k0_off3 k) S128.size (k0_off3_inb k)).emb x)
  omega

end Cert.Proof.KI

end
-- ==== Proof.KI.PassPost.lean ====
/-
  The contents of a worker's block of the result across the four passes. Before pass `k` the block holds the
  gathered rows on rows `512·w … 512·w + 128·k − 1` and the launch contents on the rest (`mix k`). Pass `k` writes
  its 128 × 64 staging block `DMA` over rows `512·w + 128·k …`; if that block is the gathered rows there, the block
  of the result then holds `mix (k + 1)`. At `k = 0` nothing is gathered yet; at `k = 4` everything is.
-/
import proofs.«204378_g75239237091912_cont_sun_m_716_31_alg».proof.Proof.KI.TileDefs
import proofs.«204378_g75239237091912_cont_sun_m_716_31_alg».proof.Proof.KI.TileFacts
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "wV" => (Memref.whole Cert.KernelIdeal.main_v0_scv : Memref Cert.KernelIdeal.sig Kind.scVector Space.hbm Cert.KernelIdeal.S500000x128 EltTy.f32)
local notation "oV" => (Memref.whole Cert.KernelIdeal.main_v1_scv : Memref Cert.KernelIdeal.sig Kind.scVector Space.hbm Cert.KernelIdeal.S16384x64 EltTy.f32)
local notation "iS" => (Memref.whole Cert.KernelIdeal.cc0_scratch0 : Memref Cert.KernelIdeal.sig Kind.scVector Space.vmem Cert.KernelIdeal.S512 EltTy.i32)
local notation "tS" => (Memref.whole Cert.KernelIdeal.cc0_scratch1 : Memref Cert.KernelIdeal.sig Kind.scVector Space.vmem Cert.KernelIdeal.S512 EltTy.i32)
local notation "bS" => (Memref.whole Cert.KernelIdeal.cc0_scratch2 : Memref Cert.KernelIdeal.sig Kind.scVector Space.vmem Cert.KernelIdeal.S128x128 EltTy.f32)
local notation "rS" => (Memref.whole Cert.KernelIdeal.cc0_scratch3 : Memref Cert.KernelIdeal.sig Kind.scVector Space.vmem Cert.KernelIdeal.S128x64 EltTy.f32)

section Tile

variable (d : Dev nD) (L : grid0.Coords)

omit m in
theorem pts_oRowK (k : Fin k0_t2_loop.trips) (f : Buf (Elt F) (oLoc d)) :
    ((oRowK L k).view.loc (V d (cV L) (jV L)) ↦[(oRowK L k).view.set]{fullShare} f : sProp 𝕄) = oLoc d ↦[(oRowK L k).view.set]{fullShare} f := rfl

/-! ## The two row sets, by their rows -/

omit m in
/-- The worker's block is rows `512·w … 512·w + 511`. -/
theorem mem_oSet (i : S16384x64.Idx) :
    i ∈ oSet (widL L) ↔ 512 * (widL L).val ≤ (i 0).val ∧ (i 0).val < 512 * (widL L).val + 512 := by
  show i ∈ ((View.whole (main_v1_scv : Ref sig .scVector)).slice (oblk (widL L))).set ↔ _
  rw [View.set_slice_whole]
  unfold oblk Rect.part Rect.block
  rw [Rect.mem_set_unit]
  have hw : (widL L).val = (L 1).val * 2 + (L 0).val := rfl
  constructor
  · intro h
    have h0 := h ⟨0, by decide⟩
    simp [Shape.partIx, Shape.partSize] at h0
    omega
  · intro h a
    match a with
    | ⟨0, _⟩ => simp [Shape.partIx, Shape.partSize]; omega
    | ⟨1, _⟩ =>
      have := (i ⟨1, by decide⟩).isLt
      simp [Shape.partIx, Shape.partSize]
      exact this

omit m in
/-- Pass `k`'s slice is rows `512·w + 128·k … + 127`. -/
theorem mem_oRowK (k : Fin k0_t2_loop.trips) (i : S16384x64.Idx) :
    i ∈ (oRowK L k).view.set ↔ 512 * (widL L).val + 128 * k.val ≤ (i 0).val ∧ (i 0).val < 512 * (widL L).val + 128 * k.val + 128 := by
  show i ∈ ((View.whole (main_v1_scv : Ref sig .scVector)).slice (orowK L k)).set ↔ _
  rw [View.set_slice_whole]
  rw [Rect.mem_set_unit (s := S16384x64) (off := k0_off140 L k) (size := S128x64.size) (inb := k0_off140_inb L k), k0_off140_eq]
  have hw : (widL L).val = (L 1).val * 2 + (L 0).val := rfl
  constructor
  · intro h
    have h0 := h ⟨0, by decide⟩
    simp [widL] at h0 ⊢
    omega
  · intro h a
    match a with
    | ⟨0, _⟩ => simp [widL] at h ⊢; omega
    | ⟨1, _⟩ =>
      have := (i ⟨1, by decide⟩).isLt
      simp
      exact this

/-! ## The block's contents across the passes -/

/-- The gathered rows on the rows of the passes already done, the launch contents on the rest. -/
def mix (k : Nat) : Buf (Elt F) (oLoc d) :=
  fun (i : S16384x64.Idx) => if (i 0).val < 512 * (widL L).val + 128 * k then Gout m d i else m (oLoc d) i

/-- Before the first pass the block is as launched. -/
theorem mix_zero : (oLoc d ↦[oSet (widL L)]{fullShare} m (oLoc d) : sProp 𝕄) = oLoc d ↦[oSet (widL L)]{fullShare} mix m d L 0 := by
  refine pointsTo_congr fun i hi => ?_
  have h := (mem_oSet L i).mp hi
  unfold mix
  rw [if_neg (by omega)]

/-- After the fourth pass the block is the gathered rows. -/
theorem mix_four : (oLoc d ↦[oSet (widL L)]{fullShare} mix m d L 4 : sProp 𝕄) = oLoc d ↦[oSet (widL L)]{fullShare} Gout m d := by
  refine pointsTo_congr fun i hi => ?_
  have h := (mem_oSet L i).mp hi
  unfold mix
  rw [if_pos (by omega)]

/-- Pass `k`'s write-out: the slice written whole with a staging block that is the gathered rows there, joined with the
    rest of the block, is the block one pass further. -/
theorem pass_post (k : Fin k0_t2_loop.trips) (DMA : S128x64.Idx → Elt F .f32)
    (hval : ∀ y : S128x64.Idx, DMA y = Gout m d ((oRowK L k).view.emb y)) :
    iprop(((oRowK L k).view.loc (V d (cV L) (jV L)) ↦[(oRowK L k).view.set]{fullShare}
          (oRowK L k).view.writes (Elt F) (mix m d L k.val) [⟨Rect.whole S128x64, DMA⟩])
        ∗ (oLoc d ↦[oSet (widL L) \ (oRowK L k).view.set]{fullShare} mix m d L k.val))
      ⊢ (oLoc d ↦[oSet (widL L)]{fullShare} mix m d L (k.val + 1) : sProp 𝕄) := by
  have hsub := sub_oRowK L k
  have e1 : ∀ i ∈ (oRowK L k).view.set,
      ((oRowK L k).view.writes (Elt F) (mix m d L k.val) [⟨Rect.whole S128x64, DMA⟩]) i = mix m d L (k.val + 1) i := by
    intro i hi
    obtain ⟨y, -, rfl⟩ := Finset.mem_map.mp hi
    have hr := View.read_writes_cons_emb (oRowK L k).view (mix m d L k.val) (Rect.whole S128x64) DMA [] y
    rw [Rect.emb_whole_apply, View.read_apply] at hr
    have hm := (mem_oRowK L k _).mp hi
    rw [show (mix m d L (k.val + 1)) ((oRowK L k).view.emb y) = Gout m d ((oRowK L k).view.emb y) from by
      unfold mix; rw [if_pos (by omega)]]
    rw [← hval y, ← hr]
    exact (cast_eq _ _).symm
  have e2 : ∀ i ∈ oSet (widL L) \ (oRowK L k).view.set, mix m d L k.val i = mix m d L (k.val + 1) i := by
    intro i hi
    have h1 := (mem_oSet L i).mp (Finset.mem_sdiff.mp hi).1
    have h2 : ¬ _ := fun h => (Finset.mem_sdiff.mp hi).2 ((mem_oRowK L k i).mpr h)
    unfold mix
    by_cases hlt : (i 0).val < 512 * (widL L).val + 128 * k.val
    · rw [if_pos hlt, if_pos (by omega)]
    · rw [if_neg hlt, if_neg (by omega)]
  iintro ⟨Hok, Hor⟩
  ihave Hok2 := (Entails.of_eq (pts_oRowK (F := F) d L k _)) $$ Hok
  ihave Hok3 := (Entails.of_eq (pointsTo_congr (q := fullShare) e1)) $$ Hok2
  ihave Hor3 := (Entails.of_eq (pointsTo_congr (q := fullShare) e2)) $$ Hor
  iapply (pointsTo_split_subset (q := fullShare) (f := mix m d L (k.val + 1)) hsub).2
  isplitl [Hok3] <;> iassumption

/-- Before pass `k` of the second loop, with the result's contents. -/
def inv2v (O : CellTallies nD τ sig (HIx 1)) (W : Waits sig (HIx 1))
    (IDX : Buf (Elt F) ((V d (cV L) (jV L)).loc cc0_scratch0)) (TID : Buf (Elt F) ((V d (cV L) (jV L)).loc cc0_scratch1))
    (k : Nat) (_ : PUnit) : sProp 𝕄 :=
  iprop(Transfers.MayWaits (V d (cV L) (jV L)) (default : HIx 1) O
    ∗ ((wV).view.loc (V d (cV L) (jV L)) ↦{wq (widL L)} wide m d)
    ∗ ((iS).view.loc (V d (cV L) (jV L)) ↦{fullShare} IDX)
    ∗ ((tS).view.loc (V d (cV L) (jV L)) ↦{fullShare} TID)
    ∗ (∃ fb : Buf (Elt F) ((V d (cV L) (jV L)).loc cc0_scratch2), (bS).view.loc (V d (cV L) (jV L)) ↦{fullShare} fb)
    ∗ (∃ fr : Buf (Elt F) ((V d (cV L) (jV L)).loc cc0_scratch3), (rS).view.loc (V d (cV L) (jV L)) ↦{fullShare} fr)
    ∗ (oLoc d ↦[oSet (widL L)]{fullShare} mix m d L k)
    ∗ semVal (cGcell d (cV L) (jV L)) 0 ∗ semVal (cBcell d (cV L) (jV L)) 0
    ∗ ∃ W', ⌜∀ p ∈ W', p ∈ W ∨ p.2 = none⌝ ∗ owes (V d (cV L) (jV L)) O W')

end Tile

end Cert.Proof.KI

end
-- ==== Proof.KI.PureSteps.lean ====
/-
  Two pure facts the gather kernel's value rests on.

  The first loop's step. Trip k of the first loop loads entries 16k … 16k + 15 of the label scratch, halves each
  (a logical shift right by one) and stores the sixteen halves at the same places of the row-pair scratch. So if
  before the trip the row-pair scratch holds the halved labels at every place below 16k, after it it holds them at
  every place below 16(k + 1): a place below 16k lies outside the stored piece and is unchanged; a place in
  16k … 16k + 15 is under the stored piece and reads the payload there, the halved label of that place.

  The widened table at an index. A reshape keeps row-major order, and 128·r + c = 64·(2r + c / 64) + c % 64, so
  entry (r, c) of the table widened to 500000 rows of 128 is entry (2r + c / 64, c % 64) of the table. For a label
  v ≤ 999999 and a column e < 64, entry (v / 2, 64·(v % 2) + e) of the widened table is therefore entry (v, e) of
  the table: the row the label names.
-/
import proofs.«204378_g75239237091912_cont_sun_m_716_31_alg».proof.Proof.KI.Setup
import proofs.«204378_g75239237091912_cont_sun_m_716_31_alg».proof.Proof.KI.Words
import proofs.«204378_g75239237091912_cont_sun_m_716_31_alg».proof.Proof.Spec
import proofs.«204378_g75239237091912_cont_sun_m_716_31_alg».proof.Proof.Gen.KernelIdeal.Skeleton
import Idealize.ShloMosaic.Lib.Writes
import Idealize.ShloMosaic.Lib.Pipeline.Value
import Idealize.ShloMosaic.Lib.ValueIdx

noncomputable section

namespace Cert.Proof.KI

open Cert.KernelIdeal Cert.KernelIdeal.Gen

open Idealize.ShloMosaic

/-! ## The first loop's step -/

/-- Places 16k … 16k + 15 of a 512-entry scratch: the piece trip k loads and stores. -/
abbrev stepRect (k : Fin k0_t1_loop.trips) : Rect S512 := Rect.unit (s := S512) (k0_off2 k) S16.size (k0_off2_inb k)

/-- What trip k stores: the sixteen labels it loaded, each halved. -/
abbrev stepPay {F : FTy → Type} [FloatOps F]
    (IDX : BufTy.Contents (Elt F) (Memref.whole cc0_scratch0 : Memref sig .scVector .vmem S512 .i32).view.ty) (k : Fin k0_t1_loop.trips) :
    (stepRect k).shape.Idx → Elt F .i32 :=
  k0_pay1 (View.readAt (Elt F) (Memref.whole cc0_scratch0 : Memref sig .scVector .vmem S512 .i32).view (stepRect k).toLoadRect IDX)

/-- The stored sixteen at a place of the piece: the label there, halved. -/
theorem stepPay_apply {F : FTy → Type} [FloatOps F]
    (IDX : BufTy.Contents (Elt F) (Memref.whole cc0_scratch0 : Memref sig .scVector .vmem S512 .i32).view.ty) (k : Fin k0_t1_loop.trips)
    (x' : (stepRect k).shape.Idx) : stepPay IDX k x' = IntOp.shrui .vector (IDX ((stepRect k).idx x')) 1#32 := by
  unfold stepPay k0_pay1
  show shapeCast S16 (shrui (shapeCast S16 (View.readAt (Elt F) (Memref.whole cc0_scratch0 : Memref sig .scVector .vmem S512 .i32).view
      (stepRect k).toLoadRect IDX) shapeCasts_S16_S16) (broadcast S16 1#32)) shapeCasts_S16_S16 x' = _
  rw [shapeCast_self]
  show IntOp.shrui .vector (shapeCast S16 (View.readAt (Elt F) (Memref.whole cc0_scratch0 : Memref sig .scVector .vmem S512 .i32).view
      (stepRect k).toLoadRect IDX) shapeCasts_S16_S16 x') 1#32 = _
  rw [show shapeCast S16 (View.readAt (Elt F) (Memref.whole cc0_scratch0 : Memref sig .scVector .vmem S512 .i32).view
      (stepRect k).toLoadRect IDX) shapeCasts_S16_S16
      = View.readAt (Elt F) (Memref.whole cc0_scratch0 : Memref sig .scVector .vmem S512 .i32).view (stepRect k).toLoadRect IDX
    from shapeCast_self (s := S16) _ _]
  rfl

/-- After trip k the row-pair scratch holds the halved labels at every place below 16(k + 1), if before it it held
    them at every place below 16k. -/
theorem tid_step {F : FTy → Type} [FloatOps F]
    (IDX : BufTy.Contents (Elt F) (Memref.whole cc0_scratch0 : Memref sig .scVector .vmem S512 .i32).view.ty)
    (ft' : BufTy.Contents (Elt F) (Memref.whole cc0_scratch1 : Memref sig .scVector .vmem S512 .i32).view.ty)
    (k : Fin k0_t1_loop.trips)
    (hft : ∀ x : S512.Idx, (x 0).val < 16 * k.val → ft' x = IntOp.shrui .vector (IDX x) 1#32) :
    ∀ x : S512.Idx, (x 0).val < 16 * (k.val + 1) →
      (Memref.whole cc0_scratch1 : Memref sig .scVector .vmem S512 .i32).view.writes (Elt F) ft'
        [⟨Rect.unit (s := S512) (k0_off2 k) S16.size (k0_off2_inb k),
          k0_pay1 (View.readAt (Elt F) (Memref.whole cc0_scratch0 : Memref sig .scVector .vmem S512 .i32).view (Rect.unit (s := S512) (k0_off2 k) S16.size (k0_off2_inb k)).toLoadRect IDX)⟩] x
        = IntOp.shrui .vector (IDX x) 1#32 := by
  intro x hx
  -- the scratch is addressed whole: reading through the view is reading the contents
  show View.read (Elt F) (Memref.whole cc0_scratch1 : Memref sig .scVector .vmem S512 .i32).view
    ((Memref.whole cc0_scratch1 : Memref sig .scVector .vmem S512 .i32).view.writes (Elt F) ft' [⟨stepRect k, stepPay IDX k⟩]) x = _
  by_cases hlt : (x 0).val < 16 * k.val
  · -- outside the stored piece: unchanged
    refine (View.read_writes_apply_of_forall_not_mem (Memref.whole cc0_scratch1 : Memref sig .scVector .vmem S512 .i32).view ft' x
      [⟨stepRect k, stepPay IDX k⟩] ?_).trans (hft x hlt)
    intro p hp hm
    rw [List.mem_singleton] at hp
    subst hp
    have hm' : x ∈ (stepRect k).set := hm
    have h0 := ((Rect.mem_set_unit (s := S512) (off := k0_off2 k) (size := S16.size) (inb := k0_off2_inb k)).mp hm' ⟨0, by decide⟩).1
    rw [k0_off2_eq] at h0
    have h0' : 16 * k.val ≤ (x 0).val := h0
    omega
  · -- under the stored piece: the payload there
    have hmem : x ∈ (stepRect k).set := by
      rw [Rect.mem_set_unit]
      intro a
      match a with
      | ⟨0, _⟩ =>
        rw [k0_off2_eq]
        show 16 * k.val ≤ (x 0).val ∧ (x 0).val < 16 * k.val + 16
        omega
    obtain ⟨x', rfl⟩ := (stepRect k).exists_idx_of_mem hmem
    exact (View.read_writes_cons_emb (Memref.whole cc0_scratch1 : Memref sig .scVector .vmem S512 .i32).view ft'
      (stepRect k) (stepPay IDX k) [] x').trans (stepPay_apply IDX k x')

/-! ## The widened table at an index -/

/-- Entry (r, c) of the widened table is entry (2r + c / 64, c % 64) of the table. -/
theorem wide_apply {α : Type} (tb : (⟨2, ![1000000, 64]⟩ : Shape).Idx → α) (r : Fin 500000) (c : Fin 128) :
    shapeCast S500000x128 tb Cert.KernelIdeal.Gen.shapeCasts_S1000000x64_S500000x128 (ValueIdx.ix2 r c)
      = tb (ValueIdx.ix2 (⟨2 * r.val + c.val / 64, by omega⟩ : Fin 1000000) (⟨c.val % 64, Nat.mod_lt _ (by decide)⟩ : Fin 64)) := by
  refine shapeCast_apply tb _ (ValueIdx.ix2 r c) _ ?_
  rw [Shape.rowMajor_val_two, Shape.rowMajor_val_two]
  show (2 * r.val + c.val / 64) * 64 + c.val % 64 = r.val * 128 + c.val
  omega

/-- For a label v naming a row of the table, columns 64·(v % 2) … 64·(v % 2) + 63 of row v / 2 of the widened table
    are row v of the table. -/
theorem wide_half {α : Type} (tb : (⟨2, ![1000000, 64]⟩ : Shape).Idx → α) (v : BitVec 32) (hv : v.toNat ≤ 999999) (e : Fin 64) :
    shapeCast S500000x128 tb Cert.KernelIdeal.Gen.shapeCasts_S1000000x64_S500000x128
        (ValueIdx.ix2 (⟨v.toNat / 2, by omega⟩ : Fin 500000) (⟨64 * (v.toNat % 2) + e.val, by omega⟩ : Fin 128))
      = tb (ValueIdx.ix2 (Cert.Spec.rowOf v) e) := by
  rw [wide_apply]
  have h1 : 2 * (v.toNat / 2) + (64 * (v.toNat % 2) + e.val) / 64 = (Cert.Spec.rowOf v).val := by
    rw [Cert.Spec.rowOf_val_of_le hv]; omega
  have h2 : (64 * (v.toNat % 2) + e.val) % 64 = e.val := by omega
  refine congrArg tb (funext fun a => ?_)
  match a with
  | ⟨0, _⟩ => exact Fin.ext h1
  | ⟨1, _⟩ => exact Fin.ext h2

end Cert.Proof.KI

end
-- ==== Proof.KI.Staged.lean ====
/-
  What a pass's gather leaves in the gather buffer, read at the half a label's parity selects.

  Pass `k` gathers, for each of its 128 labels, the row pair the label names: row `j` of the 128 × 128 gather buffer
  is row `v / 2` of the widened table, `v` the label at place `128·k + j` of the worker's labels (the offset list holds
  each label halved, a logical shift right by one). The gather writes the whole buffer, so the buffer read at
  `(j, c')` is the gather's payload there: the widened table at `(v / 2, c')`. At the column `c' = 64·(v % 2) + c` of
  the half the label's parity selects, that is the table at row `v`, column `c` (the widened table keeps row-major
  order, and `v ≤ 999999`). The worker's label at place `128·k + j` is label `512·w + 128·k + j` of the label vector,
  and row `j` of the block pass `k` writes is row `512·w + 128·k + j` of the result; the gathered rows hold there
  the table at the row that label names. The two agree.
-/
import proofs.«204378_g75239237091912_cont_sun_m_716_31_alg».proof.Proof.KI.TileDefs
import proofs.«204378_g75239237091912_cont_sun_m_716_31_alg».proof.Proof.KI.TileFacts
import proofs.«204378_g75239237091912_cont_sun_m_716_31_alg».proof.Proof.KI.PureSteps
import proofs.«204378_g75239237091912_cont_sun_m_716_31_alg».proof.Proof.KI.Words
import proofs.«204378_g75239237091912_cont_sun_m_716_31_alg».proof.Proof.Spec

noncomputable section

namespace Cert.Proof.KI

open Cert.KernelIdeal Cert.KernelIdeal.Gen

open Idealize.ShloMosaic
open Idealize.ShloMosaic.SparseCore (S V T)

variable {F : FTy → Type} [FloatOps F]

-- the kernel's memrefs, spelt as the body table passes them
local notation "wV" => (Memref.whole Cert.KernelIdeal.main_v0_scv : Memref Cert.KernelIdeal.sig Kind.scVector Space.hbm Cert.KernelIdeal.S500000x128 EltTy.f32)
local notation "tS" => (Memref.whole Cert.KernelIdeal.cc0_scratch1 : Memref Cert.KernelIdeal.sig Kind.scVector Space.vmem Cert.KernelIdeal.S512 EltTy.i32)
local notation "bS" => (Memref.whole Cert.KernelIdeal.cc0_scratch2 : Memref Cert.KernelIdeal.sig Kind.scVector Space.vmem Cert.KernelIdeal.S128x128 EltTy.f32)

variable (m : (ℓ : Loc nD τ sig) → Buf (Elt F) ℓ) (d : Dev nD) (L : grid0.Coords)

/-- Places `128·k … 128·k + 127` of the row-pair scratch: the offset list of pass `k`. -/
abbrev tSl (k : Fin k0_t2_loop.trips) : Memref sig .scVector .vmem S128 .i32 :=
  (tS).slice (Rect.unit (s := S512) (k0_off3 k) S128.size (k0_off3_inb k)) (fun _ => rfl)

/-- The widened table, as the gather names its source: the whole of it. -/
abbrev wSl : Memref sig .scVector .hbm S500000x128 .f32 :=
  (wV).slice (Rect.unit (s := S500000x128) ![0, 0] S500000x128.size inb_S500000x128_S500000x128_0_0) (fun _ => rfl)

/-- The gather buffer after pass `k`'s gather: the gather's payload written over the whole of it. -/
abbrev BW (TID : Buf (Elt F) ((V d (cV L) (jV L)).loc cc0_scratch1))
    (hins : ∀ (k : Fin k0_t2_loop.trips) x,
      ((tSl k).view.read (Elt F) TID x).toNat < S500000x128.size gathers_S500000x128_S128x128.axis)
    (k : Fin k0_t2_loop.trips) : (bS).view.ty.Contents (Elt F) :=
  (bS).view.writes (Elt F) (bS).view.junk [⟨Rect.whole cc0_scratch2.ty.shape,
      SparseCore.gatherPayload gathers_S500000x128_S128x128
        (View.read (Elt F) (wSl).view (wide m d))
        (SparseCore.rows (View.read (Elt F) (tSl k).view TID) rfl (hins k))⟩]

omit [FloatOps F] in
/-- Place `128·k + j` is one of the 512. -/
theorem pos_lt (k : Fin k0_t2_loop.trips) (j : Fin 128) : 128 * k.val + j.val < 512 := by
  have hk : k.val < 4 := trips2_lt k
  have hj := j.isLt
  omega

/-- The half's column is one of the 128. -/
theorem half_lt (n : Nat) (c : Fin 64) : 64 * (n % 2) + c.val < 128 := by
  have hc := c.isLt
  have := Nat.mod_lt n (show 0 < 2 by decide)
  omega

omit [FloatOps F] m in
/-- The offset list of pass `k` at place `x` is the row-pair scratch at place `128·k + x`. -/
theorem tSl_read (TID : Buf (Elt F) ((V d (cV L) (jV L)).loc cc0_scratch1)) (k : Fin k0_t2_loop.trips) (x : S128.Idx) :
    (tSl k).view.read (Elt F) TID x
      = TID (ValueIdx.ix1 (⟨128 * k.val + (x 0).val, pos_lt k (x 0)⟩ : Fin 512)) := by
  show TID ((Rect.unit (s := S512) (k0_off3 k) S128.size (k0_off3_inb k)).emb x) = _
  refine congrArg TID (funext fun a => ?_)
  match a with
  | ⟨0, _⟩ =>
    refine Fin.ext ?_
    show k0_off3 k 0 + 1 * (x 0).val = 128 * k.val + (x 0).val
    rw [k0_off3_eq]
    show 128 * k.val + 1 * (x 0).val = _
    omega

omit [FloatOps F] in
/-- The gather's source read at an index is the widened table there. -/
theorem wSl_read (z : S500000x128.Idx) : View.read (Elt F) (wSl).view (wide m d) z = wide m d z := by
  show wide m d ((Rect.unit (s := S500000x128) ![0, 0] S500000x128.size inb_S500000x128_S500000x128_0_0).emb z) = _
  refine congrArg (wide m d) (funext fun a => ?_)
  match a with
  | ⟨0, _⟩ => refine Fin.ext ?_; show 0 + 1 * (z 0).val = (z 0).val; omega
  | ⟨1, _⟩ => refine Fin.ext ?_; show 0 + 1 * (z 1).val = (z 1).val; omega

/-- After pass `k`'s gather, the gather buffer at row `j`, column `c` of the half the label's parity selects, holds
    what the gathered rows hold at row `j`, column `c` of the block the pass writes. -/
theorem staged_eq (hpre : Cert.Spec.InRange (m (lLoc d)))
    (IDX : Buf (Elt F) ((V d (cV L) (jV L)).loc cc0_scratch0)) (TID : Buf (Elt F) ((V d (cV L) (jV L)).loc cc0_scratch1))
    (hIDX : ∀ x : S512.Idx, IDX x = m (lLoc d) (ValueIdx.ix1 (⟨512 * (widL L).val + (x 0).val, lbl_lt L x⟩ : Fin 16384)))
    (hTID : ∀ x : S512.Idx, TID x = IntOp.shrui .vector (IDX x) 1#32)
    (hins : ∀ (k : Fin k0_t2_loop.trips) x,
      ((tSl k).view.read (Elt F) TID x).toNat < S500000x128.size gathers_S500000x128_S128x128.axis)
    (k : Fin k0_t2_loop.trips) (j : Fin 128) (c : Fin 64) :
    BW m d L TID hins k (ValueIdx.ix2 j
        (⟨64 * ((IDX (ValueIdx.ix1 (⟨128 * k.val + j.val, pos_lt k j⟩ : Fin 512))).toNat % 2) + c.val, half_lt _ c⟩ : Fin 128))
      = Gout m d ((oRowK L k).view.emb (ValueIdx.ix2 j c)) := by
  -- the label at place 128·k + j of the worker's labels
  generalize hx0 : (ValueIdx.ix1 (⟨128 * k.val + j.val, pos_lt k j⟩ : Fin 512) : S512.Idx) = x0
  have hx00 : (x0 0).val = 128 * k.val + j.val := by rw [← hx0]
  have hv : (IDX x0).toNat ≤ 999999 := by rw [hIDX]; exact hpre _
  -- the whole-rectangle piece read back: the buffer at an index is the payload there
  have h1 := View.read_writes_cons_emb (bS).view ((bS).view.junk (Val := Elt F)) (Rect.whole cc0_scratch2.ty.shape)
    (SparseCore.gatherPayload gathers_S500000x128_S128x128 (View.read (Elt F) (wSl).view (wide m d))
      (SparseCore.rows (View.read (Elt F) (tSl k).view TID) rfl (hins k))) []
    (ValueIdx.ix2 j (⟨64 * ((IDX x0).toNat % 2) + c.val, half_lt _ c⟩ : Fin 128))
  rw [Rect.emb_whole_apply] at h1
  refine h1.trans ?_
  -- the payload: the gather's source at the row the offset list names
  unfold SparseCore.gatherPayload
  rw [wSl_read]
  -- the row the offset list names for row j: the label there, halved
  have hrow : (SparseCore.rows (View.read (Elt F) (tSl k).view TID) rfl (hins k) j).val = (IDX x0).toNat / 2 := by
    show ((tSl k).view.read (Elt F) TID (S128.rowMajor.symm (j.cast _))).toNat = _
    rw [tSl_read, hTID, Cert.Proof.Words.shr_one_toNat]
    refine congrArg (fun x : S512.Idx => (IDX x).toNat / 2) ?_
    rw [← hx0]
    refine funext fun a => ?_
    match a with
    | ⟨0, _⟩ =>
      refine Fin.ext ?_
      show 128 * k.val + ((S128.rowMajor.symm (j.cast _)) 0).val = 128 * k.val + j.val
      rw [← Shape.rowMajor_val_one, Equiv.apply_symm_apply]
      rfl
  -- the widened table at (v / 2, 64·(v % 2) + c) is the table at row v, column c
  have hw := wide_half (m (tLoc d)) (IDX x0) hv c
  refine (congrArg (wide m d) (funext fun b => ?_)).trans (hw.trans ?_)
  · match b with
    | ⟨0, _⟩ =>
      refine Fin.ext ?_
      rw [show (⟨0, _⟩ : Fin S500000x128.rank) = gathers_S500000x128_S128x128.axis from rfl, Shape.Gathers.idx_axis]
      exact hrow
    | ⟨1, _⟩ =>
      refine Fin.ext ?_
      exact Shape.Gathers.idx_of_ne gathers_S500000x128_S128x128 _ _ ⟨1, by decide⟩ (by decide)
  · -- the gathered rows at row j, column c of the block the pass writes
    show _ = Cert.Spec.rows (α := Elt F .f32) (m (lLoc d)) (m (tLoc d)) ((orowK L k).emb (ValueIdx.ix2 j c))
    show _ = m (tLoc d) (ValueIdx.ix2 (Cert.Spec.rowOf (m (lLoc d) (ValueIdx.ix1 (((orowK L k).emb (ValueIdx.ix2 j c)) 0))))
      (((orowK L k).emb (ValueIdx.ix2 j c)) 1))
    have hi0 : (((orowK L k).emb (ValueIdx.ix2 j c)) 0 : Fin 16384)
        = (⟨512 * (widL L).val + (x0 0).val, lbl_lt L x0⟩ : Fin 16384) := by
      refine Fin.ext ?_
      show k0_off140 L k 0 + 1 * j.val = 512 * ((L 1).val * 2 + (L 0).val) + (x0 0).val
      rw [k0_off140_eq, hx00]
      show 1024 * (L 1).val + 512 * (L 0).val + 128 * k.val + 1 * j.val = _
      omega
    have hi1 : (((orowK L k).emb (ValueIdx.ix2 j c)) 1 : Fin 64) = c := by
      refine Fin.ext ?_
      show k0_off140 L k 1 + 1 * c.val = c.val
      rw [k0_off140_eq]
      show 0 + 1 * c.val = c.val
      omega
    rw [hi0, hi1, hIDX]

end Cert.Proof.KI

end
-- ==== Proof.KI.Pieces.lean ====
/-
  One stored piece of a pass, and how to go through all of them.

  A pass fills the 128 × 64 staging block with 512 stores of 16 columns each. The store at row J, columns
  C … C + 15 writes what a load of the gather buffer reads at row J, columns W + C … W + C + 15, where the word W
  is 64 times the parity of label 128·k + J of the worker (the label's low bit, times 64: lane J % 16 of the
  sixteen labels group J / 16 of the pass loads). The word is at most 64, so W + C does not wrap, and a cast of
  sixteen entries to a row of sixteen and back changes nothing. Hence the piece holds, at each of its places
  (J, C + i), the gather buffer's entry (J, 64·parity + C + i): the value the pass is claimed to leave there.

  The 512 pieces are numbered 4·J + C / 16, and the list has the last store first. Going down the list one piece at
  a time keeps two facts: every piece so far holds the claimed values at its places, and every place whose number is
  below the count so far lies under one of them. At 512 every place of the block is covered, so the block reads the
  claimed values everywhere, whatever it held before.
-/
import proofs.«204378_g75239237091912_cont_sun_m_716_31_alg».proof.Proof.KI.TileDefs
import proofs.«204378_g75239237091912_cont_sun_m_716_31_alg».proof.Proof.KI.Words
import proofs.«204378_g75239237091912_cont_sun_m_716_31_alg».proof.Proof.KI.PureSteps
import proofs.«204378_g75239237091912_cont_sun_m_716_31_alg».proof.Proof.Gen.KernelIdeal.Skeleton
import Idealize.ShloMosaic.Lib.Writes
import Idealize.ShloMosaic.Lib.Pipeline.Value
import Idealize.ShloMosaic.Lib.ValueIdx

noncomputable section

namespace Cert.Proof.KI

open Cert.KernelIdeal Cert.KernelIdeal.Gen

open Idealize.ShloMosaic

variable {F : FTy → Type}

-- the kernel's memrefs, spelt as the body table passes them
local notation "iS" => (Memref.whole Cert.KernelIdeal.cc0_scratch0 : Memref Cert.KernelIdeal.sig Kind.scVector Space.vmem Cert.KernelIdeal.S512 EltTy.i32)
local notation "rS" => (Memref.whole Cert.KernelIdeal.cc0_scratch3 : Memref Cert.KernelIdeal.sig Kind.scVector Space.vmem Cert.KernelIdeal.S128x64 EltTy.f32)
local notation "bS" => (Memref.whole Cert.KernelIdeal.cc0_scratch2 : Memref Cert.KernelIdeal.sig Kind.scVector Space.vmem Cert.KernelIdeal.S128x128 EltTy.f32)

/-! ## The word of a lane -/

/-- Lane ℓ of sixteen words, each reduced to 64 times its low bit: the word taken out is 64 times the low bit of
    the ℓ-th. -/
theorem lane_word (RD : S16.Idx → BitVec 32) (ℓ : ℕ) (hc1 : S16.ShapeCasts S16) (hsl : S16.Slices ![ℓ] S1)
    (hpos : ∀ a, (![0] : Fin 1 → ℕ) a < S1.size a) (i : S16.Idx) (hi : (i (0 : Fin 1)).val = ℓ) :
    extractAt ![0] (extractStridedSlice S1 ![ℓ] (muli (andi (shapeCast S16 RD hc1) (broadcast S16 1#32)) (broadcast S16 64#32)) hsl) hpos
      = IntOp.muli (IntOp.andi (RD i) 1#32) 64#32 := by
  rw [shapeCast_self]
  refine congrArg (fun z => IntOp.muli (IntOp.andi (RD z) 1#32) 64#32) (funext fun a => ?_)
  match a with
  | ⟨0, _⟩ => exact Fin.ext (by show ℓ + 0 = (i (0 : Fin 1)).val; omega)

/-! ## One piece -/

theorem pass_lt (k : Fin k0_t2_loop.trips) (j : Fin 128) : 128 * k.val + j.val < 512 := by
  have hk : k.val < 4 := lt_of_lt_of_le k.isLt k0_t2_abs.2.1
  omega

theorem halfcol_lt (n : ℕ) (c : Fin 64) : 64 * (n % 2) + c.val < 128 := by omega

/-- The piece stored at row J, columns C … C + 15 holds, at each of its places, the gather buffer's entry of the
    same row at the column shifted by 64 times the parity of label 128·k + J. -/
theorem piece_ok
    (BW : BufTy.Contents (Elt F) (bS).view.ty) (IDX : BufTy.Contents (Elt F) (iS).view.ty)
    (GR : S128x64.Idx → Elt F .f32) (k : Fin k0_t2_loop.trips)
    (hGR : ∀ (j : Fin 128) (c : Fin 64), GR (ValueIdx.ix2 j c)
      = BW (ValueIdx.ix2 j (⟨64 * ((IDX (ValueIdx.ix1 (⟨128 * k.val + j.val, pass_lt k j⟩ : Fin 512))).toNat % 2) + c.val, halfcol_lt _ c⟩ : Fin 128)))
    {J C ℓ : ℕ} {inb : ∀ a, (![J, C] : Fin 2 → ℕ) a + S1x16.size a ≤ S128x64.size a}
    {loff : Fin 2 → ℕ} {linb : ∀ a, loff a + S1x16.size a ≤ S128x128.size a}
    {goff : Fin 1 → ℕ} {ginb : ∀ a, goff a + S16.size a ≤ S512.size a}
    {W cw : BitVec 32}
    {hc1 : S16.ShapeCasts S16} {hc2 : S1x16.ShapeCasts S16} {hc3 : S16.ShapeCasts S1x16}
    {hsl : S16.Slices ![ℓ] S1} {hpos : ∀ a, (![0] : Fin 1 → ℕ) a < S1.size a}
    (hW : W = extractAt ![0] (extractStridedSlice S1 ![ℓ] (muli (andi (shapeCast S16
        (View.readAt (Elt F) (iS).view (Rect.unit (s := S512) goff S16.size ginb).toLoadRect IDX) hc1) (broadcast S16 1#32)) (broadcast S16 64#32)) hsl) hpos)
    (h0 : loff 0 = J) (h1 : loff 1 = (Scalar.indexCast (Scalar.addi W cw)).toNat) (hcw : cw.toNat = C)
    (hgo : goff 0 + ℓ = 128 * k.val + J) :
    ∀ x : (Rect.unit (s := S128x64) ![J, C] S1x16.size inb).shape.Idx,
      shapeCast S1x16 (shapeCast S16 (View.readAt (Elt F) (bS).view (Rect.unit (s := S128x128) loff S1x16.size linb).toLoadRect BW) hc2) hc3 x
        = GR ((Rect.unit (s := S128x64) ![J, C] S1x16.size inb).emb x) := by
  intro x
  have hJ : J + 1 ≤ 128 := inb (0 : Fin 2)
  have hC : C + 16 ≤ 64 := inb (1 : Fin 2)
  have hx0 : (x (0 : Fin 2)).val < 1 := (x (0 : Fin 2)).isLt
  have hx1 : (x (1 : Fin 2)).val < 16 := (x (1 : Fin 2)).isLt
  have hℓ : ℓ + 1 ≤ 16 := hsl.2 (0 : Fin 1)
  -- the word of the lane: 64 times the parity of label 128·k + J
  have hWn : W.toNat = 64 * ((IDX (ValueIdx.ix1 (⟨128 * k.val + J, pass_lt k ⟨J, by omega⟩⟩ : Fin 512))).toNat % 2) := by
    rw [hW, lane_word _ ℓ hc1 hsl hpos (ValueIdx.ix1 (⟨ℓ, by omega⟩ : Fin 16)) rfl, Cert.Proof.Words.halfOff_toNat]
    refine congrArg (fun z => 64 * ((IDX z).toNat % 2)) (funext fun a => ?_)
    match a with
    | ⟨0, _⟩ =>
      refine Fin.ext ?_
      show goff (0 : Fin 1) + 1 * ℓ = 128 * k.val + J
      omega
  -- the cast to sixteen and back
  refine (congrFun (shapeCast_shapeCast (s := S1x16) (t := S16) _ hc2 hc3) x).trans ?_
  -- the piece's place, by coordinates
  have hE : (Rect.unit (s := S128x64) ![J, C] S1x16.size inb).emb x
      = ValueIdx.ix2 (⟨J, by omega⟩ : Fin 128) (⟨C + (x (1 : Fin 2)).val, by omega⟩ : Fin 64) := by
    funext a
    match a with
    | ⟨0, _⟩ => exact Fin.ext (by show J + 1 * (x (0 : Fin 2)).val = J; omega)
    | ⟨1, _⟩ => exact Fin.ext (by show C + 1 * (x (1 : Fin 2)).val = C + (x (1 : Fin 2)).val; omega)
  rw [hE, hGR]
  show BW ((Rect.unit (s := S128x128) loff S1x16.size linb).idx x) = _
  refine congrArg BW (funext fun a => ?_)
  have hadd : (Scalar.indexCast (Scalar.addi W cw)).toNat = W.toNat + cw.toNat := by
    unfold Scalar.indexCast Scalar.addi IntOp.addi
    rw [BitVec.toNat_add]
    have hw64 : W.toNat ≤ 64 := by rw [hWn]; omega
    exact Nat.mod_eq_of_lt (by omega)
  match a with
  | ⟨0, _⟩ =>
    refine Fin.ext ?_
    show loff 0 + 1 * (x (0 : Fin 2)).val = J
    omega
  | ⟨1, _⟩ =>
    refine Fin.ext ?_
    show loff 1 + 1 * (x (1 : Fin 2)).val
      = 64 * ((IDX (ValueIdx.ix1 (⟨128 * k.val + J, pass_lt k ⟨J, by omega⟩⟩ : Fin 512))).toNat % 2) + (C + (x (1 : Fin 2)).val)
    rw [← hWn, h1, hadd, hcw]
    omega

/-! ## Values and coverage together, piece by piece -/

/-- The pieces of the list hold the claimed values at their places, and every place numbered below n (place (J, c)
    has number 4·J + c / 16) lies under one of them. -/
def Good (GR : S128x64.Idx → Elt F .f32) (LST : List (View.Piece (Elt F) S128x64 .f32)) (n : ℕ) : Prop :=
  (∀ p ∈ LST, ∀ x : p.1.shape.Idx, p.2 x = GR (p.1.emb x))
    ∧ (∀ y : S128x64.Idx, 4 * (y 0).val + (y 1).val / 16 < n → ∃ p ∈ LST, y ∈ p.1.set)

theorem good_nil (GR : S128x64.Idx → Elt F .f32) : Good GR [] 0 :=
  ⟨fun _ h => absurd h List.not_mem_nil, fun _ h => absurd h (Nat.not_lt_zero _)⟩

/-- One more piece, the one numbered n, on top of pieces that cover the numbers below n. -/
theorem good_cons {GR : S128x64.Idx → Elt F .f32} {tail : List (View.Piece (Elt F) S128x64 .f32)} {n : ℕ}
    (J C : ℕ) (inb : ∀ a, (![J, C] : Fin 2 → ℕ) a + S1x16.size a ≤ S128x64.size a)
    (PAY : (Rect.unit (s := S128x64) ![J, C] S1x16.size inb).shape.Idx → Elt F .f32)
    (hJC : n = 4 * J + C / 16) (hC : C % 16 = 0 ∧ C < 64 ∧ J < 128)
    (hp : ∀ x, PAY x = GR ((Rect.unit (s := S128x64) ![J, C] S1x16.size inb).emb x)) (ih : Good GR tail n) :
    Good GR (⟨Rect.unit (s := S128x64) ![J, C] S1x16.size inb, PAY⟩ :: tail) (n + 1) := by
  refine ⟨List.forall_mem_cons.mpr ⟨hp, ih.1⟩, fun y hy => ?_⟩
  by_cases hlt : 4 * (y 0).val + (y 1).val / 16 < n
  · obtain ⟨p, hp', hm⟩ := ih.2 y hlt
    exact ⟨p, List.mem_cons_of_mem _ hp', hm⟩
  · refine ⟨_, List.mem_cons_self, ?_⟩
    have hy1 : (y 1).val < 64 := (y 1).isLt
    show y ∈ (Rect.unit (s := S128x64) ![J, C] S1x16.size inb).set
    rw [Rect.mem_set_unit]
    intro a
    match a with
    | ⟨0, _⟩ =>
      show J ≤ (y 0).val ∧ (y 0).val < J + 1
      omega
    | ⟨1, _⟩ =>
      show C ≤ (y 1).val ∧ (y 1).val < C + 16
      omega

/-- With all 512 pieces in, the block reads the claimed values everywhere, whatever it held before. -/
theorem good_value {GR : S128x64.Idx → Elt F .f32} {LST : List (View.Piece (Elt F) S128x64 .f32)} (h : Good GR LST 512)
    (fr : BufTy.Contents (Elt F) (rS).view.ty) (y : S128x64.Idx) :
    (rS).view.read (Elt F) ((rS).view.writes (Elt F) fr LST) y = GR y := by
  have hy0 : (y 0).val < 128 := (y 0).isLt
  have hy1 : (y 1).val < 64 := (y 1).isLt
  exact View.read_writes_apply_of_pieces (rS).view fr GR LST h.1 y (h.2 y (by omega))

/-! ## Going through a list of pieces -/

/-- The label group's offset in closed form, then arithmetic: what the side condition on the lane's place needs. -/
macro "lane_place" : tactic => `(tactic|
  (simp only [k0_off4_eq, k0_off21_eq, k0_off38_eq, k0_off55_eq, k0_off72_eq, k0_off89_eq, k0_off106_eq, k0_off123_eq,
     Matrix.cons_val_zero]
   <;> omega))

/-- One piece whose payload, offsets and words are given by name holds the claimed values (`piece_ok`); the lane's place by
    the group offset's closed form. -/
syntax "piece_by " term:max term:max term:max term:max term:max : tactic
macro_rules
  | `(tactic| piece_by $bw $idx $gr $k $h) => `(tactic|
      (refine piece_ok $bw $idx $gr $k $h (inb := ?_) (hW := rfl) (h0 := rfl) (h1 := rfl) (hcw := rfl) (hgo := ?hgo)
       case hgo => lane_place
       all_goals decide))

/-- A statement about every piece of a list, taken piece by piece: the head piece, then the rest of the list. -/
syntax "peel_pieces_steps " tacticSeq : tactic
macro_rules
  | `(tactic| peel_pieces_steps $t:tacticSeq) => `(tactic|
      repeat (refine List.forall_mem_cons.mpr ⟨?_, ?_⟩; focus (dsimp only; ($t); done)))

/-- The walk, down to the empty list. -/
syntax "peel_pieces " tacticSeq : tactic
macro_rules
  | `(tactic| peel_pieces $t:tacticSeq) => `(tactic|
      (peel_pieces_steps $t
       first
         | exact List.forall_mem_nil _
         | (show ∀ p ∈ ([] : List _), _; exact List.forall_mem_nil _)))

/-- The same, carrying coverage: each piece of the list is the piece numbered one below the count so far (`good_cons`: its
    row, column and number, and the two bounds on them), down to the empty list at count 0. -/
syntax "peel_good_steps " tacticSeq : tactic
macro_rules
  | `(tactic| peel_good_steps $t:tacticSeq) => `(tactic|
      repeat (refine good_cons _ _ _ _ (by decide) (by decide) ?_ ?_; focus (($t); done)))

/-- The walk with coverage, down to the empty list at count 0. -/
syntax "peel_good " tacticSeq : tactic
macro_rules
  | `(tactic| peel_good $t:tacticSeq) => `(tactic|
      (peel_good_steps $t
       exact good_nil _))

end Cert.Proof.KI

end
-- ==== Proof.KI.PassValue.lean ====
/-
  One pass of the second loop with the result's contents. After the gather the buffer holds, at row `j`, the widened
  row that label `128·k + j` of the worker names; each of the 512 copies moves 16 columns of the half the label's parity
  selects into the staging block, so the staging block at `(j, c)` is the buffer at `(j, 64·parity + c)`, which is the
  table at `(labels[512·w + 128·k + j], c)`: the gathered rows on this pass's rows of the result. Every piece of the
  staging block's write list agrees with that one function and the pieces cover the block, so the block written out is it.
-/
import proofs.«204378_g75239237091912_cont_sun_m_716_31_alg».proof.Proof.KI.PassPost
import proofs.«204378_g75239237091912_cont_sun_m_716_31_alg».proof.Proof.KI.Staged
import proofs.«204378_g75239237091912_cont_sun_m_716_31_alg».proof.Proof.KI.Pieces
import proofs.«204378_g75239237091912_cont_sun_m_716_31_alg».proof.Proof.KI.TileFacts
import proofs.«204378_g75239237091912_cont_sun_m_716_31_alg».proof.Proof.KI.PureSteps
import proofs.«204378_g75239237091912_cont_sun_m_716_31_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "lV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S500000x128 EltTy.f32)
local notation "oV" => (Memref.whole Cert.KernelIdeal.main_v1_scv : Memref Cert.KernelIdeal.sig Kind.scVector Space.hbm Cert.KernelIdeal.S16384x64 EltTy.f32)
local notation "iS" => (Memref.whole Cert.KernelIdeal.cc0_scratch0 : Memref Cert.KernelIdeal.sig Kind.scVector Space.vmem Cert.KernelIdeal.S512 EltTy.i32)
local notation "tS" => (Memref.whole Cert.KernelIdeal.cc0_scratch1 : Memref Cert.KernelIdeal.sig Kind.scVector Space.vmem Cert.KernelIdeal.S512 EltTy.i32)
local notation "bS" => (Memref.whole Cert.KernelIdeal.cc0_scratch2 : Memref Cert.KernelIdeal.sig Kind.scVector Space.vmem Cert.KernelIdeal.S128x128 EltTy.f32)
local notation "rS" => (Memref.whole Cert.KernelIdeal.cc0_scratch3 : Memref Cert.KernelIdeal.sig Kind.scVector Space.vmem Cert.KernelIdeal.S128x64 EltTy.f32)

section Tile

variable (d : Dev nD) (L : grid0.Coords)

/-- The gathered rows on pass `k`'s rows of the result, as a function of the staging block's index. -/
def GRk (k : Fin k0_t2_loop.trips) : S128x64.Idx → Elt F .f32 := fun y => Gout m d ((oRowK L k).view.emb y)

variable [FloatOps F]

set_option maxHeartbeats 8000000 in
/-- One pass with the result's contents: from the invariant before pass `k` to the invariant before pass `k + 1`. -/
theorem pass_value (hpre : Cert.Spec.InRange (m (lLoc d))) (O : CellTallies nD τ sig (HIx 1)) (W : Waits sig (HIx 1))
    (IDX : Buf (Elt F) ((V d (cV L) (jV L)).loc cc0_scratch0)) (TID : Buf (Elt F) ((V d (cV L) (jV L)).loc cc0_scratch1))
    (hIDX : ∀ x : S512.Idx, IDX x = m (lLoc d) (ValueIdx.ix1 (⟨512 * (widL L).val + (x 0).val, lbl_lt L x⟩ : Fin 16384)))
    (hTID : ∀ x : S512.Idx, TID x = IntOp.shrui .vector (IDX x) 1#32)
    (hins : ∀ (k : Fin k0_t2_loop.trips) x, (((tS).slice (Rect.unit (s := S512) (k0_off3 k) S128.size (k0_off3_inb k)) (fun _ => rfl)).view.read (Elt F) TID x).toNat
        < S500000x128.size gathers_S500000x128_S128x128.axis)
    (k : Fin k0_t2_loop.trips) (a : Unit) :
    inv2v m d L O W IDX TID k.val a
      ⊢ wp frame (wpE (defs₀ (F := F)) 𝒱₀ (V d (cV L) (jV L)) none) Set.univ
          (k0_t2_body L lV (Memref.isWhole_whole _) wV (Memref.isWhole_whole _) oV (Memref.isWhole_whole _)
            iS (Memref.isWhole_whole _) tS (Memref.isWhole_whole _) bS (Memref.isWhole_whole _) rS (Memref.isWhole_whole _)
            cc0_scratch4 cc0_scoped0 cc0_scoped1 k a)
          fun x => inv2v m d L O W IDX TID (k.val + 1) x := by
  unfold inv2v k0_t2_body
  iintro ⟨#Hmw2, Hw, Hi, Ht, ⟨%fb2, Hb⟩, ⟨%fr2, Hr⟩, Ho, HsemG, HsemB, %W', %hW', HO⟩
  have hsub := sub_oRowK L k
  have hin := hins k
  ihave Ho2 := (pointsTo_split_subset (q := fullShare) (f := mix m d L k.val) hsub).1 $$ Ho
  icases Ho2 with ⟨Hok, Hor⟩
  ihave Hok' := (Entails.of_eq (pts_oRowK (F := F) d L k (mix m d L k.val)).symm) $$ Hok
  sl_exec_parts (disch := exact fun r a => Cert.Proof.Words.load_inside _ (by decide) _ (Cert.Proof.Words.halfOff_le _) r a)
  sl_step
  isplitr; · iexact Hmw2
  isplitl [Hw]; · iexact Hw
  isplitl [Hi]; · iexact Hi
  isplitl [Ht]; · iexact Ht
  isplitl [Hb]; · iexists _; iexact Hb
  isplitl [Hr]; · iexists _; iexact Hr
  isplitl [Hok' Hor]
  · have hGR : ∀ (j : Fin 128) (c : Fin 64), GRk m d L k (ValueIdx.ix2 j c)
        = BW m d L TID hins k (ValueIdx.ix2 j (⟨64 * ((IDX (ValueIdx.ix1 (⟨128 * k.val + j.val, pass_lt k j⟩ : Fin 512))).toNat % 2) + c.val, halfcol_lt _ c⟩ : Fin 128)) :=
      fun j c => (staged_eq m d L hpre IDX TID hIDX hTID hins k j c).symm
    have hG : Good (GRk m d L k) (pass_value.sl.Hr_512 m d L IDX TID hins k) 512 := by
      peel_good (piece_by (BW m d L TID hins k) IDX (GRk m d L k) k hGR)
    have hval : ∀ y : S128x64.Idx, pass_value.sl.dma1544 m d L IDX TID hins k fr2 y = Gout m d ((oRowK L k).view.emb y) :=
      fun y => good_value hG fr2 y
    iapply (pass_post m d L k _ hval)
    isplitl [Hok'] <;> iassumption
  isplitl [HsemG]; · iexact HsemG
  isplitl [HsemB]; · iexact HsemB
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

end Cert.Proof.KI

end
-- ==== Proof.KI.TileValue.lean ====
/-
  One worker's whole task with the result's contents: the label fetch (the index scratch then holds labels
  `512·w …`), the first loop (the row-pair scratch holds `v >>> 1`, below 500000 since every label is at most 999999),
  the four passes (each leaves the gathered rows on its 128 rows of the result), and what the worker hands back: its
  labels and its share of the widened table as they were, its block of the result holding the gathered rows, its scratch
  and semaphores as found.
-/
import proofs.«204378_g75239237091912_cont_sun_m_716_31_alg».proof.Proof.KI.PassValue
import proofs.«204378_g75239237091912_cont_sun_m_716_31_alg».proof.Proof.KI.TileFacts
import proofs.«204378_g75239237091912_cont_sun_m_716_31_alg».proof.Proof.KI.PureSteps
import proofs.«204378_g75239237091912_cont_sun_m_716_31_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "lV" => (Memref.whole Cert.KernelIdeal.main_arg0_scv : Memref Cert.KernelIdeal.sig Kind.scVector Space.hbm Cert.KernelIdeal.S16384 EltTy.i32)
local notation "wV" => (Memref.whole Cert.KernelIdeal.main_v0_scv : Memref Cert.KernelIdeal.sig Kind.scVector Space.hbm Cert.KernelIdeal.S500000x128 EltTy.f32)
local notation "oV" => (Memref.whole Cert.KernelIdeal.main_v1_scv : Memref Cert.KernelIdeal.sig Kind.scVector Space.hbm Cert.KernelIdeal.S16384x64 EltTy.f32)
local notation "iS" => (Memref.whole Cert.KernelIdeal.cc0_scratch0 : Memref Cert.KernelIdeal.sig Kind.scVector Space.vmem Cert.KernelIdeal.S512 EltTy.i32)
local notation "tS" => (Memref.whole Cert.KernelIdeal.cc0_scratch1 : Memref Cert.KernelIdeal.sig Kind.scVector Space.vmem Cert.KernelIdeal.S512 EltTy.i32)
local notation "bS" => (Memref.whole Cert.KernelIdeal.cc0_scratch2 : Memref Cert.KernelIdeal.sig Kind.scVector Space.vmem Cert.KernelIdeal.S128x128 EltTy.f32)
local notation "rS" => (Memref.whole Cert.KernelIdeal.cc0_scratch3 : Memref Cert.KernelIdeal.sig Kind.scVector Space.vmem Cert.KernelIdeal.S128x64 EltTy.f32)

section Tile

variable (d : Dev nD) (L : grid0.Coords)

variable [FloatOps F]

set_option maxRecDepth 200000 in
set_option maxHeartbeats 4000000 in
/-- The worker's task: its labels and its share of the widened table come back as they were, its block of the result
    holding the gathered rows, its scratch and semaphores as found. -/
theorem tile_value (hF : (K (F := F)).Facts) (hpre : Cert.Spec.InRange (m (lLoc d)))
    (O : CellTallies nD τ sig (HIx 1)) (W : Waits sig (HIx 1)) (hO : ∀ g, O g none = 0) :
    iprop(levAts (K (F := F)).L (K (F := F)).lev ∗ emp
        ∗ workerRes m (wide m) d (widL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L lV (Memref.isWhole_whole _) wV (Memref.isWhole_whole _) oV (Memref.isWhole_whole _)
            iS (Memref.isWhole_whole _) tS (Memref.isWhole_whole _) bS (Memref.isWhole_whole _) rS (Memref.isWhole_whole _)
            cc0_scratch4 cc0_scoped0 cc0_scoped1)
          fun _ => iprop(workerRes m (wide m) d (widL L) (Gout m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  iintro ⟨#Hlv, -, ⟨Hl, Hw, Ho⟩, ⟨⟨%fi, Hi⟩, ⟨%ft, Ht⟩, ⟨%fb, Hb⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lRowK (F := F) d L _).symm) $$ Hl
  ihave Hw' := (Entails.of_eq (pts_wV (F := F) d L _ _).symm) $$ Hw
  ihave Hi' := (Entails.of_eq (pts_iS (F := F) d L _).symm) $$ Hi
  ihave Ht' := (Entails.of_eq (pts_tS (F := F) d L _).symm) $$ Ht
  ihave Hb' := (Entails.of_eq (pts_bS (F := F) d L _).symm) $$ Hb
  ihave Hr' := (Entails.of_eq (pts_rS (F := F) d L _).symm) $$ Hr
  sl_exec
  have hI : ∀ x : S512.Idx, (View.write (Elt F) (iS).view fi (tile_value.sl.dma0 m d L) Finset.univ x).toNat ≤ 999999 :=
    fun x => fetched_le m d L hpre fi _ rfl x
  have hA : ∀ x : S512.Idx, View.write (Elt F) (iS).view fi (tile_value.sl.dma0 m d L) Finset.univ x
      = m (lLoc d) (ValueIdx.ix1 (⟨512 * (widL L).val + (x 0).val, lbl_lt L x⟩ : Fin 16384)) :=
    fun x => fetched_apply m d L fi _ rfl x
  generalize hIDX : View.write (Elt F) (iS).view fi (tile_value.sl.dma0 m d L) Finset.univ = IDX at hI hA
  sl_for (inv1 d L IDX) $$ [Hi' Ht']
  case region =>
    intro k _
    unfold inv1
    iintro ⟨Hi, %ft', Ht, %hft⟩
    sl_exec
    sl_step
    isplitl [Hi]; · iexact Hi
    iexists _; isplitl [Ht]; · iexact Ht
    ipureintro; exact tid_step IDX ft' k hft
  · unfold inv1
    isplitl [Hi']; · iexact Hi'
    iexists ft; isplitl [Ht']; · iexact Ht'
    ipureintro; intro x hx; omega
  iintro %_ HI
  unfold inv1
  icases HI with ⟨Hi, %TID, Ht, %hTID⟩
  have htr : Scf.trips k0_t1_loop.lb k0_t1_loop.ub k0_t1_loop.st = 32 := by decide
  have htr2 : Scf.trips k0_t2_loop.lb k0_t2_loop.ub k0_t2_loop.st = 4 := by decide
  have hTID' : ∀ x : S512.Idx, TID x = IntOp.shrui .vector (IDX x) 1#32 :=
    fun x => hTID x (by rw [htr]; have := (x 0).isLt; show (x 0).val < 512; exact this)
  have hins : ∀ (k : Fin k0_t2_loop.trips) x, (((tS).slice (Rect.unit (s := S512) (k0_off3 k) S128.size (k0_off3_inb k)) (fun _ => rfl)).view.read (Elt F) TID x).toNat
        < S500000x128.size gathers_S500000x128_S128x128.axis :=
    fun k => gather_inb d L IDX TID hI hTID' k
  sl_exec
  sl_for (inv2v m d L O W IDX TID) $$ [Hmw Hw' Hi Ht Hb' Hr' Ho HsemG HsemB HO]
  case region =>
    intro k a
    exact pass_value m d L hpre O W IDX TID hA hTID' hins k a
  · unfold inv2v
    isplitr; · iexact Hmw
    isplitl [Hw']; · iexact Hw'
    isplitl [Hi]; · iexact Hi
    isplitl [Ht]; · iexact Ht
    isplitl [Hb']; · iexists _; iexact Hb'
    isplitl [Hr']; · iexists _; iexact Hr'
    isplitl [Ho]; · iapply (Entails.of_eq (mix_zero m d L)); iexact Ho
    isplitl [HsemG]; · iexact HsemG
    isplitl [HsemB]; · iexact HsemB
    iexists _; isplitr
    swap; · iexact HO
    ipureintro; intro p hp
    rcases Finset.mem_insert.mp hp with hp | hp; · exact .inr (hp ▸ rfl)
    exact .inl hp
  iintro %_ HI
  unfold inv2v
  icases HI with ⟨-, Hw, Hi, Ht, ⟨%fb3, Hb⟩, ⟨%fr3, Hr⟩, Ho, HsemG, HsemB, %W', %hW', HO⟩
  sl_exec
  sl_step
  isplitl [Hl' Hw Ho]
  · isplitl [Hl']; · iapply (Entails.of_eq (pts_lRowK (F := F) d L _)); iexact Hl'
    isplitl [Hw]; · iexact Hw
    iapply (Entails.of_eq (mix_four m d L))
    iapply (Entails.of_eq (congrArg (fun n => (oLoc d ↦[oSet (widL L)]{fullShare} mix m d L n : sProp 𝕄)) htr2))
    iexact Ho
  isplitl [Hi Ht Hb Hr Hbufs]
  · isplitl [Hi]; · iexists _; iexact Hi
    isplitl [Ht]; · iexists _; iexact Ht
    isplitl [Hb]; · iexists _; iexact Hb
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; exact hW'

end Tile

end Cert.Proof.KI

end
-- ==== Proof.KB.Setup.lean ====
/-
  The shared vocabulary of the gather kernel's run: the program as the launch theorem sees it, the ghost state
  (the handshakes' rounds beside the local transfers' counters), the four arrays of a device, the numbering of the
  32 workers (worker `2·s + c` is vector subcore `s` of SparseCore `c`), the row blocks of the label vector and
  of the result that worker `w` owns (rows `512·w … 512·w + 511`), and what the launch's handshakes carry: each
  worker takes its block of labels, a read share of the whole widened table and its block of the result, and brings
  them back with the result's block holding the final contents `G`.
-/
import proofs.«204378_g75239237091912_cont_sun_m_716_31_alg».proof.Kernel
import proofs.«204378_g75239237091912_cont_sun_m_716_31_alg».proof.Proof.Gen.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of a device -/

/-- The labels, the table, the table widened to 500000 rows of 128, the result. -/
abbrev lLoc (d : Dev nD) : Loc nD τ sig := (SparseCore.T d).loc main_arg0
abbrev tLoc (d : Dev nD) : Loc nD τ sig := (SparseCore.T d).loc main_arg1
abbrev wLoc (d : Dev nD) : Loc nD τ sig := (SparseCore.T d).loc main_v0
abbrev oLoc (d : Dev nD) : Loc nD τ sig := (SparseCore.T d).loc main_v1

/-! ## The workers and their row blocks -/

/-- Worker `2·s + c`: vector subcore `s` of SparseCore `c`. -/
def wid (c : Fin 2) (s : Fin 16) : Fin 32 := ⟨s.val * 2 + c.val, by omega⟩

theorem ldiv : 32 ∣ S16384.size 0 := ⟨512, rfl⟩
theorem odiv : 32 ∣ S16384x64.size 0 := ⟨512, rfl⟩
/-- Rows `512·w … 512·w + 511` of the labels and of the result. -/
abbrev lblk (w : Fin 32) : Rect S16384 := Rect.part (s := S16384) (a₀ := 0) ldiv w
abbrev oblk (w : Fin 32) : Rect S16384x64 := Rect.part (s := S16384x64) (a₀ := 0) odiv w
abbrev lSet (w : Fin 32) : Finset S16384.Idx :=
  ((Memref.whole main_arg0_scv : Memref sig .scVector .hbm S16384 .i32).view.slice (lblk w)).set
abbrev oSet (w : Fin 32) : Finset S16384x64.Idx :=
  ((Memref.whole main_v1_scv : Memref sig .scVector .hbm S16384x64 .f32).view.slice (oblk w)).set
/-- Worker `w`'s read share of the widened table: the `w`-th of 32 read tokens of the full share. -/
abbrev wq (w : Fin 32) : PosShare TreeShare := Transfers.shareTok fullShare 32 w

variable (m : (ℓ : Loc nD τ sig) → Buf (Elt F) ℓ)

abbrev lBlkPts (d : Dev nD) (w : Fin 32) : sProp 𝕄 := lLoc d ↦[lSet w]{fullShare} m (lLoc d)
abbrev wShPts (d : Dev nD) (w : Fin 32) (Wd : Buf (Elt F) (wLoc d)) : sProp 𝕄 := wLoc d ↦{wq w} Wd
abbrev oBlkPts (d : Dev nD) (w : Fin 32) (f : Buf (Elt F) (oLoc d)) : sProp 𝕄 := oLoc d ↦[oSet w]{fullShare} f

/-- The table widened by the host's reshape before the call: rows `2r` and `2r + 1` of the table side by side as
    row `r` of 128 columns (row-major order is kept). -/
def wide (d : Dev nD) : Buf (Elt F) (wLoc d) :=
  shapeCast S500000x128 (m (tLoc d)) Cert.Kernel.Gen.shapeCasts_S1000000x64_S500000x128

/-- What worker `w` of device `d` holds while it works, with the result's block at `f`. -/
abbrev workerRes (Wd : (d : Dev nD) → Buf (Elt F) (wLoc d)) (d : Dev nD) (w : Fin 32) (f : Buf (Elt F) (oLoc d)) : sProp 𝕄 :=
  iprop(lBlkPts m d w ∗ wShPts d w (Wd d) ∗ oBlkPts d w f)

/-- The one call: SparseCore `c` takes its sixteen workers' resources and brings them back, every worker its own;
    the result's blocks start at the launch contents and come back at `G`. -/
def P (Wd : (d : Dev nD) → Buf (Elt F) (wLoc d)) (G : (d : Dev nD) → Buf (Elt F) (oLoc d)) :
    (K (F := F)).Pay (nD := nD) (Val := Elt F) (Name := ℕ) (U := UU) where
  st := fun q d c => match q with
    | 0 => bigSep Finset.univ fun s : Fin 16 => workerRes m Wd d (wid (Fin.cast nCore_zero c) s) (m (oLoc d))
  dn := fun q d c => match q with
    | 0 => bigSep Finset.univ fun s : Fin 16 => workerRes m Wd d (wid (Fin.cast nCore_zero c) s) (G d)
  go := fun q d c s => match q with
    | 0 => workerRes m Wd d (wid (Fin.cast nCore_zero c) (Fin.cast nSub_zero s)) (m (oLoc d))
  td := fun q d c s => match q with
    | 0 => workerRes m Wd d (wid (Fin.cast nCore_zero c) (Fin.cast nSub_zero s)) (G d)
  x := fun _ _ => iprop(emp)

instance P_storable (Wd : (d : Dev nD) → Buf (Elt F) (wLoc d)) (G : (d : Dev nD) → Buf (Elt F) (oLoc d)) :
    (P (F := F) m Wd G).IsStorable where
  st q d c := match q with | 0 => by unfold P; infer_instance
  dn q d c := match q with | 0 => by unfold P; infer_instance
  go q d c s := match q with | 0 => by unfold P; infer_instance
  td q d c s := match q with | 0 => by unfold P; infer_instance

end Cert.Proof.KB

end
-- ==== Proof.KB.Launch.lean ====
/-
  The launch of the gather kernel. The TensorCore's program first widens the table (a reshape, which keeps
  row-major order), then makes the one call: it hands each of the two SparseCores its sixteen workers' resources —
  worker 2·s + c its block of 512 labels, one of 32 read shares of the whole widened table, and its block of 512
  rows of the result — and takes them back with the result's blocks at their final contents. The 32 row blocks of
  the labels (and of the result) are pairwise disjoint and cover the array, so the array held whole is the
  separating conjunction of its blocks; the widened table at the full share is 32 read tokens and a remainder the
  TensorCore keeps aside; and the 32 workers are the pairs (SparseCore, vector subcore) along the bijection
  (c, s) ↦ 2·s + c. From the body obligation of one worker, the launch theorem then gives the run of the whole
  program: every fair execution ends, with the result at G and the labels and the table as they were.
-/
import proofs.«204378_g75239237091912_cont_sun_m_716_31_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Reindexing: the call's grid is 2 × 16, and the 32 workers are its pairs -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- (c, s) ↦ 2·s + c is a bijection from the pairs (SparseCore, vector subcore) onto the 32 workers:
    c is the worker's parity, s its half. -/
def widEquiv : Fin 2 × Fin 16 ≃ Fin 32 where
  toFun p := wid p.1 p.2
  invFun w := (⟨w.val % 2, Nat.mod_lt _ (by decide)⟩, ⟨w.val / 2, by have := w.isLt; omega⟩)
  left_inv := fun ⟨c, s⟩ => by
    have hc := c.isLt
    have hs := s.isLt
    refine Prod.ext (Fin.ext ?_) (Fin.ext ?_)
    · show (s.val * 2 + c.val) % 2 = c.val
      omega
    · show (s.val * 2 + c.val) / 2 = s.val
      omega
  right_inv := fun w => Fin.ext (by
    show w.val / 2 * 2 + w.val % 2 = w.val
    omega)

/-- A separating conjunction over the workers, taken SparseCore by SparseCore and subcore by subcore. -/
theorem bigSep_workers (Ψ : Fin 32 → sProp 𝕄) :
    (bigSep Finset.univ fun c : Fin 2 => bigSep Finset.univ fun s : Fin 16 => Ψ (wid c s)) = bigSep Finset.univ Ψ :=
  ((bigSep_univ_equiv widEquiv Ψ).trans (bigSep_univ_prod fun p : Fin 2 × Fin 16 => Ψ (widEquiv p))).symm

/-! ## The row blocks: pairwise disjoint, covering the array -/

theorem lSet_eq (w : Fin 32) : lSet w = (lblk w).set := by
  show ((View.whole (main_arg0_scv : Ref sig .scVector)).slice (lblk w)).set = _
  rw [View.set_slice]; exact Finset.map_refl
theorem oSet_eq (w : Fin 32) : oSet w = (oblk w).set := by
  show ((View.whole (main_v1_scv : Ref sig .scVector)).slice (oblk w)).set = _
  rw [View.set_slice]; exact Finset.map_refl

theorem lSet_disjoint : ∀ i ∈ (Finset.univ : Finset (Fin 32)), ∀ j ∈ (Finset.univ : Finset (Fin 32)), i ≠ j → Disjoint (lSet i) (lSet j) :=
  fun i _ j _ h => by rw [lSet_eq, lSet_eq]; exact Rect.part_disjoint ldiv h
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
theorem lSet_cover : (Finset.univ : Finset (Fin 32)).biUnion lSet = Finset.univ :=
  (Finset.biUnion_congr rfl fun i _ => lSet_eq i).trans (Rect.biUnion_part ldiv)
theorem oSet_cover : (Finset.univ : Finset (Fin 32)).biUnion oSet = Finset.univ :=
  (Finset.biUnion_congr rfl fun i _ => oSet_eq i).trans (Rect.biUnion_part odiv)

/-- The labels held whole are their 32 blocks; so is the result. -/
theorem lPts_blocks (d : Dev nD) (f : Buf (Elt F) (lLoc d)) :
    (lLoc d ↦{fullShare} f : sProp 𝕄) = bigSep Finset.univ fun w : Fin 32 => lLoc d ↦[lSet w]{fullShare} f := by
  rw [← pointsTo_biUnion Finset.univ (ℓ := lLoc d) lSet lSet_disjoint, lSet_cover]; try rfl
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]; try rfl

variable (m : (ℓ : Loc nD τ sig) → Buf (Elt F) ℓ) (ρ : Dev nD → PrngReg)

/-! ## What the handshakes carry, as equations -/

section Payloads

variable (Wd : (d : Dev nD) → Buf (Elt F) (wLoc d)) (G : (d : Dev nD) → Buf (Elt F) (oLoc d))

theorem P_st (d : Dev nD) (c : Fin ((K (F := F)).nCore 0)) :
    (P m Wd G).st 0 d c = bigSep Finset.univ fun s : Fin 16 => workerRes m Wd d (wid (Fin.cast nCore_zero c) s) (m (oLoc d)) := rfl
theorem P_dn (d : Dev nD) (c : Fin ((K (F := F)).nCore 0)) :
    (P m Wd G).dn 0 d c = bigSep Finset.univ fun s : Fin 16 => workerRes m Wd d (wid (Fin.cast nCore_zero c) s) (G d) := rfl
theorem P_go (d : Dev nD) (c : Fin ((K (F := F)).nCore 0)) (i : Fin ((K (F := F)).nSub 0)) :
    (P m Wd G).go 0 d c i = workerRes m Wd d (wid (Fin.cast nCore_zero c) (Fin.cast nSub_zero i)) (m (oLoc d)) := rfl
theorem P_td (d : Dev nD) (c : Fin ((K (F := F)).nCore 0)) (i : Fin ((K (F := F)).nSub 0)) :
    (P m Wd G).td 0 d c i = workerRes m Wd d (wid (Fin.cast nCore_zero c) (Fin.cast nSub_zero i)) (G d) := rfl
theorem P_x (q : Fin 1) (thr : Thread nD τ) : (P m Wd G).x q thr = iprop(emp) := rfl

/-- A SparseCore's sixteen tasks' resources are the SparseCore's, subcore by subcore, going and coming back. -/
theorem go_eq (d : Dev nD) (c : Fin ((K (F := F)).nCore 0)) :
    (bigSep Finset.univ fun i : Fin ((K (F := F)).nSub 0) => (P m Wd G).go 0 d c i) = (P m Wd G).st 0 d c :=
  (bigSep_congr fun i _ => P_go m Wd G d c i).trans
    ((bigSep_tasks (F := F) fun s => workerRes m Wd d (wid (Fin.cast nCore_zero c) s) (m (oLoc d))).trans (P_st m Wd G d c).symm)
theorem td_eq (d : Dev nD) (c : Fin ((K (F := F)).nCore 0)) :
    (bigSep Finset.univ fun i : Fin ((K (F := F)).nSub 0) => (P m Wd G).td 0 d c i) = (P m Wd G).dn 0 d c :=
  (bigSep_congr fun i _ => P_td m Wd G d c i).trans
    ((bigSep_tasks (F := F) fun s => workerRes m Wd d (wid (Fin.cast nCore_zero c) s) (G d)).trans (P_dn m Wd G d c).symm)

/-- How a SparseCore's operands split among its vector subcores and its results gather from theirs: they are the
    same separating conjunction, indexed by the grid's subcores. -/
theorem vecSplit : (K (F := F)).VecSplit' (P m Wd G) 0 := by
  intro d c
  rw [go_eq, td_eq]
  iintro H; imodintro
  isplitl [H]; · iexact H
  iintro H; iexact H

/-- The 32 workers' resources, with the result's blocks at f, taken SparseCore by SparseCore: the labels whole, the
    32 read tokens of the widened table, the result whole at f. -/
theorem workers_eq (d : Dev nD) (f : Buf (Elt F) (oLoc d)) :
    (bigSep Finset.univ fun c : Fin ((K (F := F)).nCore 0) => bigSep Finset.univ fun s : Fin 16 => workerRes m Wd d (wid (Fin.cast nCore_zero c) s) f)
      = iprop((lLoc d ↦{fullShare} m (lLoc d)) ∗ (bigSep Finset.univ fun w : Fin 32 => wLoc d ↦{wq w} Wd d) ∗ (oLoc d ↦{fullShare} f)) := by
  rw [bigSep_cores (F := F) (fun c => bigSep Finset.univ fun s : Fin 16 => workerRes m Wd d (wid c s) f),
    bigSep_workers (F := F) (fun w => workerRes m Wd d w f)]
  show (bigSep Finset.univ fun w : Fin 32 => iprop((lLoc d ↦[lSet w]{fullShare} m (lLoc d)) ∗ (wLoc d ↦{wq w} Wd d) ∗ (oLoc d ↦[oSet w]{fullShare} f))) = _
  rw [bigSep_sep', bigSep_sep', lPts_blocks, oPts_blocks]

theorem st0_eq (d : Dev nD) : (bigSep Finset.univ fun c : Fin ((K (F := F)).nCore 0) => (P m Wd G).st 0 d c)
    = iprop((lLoc d ↦{fullShare} m (lLoc d)) ∗ (bigSep Finset.univ fun w : Fin 32 => wLoc d ↦{wq w} Wd d) ∗ (oLoc d ↦{fullShare} m (oLoc d))) :=
  (bigSep_congr fun c _ => P_st m Wd G d c).trans (workers_eq m Wd d (m (oLoc d)))
theorem dn0_eq (d : Dev nD) : (bigSep Finset.univ fun c : Fin ((K (F := F)).nCore 0) => (P m Wd G).dn 0 d c)
    = iprop((lLoc d ↦{fullShare} m (lLoc d)) ∗ (bigSep Finset.univ fun w : Fin 32 => wLoc d ↦{wq w} Wd d) ∗ (oLoc d ↦{fullShare} G d)) :=
  (bigSep_congr fun c _ => P_dn m Wd G d c).trans (workers_eq m Wd d (G d))

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m Wd G).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m Wd G).x q thr) = (iprop(emp) : sProp 𝕄) from
    (bigSep_congr fun thr _ => (bigSep_congr fun q _ => P_x m Wd G q thr).trans (bigSep_emp' _)).trans (bigSep_emp' _)]
  iempintro

end Payloads

/-! ## @main on the TensorCore -/

abbrev t' : DevRef τ sig := Proc.devRef .tc (main_arg1 : Ref sig .tc)
abbrev w' : DevRef τ sig := Proc.devRef .tc (main_v0 : Ref sig .tc)
/-- The host's reshape of the table into the widened table. -/
abbrev opR : HloOp τ sig (Elt F) := StableHlo.reshape main_arg1 main_v0 rfl Cert.Kernel.Gen.shapeCasts_S1000000x64_S500000x128

/-- The reshape's arrays: the table and the widened table. -/
abbrev S2 : Finset (DevRef τ sig) := {t', w'}

theorem held_S2 (d : Dev nD) (W : Valuation τ sig (Elt F)) :
    (held (T d) S2 W : sProp 𝕄) = iprop((tLoc d ↦{fullShare} W t') ∗ (wLoc d ↦{fullShare} W w')) := by
  unfold held S2
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((lLoc d ↦{fullShare} W main_arg0) ∗ (tLoc d ↦{fullShare} W main_arg1) ∗ (wLoc d ↦{fullShare} W main_v0)
      ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem hOp : (opR (F := F)).bufs ⊆ S2 := show ({t', w'} : Finset (DevRef τ sig)) ⊆ S2 from Finset.Subset.refl _

/-- After the reshape the table is as it was and the widened table holds the table's elements in row-major order. -/
theorem held_after (d : Dev nD) :
    (held (T d) S2 ((opR (F := F)).result (V0 m d)) : sProp 𝕄) = iprop((tLoc d ↦{fullShare} m (tLoc d)) ∗ (wLoc d ↦{fullShare} wide m d)) := by
  rw [held_S2, (opR (F := F)).result_of_not_mem (V0 m d) (b := t') (show t' ∉ ({w'} : Finset (DevRef τ sig)) by decide),
    show (opR (F := F)).result (V0 m d) w' = wide m d from
      (StableHlo.reshape_result main_arg1 main_v0 rfl Cert.Kernel.Gen.shapeCasts_S1000000x64_S500000x128 ⟨by decide, rfl⟩ ⟨by decide, rfl⟩ (V0 m d)).trans rfl]
  rfl

variable (G : (d : Dev nD) → Buf (Elt F) (oLoc d))

/-- What @main leaves the claim: the labels and the table at their launch contents, the result at G. -/
abbrev FIN (d : Dev nD) : sProp 𝕄 :=
  iprop((lLoc d ↦{fullShare} m (lLoc d)) ∗ (tLoc d ↦{fullShare} m (tLoc d)) ∗ (oLoc d ↦{fullShare} G d))

variable [FloatOps F]

/-- @main on device d's TensorCore: the reshape (the table read, the widened table written), then the one call: the
    labels and the result go out block by block, the widened table as 32 read tokens (the remainder kept), and come
    back, the result at G; the blocks join to the arrays whole. -/
theorem hmain (κ : GSem nD τ sig → ℕ) (d : Dev nD) :
    iprop((K (F := F)).ctx EH (P m (wide m) G) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m G d) := by
  unfold SparseCore.Cfg.tcRes
  rw [unscopedBufs_eq]
  simp only [main, wp_bind, wp_pure]
  iintro ⟨#Hctx, Hst, ⟨Hb, ⟨Hl, Ht, Hw, Ho⟩, -, -⟩, -⟩
  -- the reshape, over the table and the widened table
  iapply (wp_hlo_within 𝒱 (SparseCore.T d) none Set.univ (op := opR) (S := S2) hOp (V := V0 m d)) $$ [Hb Ht Hw]
  · isplitl [Hb]; · iexact Hb
    rw [held_S2]
    isplitl [Ht]; · iexact Ht
    iexact Hw
  iintro ⟨Hb, Hheld⟩
  ihave Hh := (Entails.of_eq (held_after (F := F) m d)) $$ Hheld
  icases Hh with ⟨Ht, Hw⟩
  rw [wp_ret]; imodintro
  -- the widened table: 32 read tokens and the remainder
  ihave Hw' := (Transfers.pointsTo_toks_split fullShare 32) $$ Hw
  icases Hw' with ⟨Hrem, Htoks⟩
  -- the call
  iapply ((K (F := F)).wp_run (D (F := F)) 𝒱 (EH := EH) (P := P m (wide m) G) κ d 0) $$ [Hst Hl Htoks Ho Ht]
  isplitr; · iexact Hctx
  isplitl [Hst]; · iexact Hst
  isplitl [Hl Htoks Ho]
  · rw [st0_eq]
    isplitl [Hl]; · iexact Hl
    isplitl [Htoks]; · iexact Htoks
    iexact Ho
  iintro ⟨Hst, Hdn⟩
  ihave Hdn' := (Entails.of_eq (dn0_eq m (wide m) G d)) $$ Hdn
  icases Hdn' with ⟨Hl, -, Ho⟩
  imodintro
  isplitl [Hst]; · iexact Hst
  isplitl [Hl]; · iexact Hl
  isplitl [Ht]; · iexact Ht
  iexact Ho

def fq (d : Dev nD) (s' : Phys nD τ sig (Elt F)) : Prop :=
  s'.mem.mem (oLoc d) = G d ∧ s'.mem.mem (lLoc d) = m (lLoc d) ∧ s'.mem.mem (tLoc d) = m (tLoc d)

/-- Holding the three arrays whole, the final memory agrees with them everywhere. -/
theorem hfin (d : Dev nD) (s' : Phys nD τ sig (Elt F)) : iprop(FIN m G d ∗ SI s') ⊢ (⌜fq m G d s'⌝ : sProp 𝕄) := by
  iintro ⟨⟨Hl, Ht, Ho⟩, HSI⟩
  ihave H := (persistent_entails_right (SI_pointsTo_agree (st := s') (ℓ := lLoc d) (I := Finset.univ) (q := fullShare) (f := m (lLoc d)))) $$ [HSI Hl]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := G d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From one worker's body obligation, the run of the whole program: every fair execution of the device's threads
    ends, the result holding G, the labels and the table unchanged. -/
theorem run_main [∀ e, Nonempty (Elt F e)]
    (hT : (K (F := F)).TileObl (D (F := F)) 𝒱 (P m (wide m) G) v₀ 0) :
    θ_run (Cert.Kernel.defs (F := F)) (Cert.Kernel.threads (F := F)) ⟨m, fun _ => 0, ρ⟩
      (fun r => ∀ c : Dev nD, r.2.mem (oLoc c) = G c ∧ r.2.mem (lLoc c) = m (lLoc c) ∧ r.2.mem (tLoc c) = m (tLoc c)) :=
  SparseCore.Cfg.θ_run_sc (K := K (F := F)) (D := D (F := F)) (𝒱 := 𝒱) (EH := EH) (P := P m (wide m) G) facts v₀
    (fun q hq => match q with | 0 => nomatch hq)
    (fun q _ => match q with | 0 => hT)
    (fun q _ => match q with | 0 => SparseCore.Cfg.VecSplit.of_plain (vecSplit m (wide m) G))
    m ρ main (fun _ => iprop(emp)) (FIN m G) (u₀ (F := F)) (sep_elim_left.trans (hu₀ m (wide m) G)) (hmain m ρ G) (fq m G) (hfin m G)
    (fun r => ∀ c : Dev nD, r.2.mem (oLoc c) = G c ∧ r.2.mem (lLoc c) = m (lLoc c) ∧ r.2.mem (tLoc c) = m (tLoc c)) (fun _ h => h)

end Cert.Proof.KB

end
-- ==== Proof.KB.TileDefs.lean ====
/-
  One worker's task, at a symbolic place: vector subcore `L 1` of SparseCore `L 0`. It fetches its 512 labels,
  halves each into the row pair it names (first loop, 32 groups of 16), and in four passes of 128 labels gathers
  those widened rows, copies from each the half the label's parity selects (columns `64·(v &&& 1) …`) into a
  128 × 64 staging block, and writes the block to rows `512·w + 128·t …` of the result. Entry `(b, e)` of the
  worker's rows therefore ends at the widened table's entry `(v >>> 1, 64·(v &&& 1) + e)` for `v = labels[b]`.
-/
import proofs.«204378_g75239237091912_cont_sun_m_716_31_alg».proof.Proof.KB.Setup
import proofs.«204378_g75239237091912_cont_sun_m_716_31_alg».proof.Proof.KI.Words
import proofs.«204378_g75239237091912_cont_sun_m_716_31_alg».proof.Proof.Spec
import proofs.«204378_g75239237091912_cont_sun_m_716_31_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (Wd : (d : Dev nD) → Buf (Elt F) (wLoc d))

/-- The result the call leaves: entry `(b, e)` is the table at row `labels[b]`, column `e`. -/
def Gout (d : Dev nD) : Buf (Elt F) (oLoc d) :=
  Cert.Spec.rows (α := Elt F .f32) (m (lLoc d)) (m (tLoc d))

-- the kernel's memrefs, spelt as the body table passes them
local notation "lV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S500000x128 EltTy.f32)
local notation "oV" => (Memref.whole Cert.Kernel.main_v1_scv : Memref Cert.Kernel.sig Kind.scVector Space.hbm Cert.Kernel.S16384x64 EltTy.f32)
local notation "iS" => (Memref.whole Cert.Kernel.cc0_scratch0 : Memref Cert.Kernel.sig Kind.scVector Space.vmem Cert.Kernel.S512 EltTy.i32)
local notation "tS" => (Memref.whole Cert.Kernel.cc0_scratch1 : Memref Cert.Kernel.sig Kind.scVector Space.vmem Cert.Kernel.S512 EltTy.i32)
local notation "bS" => (Memref.whole Cert.Kernel.cc0_scratch2 : Memref Cert.Kernel.sig Kind.scVector Space.vmem Cert.Kernel.S128x128 EltTy.f32)
local notation "rS" => (Memref.whole Cert.Kernel.cc0_scratch3 : Memref Cert.Kernel.sig Kind.scVector Space.vmem Cert.Kernel.S128x64 EltTy.f32)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker's number `2·s + c`. -/
abbrev widL (L : grid0.Coords) : Fin 32 :=
  ⟨(L 1).val * 2 + (L 0).val, by have h0 : (L 0).val < 2 := (L 0).isLt; have h1 : (L 1).val < 16 := (L 1).isLt; omega⟩

/-- The worker's 512 labels, as the body slices them. -/
abbrev lrowK (L : grid0.Coords) : Rect S16384 := Rect.unit (s := S16384) (k0_off1 L) S512.size (k0_off1_inb L)
abbrev lRowK (L : grid0.Coords) : Memref sig .scVector .hbm S512 .i32 := (lV).slice (lrowK L) (fun _ => rfl)

theorem lrowK_eq : lrowK L = lblk (widL L) := by
  unfold lrowK lblk Rect.part Rect.block
  congr 1 <;> funext a
  · rw [k0_off1_eq]
    match a with
    | 0 => simp [Shape.partIx, Shape.partSize, widL]; omega
  · match a with
    | 0 => simp [Shape.partSize]

theorem set_lRowK : (lRowK L).view.set = lSet (widL L) := by
  show ((lV).view.slice (lrowK L)).set = ((lV).view.slice (lblk (widL L))).set
  rw [lrowK_eq]

omit m Wd in
theorem pts_lRowK (f : Buf (Elt F) (lLoc d)) :
    ((lRowK L).view.loc (V d (cV L) (jV L)) ↦[(lRowK L).view.set]{fullShare} f : sProp 𝕄) = lLoc d ↦[lSet (widL L)]{fullShare} f := by
  rw [set_lRowK]
omit m Wd in
theorem pts_wV (q : PosShare TreeShare) (f : Buf (Elt F) (wLoc d)) :
    ((wV).view.loc (V d (cV L) (jV L)) ↦{q} f : sProp 𝕄) = wLoc d ↦{q} f := rfl

/-- The three cells the task completes its copies on: the gather's, the label fetch's, the write-out's. -/
abbrev cGcell (d : Dev nD) (c : Fin τ.nSC) (i : Fin τ.nSub) : GSem nD τ sig := (V d c i, .dma cc0_scratch4.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit m Wd in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch4.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit m Wd in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit m Wd in
theorem pts_iS (f : Buf (Elt F) ((V d (cV L) (jV L)).loc cc0_scratch0)) :
    ((iS).view.loc (V d (cV L) (jV L)) ↦{fullShare} f : sProp 𝕄) = (V d (cV L) (jV L)).loc cc0_scratch0 ↦{fullShare} f := rfl
omit m Wd in
theorem pts_tS (f : Buf (Elt F) ((V d (cV L) (jV L)).loc cc0_scratch1)) :
    ((tS).view.loc (V d (cV L) (jV L)) ↦{fullShare} f : sProp 𝕄) = (V d (cV L) (jV L)).loc cc0_scratch1 ↦{fullShare} f := rfl
omit m Wd in
theorem pts_bS (f : Buf (Elt F) ((V d (cV L) (jV L)).loc cc0_scratch2)) :
    ((bS).view.loc (V d (cV L) (jV L)) ↦{fullShare} f : sProp 𝕄) = (V d (cV L) (jV L)).loc cc0_scratch2 ↦{fullShare} f := rfl
omit m Wd in
theorem pts_rS (f : Buf (Elt F) ((V d (cV L) (jV L)).loc cc0_scratch3)) :
    ((rS).view.loc (V d (cV L) (jV L)) ↦{fullShare} f : sProp 𝕄) = (V d (cV L) (jV L)).loc cc0_scratch3 ↦{fullShare} f := rfl

/-- Before group `k` of the first loop: the index scratch holds the worker's labels `IDX`; the row-pair scratch
    holds `v >>> 1` of the label at every position of the groups already done. -/
def inv1 (IDX : Buf (Elt F) ((V d (cV L) (jV L)).loc cc0_scratch0)) (k : Nat) (_ : PUnit) : sProp 𝕄 :=
  iprop(((iS).view.loc (V d (cV L) (jV L)) ↦{fullShare} IDX)
    ∗ ∃ ft : Buf (Elt F) ((V d (cV L) (jV L)).loc cc0_scratch1), ((tS).view.loc (V d (cV L) (jV L)) ↦{fullShare} ft)
        ∗ ⌜∀ x : S512.Idx, (x 0).val < 16 * k → ft x = IntOp.shrui .vector (IDX x) 1#32⌝)

/-- Rows `512·w + 128·t …` of the result, as pass `t` slices them. -/
abbrev orowK (L : grid0.Coords) (t : Fin k0_t2_loop.trips) : Rect S16384x64 :=
  Rect.unit (s := S16384x64) (k0_off140 L t) S128x64.size (k0_off140_inb L t)
abbrev oRowK (L : grid0.Coords) (t : Fin k0_t2_loop.trips) : Memref sig .scVector .hbm S128x64 .f32 := (oV).slice (orowK L t) (fun _ => rfl)

/-- Before pass `k` of the second loop (frame only). -/
def inv2 (O : CellTallies nD τ sig (HIx 1)) (W : Waits sig (HIx 1))
    (IDX : Buf (Elt F) ((V d (cV L) (jV L)).loc cc0_scratch0)) (TID : Buf (Elt F) ((V d (cV L) (jV L)).loc cc0_scratch1))
    (k : Nat) (_ : PUnit) : sProp 𝕄 :=
  iprop(Transfers.MayWaits (V d (cV L) (jV L)) (default : HIx 1) O
    ∗ ((wV).view.loc (V d (cV L) (jV L)) ↦{wq (widL L)} Wd d)
    ∗ ((iS).view.loc (V d (cV L) (jV L)) ↦{fullShare} IDX)
    ∗ ((tS).view.loc (V d (cV L) (jV L)) ↦{fullShare} TID)
    ∗ (∃ fb : Buf (Elt F) ((V d (cV L) (jV L)).loc cc0_scratch2), (bS).view.loc (V d (cV L) (jV L)) ↦{fullShare} fb)
    ∗ (∃ fr : Buf (Elt F) ((V d (cV L) (jV L)).loc cc0_scratch3), (rS).view.loc (V d (cV L) (jV L)) ↦{fullShare} fr)
    ∗ (∃ fo : Buf (Elt F) (oLoc d), oLoc d ↦[oSet (widL L)]{fullShare} fo)
    ∗ semVal (cGcell d (cV L) (jV L)) 0 ∗ semVal (cBcell d (cV L) (jV L)) 0
    ∗ ∃ W', ⌜∀ p ∈ W', p ∈ W ∨ p.2 = none⌝ ∗ owes (V d (cV L) (jV L)) O W')

end Tile

end Cert.Proof.KB

end
-- ==== Proof.KB.Obl.lean ====
/-
  One worker's obligation, and the run that follows from it.

  The launch asks, for every device, SparseCore `c` and vector subcore `i` of the call's grid, that the kernel's body
  run from the worker's resources — its block of labels, its read share of the widened table, its block of the result
  at the launch contents — end with the block of the result at its final contents, the subcore's own buffers and
  semaphores as it found them, and nothing owed beyond what it was handed. The body table spells the body at the grid
  point `(c, i)`; worker `2·i + c` is the worker of that point, so the obligation is the body's triple `TileBody` at
  the point, carried through the lift of the kernel's program into the call's and weakened in what its waits may
  record. From it the launch gives the whole program's run: the result at the gathered rows, the labels and the table
  unchanged.
-/
import proofs.«204378_g75239237091912_cont_sun_m_716_31_alg».proof.Proof.KB.TileDefs
import proofs.«204378_g75239237091912_cont_sun_m_716_31_alg».proof.Proof.KB.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the kernel's memrefs, spelt as the body table passes them
local notation "lV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S500000x128 EltTy.f32)
local notation "oV" => (Memref.whole Cert.Kernel.main_v1_scv : Memref Cert.Kernel.sig Kind.scVector Space.hbm Cert.Kernel.S16384x64 EltTy.f32)
local notation "iS" => (Memref.whole Cert.Kernel.cc0_scratch0 : Memref Cert.Kernel.sig Kind.scVector Space.vmem Cert.Kernel.S512 EltTy.i32)
local notation "tS" => (Memref.whole Cert.Kernel.cc0_scratch1 : Memref Cert.Kernel.sig Kind.scVector Space.vmem Cert.Kernel.S512 EltTy.i32)
local notation "bS" => (Memref.whole Cert.Kernel.cc0_scratch2 : Memref Cert.Kernel.sig Kind.scVector Space.vmem Cert.Kernel.S128x128 EltTy.f32)
local notation "rS" => (Memref.whole Cert.Kernel.cc0_scratch3 : Memref Cert.Kernel.sig Kind.scVector Space.vmem Cert.Kernel.S128x64 EltTy.f32)

variable (m : (ℓ : Loc nD τ sig) → Buf (Elt F) ℓ)

/-- The body's triple at every grid point: from the worker's resources with the result's block at the launch
    contents, the kernel's body ends with the block at the gathered rows, the subcore's own buffers and semaphores
    back, and its debts as they were. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ workerRes m (wide m) d (widL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L lV (Memref.isWhole_whole _) wV (Memref.isWhole_whole _) oV (Memref.isWhole_whole _)
            iS (Memref.isWhole_whole _) tS (Memref.isWhole_whole _) bS (Memref.isWhole_whole _) rS (Memref.isWhole_whole _)
            cc0_scratch4 cc0_scoped0 cc0_scoped1)
          fun _ => iprop(workerRes m (wide m) d (widL L) (Gout m d) ∗ scopedBufs (V d (cV L) (jV L)) ∗ scopedSems0 (V d (cV L) (jV L))
            ∗ ∃ W', ⌜∀ p ∈ W', p ∈ W ∨ p.2 = none⌝ ∗ owes (V d (cV L) (jV L)) O W')

/-! ## The launch theorem's obligation -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          lV (Memref.isWhole_whole _) wV (Memref.isWhole_whole _) oV (Memref.isWhole_whole _)
          iS (Memref.isWhole_whole _) tS (Memref.isWhole_whole _) bS (Memref.isWhole_whole _) rS (Memref.isWhole_whole _)
          cc0_scratch4 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- The worker of grid point `(c, s)` is worker `2·s + c`. -/
theorem widL_coordsV (c : Fin (grid0.bound 0)) (s : Fin (grid0.bound 1)) (c' : Fin 2) (s' : Fin 16)
    (hc : c'.val = c.val) (hs : s'.val = s.val) : widL (coordsV c s) = wid c' s' :=
  Fin.ext (by show s.val * 2 + c.val = s'.val * 2 + c'.val; rw [hc, hs])

theorem tileObl (hb : TileBody m) : (K (F := F)).TileObl (D (F := F)) 𝒱 (P m (wide m) (Gout m)) v₀ 0 := by
  intro d c i O W hO _ _
  -- this kernel owes nothing for a protocol of its own
  simp only [show (P m (wide m) (Gout m)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : widL (coordsV ⟨_, hc.1⟩ ⟨_, hc.2⟩) = wid (Fin.cast nCore_zero c) (Fin.cast nSub_zero i) :=
    widL_coordsV _ _ _ _ rfl rfl
  rw [P_go, P_td, P_x, ← hw]
  exact (hb d (coordsV ⟨_, hc.1⟩ ⟨_, hc.2⟩) O W hO).trans (wp_mono frame _ _ fun _ => obl_post)

/-- From the body's triple, the run of the whole program: every fair execution of the device's threads ends, the
    result holding the gathered rows, the labels and the table unchanged. -/
theorem run (hb : TileBody m) [∀ e, Nonempty (Elt F e)] (ρ : Dev nD → PrngReg) :
    θ_run (Cert.Kernel.defs (F := F)) (Cert.Kernel.threads (F := F)) ⟨m, fun _ => 0, ρ⟩
      (fun r => ∀ c : Dev nD, r.2.mem (oLoc c) = Gout m c ∧ r.2.mem (lLoc c) = m (lLoc c) ∧ r.2.mem (tLoc c) = m (tLoc c)) :=
  run_main m ρ (Gout m) (tileObl m hb)

end Cert.Proof.KB

end
-- ==== Proof.KB.LaunchF.lean ====
/-
  The launch of the gather kernel when only its frame is claimed: every fair execution ends, with the labels and
  the table as they were; what the result holds is not stated. The handshakes carry what they carry for the full
  claim on the way out — each worker its block of labels, a read share of the widened table, its block of the
  result at the launch contents — and on the way back the result's block at SOME contents. After the call the
  TensorCore rejoins the labels' blocks and keeps the table; the result's blocks and the read tokens are let go.
  One worker's obligation follows from the body's frame triple at the worker's grid point, as for the full claim.
-/
import proofs.«204378_g75239237091912_cont_sun_m_716_31_alg».proof.Proof.KB.Launch
import proofs.«204378_g75239237091912_cont_sun_m_716_31_alg».proof.Proof.KB.TileDefs
import proofs.«204378_g75239237091912_cont_sun_m_716_31_alg».proof.Proof.KB.Obl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "lV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S500000x128 EltTy.f32)
local notation "oV" => (Memref.whole Cert.Kernel.main_v1_scv : Memref Cert.Kernel.sig Kind.scVector Space.hbm Cert.Kernel.S16384x64 EltTy.f32)
local notation "iS" => (Memref.whole Cert.Kernel.cc0_scratch0 : Memref Cert.Kernel.sig Kind.scVector Space.vmem Cert.Kernel.S512 EltTy.i32)
local notation "tS" => (Memref.whole Cert.Kernel.cc0_scratch1 : Memref Cert.Kernel.sig Kind.scVector Space.vmem Cert.Kernel.S512 EltTy.i32)
local notation "bS" => (Memref.whole Cert.Kernel.cc0_scratch2 : Memref Cert.Kernel.sig Kind.scVector Space.vmem Cert.Kernel.S128x128 EltTy.f32)
local notation "rS" => (Memref.whole Cert.Kernel.cc0_scratch3 : Memref Cert.Kernel.sig Kind.scVector Space.vmem Cert.Kernel.S128x64 EltTy.f32)

variable (m : (ℓ : Loc nD τ sig) → Buf (Elt F) ℓ) (ρ : Dev nD → PrngReg)

/-! ## What the handshakes carry -/

/-- What worker w of device d brings back: its block of labels, its read share of the widened table, and its
    block of the result at some contents. -/
abbrev workerResF (Wd : (d : Dev nD) → Buf (Elt F) (wLoc d)) (d : Dev nD) (w : Fin 32) : sProp 𝕄 :=
  iprop(lBlkPts m d w ∗ wShPts d w (Wd d) ∗ ∃ f, oBlkPts d w f)

/-- The one call: SparseCore c takes its sixteen workers' resources, the result's blocks at the launch contents,
    and brings them back, the result's blocks at whatever the workers left. -/
def PF (Wd : (d : Dev nD) → Buf (Elt F) (wLoc d)) :
    (K (F := F)).Pay (nD := nD) (Val := Elt F) (Name := ℕ) (U := UU) where
  st := fun q d c => match q with
    | 0 => bigSep Finset.univ fun s : Fin 16 => workerRes m Wd d (wid (Fin.cast nCore_zero c) s) (m (oLoc d))
  dn := fun q d c => match q with
    | 0 => bigSep Finset.univ fun s : Fin 16 => workerResF m Wd d (wid (Fin.cast nCore_zero c) s)
  go := fun q d c s => match q with
    | 0 => workerRes m Wd d (wid (Fin.cast nCore_zero c) (Fin.cast nSub_zero s)) (m (oLoc d))
  td := fun q d c s => match q with
    | 0 => workerResF m Wd d (wid (Fin.cast nCore_zero c) (Fin.cast nSub_zero s))
  x := fun _ _ => iprop(emp)

instance PF_storable (Wd : (d : Dev nD) → Buf (Elt F) (wLoc d)) : (PF (F := F) m Wd).IsStorable where
  st q d c := match q with | 0 => by unfold PF; infer_instance
  dn q d c := match q with | 0 => by unfold PF; infer_instance
  go q d c s := match q with | 0 => by unfold PF; infer_instance
  td q d c s := match q with | 0 => by unfold PF; infer_instance

section Payloads

variable (Wd : (d : Dev nD) → Buf (Elt F) (wLoc d))

theorem PF_st (d : Dev nD) (c : Fin ((K (F := F)).nCore 0)) :
    (PF m Wd).st 0 d c = bigSep Finset.univ fun s : Fin 16 => workerRes m Wd d (wid (Fin.cast nCore_zero c) s) (m (oLoc d)) := rfl
theorem PF_dn (d : Dev nD) (c : Fin ((K (F := F)).nCore 0)) :
    (PF m Wd).dn 0 d c = bigSep Finset.univ fun s : Fin 16 => workerResF m Wd d (wid (Fin.cast nCore_zero c) s) := rfl
theorem PF_go (d : Dev nD) (c : Fin ((K (F := F)).nCore 0)) (i : Fin ((K (F := F)).nSub 0)) :
    (PF m Wd).go 0 d c i = workerRes m Wd d (wid (Fin.cast nCore_zero c) (Fin.cast nSub_zero i)) (m (oLoc d)) := rfl
theorem PF_td (d : Dev nD) (c : Fin ((K (F := F)).nCore 0)) (i : Fin ((K (F := F)).nSub 0)) :
    (PF m Wd).td 0 d c i = workerResF m Wd d (wid (Fin.cast nCore_zero c) (Fin.cast nSub_zero i)) := rfl
theorem PF_x (q : Fin 1) (thr : Thread nD τ) : (PF m Wd).x q thr = iprop(emp) := rfl

theorem goF_eq (d : Dev nD) (c : Fin ((K (F := F)).nCore 0)) :
    (bigSep Finset.univ fun i : Fin ((K (F := F)).nSub 0) => (PF m Wd).go 0 d c i) = (PF m Wd).st 0 d c :=
  (bigSep_congr fun i _ => PF_go m Wd d c i).trans
    ((bigSep_tasks (F := F) fun s => workerRes m Wd d (wid (Fin.cast nCore_zero c) s) (m (oLoc d))).trans (PF_st m Wd d c).symm)
theorem tdF_eq (d : Dev nD) (c : Fin ((K (F := F)).nCore 0)) :
    (bigSep Finset.univ fun i : Fin ((K (F := F)).nSub 0) => (PF m Wd).td 0 d c i) = (PF m Wd).dn 0 d c :=
  (bigSep_congr fun i _ => PF_td m Wd d c i).trans
    ((bigSep_tasks (F := F) fun s => workerResF m Wd d (wid (Fin.cast nCore_zero c) s)).trans (PF_dn m Wd d c).symm)

/-- A SparseCore's operands are its sixteen tasks', and its results theirs: the same separating conjunction,
    indexed by the grid's subcores. -/
theorem vecSplitF : (K (F := F)).VecSplit' (PF m Wd) 0 := by
  intro d c
  rw [goF_eq, tdF_eq]
  iintro H; imodintro
  isplitl [H]; · iexact H
  iintro H; iexact H

theorem stF0_eq (d : Dev nD) : (bigSep Finset.univ fun c : Fin ((K (F := F)).nCore 0) => (PF m Wd).st 0 d c)
    = iprop((lLoc d ↦{fullShare} m (lLoc d)) ∗ (bigSep Finset.univ fun w : Fin 32 => wLoc d ↦{wq w} Wd d) ∗ (oLoc d ↦{fullShare} m (oLoc d))) :=
  (bigSep_congr fun c _ => PF_st m Wd d c).trans (workers_eq m Wd d (m (oLoc d)))

/-- What comes back, taken SparseCore by SparseCore: the labels whole, the 32 read tokens, and the result's 32
    blocks, each at some contents. -/
theorem dnF0_eq (d : Dev nD) : (bigSep Finset.univ fun c : Fin ((K (F := F)).nCore 0) => (PF m Wd).dn 0 d c)
    = iprop((lLoc d ↦{fullShare} m (lLoc d)) ∗ (bigSep Finset.univ fun w : Fin 32 => wLoc d ↦{wq w} Wd d)
        ∗ (bigSep Finset.univ fun w : Fin 32 => iprop(∃ f, oLoc d ↦[oSet w]{fullShare} f))) := by
  rw [bigSep_congr fun c _ => PF_dn m Wd d c,
    bigSep_cores (F := F) (fun c => bigSep Finset.univ fun s : Fin 16 => workerResF m Wd d (wid c s)),
    bigSep_workers (F := F) (fun w => workerResF m Wd d w)]
  show (bigSep Finset.univ fun w : Fin 32 => iprop((lLoc d ↦[lSet w]{fullShare} m (lLoc d)) ∗ (wLoc d ↦{wq w} Wd d)
    ∗ ∃ f, oLoc d ↦[oSet w]{fullShare} f)) = _
  rw [bigSep_sep', bigSep_sep', lPts_blocks]

theorem huF₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PF m Wd).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (PF m Wd).x q thr) = (iprop(emp) : sProp 𝕄) from
    (bigSep_congr fun thr _ => (bigSep_congr fun q _ => PF_x m Wd q thr).trans (bigSep_emp' _)).trans (bigSep_emp' _)]
  iempintro

end Payloads

/-! ## @main on the TensorCore -/

/-- What @main leaves the claim: the labels and the table at their launch contents. -/
abbrev FINF (d : Dev nD) : sProp 𝕄 := iprop((lLoc d ↦{fullShare} m (lLoc d)) ∗ (tLoc d ↦{fullShare} m (tLoc d)))

def fqF (d : Dev nD) (s' : Phys nD τ sig (Elt F)) : Prop :=
  s'.mem.mem (lLoc d) = m (lLoc d) ∧ s'.mem.mem (tLoc d) = m (tLoc d)

/-- Holding the two arrays whole, the final memory agrees with them everywhere. -/
theorem hfinF (d : Dev nD) (s' : Phys nD τ sig (Elt F)) : iprop(FINF m d ∗ SI s') ⊢ (⌜fqF m d s'⌝ : sProp 𝕄) := by
  iintro ⟨⟨Hl, Ht⟩, HSI⟩
  ihave H := (persistent_entails_right (SI_pointsTo_agree (st := s') (ℓ := lLoc d) (I := Finset.univ) (q := fullShare) (f := m (lLoc d)))) $$ [HSI Hl]
  · isplitl [HSI] <;> iassumption
  icases H with ⟨%h1, HSI, -⟩
  ihave H := (SI_pointsTo_agree (st := s') (ℓ := tLoc d) (I := Finset.univ) (q := fullShare) (f := m (tLoc d))) $$ [HSI Ht]
  · isplitl [HSI] <;> iassumption
  icases H with %h2
  ipureintro
  exact ⟨funext fun i => h1 i (Finset.mem_univ i), funext fun i => h2 i (Finset.mem_univ i)⟩

variable [FloatOps F]

/-- @main on device d's TensorCore: the reshape, then the one call — the labels and the result out block by block,
    the widened table as 32 read tokens —; of what comes back the labels' blocks join to the labels whole, the rest
    is let go. -/
theorem hmainF (κ : GSem nD τ sig → ℕ) (d : Dev nD) :
    iprop((K (F := F)).ctx EH (PF m (wide m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FINF m d) := by
  unfold SparseCore.Cfg.tcRes
  rw [unscopedBufs_eq]
  simp only [main, wp_bind, wp_pure]
  iintro ⟨#Hctx, Hst, ⟨Hb, ⟨Hl, Ht, Hw, Ho⟩, -, -⟩, -⟩
  -- the reshape, over the table and the widened table
  iapply (wp_hlo_within 𝒱 (SparseCore.T d) none Set.univ (op := opR) (S := S2) hOp (V := V0 m d)) $$ [Hb Ht Hw]
  · isplitl [Hb]; · iexact Hb
    rw [held_S2]
    isplitl [Ht]; · iexact Ht
    iexact Hw
  iintro ⟨Hb, Hheld⟩
  ihave Hh := (Entails.of_eq (held_after (F := F) m d)) $$ Hheld
  icases Hh with ⟨Ht, Hw⟩
  rw [wp_ret]; imodintro
  -- the widened table: 32 read tokens and the remainder
  ihave Hw' := (Transfers.pointsTo_toks_split fullShare 32) $$ Hw
  icases Hw' with ⟨Hrem, Htoks⟩
  -- the call
  iapply ((K (F := F)).wp_run (D (F := F)) 𝒱 (EH := EH) (P := PF m (wide m)) κ d 0) $$ [Hst Hl Htoks Ho Ht]
  isplitr; · iexact Hctx
  isplitl [Hst]; · iexact Hst
  isplitl [Hl Htoks Ho]
  · rw [stF0_eq]
    isplitl [Hl]; · iexact Hl
    isplitl [Htoks]; · iexact Htoks
    iexact Ho
  iintro ⟨Hst, Hdn⟩
  ihave Hdn' := (Entails.of_eq (dnF0_eq m (wide m) d)) $$ Hdn
  icases Hdn' with ⟨Hl, -, -⟩
  imodintro
  isplitl [Hst]; · iexact Hst
  isplitl [Hl]; · iexact Hl
  iexact Ht

/-! ## The program's frame -/

/-- From one worker's obligation, the frame of the whole program: every fair execution of the device's threads
    ends, the labels and the table unchanged. -/
theorem run_frame [∀ e, Nonempty (Elt F e)]
    (hT : (K (F := F)).TileObl (D (F := F)) 𝒱 (PF m (wide m)) v₀ 0) :
    θ_run (Cert.Kernel.defs (F := F)) (Cert.Kernel.threads (F := F)) ⟨m, fun _ => 0, ρ⟩
      (fun r => ∀ c : Dev nD, r.2.mem (lLoc c) = m (lLoc c) ∧ r.2.mem (tLoc c) = m (tLoc c)) :=
  SparseCore.Cfg.θ_run_sc (K := K (F := F)) (D := D (F := F)) (𝒱 := 𝒱) (EH := EH) (P := PF m (wide m)) facts v₀
    (fun q hq => match q with | 0 => nomatch hq)
    (fun q _ => match q with | 0 => hT)
    (fun q _ => match q with | 0 => SparseCore.Cfg.VecSplit.of_plain (vecSplitF m (wide m)))
    m ρ main (fun _ => iprop(emp)) (FINF m) (u₀ (F := F)) (sep_elim_left.trans (huF₀ m (wide m))) (hmainF m ρ) (fqF m) (hfinF m)
    (fun r => ∀ c : Dev nD, r.2.mem (lLoc c) = m (lLoc c) ∧ r.2.mem (tLoc c) = m (tLoc c)) (fun _ h => h)

/-! ## One worker's obligation from the body's frame triple -/

/-- The body's frame triple at every grid point: from the worker's resources with the result's block at the launch
    contents, the kernel's body ends with the labels' block and the read share back, the result's block at some
    contents, the subcore's own buffers and semaphores back, and its debts as they were. -/
def TileFrameBody : Prop :=
  ∀ (d : Dev nD) (L : grid0.Coords) (O : CellTallies nD τ sig (HIx 1)) (W : Waits sig (HIx 1)), (∀ g, O g none = 0) →
    iprop(levAts (K (F := F)).L (K (F := F)).lev ∗ emp
        ∗ (lBlkPts m d (widL L) ∗ wShPts d (widL L) (wide m d) ∗ oBlkPts d (widL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L lV (Memref.isWhole_whole _) wV (Memref.isWhole_whole _) oV (Memref.isWhole_whole _)
            iS (Memref.isWhole_whole _) tS (Memref.isWhole_whole _) bS (Memref.isWhole_whole _) rS (Memref.isWhole_whole _)
            cc0_scratch4 cc0_scoped0 cc0_scoped1)
          fun _ => iprop((lBlkPts m d (widL L) ∗ wShPts d (widL L) (wide m d) ∗ ∃ f, oBlkPts d (widL L) f)
            ∗ scopedBufs (V d (cV L) (jV L)) ∗ scopedSems0 (V d (cV L) (jV L))
            ∗ ∃ W', ⌜∀ p ∈ W', p ∈ W ∨ p.2 = none⌝ ∗ owes (V d (cV L) (jV L)) O W')

/-- The body table spells the body at the grid point of SparseCore c, vector subcore i, whose worker is 2·i + c: the
    launch's obligation is the body's frame triple there, carried through the lift of the kernel's program into the
    call's and weakened in what its waits may record. -/
theorem tileOblF (hb : TileFrameBody m) : (K (F := F)).TileObl (D (F := F)) 𝒱 (PF m (wide m)) v₀ 0 := by
  intro d c i O W hO _ _
  -- this kernel owes nothing for a protocol of its own
  simp only [show (PF m (wide m)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : widL (coordsV ⟨_, hc.1⟩ ⟨_, hc.2⟩) = wid (Fin.cast nCore_zero c) (Fin.cast nSub_zero i) :=
    widL_coordsV _ _ _ _ rfl rfl
  rw [PF_go, PF_td, PF_x, ← hw]
  exact (hb d (coordsV ⟨_, hc.1⟩ ⟨_, hc.2⟩) O W hO).trans (wp_mono frame _ _ fun _ => obl_post)

/-- From the body's frame triple, the frame of the whole program. -/
theorem run_frame' [∀ e, Nonempty (Elt F e)] (hb : TileFrameBody m) :
    θ_run (Cert.Kernel.defs (F := F)) (Cert.Kernel.threads (F := F)) ⟨m, fun _ => 0, ρ⟩
      (fun r => ∀ c : Dev nD, r.2.mem (lLoc c) = m (lLoc c) ∧ r.2.mem (tLoc c) = m (tLoc c)) :=
  run_frame m ρ (tileOblF m hb)

end Cert.Proof.KB

end
-- ==== Proof.KB.PassFrame.lean ====
/-
  One pass of the second loop, frame only: the gather of 128 widened rows through the row-pair list (its offsets
  in range), the 128 × 4 copies of 16 columns from the half each label's parity selects (every offset 0 or 64, so
  every 16-wide load stays inside the 128 columns), and the write of the 128 × 64 staging block to its rows of the
  result, waited for. The invariant keeps the scratch buffers, the two semaphores at zero, the share of the widened
  table and the worker's block of the result (at some contents).
-/
import proofs.«204378_g75239237091912_cont_sun_m_716_31_alg».proof.Proof.KB.TileDefs
import proofs.«204378_g75239237091912_cont_sun_m_716_31_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (Wd : (d : Dev nD) → Buf (Elt F) (wLoc d))

local notation "lV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S500000x128 EltTy.f32)
local notation "oV" => (Memref.whole Cert.Kernel.main_v1_scv : Memref Cert.Kernel.sig Kind.scVector Space.hbm Cert.Kernel.S16384x64 EltTy.f32)
local notation "iS" => (Memref.whole Cert.Kernel.cc0_scratch0 : Memref Cert.Kernel.sig Kind.scVector Space.vmem Cert.Kernel.S512 EltTy.i32)
local notation "tS" => (Memref.whole Cert.Kernel.cc0_scratch1 : Memref Cert.Kernel.sig Kind.scVector Space.vmem Cert.Kernel.S512 EltTy.i32)
local notation "bS" => (Memref.whole Cert.Kernel.cc0_scratch2 : Memref Cert.Kernel.sig Kind.scVector Space.vmem Cert.Kernel.S128x128 EltTy.f32)
local notation "rS" => (Memref.whole Cert.Kernel.cc0_scratch3 : Memref Cert.Kernel.sig Kind.scVector Space.vmem Cert.Kernel.S128x64 EltTy.f32)

section Tile

variable (d : Dev nD) (L : grid0.Coords)

omit m Wd in
theorem pts_oRowK (k : Fin k0_t2_loop.trips) (f : Buf (Elt F) (oLoc d)) :
    ((oRowK L k).view.loc (V d (cV L) (jV L)) ↦[(oRowK L k).view.set]{fullShare} f : sProp 𝕄) = oLoc d ↦[(oRowK L k).view.set]{fullShare} f := rfl

variable [FloatOps F]

set_option maxHeartbeats 8000000 in
/-- One pass, frame only: from the invariant before pass `k` to the invariant before pass `k + 1`. -/
theorem pass_frame (O : CellTallies nD τ sig (HIx 1)) (W : Waits sig (HIx 1))
    (IDX : Buf (Elt F) ((V d (cV L) (jV L)).loc cc0_scratch0)) (TID : Buf (Elt F) ((V d (cV L) (jV L)).loc cc0_scratch1))
    (hsubs : ∀ k : Fin k0_t2_loop.trips, (oRowK L k).view.set ⊆ oSet (widL L))
    (hins : ∀ (k : Fin k0_t2_loop.trips) x, (((tS).slice (Rect.unit (s := S512) (k0_off3 k) S128.size (k0_off3_inb k)) (fun _ => rfl)).view.read (Elt F) TID x).toNat
        < S500000x128.size gathers_S500000x128_S128x128.axis)
    (k : Fin k0_t2_loop.trips) (a : Unit) :
    inv2 Wd d L O W IDX TID k.val a
      ⊢ wp frame (wpE (defs₀ (F := F)) 𝒱₀ (V d (cV L) (jV L)) none) Set.univ
          (k0_t2_body L lV (Memref.isWhole_whole _) wV (Memref.isWhole_whole _) oV (Memref.isWhole_whole _)
            iS (Memref.isWhole_whole _) tS (Memref.isWhole_whole _) bS (Memref.isWhole_whole _) rS (Memref.isWhole_whole _)
            cc0_scratch4 cc0_scoped0 cc0_scoped1 k a)
          fun x => inv2 Wd d L O W IDX TID (k.val + 1) x := by
  unfold inv2 k0_t2_body
  iintro ⟨#Hmw2, Hw, Hi, Ht, ⟨%fb2, Hb⟩, ⟨%fr2, Hr⟩, ⟨%fo, Ho⟩, HsemG, HsemB, %W', %hW', HO⟩
  have hsub := hsubs k
  have hin := hins k
  ihave Ho2 := (pointsTo_split_subset (q := fullShare) (f := fo) hsub).1 $$ Ho
  icases Ho2 with ⟨Hok, Hor⟩
  ihave Hok' := (Entails.of_eq (pts_oRowK (F := F) d L k fo).symm) $$ Hok
  sl_exec_parts (disch := exact fun r a => Cert.Proof.Words.load_inside _ (by decide) _ (Cert.Proof.Words.halfOff_le _) r a)
  sl_step
  isplitr; · iexact Hmw2
  isplitl [Hw]; · iexact Hw
  isplitl [Hi]; · iexact Hi
  isplitl [Ht]; · iexact Ht
  isplitl [Hb]; · iexists _; iexact Hb
  isplitl [Hr]; · iexists _; iexact Hr
  isplitl [Hok' Hor]
  · ihave Hok2 := (Entails.of_eq (pts_oRowK (F := F) d L k _)) $$ Hok'
    ihave Hj := (pointsTo_join (ℓ := oLoc d) (q := fullShare) (Finset.disjoint_sdiff (s := (oRowK L k).view.set) (t := oSet (widL L)))) $$ [Hok2 Hor]
    · isplitl [Hok2] <;> iassumption
    iexists _
    iapply (Entails.of_eq (show (oLoc d ↦[(oRowK L k).view.set ∪ (oSet (widL L) \ (oRowK L k).view.set)]{fullShare} _ : sProp 𝕄)
        = oLoc d ↦[oSet (widL L)]{fullShare} _ by rw [Finset.union_sdiff_of_subset hsub]))
    iexact Hj
  isplitl [HsemG]; · iexact HsemG
  isplitl [HsemB]; · iexact HsemB
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

end Cert.Proof.KB

end
-- ==== Proof.KB.TileFacts.lean ====
/-
  Three pure facts about one worker's task, at a symbolic place (vector subcore L 1 of SparseCore L 0, worker
  w = 2·(L 1) + (L 0)).

  The rows a pass writes lie in the worker's block. Pass k writes rows 512·w + 128·k … 512·w + 128·k + 127 of the
  result, and k < 4, so these are among rows 512·w … 512·w + 511.

  What the label fetch leaves. The fetch copies the worker's 512 labels over the whole index scratch, so place x
  of the scratch then holds label 512·w + x; where every label is at most 999999, so is every entry of the
  scratch.

  The gather's offsets are in range. The row-pair scratch holds each label halved, and 999999 / 2 < 500000, the
  number of rows of the widened table: every offset the gather of a pass reads names a row.
-/
import proofs.«204378_g75239237091912_cont_sun_m_716_31_alg».proof.Proof.KB.TileDefs
import proofs.«204378_g75239237091912_cont_sun_m_716_31_alg».proof.Proof.KI.Words
import proofs.«204378_g75239237091912_cont_sun_m_716_31_alg».proof.Proof.Spec
import Idealize.ShloMosaic.Lib.ValueIdx

noncomputable section

namespace Cert.Proof.KB

open Cert.Kernel Cert.Kernel.Gen

open Idealize.ShloMosaic
open Idealize.ShloMosaic.SparseCore (S V T)

variable {F : FTy → Type}

-- the kernel's memrefs, spelt as the body table passes them
local notation "lV" => (Memref.whole Cert.Kernel.main_arg0_scv : Memref Cert.Kernel.sig Kind.scVector Space.hbm Cert.Kernel.S16384 EltTy.i32)
local notation "oV" => (Memref.whole Cert.Kernel.main_v1_scv : Memref Cert.Kernel.sig Kind.scVector Space.hbm Cert.Kernel.S16384x64 EltTy.f32)
local notation "iS" => (Memref.whole Cert.Kernel.cc0_scratch0 : Memref Cert.Kernel.sig Kind.scVector Space.vmem Cert.Kernel.S512 EltTy.i32)
local notation "tS" => (Memref.whole Cert.Kernel.cc0_scratch1 : Memref Cert.Kernel.sig Kind.scVector Space.vmem Cert.Kernel.S512 EltTy.i32)

variable (m : (ℓ : Loc nD τ sig) → Buf (Elt F) ℓ) (d : Dev nD) (L : grid0.Coords)

/-! ## The rows a pass writes lie in the worker's block -/

theorem trips2_lt (k : Fin k0_t2_loop.trips) : k.val < 4 := lt_of_lt_of_le k.isLt k0_t2_abs.2.1

theorem sub_oRowK (k : Fin k0_t2_loop.trips) : (oRowK L k).view.set ⊆ oSet (widL L) := by
  have hk : k.val < 4 := trips2_lt k
  have h0 : (L 0).val < 2 := (L 0).isLt
  have h1 : (L 1).val < 16 := (L 1).isLt
  show ((View.whole (main_v1_scv : Ref sig .scVector)).slice (orowK L k)).set
    ⊆ ((View.whole (main_v1_scv : Ref sig .scVector)).slice (oblk (widL L))).set
  rw [View.set_slice_whole, View.set_slice_whole]
  intro x hx
  have hx' := (Rect.mem_set_unit (s := S16384x64) (off := k0_off140 L k) (size := S128x64.size) (inb := k0_off140_inb L k)).mp hx
  rw [k0_off140_eq] at hx'
  unfold oblk Rect.part Rect.block
  rw [Rect.mem_set_unit]
  intro a
  match a with
  | ⟨0, _⟩ =>
    have hx0 := hx' ⟨0, by decide⟩
    simp [Shape.partIx, Shape.partSize, widL] at hx0 ⊢
    omega
  | ⟨1, _⟩ =>
    have hx1 := hx' ⟨1, by decide⟩
    simp [Shape.partIx, Shape.partSize] at hx1 ⊢
    omega

/-! ## What the label fetch leaves in the index scratch -/

/-- Label 512·w + x is one of the 16384. -/
theorem lbl_lt (x : S512.Idx) : 512 * (widL L).val + (x 0).val < 16384 := by
  have h1 : (widL L).val < 32 := (widL L).isLt
  have h2 : (x 0).val < 512 := (x 0).isLt
  omega

theorem fetched_apply (fi : Buf (Elt F) ((V d (cV L) (jV L)).loc cc0_scratch0)) (pay : S512.Idx → Elt F .i32)
    (hpay : pay = (lRowK L).view.read (Elt F) (m (lLoc d))) (x : S512.Idx) :
    View.write (Elt F) (iS).view fi pay Finset.univ x
      = m (lLoc d) (ValueIdx.ix1 (⟨512 * (widL L).val + (x 0).val, lbl_lt L x⟩ : Fin 16384)) := by
  subst hpay
  have hw : View.write (Elt F) (iS).view fi ((lRowK L).view.read (Elt F) (m (lLoc d))) Finset.univ
      = (lRowK L).view.read (Elt F) (m (lLoc d)) := View.write_whole_univ cc0_scratch0 fi _
  refine (congrFun hw x).trans ?_
  show m (lLoc d) ((lrowK L).emb x) = _
  refine congrArg (m (lLoc d)) (funext fun a => ?_)
  match a with
  | ⟨0, _⟩ =>
    refine Fin.ext ?_
    show k0_off1 L 0 + 1 * (x 0).val = 512 * ((L 1).val * 2 + (L 0).val) + (x 0).val
    rw [k0_off1_eq]
    show 1024 * (L 1).val + 512 * (L 0).val + 1 * (x 0).val = _
    omega

theorem fetched_le (hpre : Cert.Spec.InRange (m (lLoc d))) (fi : Buf (Elt F) ((V d (cV L) (jV L)).loc cc0_scratch0))
    (pay : S512.Idx → Elt F .i32) (hpay : pay = (lRowK L).view.read (Elt F) (m (lLoc d))) (x : S512.Idx) :
    (View.write (Elt F) (iS).view fi pay Finset.univ x).toNat ≤ 999999 := by
  rw [fetched_apply m d L fi pay hpay x]
  exact hpre _

/-! ## The gather's offsets are in range -/

theorem gather_inb (IDX : Buf (Elt F) ((V d (cV L) (jV L)).loc cc0_scratch0)) (TID : Buf (Elt F) ((V d (cV L) (jV L)).loc cc0_scratch1))
    (hI : ∀ x : S512.Idx, (IDX x).toNat ≤ 999999) (hT : ∀ x : S512.Idx, TID x = IntOp.shrui .vector (IDX x) 1#32)
    (k : Fin k0_t2_loop.trips) :
    ∀ x, (((tS).slice (Rect.unit (s := S512) (k0_off3 k) S128.size (k0_off3_inb k)) (fun _ => rfl)).view.read (Elt F) TID x).toNat < S500000x128.size gathers_S500000x128_S128x128.axis := by
  intro x
  show (TID ((Rect.unit (s := S512) (k0_off3 k) S128.size (k0_off3_inb k)).emb x)).toNat < 500000
  rw [hT, Cert.Proof.Words.shr_one_toNat]
  have := hI ((Rect.unit (s := S512) (k0_off3 k) S128.size (k0_off3_inb k)).emb x)
  omega

end Cert.Proof.KB

end
-- ==== Proof.KB.PureSteps.lean ====
/-
  Two pure facts the gather kernel's value rests on.

  The first loop's step. Trip k of the first loop loads entries 16k … 16k + 15 of the label scratch, halves each
  (a logical shift right by one) and stores the sixteen halves at the same places of the row-pair scratch. So if
  before the trip the row-pair scratch holds the halved labels at every place below 16k, after it it holds them at
  every place below 16(k + 1): a place below 16k lies outside the stored piece and is unchanged; a place in
  16k … 16k + 15 is under the stored piece and reads the payload there, the halved label of that place.

  The widened table at an index. A reshape keeps row-major order, and 128·r + c = 64·(2r + c / 64) + c % 64, so
  entry (r, c) of the table widened to 500000 rows of 128 is entry (2r + c / 64, c % 64) of the table. For a label
  v ≤ 999999 and a column e < 64, entry (v / 2, 64·(v % 2) + e) of the widened table is therefore entry (v, e) of
  the table: the row the label names.
-/
import proofs.«204378_g75239237091912_cont_sun_m_716_31_alg».proof.Proof.KB.Setup
import proofs.«204378_g75239237091912_cont_sun_m_716_31_alg».proof.Proof.KI.Words
import proofs.«204378_g75239237091912_cont_sun_m_716_31_alg».proof.Proof.Spec
import proofs.«204378_g75239237091912_cont_sun_m_716_31_alg».proof.Proof.Gen.Kernel.Skeleton
import Idealize.ShloMosaic.Lib.Writes
import Idealize.ShloMosaic.Lib.Pipeline.Value
import Idealize.ShloMosaic.Lib.ValueIdx

noncomputable section

namespace Cert.Proof.KB

open Cert.Kernel Cert.Kernel.Gen

open Idealize.ShloMosaic

/-! ## The first loop's step -/

/-- Places 16k … 16k + 15 of a 512-entry scratch: the piece trip k loads and stores. -/
abbrev stepRect (k : Fin k0_t1_loop.trips) : Rect S512 := Rect.unit (s := S512) (k0_off2 k) S16.size (k0_off2_inb k)

/-- What trip k stores: the sixteen labels it loaded, each halved. -/
abbrev stepPay {F : FTy → Type} [FloatOps F]
    (IDX : BufTy.Contents (Elt F) (Memref.whole cc0_scratch0 : Memref sig .scVector .vmem S512 .i32).view.ty) (k : Fin k0_t1_loop.trips) :
    (stepRect k).shape.Idx → Elt F .i32 :=
  k0_pay1 (View.readAt (Elt F) (Memref.whole cc0_scratch0 : Memref sig .scVector .vmem S512 .i32).view (stepRect k).toLoadRect IDX)

/-- The stored sixteen at a place of the piece: the label there, halved. -/
theorem stepPay_apply {F : FTy → Type} [FloatOps F]
    (IDX : BufTy.Contents (Elt F) (Memref.whole cc0_scratch0 : Memref sig .scVector .vmem S512 .i32).view.ty) (k : Fin k0_t1_loop.trips)
    (x' : (stepRect k).shape.Idx) : stepPay IDX k x' = IntOp.shrui .vector (IDX ((stepRect k).idx x')) 1#32 := by
  unfold stepPay k0_pay1
  show shapeCast S16 (shrui (shapeCast S16 (View.readAt (Elt F) (Memref.whole cc0_scratch0 : Memref sig .scVector .vmem S512 .i32).view
      (stepRect k).toLoadRect IDX) shapeCasts_S16_S16) (broadcast S16 1#32)) shapeCasts_S16_S16 x' = _
  rw [shapeCast_self]
  show IntOp.shrui .vector (shapeCast S16 (View.readAt (Elt F) (Memref.whole cc0_scratch0 : Memref sig .scVector .vmem S512 .i32).view
      (stepRect k).toLoadRect IDX) shapeCasts_S16_S16 x') 1#32 = _
  rw [show shapeCast S16 (View.readAt (Elt F) (Memref.whole cc0_scratch0 : Memref sig .scVector .vmem S512 .i32).view
      (stepRect k).toLoadRect IDX) shapeCasts_S16_S16
      = View.readAt (Elt F) (Memref.whole cc0_scratch0 : Memref sig .scVector .vmem S512 .i32).view (stepRect k).toLoadRect IDX
    from shapeCast_self (s := S16) _ _]
  rfl

/-- After trip k the row-pair scratch holds the halved labels at every place below 16(k + 1), if before it it held
    them at every place below 16k. -/
theorem tid_step {F : FTy → Type} [FloatOps F]
    (IDX : BufTy.Contents (Elt F) (Memref.whole cc0_scratch0 : Memref sig .scVector .vmem S512 .i32).view.ty)
    (ft' : BufTy.Contents (Elt F) (Memref.whole cc0_scratch1 : Memref sig .scVector .vmem S512 .i32).view.ty)
    (k : Fin k0_t1_loop.trips)
    (hft : ∀ x : S512.Idx, (x 0).val < 16 * k.val → ft' x = IntOp.shrui .vector (IDX x) 1#32) :
    ∀ x : S512.Idx, (x 0).val < 16 * (k.val + 1) →
      (Memref.whole cc0_scratch1 : Memref sig .scVector .vmem S512 .i32).view.writes (Elt F) ft'
        [⟨Rect.unit (s := S512) (k0_off2 k) S16.size (k0_off2_inb k),
          k0_pay1 (View.readAt (Elt F) (Memref.whole cc0_scratch0 : Memref sig .scVector .vmem S512 .i32).view (Rect.unit (s := S512) (k0_off2 k) S16.size (k0_off2_inb k)).toLoadRect IDX)⟩] x
        = IntOp.shrui .vector (IDX x) 1#32 := by
  intro x hx
  -- the scratch is addressed whole: reading through the view is reading the contents
  show View.read (Elt F) (Memref.whole cc0_scratch1 : Memref sig .scVector .vmem S512 .i32).view
    ((Memref.whole cc0_scratch1 : Memref sig .scVector .vmem S512 .i32).view.writes (Elt F) ft' [⟨stepRect k, stepPay IDX k⟩]) x = _
  by_cases hlt : (x 0).val < 16 * k.val
  · -- outside the stored piece: unchanged
    refine (View.read_writes_apply_of_forall_not_mem (Memref.whole cc0_scratch1 : Memref sig .scVector .vmem S512 .i32).view ft' x
      [⟨stepRect k, stepPay IDX k⟩] ?_).trans (hft x hlt)
    intro p hp hm
    rw [List.mem_singleton] at hp
    subst hp
    have hm' : x ∈ (stepRect k).set := hm
    have h0 := ((Rect.mem_set_unit (s := S512) (off := k0_off2 k) (size := S16.size) (inb := k0_off2_inb k)).mp hm' ⟨0, by decide⟩).1
    rw [k0_off2_eq] at h0
    have h0' : 16 * k.val ≤ (x 0).val := h0
    omega
  · -- under the stored piece: the payload there
    have hmem : x ∈ (stepRect k).set := by
      rw [Rect.mem_set_unit]
      intro a
      match a with
      | ⟨0, _⟩ =>
        rw [k0_off2_eq]
        show 16 * k.val ≤ (x 0).val ∧ (x 0).val < 16 * k.val + 16
        omega
    obtain ⟨x', rfl⟩ := (stepRect k).exists_idx_of_mem hmem
    exact (View.read_writes_cons_emb (Memref.whole cc0_scratch1 : Memref sig .scVector .vmem S512 .i32).view ft'
      (stepRect k) (stepPay IDX k) [] x').trans (stepPay_apply IDX k x')

/-! ## The widened table at an index -/

/-- Entry (r, c) of the widened table is entry (2r + c / 64, c % 64) of the table. -/
theorem wide_apply {α : Type} (tb : (⟨2, ![1000000, 64]⟩ : Shape).Idx → α) (r : Fin 500000) (c : Fin 128) :
    shapeCast S500000x128 tb Cert.Kernel.Gen.shapeCasts_S1000000x64_S500000x128 (ValueIdx.ix2 r c)
      = tb (ValueIdx.ix2 (⟨2 * r.val + c.val / 64, by omega⟩ : Fin 1000000) (⟨c.val % 64, Nat.mod_lt _ (by decide)⟩ : Fin 64)) := by
  refine shapeCast_apply tb _ (ValueIdx.ix2 r c) _ ?_
  rw [Shape.rowMajor_val_two, Shape.rowMajor_val_two]
  show (2 * r.val + c.val / 64) * 64 + c.val % 64 = r.val * 128 + c.val
  omega

/-- For a label v naming a row of the table, columns 64·(v % 2) … 64·(v % 2) + 63 of row v / 2 of the widened table
    are row v of the table. -/
theorem wide_half {α : Type} (tb : (⟨2, ![1000000, 64]⟩ : Shape).Idx → α) (v : BitVec 32) (hv : v.toNat ≤ 999999) (e : Fin 64) :
    shapeCast S500000x128 tb Cert.Kernel.Gen.shapeCasts_S1000000x64_S500000x128
        (ValueIdx.ix2 (⟨v.toNat / 2, by omega⟩ : Fin 500000) (⟨64 * (v.toNat % 2) + e.val, by omega⟩ : Fin 128))
      = tb (ValueIdx.ix2 (Cert.Spec.rowOf v) e) := by
  rw [wide_apply]
  have h1 : 2 * (v.toNat / 2) + (64 * (v.toNat % 2) + e.val) / 64 = (Cert.Spec.rowOf v).val := by
    rw [Cert.Spec.rowOf_val_of_le hv]; omega
  have h2 : (64 * (v.toNat % 2) + e.val) % 64 = e.val := by omega
  refine congrArg tb (funext fun a => ?_)
  match a with
  | ⟨0, _⟩ => exact Fin.ext h1
  | ⟨1, _⟩ => exact Fin.ext h2

end Cert.Proof.KB

end
-- ==== Proof.KB.TileFrame.lean ====
/-
  One worker's whole task, frame only: the label fetch, the first loop (row pairs `v >>> 1`, which are below 500000
  because every label is at most 999999), the four passes, and what the worker hands back: its labels and its share
  of the widened table as they were, its block of the result at some contents, its scratch and semaphores as found.
-/
import proofs.«204378_g75239237091912_cont_sun_m_716_31_alg».proof.Proof.KB.PassFrame
import proofs.«204378_g75239237091912_cont_sun_m_716_31_alg».proof.Proof.KB.TileFacts
import proofs.«204378_g75239237091912_cont_sun_m_716_31_alg».proof.Proof.KB.PureSteps
import proofs.«204378_g75239237091912_cont_sun_m_716_31_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (Wd : (d : Dev nD) → Buf (Elt F) (wLoc d))

local notation "lV" => (Memref.whole Cert.Kernel.main_arg0_scv : Memref Cert.Kernel.sig Kind.scVector Space.hbm Cert.Kernel.S16384 EltTy.i32)
local notation "wV" => (Memref.whole Cert.Kernel.main_v0_scv : Memref Cert.Kernel.sig Kind.scVector Space.hbm Cert.Kernel.S500000x128 EltTy.f32)
local notation "oV" => (Memref.whole Cert.Kernel.main_v1_scv : Memref Cert.Kernel.sig Kind.scVector Space.hbm Cert.Kernel.S16384x64 EltTy.f32)
local notation "iS" => (Memref.whole Cert.Kernel.cc0_scratch0 : Memref Cert.Kernel.sig Kind.scVector Space.vmem Cert.Kernel.S512 EltTy.i32)
local notation "tS" => (Memref.whole Cert.Kernel.cc0_scratch1 : Memref Cert.Kernel.sig Kind.scVector Space.vmem Cert.Kernel.S512 EltTy.i32)
local notation "bS" => (Memref.whole Cert.Kernel.cc0_scratch2 : Memref Cert.Kernel.sig Kind.scVector Space.vmem Cert.Kernel.S128x128 EltTy.f32)
local notation "rS" => (Memref.whole Cert.Kernel.cc0_scratch3 : Memref Cert.Kernel.sig Kind.scVector Space.vmem Cert.Kernel.S128x64 EltTy.f32)

section Tile

variable (d : Dev nD) (L : grid0.Coords)

variable [FloatOps F]

set_option maxRecDepth 200000 in
set_option maxHeartbeats 4000000 in
/-- The worker's task, frame only: its labels and its share of the widened table come back as they were, its block
    of the result at some contents, its scratch and semaphores as found. -/
theorem tile_frame (hF : (K (F := F)).Facts) (hpre : Cert.Spec.InRange (m (lLoc d)))
    (O : CellTallies nD τ sig (HIx 1)) (W : Waits sig (HIx 1)) (hO : ∀ g, O g none = 0) :
    iprop(levAts (K (F := F)).L (K (F := F)).lev ∗ emp
        ∗ (lBlkPts m d (widL L) ∗ wShPts d (widL L) (Wd d) ∗ oBlkPts d (widL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L lV (Memref.isWhole_whole _) wV (Memref.isWhole_whole _) oV (Memref.isWhole_whole _)
            iS (Memref.isWhole_whole _) tS (Memref.isWhole_whole _) bS (Memref.isWhole_whole _) rS (Memref.isWhole_whole _)
            cc0_scratch4 cc0_scoped0 cc0_scoped1)
          fun _ => iprop((lBlkPts m d (widL L) ∗ wShPts d (widL L) (Wd d) ∗ ∃ f, oBlkPts d (widL L) f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  iintro ⟨#Hlv, -, ⟨Hl, Hw, Ho⟩, ⟨⟨%fi, Hi⟩, ⟨%ft, Ht⟩, ⟨%fb, Hb⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lRowK (F := F) d L _).symm) $$ Hl
  ihave Hw' := (Entails.of_eq (pts_wV (F := F) d L _ _).symm) $$ Hw
  ihave Hi' := (Entails.of_eq (pts_iS (F := F) d L _).symm) $$ Hi
  ihave Ht' := (Entails.of_eq (pts_tS (F := F) d L _).symm) $$ Ht
  ihave Hb' := (Entails.of_eq (pts_bS (F := F) d L _).symm) $$ Hb
  ihave Hr' := (Entails.of_eq (pts_rS (F := F) d L _).symm) $$ Hr
  sl_exec
  have hI : ∀ x : S512.Idx, (View.write (Elt F) (iS).view fi (tile_frame.sl.dma0 m d L) Finset.univ x).toNat ≤ 999999 :=
    fun x => fetched_le m d L hpre fi _ rfl x
  generalize hIDX : View.write (Elt F) (iS).view fi (tile_frame.sl.dma0 m d L) Finset.univ = IDX at hI
  sl_for (inv1 d L IDX) $$ [Hi' Ht']
  case region =>
    intro k _
    unfold inv1
    iintro ⟨Hi, %ft', Ht, %hft⟩
    sl_exec
    sl_step
    isplitl [Hi]; · iexact Hi
    iexists _; isplitl [Ht]; · iexact Ht
    ipureintro; exact tid_step IDX ft' k hft
  · unfold inv1
    isplitl [Hi']; · iexact Hi'
    iexists ft; isplitl [Ht']; · iexact Ht'
    ipureintro; intro x hx; omega
  iintro %_ HI
  unfold inv1
  icases HI with ⟨Hi, %TID, Ht, %hTID⟩
  have hsubs : ∀ k : Fin k0_t2_loop.trips, (oRowK L k).view.set ⊆ oSet (widL L) := fun k => sub_oRowK L k
  have hins : ∀ (k : Fin k0_t2_loop.trips) x, (((tS).slice (Rect.unit (s := S512) (k0_off3 k) S128.size (k0_off3_inb k)) (fun _ => rfl)).view.read (Elt F) TID x).toNat
        < S500000x128.size gathers_S500000x128_S128x128.axis := by
    have htr : Scf.trips k0_t1_loop.lb k0_t1_loop.ub k0_t1_loop.st = 32 := by decide
    exact fun k => gather_inb d L IDX TID hI (fun x => hTID x (by rw [htr]; have := (x 0).isLt; show (x 0).val < 512; exact this)) k
  sl_exec
  sl_for (inv2 Wd d L O W IDX TID) $$ [Hmw Hw' Hi Ht Hb' Hr' Ho HsemG HsemB HO]
  case region =>
    intro k a
    exact pass_frame Wd d L O W IDX TID hsubs hins k a
  · unfold inv2
    isplitr; · iexact Hmw
    isplitl [Hw']; · iexact Hw'
    isplitl [Hi]; · iexact Hi
    isplitl [Ht]; · iexact Ht
    isplitl [Hb']; · iexists _; iexact Hb'
    isplitl [Hr']; · iexists _; iexact Hr'
    isplitl [Ho]; · iexists _; iexact Ho
    isplitl [HsemG]; · iexact HsemG
    isplitl [HsemB]; · iexact HsemB
    iexists _; isplitr
    swap; · iexact HO
    ipureintro; intro p hp
    rcases Finset.mem_insert.mp hp with hp | hp; · exact .inr (hp ▸ rfl)
    exact .inl hp
  iintro %_ HI
  unfold inv2
  icases HI with ⟨-, Hw, Hi, Ht, ⟨%fb3, Hb⟩, ⟨%fr3, Hr⟩, ⟨%fo3, Ho⟩, HsemG, HsemB, %W', %hW', HO⟩
  sl_exec
  sl_step
  isplitl [Hl' Hw Ho]
  · isplitl [Hl']; · iapply (Entails.of_eq (pts_lRowK (F := F) d L _)); iexact Hl'
    isplitl [Hw]; · iexact Hw
    iexists _; iexact Ho
  isplitl [Hi Ht Hb Hr Hbufs]
  · isplitl [Hi]; · iexists _; iexact Hi
    isplitl [Ht]; · iexists _; iexact Ht
    isplitl [Hb]; · iexists _; iexact Hb
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; exact hW'

end Tile

end Cert.Proof.KB

end
-- ==== Proof.lean ====
/-
  The row-gather kernel against `jnp.take(table, labels, axis = 0)`: 16384 labels, a table of 1000000 rows of 64
  columns, under the input domain "every table entry is finite and 0 ≤ label ≤ 999999".

  What the kernel does. The TensorCore widens the table to 500000 rows of 128 columns (a reshape: row r of the widened
  table is rows 2r and 2r + 1 of the table side by side) and makes one call on the two SparseCores. Their 32 vector
  subcores are 32 workers; worker w owns labels 512·w … 512·w + 511 and the same rows of the result. A worker fetches
  its labels, halves each label v into the row pair v / 2 it names, and in four passes of 128 labels gathers those
  widened rows, copies from each the half the label's parity selects — columns 64·(v % 2) … 64·(v % 2) + 63 — and
  writes the 128 × 64 block to its rows of the result.

  Why it is the reference. Entry (v / 2, 64·(v % 2) + e) of the widened table is entry (v, e) of the table, so row b of
  the result is row labels[b] of the table. The reference wraps a negative label by the table's height, clamps its
  gather's start index into [0, 999999] and replaces rows out of range by NaN; on labels in [0, 999999] none of the
  three changes anything, so it too returns row labels[b] of the table. Both results are `Cert.Spec.rows` of the labels
  and the table, for any float values: neither side computes on a table entry.

  Which part proves which claim. The frames: every fair execution ends with the arguments unchanged — of the kernel at
  the word values from the workers' frame triples, of the idealized kernel and of the reference from their runs.
  `preserves` is trivial, the idealization having rewritten no operation. `algebraic`: from memories agreeing on the
  arguments the idealized kernel's run and the reference's run both end at `Cert.Spec.rows` of the same arguments.
-/
import proofs.«204378_g75239237091912_cont_sun_m_716_31_alg».proof.Defs
import proofs.«204378_g75239237091912_cont_sun_m_716_31_alg».proof.Proof.Gen.Kernel
import proofs.«204378_g75239237091912_cont_sun_m_716_31_alg».proof.Proof.Gen.Kernel.Skeleton
import proofs.«204378_g75239237091912_cont_sun_m_716_31_alg».proof.Proof.Gen.KernelIdeal
import proofs.«204378_g75239237091912_cont_sun_m_716_31_alg».proof.Proof.Gen.KernelIdeal.Skeleton
import proofs.«204378_g75239237091912_cont_sun_m_716_31_alg».proof.Proof.Gen.ReferenceIdeal
import proofs.«204378_g75239237091912_cont_sun_m_716_31_alg».proof.Proof.Gen.Pre_input_domain
import Idealize.ShloMosaic.Adequacy
import Idealize.ShloMosaic.Init
import proofs.«204378_g75239237091912_cont_sun_m_716_31_alg».proof.Proof.Ref.RefSide
import proofs.«204378_g75239237091912_cont_sun_m_716_31_alg».proof.Proof.KI.Obl
import proofs.«204378_g75239237091912_cont_sun_m_716_31_alg».proof.Proof.KI.TileValue
import proofs.«204378_g75239237091912_cont_sun_m_716_31_alg».proof.Proof.KB.LaunchF
import proofs.«204378_g75239237091912_cont_sun_m_716_31_alg».proof.Proof.KB.TileFrame

noncomputable section

namespace Cert.Proof

open Idealize.ShloMosaic Idealize.SL.Sem

/-- One worker's task in the idealized kernel, with its value: from the labels' range at every device. -/
theorem KI.tile_value_body {F : FTy → Type} [FloatOps F]
    (m : (ℓ : Loc Cert.KernelIdeal.nD Cert.KernelIdeal.τ Cert.KernelIdeal.sig) → Buf (Elt F) ℓ)
    (hpre : ∀ d : Dev Cert.KernelIdeal.nD, Cert.Spec.InRange (m (KI.lLoc d))) : KI.TileBody m :=
  fun d L O W hO => KI.tile_value m d L KI.facts (hpre d) O W hO

/-- The labels' range on every device, out of the idealized kernel's precondition: the predicate's integer conjunct
    does not read the float values. -/
theorem KI.hpre_of_pre [Cert.Pre_input_domain.Facts] {F : FTy → Type} [FloatOps F]
    (m : (ℓ : Loc Cert.KernelIdeal.nD Cert.KernelIdeal.τ Cert.KernelIdeal.sig) → Buf (Elt F) ℓ)
    (h : ∀ c : Dev Cert.KernelIdeal.nD, Cert.Pre_input_domain.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    ∀ d : Dev Cert.KernelIdeal.nD, Cert.Spec.InRange (m (KI.lLoc d)) :=
  fun d => Ref.inRange_of_pre (F := F) _ _ (h d)

/-- The same out of the kernel's precondition at the word values. -/
theorem KB.hpre_of_pre [Cert.Pre_input_domain.Facts] {F : FTy → Type} [FloatOps F]
    (m : (ℓ : Loc Cert.Kernel.nD Cert.Kernel.τ Cert.Kernel.sig) → Buf (Elt F) ℓ)
    (h : ∀ c : Dev Cert.Kernel.nD, Cert.Pre_input_domain.fn (F := F)
      (m ((c.tc : Thread Cert.Kernel.nD Cert.Kernel.τ).loc Cert.Kernel.main_arg0))
      (m ((c.tc : Thread Cert.Kernel.nD Cert.Kernel.τ).loc Cert.Kernel.main_arg1)) = fun _ => 1#1) :
    ∀ d : Dev Cert.Kernel.nD, Cert.Spec.InRange (m (KB.lLoc d)) :=
  fun d => Ref.inRange_of_pre (F := F) _ _ (h d)

theorem claim : Cert.Claim :=
  ⟨Cert.Kernel.Gen.facts, Cert.KernelIdeal.Gen.facts, Cert.ReferenceIdeal.Gen.facts, Cert.Pre_input_domain.Gen.facts,
    -- the kernel at the word values runs and leaves its arguments unchanged
    fun m g hpre => KB.run_frame' (F := Bits) m g fun d L O W hO =>
      KB.tile_frame m (KB.wide m) d L KB.facts (KB.hpre_of_pre m hpre d) O W hO,
    -- so does the idealized kernel
    fun m g hpre => (θ_run _ _ _).mono (fun _ h c => ⟨(h c).2.1, (h c).2.2⟩)
      (KI.run (F := Ideal) m (KI.tile_value_body m (KI.hpre_of_pre m hpre)) g),
    -- and the reference
    Ref.frame_ri,
    -- the idealization rewrote no operation
    trivial,
    -- the idealized kernel and the reference end at the same rows of the table
    fun m g m' g' hpre hagree =>
      ⟨fun c => KI.Gout m c,
        KI.run (F := Ideal) m (KI.tile_value_body m (KI.hpre_of_pre m hpre)) g,
        (θ_run _ _ _).mono
          (fun _ h c => ⟨(h c).1.trans (congrArg₂ (fun a b => Cert.Spec.rows a b) (hagree c).1 (hagree c).2), (h c).2⟩)
          (Ref.run m' g' fun c =>
            (congrArg₂ (Cert.Pre_input_domain.fn (F := Ideal)) (hagree c).1 (hagree c).2).trans (hpre c))⟩⟩

end Cert.Proof

end
